-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S4096x1024 .f32) (main_arg12 : FVec F S1024 .f32) (main_arg13 : FVec F S1024 .f32) (main_arg14 : FVec F S1024 .f32) (main_arg15 : FVec F S1024 .f32) (main_arg16 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024 .f32) (main_arg14 : FVec F S1024 .f32) (main_arg15 : FVec F S1024 .f32) (main_arg16 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x4096 .f32) (main_arg10 : FVec F S4096 .f32) (main_arg11 : FVec F S4096x1024 .f32) (main_arg12 : FVec F S1024 .f32) (main_arg13 : FVec F S1024 .f32) (main_arg14 : FVec F S1024 .f32) (main_arg15 : FVec F S1024 .f32) (main_arg16 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S1x1024 : Shape := ⟨2, ![1, 1024]⟩
abbrev S4x2048x3072 : Shape := ⟨3, ![4, 2048, 3072]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩
abbrev S512 : Shape := ⟨1, ![512]⟩
abbrev S512x1 : Shape := ⟨2, ![512, 1]⟩
abbrev S1x4096 : Shape := ⟨2, ![1, 4096]⟩
abbrev S8192x4096 : Shape := ⟨2, ![8192, 4096]⟩

abbrev nBuf : Space → Nat
  | .hbm => 40
  | .vmem => 52
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S8192x1024, .f32⟩
  | .hbm, ⟨18, _⟩ => ⟨S1024x3072, .f32⟩
  | .hbm, ⟨19, _⟩ => ⟨S1024x3072, .bf16⟩
  | .hbm, ⟨20, _⟩ => ⟨S3072, .f32⟩
  | .hbm, ⟨21, _⟩ => ⟨S1024x1024, .bf16⟩
  | .hbm, ⟨22, _⟩ => ⟨S1024x4096, .bf16⟩
  | .hbm, ⟨23, _⟩ => ⟨S4096x1024, .bf16⟩
  | .hbm, ⟨24, _⟩ => ⟨S1x3072, .f32⟩
  | .hbm, ⟨25, _⟩ => ⟨S8192x3072, .bf16⟩
  | .hbm, ⟨26, _⟩ => ⟨S4x2048x3072, .bf16⟩
  | .hbm, ⟨27, _⟩ => ⟨S4x2048x1024, .bf16⟩
  | .hbm, ⟨28, _⟩ => ⟨S8192x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S1x4096, .f32⟩
  | .hbm, ⟨34, _⟩ => ⟨S8192x4096, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S4x256x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .bf16⟩
  | .local _ .vmem, ⟨17, _⟩ => ⟨S4x256x1, .f32⟩
  | .local _ .vmem, ⟨18, _⟩ => ⟨S4x256x1, .f32⟩
  | .local _ .vmem, ⟨19, _⟩ => ⟨S4x256x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S1024x1024, .bf16⟩
  | .local _ .vmem, ⟨34, _⟩ => ⟨S1024x1024, .bf16⟩
  | .local _ .vmem, ⟨35, _⟩ => ⟨S1x1024, .f32⟩
  | .local _ .vmem, ⟨36, _⟩ => ⟨S1x1024, .f32⟩
  | .local _ .vmem, ⟨37, _⟩ => ⟨S512x1024, .bf16⟩
  | .local _ .vmem, ⟨38, _⟩ => ⟨S512x1024, .bf16⟩
  | .local _ .vmem, ⟨39, _⟩ => ⟨S512x1024, .f32⟩
  | .local _ .vmem, ⟨40, _⟩ => ⟨S512x1024, .bf16⟩
  | .local _ .vmem, ⟨41, _⟩ => ⟨S512x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1x1024, .f32⟩
  | .local _ .vmem, ⟨45, _⟩ => ⟨S512x1024, .f32⟩
  | .local _ .vmem, ⟨46, _⟩ => ⟨S512x1024, .f32⟩
  | .local _ .vmem, ⟨47, _⟩ => ⟨S1x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc4_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc4_sem4_0 : DmaSem sig := 41
abbrev cc4_sem5_0 : DmaSem sig := 42
abbrev cc4_sem6_0 : DmaSem sig := 43
abbrev cc4_sem6_1 : DmaSem sig := 44

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg1.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![16, 1, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![16, 4, 1], ![false, false, false]⟩

def k3_cond2 (i : grid3.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![16, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false, false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false, false]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x3072_S4x2048x3072 : S8192x3072.ShapeCasts S4x2048x3072
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x256_S4x256 : S4x256x256.Reduces [2] S4x256
  shapeCasts_S4x256_S4x256x1 : S4x256.ShapeCasts S4x256x1
  broadcasts_S4x256x1_S4x256x256 : S4x256x1.Broadcasts S4x256x256
  broadcasts_S4x256x1_S4x256x1024 : S4x256x1.Broadcasts S4x256x1024
  packedbf16_S4x256x1024_S4x256x1024_0_0_0 : (Rect.unit (s := S4x256x1024) ![0, 0, 0] S4x256x1024.size inb_S4x256x1024_S4x256x1024_0_0_0).PackedRows (EltTy.packing .bf16)
  shapeCasts_S1024_S1x1024 : S1024.ShapeCasts S1x1024
  reduces_S512x1024_S512 : S512x1024.Reduces [1] S512
  shapeCasts_S512_S512x1 : S512.ShapeCasts S512x1
  broadcasts_S512x1_S512x1024 : S512x1.Broadcasts S512x1024
  shapeCasts_S4096_S1x4096 : S4096.ShapeCasts S1x4096
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x3072.size a
  hwx0_3 : ∀ i : grid0.Coords, EltTy.bits .bf16 = 32 ∨ (Rect.block (s := S8192x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x2048x3072.size a
  hwx1_0 : ∀ i : grid1.Coords, EltTy.bits .bf16 = 32 ∨ (Rect.block (s := S4x2048x3072) S4x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x1024.size a ≤ S4x2048x3072.size a
  hwx1_1 : ∀ i : grid1.Coords, EltTy.bits .bf16 = 32 ∨ (Rect.block (s := S4x2048x3072) S4x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x2048x3072.size a
  hwx1_2 : ∀ i : grid1.Coords, EltTy.bits .bf16 = 32 ∨ (Rect.block (s := S4x2048x3072) S4x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x1024.size a ≤ S4x2048x1024.size a
  hwx1_3 : ∀ i : grid1.Coords, EltTy.bits .bf16 = 32 ∨ (Rect.block (s := S4x2048x1024) S4x256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x4096.size a
  hwx3_1 : ∀ i : grid3.Coords, EltTy.bits .bf16 = 32 ∨ (Rect.block (s := S1024x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x4096.size a
  hwx3_3 : ∀ i : grid3.Coords, EltTy.bits .bf16 = 32 ∨ (Rect.block (s := S8192x4096) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x4096.size a
  hwx4_0 : ∀ i : grid4.Coords, EltTy.bits .bf16 = 32 ∨ (Rect.block (s := S8192x4096) S512x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x1024.size a
  hwx4_1 : ∀ i : grid4.Coords, EltTy.bits .bf16 = 32 ∨ (Rect.block (s := S4096x1024) S1024x1024.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x1024.size a
  hwx4_3 : ∀ i : grid4.Coords, EltTy.bits .f32 = 32 ∨ (Rect.block (s := S8192x1024) S512x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x1024.size a ≤ S8192x1024.size a
  hwx4_6 : ∀ i : grid4.Coords, EltTy.bits .f32 = 32 ∨ (Rect.block (s := S8192x1024) S512x1024.size (cc4_transform_6 i) (hinb4_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v9) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v15) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v17) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x1024.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S512x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v19) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S512x1024.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x2048x4096 : Shape := ⟨3, ![4, 2048, 4096]⟩
abbrev S1x1x4096 : Shape := ⟨3, ![1, 1, 4096]⟩

abbrev nBuf : Space → Nat
  | .hbm => 154
  | .vmem => 0
  | .smem => 0
  | _ => 0

abbrev hbmTy0_0 (i : Nat) : BufTy := match i % 128 with
  | 0 => ⟨S4x2048x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x4096, .f32⟩
  | 10 => ⟨S4096, .f32⟩
  | 11 => ⟨S4096x1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S4x2048x1024, .f32⟩
  | 18 => ⟨S1x1x1024, .f32⟩
  | 19 => ⟨S4x2048x1024, .f32⟩
  | 20 => ⟨S4x2048x1024, .f32⟩
  | 21 => ⟨S4x2048x1024, .f32⟩
  | 22 => ⟨S1x1x1024, .f32⟩
  | 23 => ⟨S4x2048x1024, .f32⟩
  | 24 => ⟨S4x2048x1024, .f32⟩
  | 25 => ⟨S4x2048x1024, .f32⟩
  | 26 => ⟨S1x1x1024, .f32⟩
  | 27 => ⟨S4x2048x1024, .f32⟩
  | 28 => ⟨S4x2048x1024, .f32⟩
  | 29 => ⟨S4x2048x2048, .f32⟩
  | 30 => ⟨S_, .f32⟩
  | 31 => ⟨S_, .f32⟩
  | 32 => ⟨S4x2048x2048, .f32⟩
  | 33 => ⟨S4x2048x2048, .f32⟩
  | 34 => ⟨S_, .f32⟩
  | 35 => ⟨S4x2048, .f32⟩
  | 36 => ⟨S_, .f32⟩
  | 37 => ⟨S4x2048, .f32⟩
  | 38 => ⟨S4x2048, .f32⟩
  | 39 => ⟨S4x2048x1, .f32⟩
  | 40 => ⟨S4x2048x2048, .f32⟩
  | 41 => ⟨S4x2048x2048, .f32⟩
  | 42 => ⟨S4x2048x2048, .f32⟩
  | 43 => ⟨S_, .f32⟩
  | 44 => ⟨S4x2048, .f32⟩
  | 45 => ⟨S4x2048x1, .f32⟩
  | 46 => ⟨S4x2048x2048, .f32⟩
  | 47 => ⟨S4x2048x2048, .f32⟩
  | 48 => ⟨S4x2048x1024, .f32⟩
  | 49 => ⟨S4x2048x1024, .f32⟩
  | 50 => ⟨S1x1x1024, .f32⟩
  | 51 => ⟨S4x2048x1024, .f32⟩
  | 52 => ⟨S4x2048x1024, .f32⟩
  | 53 => ⟨S4x2048x1024, .f32⟩
  | 54 => ⟨S_, .f32⟩
  | 55 => ⟨S4x2048, .f32⟩
  | 56 => ⟨S4x2048x1, .f32⟩
  | 57 => ⟨S_, .f32⟩
  | 58 => ⟨S4x2048x1, .f32⟩
  | 59 => ⟨S4x2048x1, .f32⟩
  | 60 => ⟨S_, .i32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x1024, .f32⟩
  | 68 => ⟨S4x2048x1024, .f32⟩
  | 69 => ⟨S4x2048x1024, .f32⟩
  | 70 => ⟨S_, .f32⟩
  | 71 => ⟨S_, .f32⟩
  | 72 => ⟨S_, .f32⟩
  | 73 => ⟨S_, .f32⟩
  | 74 => ⟨S4x2048, .f32⟩
  | 75 => ⟨S4x2048x1, .f32⟩
  | 76 => ⟨S4x2048x1, .f32⟩
  | 77 => ⟨S4x2048x1, .f32⟩
  | 78 => ⟨S_, .f32⟩
  | 79 => ⟨S_, .i1⟩
  | 80 => ⟨S_, .f32⟩
  | 81 => ⟨S_, .f32⟩
  | 82 => ⟨S4x2048x1, .f32⟩
  | 83 => ⟨S4x2048x1, .f32⟩
  | 84 => ⟨S4x2048x1024, .f32⟩
  | 85 => ⟨S4x2048x1024, .f32⟩
  | 86 => ⟨S_, .f32⟩
  | 87 => ⟨S4x2048x1, .f32⟩
  | 88 => ⟨S4x2048x1, .f32⟩
  | 89 => ⟨S4x2048x1, .f32⟩
  | 90 => ⟨S4x2048x1024, .f32⟩
  | 91 => ⟨S4x2048x1024, .f32⟩
  | 92 => ⟨S1x1x1024, .f32⟩
  | 93 => ⟨S4x2048x1024, .f32⟩
  | 94 => ⟨S4x2048x1024, .f32⟩
  | 95 => ⟨S1x1x1024, .f32⟩
  | 96 => ⟨S4x2048x1024, .f32⟩
  | 97 => ⟨S4x2048x1024, .f32⟩
  | 98 => ⟨S4x2048x4096, .f32⟩
  | 99 => ⟨S1x1x4096, .f32⟩
  | 100 => ⟨S4x2048x4096, .f32⟩
  | 101 => ⟨S4x2048x4096, .f32⟩
  | 102 => ⟨S_, .f32⟩
  | 103 => ⟨S4x2048x4096, .f32⟩
  | 104 => ⟨S4x2048x4096, .f32⟩
  | 105 => ⟨S4x2048x1024, .f32⟩
  | 106 => ⟨S1x1x1024, .f32⟩
  | 107 => ⟨S4x2048x1024, .f32⟩
  | 108 => ⟨S4x2048x1024, .f32⟩
  | 109 => ⟨S4x2048x1024, .f32⟩
  | 110 => ⟨S_, .f32⟩
  | 111 => ⟨S4x2048, .f32⟩
  | 112 => ⟨S4x2048x1, .f32⟩
  | 113 => ⟨S_, .f32⟩
  | 114 => ⟨S4x2048x1, .f32⟩
  | 115 => ⟨S4x2048x1, .f32⟩
  | 116 => ⟨S_, .i32⟩
  | 117 => ⟨S_, .f32⟩
  | 118 => ⟨S4x2048, .f32⟩
  | 119 => ⟨S4x2048x1, .f32⟩
  | 120 => ⟨S_, .f32⟩
  | 121 => ⟨S4x2048x1, .f32⟩
  | 122 => ⟨S4x2048x1, .f32⟩
  | 123 => ⟨S4x2048x1024, .f32⟩
  | 124 => ⟨S4x2048x1024, .f32⟩
  | 125 => ⟨S4x2048x1024, .f32⟩
  | 126 => ⟨S_, .f32⟩
  | 127 => ⟨S_, .f32⟩
  | _ => ⟨S4x2048x1024, .f32⟩

abbrev hbmTy0_1 (i : Nat) : BufTy := match i % 128 with
  | 0 => ⟨S_, .f32⟩
  | 1 => ⟨S_, .f32⟩
  | 2 => ⟨S4x2048, .f32⟩
  | 3 => ⟨S4x2048x1, .f32⟩
  | 4 => ⟨S4x2048x1, .f32⟩
  | 5 => ⟨S4x2048x1, .f32⟩
  | 6 => ⟨S_, .f32⟩
  | 7 => ⟨S_, .i1⟩
  | 8 => ⟨S_, .f32⟩
  | 9 => ⟨S_, .f32⟩
  | 10 => ⟨S4x2048x1, .f32⟩
  | 11 => ⟨S4x2048x1, .f32⟩
  | 12 => ⟨S4x2048x1024, .f32⟩
  | 13 => ⟨S4x2048x1024, .f32⟩
  | 14 => ⟨S_, .f32⟩
  | 15 => ⟨S4x2048x1, .f32⟩
  | 16 => ⟨S4x2048x1, .f32⟩
  | 17 => ⟨S4x2048x1, .f32⟩
  | 18 => ⟨S4x2048x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_c : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_cst_3 : Ref sig .tc := ⟨.hbm, 78, rfl⟩
abbrev main_call0_v13 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_call1_cst : Ref sig .tc := ⟨.hbm, 102, rfl⟩
abbrev main_call1_v0 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_6 : Ref sig .tc := ⟨.hbm, 110, rfl⟩
abbrev main_v61 : Ref sig .tc := ⟨.hbm, 111, rfl⟩
abbrev main_v62 : Ref sig .tc := ⟨.hbm, 112, rfl⟩
abbrev main_cst_7 : Ref sig .tc := ⟨.hbm, 113, rfl⟩
abbrev main_v63 : Ref sig .tc := ⟨.hbm, 114, rfl⟩
abbrev main_v64 : Ref sig .tc := ⟨.hbm, 115, rfl⟩
abbrev main_c_8 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_v12 : Ref sig .tc := ⟨.hbm, 133, rfl⟩
abbrev main_call2_cst_3 : Ref sig .tc := ⟨.hbm, 134, rfl⟩
abbrev main_call2_v13 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_cst_9 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.K.Region0.lean ====
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import Idealize.ShloMosaic.Lib.Pipeline.FrameBody
import Idealize.ShloMosaic.Lib.Pipeline.Value
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The linear layer's launch (pipeline 0) at the entry contents `V`

The grid is (rows, columns, k) with ONE k-step, so at every point both guarded parts of the body run: the accumulator is
cleared, the product of the row block with the column block is added to it, and the accumulator plus the bias row is stored
as the output block. Nothing is carried from one point to the next: the accumulator is cleared before it is read. -/

/-! ## The two conditions, over the grid -/

/-- "this is the first k-step", as the body computes it from the point's coordinates. -/
abbrev cond0_1 (i : grid0.Coords) : Prop := (Scalar.cmpi .ne (Scalar.extui (Scalar.cmpi .eq (BitVec.ofNat 32 (i 2).val) 0#32)) 0#32) = 1#1
/-- "this is the last k-step". -/
abbrev cond0_2 (i : grid0.Coords) : Prop := k0_cond2 i = 1#1

/-- The k-axis has one step: every point is a first k-step, -/
theorem hcond0_1 : ∀ t : Fin cfg0.N, cond0_1 (grid0.coords t) :=
  (by decide +kernel : ∀ t : Fin grid0.N, cond0_1 (grid0.coords t))
/-- and a last one. -/
theorem hcond0_2 : ∀ t : Fin cfg0.N, cond0_2 (grid0.coords t) :=
  (by decide +kernel : ∀ t : Fin grid0.N, cond0_2 (grid0.coords t))
/-- So the output window is stored at every point. -/
theorem liveAt0_3 : ∀ t : Fin cfg0.N, cfg0.idle 3 (grid0.coords t) = false := by decide +kernel

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Every load and store of the body is through the whole buffer: offsets zero on both axes. -/
theorem hz0 : (![0, 0] : Fin 2 → Nat) = fun _ => 0 := funext fun a => by fin_cases a <;> rfl

/-- The output block after the body, from the three input blocks: the accumulator cleared, the product added, then the
    bias row added and rounded to the output's format. -/
def out0_3 (x0 : Vec F S512x1024 .f32) (x1 : Vec F S1024x1024 .bf16) (x2 : Vec F S1x1024 .f32) : Vec F S512x1024 .bf16 :=
  k0_pay3 (k0_pay2 x0 x1 (k0_pay1 (F := F))) x2

/-- A store through the whole accumulator or output block, first in a list of stores, covers the block. -/
theorem cover_unit0 (e : EltTy) (w : S512x1024.Idx → Elt F e) (L : List (View.Piece (Elt F) S512x1024 e)) (y : S512x1024.Idx) :
    ∃ p ∈ ((⟨Rect.unit ![0, 0] S512x1024.size inb_S512x1024_S512x1024_0_0, w⟩ : View.Piece (Elt F) S512x1024 e) :: L), y ∈ p.1.set :=
  ⟨_, List.mem_cons_self, View.mem_set_unit_zero hz0 inb_S512x1024_S512x1024_0_0 y⟩

/-- The output buffer read back after the body's stores: the accumulator's two stores and the loads between them are
    through the whole buffer, so each load reads the payload stored just before it. -/
theorem read_out0 (a3 : View sig .tc .vmem S512x1024 .f32) (a4 : View sig .tc .vmem S1024x1024 .bf16) (a5 : View sig .tc .vmem S1x1024 .f32)
    (a6 : View sig .tc .vmem S512x1024 .bf16) (a7 : View sig .tc .vmem S512x1024 .f32)
    (f0 : a3.ty.Contents (Elt F)) (f1 : a4.ty.Contents (Elt F)) (f2 : a5.ty.Contents (Elt F)) (f6 : a6.ty.Contents (Elt F)) :
    View.read (Elt F) a6
      (a6.writes (Elt F) f6
        [⟨Rect.unit ![0, 0] S512x1024.size inb_S512x1024_S512x1024_0_0,
            k0_pay3
              (a7.readCov
                [⟨Rect.unit ![0, 0] S512x1024.size inb_S512x1024_S512x1024_0_0,
                    k0_pay2
                      (View.readAt (Elt F) a3 (Rect.unit ![0, 0] S512x1024.size inb_S512x1024_S512x1024_0_0).toLoadRect f0)
                      (View.readAt (Elt F) a4 (Rect.unit ![0, 0] S1024x1024.size inb_S1024x1024_S1024x1024_0_0).toLoadRect f1)
                      (a7.readCov [⟨Rect.unit ![0, 0] S512x1024.size inb_S512x1024_S512x1024_0_0, k0_pay1⟩]
                        (Rect.unit ![0, 0] S512x1024.size inb_S512x1024_S512x1024_0_0).toLoadRect)⟩,
                  ⟨Rect.unit ![0, 0] S512x1024.size inb_S512x1024_S512x1024_0_0, k0_pay1⟩]
                (Rect.unit ![0, 0] S512x1024.size inb_S512x1024_S512x1024_0_0).toLoadRect)
              (View.readAt (Elt F) a5 (Rect.unit ![0, 0] S1x1024.size inb_S1x1024_S1x1024_0_0).toLoadRect f2)⟩])
      = out0_3 (View.read (Elt F) a3 f0) (View.read (Elt F) a4 f1) (View.read (Elt F) a5 f2) := by
  rw [View.read_writes_eq_canon _ _ _ (cover_unit0 .bf16 _ []),
    View.canon_unit_zero hz0, View.readCov_unit_zero _ hz0,
    View.readCov_eq_canon_ld _ _ _ (cover_unit0 .f32 _ _),
    View.canon_cons_unit_zero hz0]
  simp only [View.readAt_eq_ld, View.ld_unit_zero (S := S512x1024) hz0, View.ld_unit_zero (S := S1024x1024) hz0, View.ld_unit_zero (S := S1x1024) hz0]
  rfl

/-! ## The body's triple -/

set_option maxHeartbeats 1000000 in
/-- The body on whole memrefs at a point where both conditions hold — the inputs' at read contents `xW`, the output's and the
    accumulator's at anything — runs to the continuation holding the inputs' as they were, the output's at `out0_3` of the
    inputs' and the accumulator's at some contents. -/
theorem sound_kernel0 (c : Dev nD) (E : Set ℕ) (i : grid0.Coords)
    (arg3 : Memref sig .tc .vmem S512x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole) (hc1 : cond0_1 i) (hc2 : cond0_2 i)
    (x0 : Vec F S512x1024 .f32) (x1 : Vec F S1024x1024 .bf16) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2) ∗ (∃ d, owns (c : Thread nD τ) arg7 fullShare d)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    exact read_out0 _ _ _ _ _ _ _ _ _
  iexists _; iexists _; isplitr
  swap; · iexact H7
  ipureintro; rfl

/-! ## The pipeline's proof data -/

/-- The proof data of pipeline 0 on core `c`: the arrays as the region finds them (`V`); after the body at point `t` each
    input's buffer at its block and the output's at `out0_3` of the input blocks; the invariant: every scoped buffer that is no
    staging buffer (the accumulator among them) at some contents, and the generator register at some state; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The invariant with the accumulator split out of the scoped rest, as a whole memref at some contents. -/
theorem PhiA0_eq (c : Dev nD) :
    (Pipeline.ΦA spec0 c : sProp 𝕄)
      = iprop(iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1000000 in
/-- The body at any point: the inputs' memrefs hold their blocks, both conditions hold, so the triple applies; the invariant
    lends the accumulator and takes it back; the rest of the scoped buffers, the generator register and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    show (dat0 V c).Φ t.castSucc = Pipeline.ΦA spec0 c from rfl, PhiA0_eq]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from by
      unfold Dat.leavesExact; rw [liveAt0_3 t], after0_3]
  iintro ⟨⟨⟨HS, Hrest⟩, Hg⟩, Ho, ⟨%d0, H0⟩, ⟨%d1, H1⟩, ⟨%d2, H2⟩, ⟨%d3, H3⟩⟩
  iapply (sound_kernel0 c Set.univ (grid0.coords t) _ _ _ _ _ _ _ _ _ _ (hcond0_1 t) (hcond0_2 t) (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point, -/
theorem hin0 (c : Dev nD) : iprop((∃ r, prngReg c r) ∗ Pipeline.scopedRest (Ix := Unit) (Name := ℕ) (U := UR sig nD τ) (Lvl := ℕ) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- and the invariant after the last point gives it back. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.Kernel.Gen

end
-- ==== Proof.K.Region1Base.lean ====
/- Region 1 (the attention call): what its three case runs and its proof data share — each window's block at a
   point read off the entry contents, the input windows' buffers holding their blocks at every point, the body's
   two branch conditions in closed form over the 8 × 8 grid (first key tile: kv = 0; last key tile: kv = 7), where
   the output window is idle, the staging and scratch memrefs as the pipeline passes them, and the scoped rest
   opened at the three scratch buffers (running maximum, running sum, accumulator). -/
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`): the query tile for window 0,
    the key tile for window 1, the value tile for window 2 (three column blocks of the one packed array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The first conditional of the body (reset of the carried state): the key-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the normalised output is stored): the key-tile coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key tile the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S4x256x1024 .bf16 := (Memref.whole cc1_stg3_0 : Memref sig .tc .vmem S4x256x1024 .bf16).view
abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .bf16 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

/-- The scoped buffers no window stages, with the three scratch operands taken out as memrefs owned at some contents. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem scoped1_open (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ (∃ d, owns (c : Thread nD τ) scM1_1 fullShare d)
          ∗ (∃ d, owns (c : Thread nD τ) scM1_2 fullShare d) ∗ restBut1 (F := F) c) := by
  rw [scopedRest1_split]; simp only [scM1_0, scM1_1, scM1_2, owns_whole]
  iintro ⟨⟨H0, H1, H2⟩, Hr⟩
  isplitl [H0]; · iexact H0
  isplitl [H1]; · iexact H1
  isplitl [H2]; · iexact H2
  iexact Hr

theorem scoped1_close (c : Dev nD) :
    iprop((∃ d, owns (c : Thread nD τ) scM1_0 fullShare d) ∗ (∃ d, owns (c : Thread nD τ) scM1_1 fullShare d)
          ∗ (∃ d, owns (c : Thread nD τ) scM1_2 fullShare d) ∗ restBut1 (F := F) c)
      ⊢ (Pipeline.scopedRest (Ix := Unit) (Name := ℕ) (U := UR sig nD τ) (Lvl := ℕ) (Val := Elt F) spec1 c : sProp 𝕄) := by
  rw [scopedRest1_split]; simp only [scM1_0, scM1_1, scM1_2, owns_whole]
  iintro ⟨H0, H1, H2, Hr⟩
  isplitr [Hr]
  · isplitl [H0]; · iexact H0
    isplitl [H1]; · iexact H1
    iexact H2
  iexact Hr

end Cert.Kernel.Gen

end
-- ==== Proof.K.Region1RunA.lean ====
/- Region 1, the body's whole run in case A of its two conditionals — the first key tile of a query tile (kv = 0): the carried state is reset, then one step of the recurrence. -/
import proofs.«105537_j20366734917908_2_alg».proof.Proof.K.Region1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer, as pieces (last store first), with the proof that on
    whole memrefs — the three input blocks at their contents, the output's buffer at contents handed back untouched,
    the scratch buffers at anything (the body resets them first) — the body runs to the continuation holding the inputs as
    they were and each stored buffer with its pieces written. The pieces are the witness the run finds. -/
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, fun xi3 E K => ?run⟩
  case run =>
    haveI : Fact (cond1_0 i) := ⟨hc0⟩
    haveI : Fact (¬cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.K.Region1RunB.lean ====
/- Region 1, the body's whole run in case B of its two conditionals — a middle key tile (0 < kv < 7): one step of the recurrence over the carried state. -/
import proofs.«105537_j20366734917908_2_alg».proof.Proof.K.Region1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer, as pieces (last store first), with the proof that on
    whole memrefs — the three input blocks at their contents, the output's buffer at contents handed back untouched,
    the scratch buffers at the contents the point before left — the body runs to the continuation holding the inputs as
    they were and each stored buffer with its pieces written. The pieces are the witness the run finds. -/
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, fun xi3 E K => ?run⟩
  case run =>
    haveI : Fact (¬cond1_0 i) := ⟨hc0⟩
    haveI : Fact (¬cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.K.Region1RunC.lean ====
/- Region 1, the body's whole run in case C of its two conditionals — the last key tile (kv = 7): one step of the recurrence, then the accumulator divided by the running sum is stored to the output. -/
import proofs.«105537_j20366734917908_2_alg».proof.Proof.K.Region1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer and in the output's staging buffer, as pieces (last store first), with the proof that on
    whole memrefs — the three input blocks at their contents, the output's buffer at anything,
    the scratch buffers at the contents the point before left — the body runs to the continuation holding the inputs as
    they were and each stored buffer with its pieces written. The pieces are the witness the run finds. -/
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (L3 : List (View.Piece (Elt F) S4x256x1024 .bf16)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, ?_, fun E K => ?run⟩
  case run =>
    haveI : Fact (¬cond1_0 i) := ⟨hc0⟩
    haveI : Fact (cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Gen

end
-- ==== Proof.K.Region1.lean ====
/- Region 1 (the attention call), its proof data and body obligation. The carried state — running maximum, running
   sum, accumulator — after each grid point is defined by recursion on the point: at the first key tile of a query
   tile the body resets it and takes one step of the online-softmax recurrence, at a middle tile one step over what
   the point before left, at the last tile one step and the output block (accumulator / running sum). The region
   invariant holds the three scratch buffers at that state. The three input windows read ONE packed array, so its
   full share is dealt among them (left half, and the two halves of the right half). -/
import proofs.«105537_j20366734917908_2_alg».proof.Proof.K.Region1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Case A's pieces for the running maximum tile it, so they cover it. -/
theorem scover1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S4x256x1.size (by sl_kernel_rfl) y

/-- What case A leaves there: its pieces read back over junk. -/
def sout1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- Case A's pieces for the running sum tile it, so they cover it. -/
theorem scover1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A leaves there: its pieces read back over junk. -/
def sout1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- Case A's pieces for the accumulator tile it, so they cover it. -/
theorem scover1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1024.size (by sl_kernel_rfl) y

/-- What case A leaves there: its pieces read back over junk. -/
def sout1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- Case B's pieces for the running maximum tile it, so they cover it. -/
theorem scover1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S4x256x1.size (by sl_kernel_rfl) y

/-- What case B leaves there: its pieces read back over junk. -/
def sout1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- Case B's pieces for the running sum tile it, so they cover it. -/
theorem scover1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B leaves there: its pieces read back over junk. -/
def sout1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- Case B's pieces for the accumulator tile it, so they cover it. -/
theorem scover1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1024.size (by sl_kernel_rfl) y

/-- What case B leaves there: its pieces read back over junk. -/
def sout1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- Case C's pieces for the output's staging buffer tile it, so they cover it. -/
theorem cover1_C_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256x1024.size (by sl_kernel_rfl) y

/-- What case C leaves there: its pieces read back over junk. -/
def out1_C_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .bf16 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for the running maximum tile it, so they cover it. -/
theorem scover1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C leaves there: its pieces read back over junk. -/
def sout1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for the running sum tile it, so they cover it. -/
theorem scover1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C leaves there: its pieces read back over junk. -/
def sout1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for the accumulator tile it, so they cover it. -/
theorem scover1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x1024.size (by sl_kernel_rfl) y

/-- What case C leaves there: its pieces read back over junk. -/
def sout1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- (output buffer, running maximum, running sum, accumulator) -/
abbrev St1 : Type := Vec F S4x256x1024 .bf16 × Vec F S4x256x1 .f32 × Vec F S4x256x1 .f32 × Vec F S4x256x1024 .f32

/-- What the point `t` of case A leaves: (output buffer — untouched, a placeholder nothing reads, running maximum, running sum, accumulator). -/
def caseA1 (c : Dev nD) (t : Fin cfg1.N) (hc0 : cond1_0 (grid1.coords t)) (hc1 : ¬cond1_1 (grid1.coords t)) : St1 (F := F) :=
  (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t))

/-- What the point `t` of case B leaves: (output buffer — untouched, a placeholder nothing reads, running maximum, running sum, accumulator), over what the point before left (`p`). -/
def caseB1 (c : Dev nD) (t : Fin cfg1.N) (hc0 : ¬cond1_0 (grid1.coords t)) (hc1 : ¬cond1_1 (grid1.coords t)) (p : St1 (F := F)) : St1 (F := F) :=
  (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2)

/-- What the point `t` of case C leaves: (output buffer, running maximum, running sum, accumulator), over what the point before left (`p`). -/
def caseC1 (c : Dev nD) (t : Fin cfg1.N) (hc0 : ¬cond1_0 (grid1.coords t)) (hc1 : cond1_1 (grid1.coords t)) (p : St1 (F := F)) : St1 (F := F) :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2)

/-! ## The carried state, point by point -/

/-- What the output's staging buffer and the three scratch buffers hold after the body at position `n`: the case the
    closed forms select (n ≡ 0 mod 8: reset and step; n ≡ 7: step and output; else: step), a later case over what
    position `n - 1` left. -/
def outsAt1 (c : Dev nD) : (n : ℕ) → n < cfg1.N → St1 (F := F)
  | 0, hn => caseA1 V c ⟨0, hn⟩ ((hcond1_0 ⟨0, hn⟩).mpr (Nat.zero_mod _)) (fun h => (fun h' : 0 % 8 = 7 => by omega) ((hcond1_1 ⟨0, hn⟩).mp h))
  | n + 1, hn =>
    if h0 : (n + 1) % 8 = 0 then
      caseA1 V c ⟨n + 1, hn⟩ ((hcond1_0 ⟨n + 1, hn⟩).mpr h0) (fun h => (fun h' : (n + 1) % 8 = 7 => by omega) ((hcond1_1 ⟨n + 1, hn⟩).mp h))
    else if h1 : (n + 1) % 8 = 7 then
      caseC1 V c ⟨n + 1, hn⟩ (fun h => h0 ((hcond1_0 ⟨n + 1, hn⟩).mp h)) ((hcond1_1 ⟨n + 1, hn⟩).mpr h1) (outsAt1 c n (Nat.lt_of_succ_lt hn))
    else
      caseB1 V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA1 V c t ((hcond1_0 t).mpr h0) (fun h => h1 ((hcond1_1 t).mp h)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = caseB1 V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the generator register and every scoped buffer no window stages, at
    anything; afterwards the three scratch buffers at what the point before left, the other scoped buffers at anything,
    the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ restBut1 (F := F) c ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ restBut1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ restBut1 (F := F) c ∗ (∃ r, prngReg c r)) := by
  cases n with
  | zero => exact absurd rfl hz
  | succ n => rfl

/-! ## The proof data -/

/-- The proof data of the attention call on core `c`: the arrays as the region finds them; after the body each input's
    buffer at its block, the output's at `outsAt1`'s first component; the invariant `PhiS1`; nothing owed; the packed
    array's full share dealt among its three input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch buffers at what the point before left (at anything before the first point) and
    takes them back at this point's contents; the output's buffer is handed back untouched off the last key tile and
    holds the normalised block at it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold caseA1 sout1_A_0 sout1_A_1 sout1_A_2; (try dsimp only)
    by_cases hz : t.val = 0
    · rw [PhiS1_castSucc V c t, PhiS1_zero V c _ _ hz]
      iintro ⟨⟨Hg, Hsc⟩, Ho, ⟨%d0, H0⟩, ⟨%d1, H1⟩, ⟨%d2, H2⟩, ⟨%d3, H3⟩⟩
      ihave Hsc' := (scoped1_open (F := F) c) $$ Hsc
      icases Hsc' with ⟨HS0, HS1, HS2, Hrest⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC1 out1_C_3 sout1_C_0 sout1_C_1 sout1_C_2; (try dsimp only)
      have hz : t.val ≠ 0 := by omega
      rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB1 sout1_B_0 sout1_B_1 sout1_B_2; (try dsimp only)
      have hz : t.val ≠ 0 := by omega
      rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3

/-- The body's triple at every point, the windows' buffers conjoined one by one. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) :
    iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = PhiS1 V c 0 (Nat.zero_le _) from rfl, PhiS1_zero V c 0 _ rfl]
  try exact Idealize.SL.BI.Entails.refl _

/-- After the last point the invariant gives the scoped buffers and the register back: the scratch buffers' named
    contents are forgotten. -/
theorem hout1 (c : Dev nD) :
    ((dat1 V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨HS0, HS1, HS2, Hrest, Hg⟩
  isplitl [Hg]; · iexact Hg
  iapply (scoped1_close (F := F) c)
  isplitl [HS0]; · iexists _; iexact HS0
  isplitl [HS1]; · iexists _; iexact HS1
  isplitl [HS2]; · iexists _; iexact HS2
  iexact Hrest

/-! ## Entry and exit: the packed array's full share dealt among its three input windows and joined again -/

/-- The four windows sit on two buffers. -/
theorem arrImage1 : Finset.univ.image (Pipeline.arrRef spec1) = ([main_v9, main_v10] : List (Ref sig .tc)).toFinset := by decide

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v9) ↦{fullShare} X main_v9) ∗ (((c : Thread nD τ).loc main_v10) ↦{fullShare} X main_v10)) := by
  unfold Pipeline.arrBufs
  rw [bigSep_eq_bigSepL_of_eq [main_v9, main_v10] arrImage1 (by decide)]
  rfl

/-- The proof data's arrays, window by window: the packed array at the left half, at the left and at the right half of
    the right half; the output array at the full share. -/
theorem arrays1_split (c : Dev nD) (Fn : (w : Fin cfg1.W) → Buf (Elt F) ((cfg1.win w).arr.view.loc (c : Thread nD τ))) :
    ((dat1 V c).arrays Fn : sProp 𝕄)
      = iprop((((c : Thread nD τ).loc main_v9) ↦{fullShare.left} Fn 0) ∗ (((c : Thread nD τ).loc main_v9) ↦{fullShare.right.left} Fn 1)
          ∗ (((c : Thread nD τ).loc main_v9) ↦{fullShare.right.right} Fn 2) ∗ (((c : Thread nD τ).loc main_v10) ↦{fullShare} Fn 3)) := by
  have h : ((dat1 V c).arrays Fn : sProp 𝕄)
      = bigSep Finset.univ fun w => ((((c : Thread nD τ).loc (Pipeline.arrRef spec1 w)) ↦{(dat1 V c).share w} Fn w : sProp 𝕄)) := by
    unfold Dat.arrays
    exact bigSep_congr fun w _ => by rw [(arr_whole1 w).set_eq_univ]
  rw [h, bigSep_W1]; rfl

/-- ENTRY, the arrays' part: a core's unscoped buffers at the entry contents are the proof data's arrays — the packed
    array's full share split in three — and the unscoped rest. -/
theorem entry1 (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs (1 : Fin 5) winFacts₀1.arr_unscoped c (V c)
  rw [hs, arrBufs1_eq, arrays1_split]
  simp only [A_eq1]
  iintro ⟨⟨H9, H10⟩, Hrest⟩
  ihave H9' := (pointsTo_share (PosShare.mem_left_op_right fullShare)).1 $$ H9
  icases H9' with ⟨Hl, Hr⟩
  ihave Hr' := (pointsTo_share (PosShare.mem_left_op_right fullShare.right)).1 $$ Hr
  icases Hr' with ⟨Hrl, Hrr⟩
  isplitr [Hrest]
  · isplitl [Hl]; · iexact Hl
    isplitl [Hrl]; · iexact Hrl
    isplitl [Hrr]; · iexact Hrr
    iexact H10
  iexact Hrest

/-- EXIT, the arrays' part: the proof data's arrays at their final contents — the three shares of the packed array
    joined — and the unscoped rest are the core's unscoped buffers at any valuation that has the arrays at those
    contents and agrees with the entry contents off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  have hs : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs (1 : Fin 5) winFacts₀1.arr_unscoped c V'
  rw [hs, arrBufs1_eq, arrays1_split, hr]
  simp only [hF]
  iintro ⟨⟨Hl, Hrl, Hrr, H10⟩, Hrest⟩
  isplitr [Hrest]
  · isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H10
  iexact Hrest

end Regions

end Cert.Kernel.Gen

end
-- ==== Proof.K.Region2.lean ====
/-
  Region 2: the attention output projection, the residual and the layer normalisation, one row tile of 512 rows
  per grid point. Every point runs the whole body: the accumulator is zeroed, the tile's product is added to it,
  and the epilogue (residual + accumulator + bias, mean, two-pass variance, inverse square root, gain, offset)
  stores the output block. What the body leaves in the output block and in the accumulator is a closed function
  of the six input blocks at the point; the accumulator is rewritten at every point, so the region's invariant
  need not say what it holds.
-/
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point has the block index of the point before it, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point has the block index of the point before it, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point has the block index of the point before it, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    point has the block index of the point before it, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    point has the block index of the point before it, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched
    point has the block index of the point before it, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- "This is the first step along the contraction axis", as the body computes it from the grid coordinates. -/
abbrev cond2_0 (i : grid2.Coords) : Prop := (Scalar.cmpi .ne (Scalar.extui (Scalar.cmpi .eq (BitVec.ofNat 32 (i 2).val) 0#32)) 0#32) = 1#1
/-- The contraction axis has one step: it is the first at every point. -/
theorem hcond2_0 : ∀ t : Fin cfg2.N, cond2_0 (grid2.coords t) :=
  (by decide +kernel : ∀ t : Fin grid2.N, cond2_0 (grid2.coords t))
/-- "This is the last step along the contraction axis". -/
abbrev cond2_1 (i : grid2.Coords) : Prop := k2_cond2 i = 1#1
/-- And the last at every point. -/
theorem hcond2_1 : ∀ t : Fin cfg2.N, cond2_1 (grid2.coords t) :=
  (by decide +kernel : ∀ t : Fin grid2.N, cond2_1 (grid2.coords t))

/-- No window is idle at any point: the inputs never are, and the output block is stored at every point. -/
theorem liveAt2 : ∀ (w : Fin cfg2.W) (t : Fin cfg2.N), cfg2.idle w (grid2.coords t) = false := by decide +kernel

/-! ## What the body leaves -/

theorem hz2 : (![0, 0] : Fin 2 → Nat) = fun _ => 0 := funext fun a => by fin_cases a <;> rfl

/-- A load of the whole buffer after a store of the whole buffer reads that store's payload, whatever was stored before. -/
theorem readCov_cons_unit_zero2 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

/-- The accumulator after the body: the zero block plus the product of the two bf16 blocks. -/
def acc2 (x0 : Vec F S512x1024 .bf16) (x1 : Vec F S1024x1024 .bf16) : Vec F S512x1024 .f32 :=
  k2_pay2 x0 x1 (k2_pay1 (F := F))

/-- The output block after the body: the layer normalisation of (residual + accumulator) + bias, row by row. -/
def out2_6 (x0 : Vec F S512x1024 .bf16) (x1 : Vec F S1024x1024 .bf16) (x2 : Vec F S1x1024 .f32) (x3 : Vec F S512x1024 .f32)
    (x4 : Vec F S1x1024 .f32) (x5 : Vec F S1x1024 .f32) : Vec F S512x1024 .f32 :=
  k2_pay3 x3 (acc2 x0 x1) x2 x4 x5

/-! ## The body's triple -/

set_option maxHeartbeats 4000000 in
/-- The body on whole memrefs, at a point where both conditions hold: the six inputs at their read contents, the
    output block and the accumulator at anything, run to the continuation with the inputs as they were, the output
    block at `out2_6` and the accumulator at `acc2` of the inputs. -/
theorem sound_kernel2 (c : Dev nD) (E : Set ℕ) (i : grid2.Coords) (hc0 : cond2_0 i) (hc1 : cond2_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare (out2_6 x0 x1 x2 x3 x4 x5) ∗ owns (c : Thread nD τ) arg10 fullShare (acc2 x0 x1)) -∗ K ⟨⟩))
      ⊢ wp frame (wpE (defs₀ (F := F)) Variants.none c none) E (cc2__linear_addln_kernel i arg3 harg3 arg4 harg4 arg5 harg5 arg6 harg6 arg7 harg7 arg8 harg8 arg9 harg9 arg10 harg10) K := by
  simp only [cc2__linear_addln_kernel_eq_skeleton]; unfold cc2__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero hz2 inb_S512x1024_S512x1024_0_0 y⟩), View.canon_unit_zero hz2]
    sl_unfold_words
    unfold out2_6 acc2
    rw [readCov_cons_unit_zero2 _ hz2, View.readCov_unit_zero (S := S512x1024) _ hz2]
    simp only [View.readAt_eq_ld, View.ld_unit_zero (S := S512x1024) hz2, View.ld_unit_zero (S := S1024x1024) hz2, View.ld_unit_zero (S := S1x1024) hz2]
  iexists _; isplitr
  swap; · iexact H7
  ipureintro
  sl_unfold_words
  rw [View.read_writes_eq_canon _ _ _ (fun y => ⟨_, List.Mem.head _, View.mem_set_unit_zero hz2 inb_S512x1024_S512x1024_0_0 y⟩), View.canon_cons_unit_zero hz2,
    View.readCov_unit_zero (S := S512x1024) _ hz2]
  unfold acc2
  simp only [View.readAt_eq_ld, View.ld_unit_zero (S := S512x1024) hz2, View.ld_unit_zero (S := S1024x1024) hz2]

/-! ## The region's proof data -/

/-- The proof data of region 2 on core `c`: the arrays as the region finds them (`V`); after the body at point `t`
    each input's buffer at its block and the output's at `out2_6` of the six input blocks; the invariant: the scoped
    buffers that are no staging buffer (the accumulator among them) at anything and the generator register at some
    state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- The accumulator operand: a whole scoped buffer of the call's own. -/
abbrev scM2 : Memref sig .tc .vmem S512x1024 .f32 := Memref.whole cc2_scratch0

/-- The invariant with the accumulator split off as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point: the inputs' memrefs hold their blocks, both conditions hold, so the triple applies; the
    invariant lends the accumulator at whatever it holds and takes it back at whatever the body left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2 0 t], after2_0]
  rw [show (dat2 V c).leavesExact 1 t = owns (c : Thread nD τ) (st2_1 t) fullShare ((dat2 V c).after 1 t) from by
    unfold Dat.leavesExact; rw [liveAt2 1 t], after2_1]
  rw [show (dat2 V c).leavesExact 2 t = owns (c : Thread nD τ) (st2_2 t) fullShare ((dat2 V c).after 2 t) from by
    unfold Dat.leavesExact; rw [liveAt2 2 t], after2_2]
  rw [show (dat2 V c).leavesExact 3 t = owns (c : Thread nD τ) (st2_3 t) fullShare ((dat2 V c).after 3 t) from by
    unfold Dat.leavesExact; rw [liveAt2 3 t], after2_3]
  rw [show (dat2 V c).leavesExact 4 t = owns (c : Thread nD τ) (st2_4 t) fullShare ((dat2 V c).after 4 t) from by
    unfold Dat.leavesExact; rw [liveAt2 4 t], after2_4]
  rw [show (dat2 V c).leavesExact 5 t = owns (c : Thread nD τ) (st2_5 t) fullShare ((dat2 V c).after 5 t) from by
    unfold Dat.leavesExact; rw [liveAt2 5 t], after2_5]
  rw [show (dat2 V c).leavesExact 6 t = owns (c : Thread nD τ) (st2_6 t) fullShare ((dat2 V c).after 6 t) from by
    unfold Dat.leavesExact; rw [liveAt2 6 t], after2_6]
  rw [show (dat2 V c).Φ t.castSucc = Pipeline.ΦA spec2 c from rfl, PhiA2_eq]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (hcond2_0 t) (hcond2_1 t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS HR Hg]
  · isplitl [HS HR]
    · isplitl [HS]; · iexists _; iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : iprop((∃ r, prngReg c r) ∗ Pipeline.scopedRest (Ix := Unit) (Name := ℕ) (U := UR sig nD τ) (Lvl := ℕ) spec2 c) ⊢ ((dat2 V c).Φ 0 : sProp 𝕄) := by
  show _ ⊢ Pipeline.ΦA spec2 c
  unfold Pipeline.ΦA
  iintro ⟨Hg, Hs⟩
  isplitl [Hs]; · iexact Hs
  iexact Hg

/-- And the invariant after the last point gives it back. -/
theorem hout2 (c : Dev nD) : ((dat2 V c).Φ (Fin.last cfg2.N) : sProp 𝕄) ⊢ iprop((∃ r, prngReg c r) ∗ Pipeline.scopedRest (Ix := Unit) (Name := ℕ) (U := UR sig nD τ) (Lvl := ℕ) spec2 c) := by
  show Pipeline.ΦA spec2 c ⊢ _
  unfold Pipeline.ΦA
  iintro ⟨Hs, Hg⟩
  isplitl [Hg]; · iexact Hg
  iexact Hs

end Region2

end Cert.Kernel.Gen

end
-- ==== Proof.K.Region3.lean ====
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import Idealize.ShloMosaic.Lib.Pipeline.FrameBody
import Idealize.ShloMosaic.Lib.Pipeline.Value
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The linear layer's launch (pipeline 3) at the entry contents `V`

The grid is (rows, columns, k) with ONE k-step, so at every point both guarded parts of the body run: the accumulator is
cleared, the product of the row block with the column block is added to it, and the accumulator plus the bias row, clamped below at zero, is stored
as the output block. Nothing is carried from one point to the next: the accumulator is cleared before it is read. -/

/-! ## The two conditions, over the grid -/

/-- "this is the first k-step", as the body computes it from the point's coordinates. -/
abbrev cond3_1 (i : grid3.Coords) : Prop := (Scalar.cmpi .ne (Scalar.extui (Scalar.cmpi .eq (BitVec.ofNat 32 (i 2).val) 0#32)) 0#32) = 1#1
/-- "this is the last k-step". -/
abbrev cond3_2 (i : grid3.Coords) : Prop := k3_cond2 i = 1#1

/-- The k-axis has one step: every point is a first k-step, -/
theorem hcond3_1 : ∀ t : Fin cfg3.N, cond3_1 (grid3.coords t) :=
  (by decide +kernel : ∀ t : Fin grid3.N, cond3_1 (grid3.coords t))
/-- and a last one. -/
theorem hcond3_2 : ∀ t : Fin cfg3.N, cond3_2 (grid3.coords t) :=
  (by decide +kernel : ∀ t : Fin grid3.N, cond3_2 (grid3.coords t))
/-- So the output window is stored at every point. -/
theorem liveAt3_3 : ∀ t : Fin cfg3.N, cfg3.idle 3 (grid3.coords t) = false := by decide +kernel

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- Every load and store of the body is through the whole buffer: offsets zero on both axes. -/
theorem hz3 : (![0, 0] : Fin 2 → Nat) = fun _ => 0 := funext fun a => by fin_cases a <;> rfl

/-- The output block after the body, from the three input blocks: the accumulator cleared, the product added, then the
    bias row added and the result clamped below at zero and rounded to the output's format. -/
def out3_3 (x0 : Vec F S512x1024 .f32) (x1 : Vec F S1024x1024 .bf16) (x2 : Vec F S1x1024 .f32) : Vec F S512x1024 .bf16 :=
  k3_pay3 (k3_pay2 x0 x1 (k3_pay1 (F := F))) x2

/-- A store through the whole accumulator or output block, first in a list of stores, covers the block. -/
theorem cover_unit3 (e : EltTy) (w : S512x1024.Idx → Elt F e) (L : List (View.Piece (Elt F) S512x1024 e)) (y : S512x1024.Idx) :
    ∃ p ∈ ((⟨Rect.unit ![0, 0] S512x1024.size inb_S512x1024_S512x1024_0_0, w⟩ : View.Piece (Elt F) S512x1024 e) :: L), y ∈ p.1.set :=
  ⟨_, List.mem_cons_self, View.mem_set_unit_zero hz3 inb_S512x1024_S512x1024_0_0 y⟩

/-- The output buffer read back after the body's stores: the accumulator's two stores and the loads between them are
    through the whole buffer, so each load reads the payload stored just before it. -/
theorem read_out3 (a3 : View sig .tc .vmem S512x1024 .f32) (a4 : View sig .tc .vmem S1024x1024 .bf16) (a5 : View sig .tc .vmem S1x1024 .f32)
    (a6 : View sig .tc .vmem S512x1024 .bf16) (a7 : View sig .tc .vmem S512x1024 .f32)
    (f0 : a3.ty.Contents (Elt F)) (f1 : a4.ty.Contents (Elt F)) (f2 : a5.ty.Contents (Elt F)) (f6 : a6.ty.Contents (Elt F)) :
    View.read (Elt F) a6
      (a6.writes (Elt F) f6
        [⟨Rect.unit ![0, 0] S512x1024.size inb_S512x1024_S512x1024_0_0,
            k3_pay3
              (a7.readCov
                [⟨Rect.unit ![0, 0] S512x1024.size inb_S512x1024_S512x1024_0_0,
                    k3_pay2
                      (View.readAt (Elt F) a3 (Rect.unit ![0, 0] S512x1024.size inb_S512x1024_S512x1024_0_0).toLoadRect f0)
                      (View.readAt (Elt F) a4 (Rect.unit ![0, 0] S1024x1024.size inb_S1024x1024_S1024x1024_0_0).toLoadRect f1)
                      (a7.readCov [⟨Rect.unit ![0, 0] S512x1024.size inb_S512x1024_S512x1024_0_0, k3_pay1⟩]
                        (Rect.unit ![0, 0] S512x1024.size inb_S512x1024_S512x1024_0_0).toLoadRect)⟩,
                  ⟨Rect.unit ![0, 0] S512x1024.size inb_S512x1024_S512x1024_0_0, k3_pay1⟩]
                (Rect.unit ![0, 0] S512x1024.size inb_S512x1024_S512x1024_0_0).toLoadRect)
              (View.readAt (Elt F) a5 (Rect.unit ![0, 0] S1x1024.size inb_S1x1024_S1x1024_0_0).toLoadRect f2)⟩])
      = out3_3 (View.read (Elt F) a3 f0) (View.read (Elt F) a4 f1) (View.read (Elt F) a5 f2) := by
  rw [View.read_writes_eq_canon _ _ _ (cover_unit3 .bf16 _ []),
    View.canon_unit_zero hz3, View.readCov_unit_zero _ hz3,
    View.readCov_eq_canon_ld _ _ _ (cover_unit3 .f32 _ _),
    View.canon_cons_unit_zero hz3]
  simp only [View.readAt_eq_ld, View.ld_unit_zero (S := S512x1024) hz3, View.ld_unit_zero (S := S1024x1024) hz3, View.ld_unit_zero (S := S1x1024) hz3]
  rfl

/-! ## The body's triple -/

set_option maxHeartbeats 1000000 in
/-- The body on whole memrefs at a point where both conditions hold — the inputs' at read contents `xW`, the output's and the
    accumulator's at anything — runs to the continuation holding the inputs' as they were, the output's at `out3_3` of the
    inputs' and the accumulator's at some contents. -/
theorem sound_kernel3 (c : Dev nD) (E : Set ℕ) (i : grid3.Coords)
    (arg3 : Memref sig .tc .vmem S512x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole) (hc1 : cond3_1 i) (hc2 : cond3_2 i)
    (x0 : Vec F S512x1024 .f32) (x1 : Vec F S1024x1024 .bf16) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2) ∗ (∃ d, owns (c : Thread nD τ) arg7 fullShare d)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    exact read_out3 _ _ _ _ _ _ _ _ _
  iexists _; iexists _; isplitr
  swap; · iexact H7
  ipureintro; rfl

/-! ## The pipeline's proof data -/

/-- The proof data of pipeline 3 on core `c`: the arrays as the region finds them (`V`); after the body at point `t` each
    input's buffer at its block and the output's at `out3_3` of the input blocks; the invariant: every scoped buffer that is no
    staging buffer (the accumulator among them) at some contents, and the generator register at some state; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- The invariant with the accumulator split out of the scoped rest, as a whole memref at some contents. -/
theorem PhiA3_eq (c : Dev nD) :
    (Pipeline.ΦA spec3 c : sProp 𝕄)
      = iprop(iprop((∃ d, owns (c : Thread nD τ) (Memref.whole cc3_scratch0) fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [owns_whole]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
/-- The body at any point: the inputs' memrefs hold their blocks, both conditions hold, so the triple applies; the invariant
    lends the accumulator and takes it back; the rest of the scoped buffers, the generator register and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    show (dat3 V c).Φ t.castSucc = Pipeline.ΦA spec3 c from rfl, PhiA3_eq]
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1,
    show (dat3 V c).leavesExact 2 t = owns (c : Thread nD τ) (st3_2 t) fullShare ((dat3 V c).after 2 t) from rfl, after3_2,
    show (dat3 V c).leavesExact 3 t = owns (c : Thread nD τ) (st3_3 t) fullShare ((dat3 V c).after 3 t) from by
      unfold Dat.leavesExact; rw [liveAt3_3 t], after3_3]
  iintro ⟨⟨⟨HS, Hrest⟩, Hg⟩, Ho, ⟨%d0, H0⟩, ⟨%d1, H1⟩, ⟨%d2, H2⟩, ⟨%d3, H3⟩⟩
  iapply (sound_kernel3 c Set.univ (grid3.coords t) _ _ _ _ _ _ _ _ _ _ (hcond3_1 t) (hcond3_2 t) (iblk3 V c 0 t) (iblk3 V c 1 t) (iblk3 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the launch hands the region is the invariant before the first point, -/
theorem hin3 (c : Dev nD) : iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp

/-- and the invariant after the last point gives it back. -/
theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.Kernel.Gen

end
-- ==== Proof.K.Region4.lean ====
/-
  Region 4: the second feed-forward product, the residual and the layer normalisation. A row tile of 512 rows takes
  FOUR grid points, one per block of 1024 along the contraction axis: the first zeroes the accumulator, every one adds
  its block's product to it, and the last runs the epilogue (residual + accumulator + bias, mean, two-pass variance,
  inverse square root, gain, offset) and stores the output block, which is written back once per row tile. Between the
  points of a tile the accumulator carries the partial sum: the region's invariant names it, point by point.
-/
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    point has the block index of the point before it, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    point has the block index of the point before it, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    point has the block index of the point before it, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched
    point has the block index of the point before it, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched
    point has the block index of the point before it, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: an unfetched
    point has the block index of the point before it, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions over the grid -/

/-- "This is the first step along the contraction axis", as the body computes it from the grid coordinates. -/
abbrev cond4_0 (i : grid4.Coords) : Prop := (Scalar.cmpi .ne (Scalar.extui (Scalar.cmpi .eq (BitVec.ofNat 32 (i 2).val) 0#32)) 0#32) = 1#1
/-- The contraction axis is the fastest of the grid and has four steps: the first is at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)
/-- "This is the last step along the contraction axis". -/
abbrev cond4_1 (i : grid4.Coords) : Prop := k4_cond2 i = 1#1
/-- The last is at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are never idle. -/
theorem liveAt4_in : ∀ (w : Fin cfg4.W), w ≠ 6 → ∀ t : Fin cfg4.N, cfg4.idle w (grid4.coords t) = false := by decide +kernel
/-- The output block is stored at the last step of a row tile only: elsewhere its window is idle, -/
theorem idleAt4_6 : ∀ t : Fin cfg4.N, ¬t.val % 4 = 3 → cfg4.idle 6 (grid4.coords t) = true := by decide +kernel
/-- and not written back; -/
theorem noFlush4_6 : ∀ t : Fin cfg4.N, ¬t.val % 4 = 3 → (cfg4.win 6).flush t = false := by decide +kernel
/-- at the last step it is live. -/
theorem liveAt4_6 : ∀ t : Fin cfg4.N, t.val % 4 = 3 → cfg4.idle 6 (grid4.coords t) = false := by decide +kernel

/-! ## What the body leaves, case by case -/

theorem hz4 : (![0, 0] : Fin 2 → Nat) = fun _ => 0 := funext fun a => by fin_cases a <;> rfl

/-- A load of the whole buffer after a store of the whole buffer reads that store's payload, whatever was stored before. -/
theorem readCov_cons_unit_zero4 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

set_option maxHeartbeats 4000000 in
/-- FIRST STEP of a row tile (the first condition holds, the last does not): the accumulator, at anything, is zeroed and ends at the zero block plus the product of the two bf16 blocks; the output block is handed back as found. -/
theorem sound_kernel4_A (c : Dev nD) (E : Set ℕ) (i : grid4.Coords) (hc0 : cond4_0 i) (hc1 : ¬cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xi : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare (k4_pay2 x0 x1 (k4_pay1 (F := F)))) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

set_option maxHeartbeats 4000000 in
/-- MIDDLE STEP (neither condition holds): the accumulator, at the partial sum `xs`, ends at `xs` plus the product of the two bf16 blocks; the output block is handed back as found. -/
theorem sound_kernel4_B (c : Dev nD) (E : Set ℕ) (i : grid4.Coords) (hc0 : ¬cond4_0 i) (hc1 : ¬cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xi xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare (k4_pay2 x0 x1 xs)) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

set_option maxHeartbeats 4000000 in
/-- LAST STEP (the last condition holds, the first does not): the accumulator ends at `xs` plus the product, and the output block, at anything, at the layer normalisation of (residual + that sum) + bias. -/
theorem sound_kernel4_C (c : Dev nD) (E : Set ℕ) (i : grid4.Coords) (hc0 : ¬cond4_0 i) (hc1 : cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare (k4_pay3 x3 (k4_pay2 x0 x1 xs) x2 x4 x5) ∗ owns (c : Thread nD τ) arg10 fullShare (k4_pay2 x0 x1 xs)) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.Mem.head _, View.mem_set_unit_zero hz4 inb_S512x1024_S512x1024_0_0 y⟩), View.canon_cons_unit_zero hz4]
    simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

/-! ## The accumulator, point by point -/

/-- What the accumulator holds after the body at point `n`: at the first step of a row tile the zero block plus that
    step's product; at a later step what the point before left plus that step's product. -/
def acc4 (c : Dev nD) : (n : ℕ) → n < cfg4.N → Vec F S512x1024 .f32
  | 0, hn => k4_pay2 (iblk4 V c 0 ⟨0, hn⟩) (iblk4 V c 1 ⟨0, hn⟩) (k4_pay1 (F := F))
  | n + 1, hn =>
    if (n + 1) % 4 = 0 then k4_pay2 (iblk4 V c 0 ⟨n + 1, hn⟩) (iblk4 V c 1 ⟨n + 1, hn⟩) (k4_pay1 (F := F))
    else k4_pay2 (iblk4 V c 0 ⟨n + 1, hn⟩) (iblk4 V c 1 ⟨n + 1, hn⟩) (acc4 c n (Nat.lt_of_succ_lt hn))

/-- At the first step of a row tile. -/
theorem acc4_first (c : Dev nD) (t : Fin cfg4.N) (h0 : t.val % 4 = 0) :
    acc4 V c t.val t.isLt = k4_pay2 (iblk4 V c 0 t) (iblk4 V c 1 t) (k4_pay1 (F := F)) := by
  obtain ⟨n, hn⟩ := t
  cases n with
  | zero => exact rfl
  | succ n => exact (if_pos h0).trans rfl

/-- At a later step. -/
theorem acc4_next (c : Dev nD) (t : Fin cfg4.N) (h0 : ¬t.val % 4 = 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The accumulator operand: a whole scoped buffer of the call's own. -/
abbrev scM4 : Memref sig .tc .vmem S512x1024 .f32 := Memref.whole cc4_scratch0

/-- The scoped buffers that are no staging buffer, with the accumulator split off as a memref owned at some contents. -/
theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4 fullShare d))
          ∗ Pipeline.scopedRestBut (Ix := Unit) (Name := ℕ) (U := UR sig nD τ) (Lvl := ℕ) (Val := Elt F) spec4 c [cc4_scratch0]) := by
  rw [scopedRest4_split]; simp only [scM4, owns_whole]; try rfl

/-- The region invariant before position `n`: before the first point every scoped buffer that is no staging buffer at
    anything; afterwards the accumulator at what the point before left in it, the others at anything; and the generator
    register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The invariant before the first point, opened. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_eq]

/-! ## The region's proof data -/

/-- The proof data of region 4 on core `c`: the arrays as the region finds them (`V`); after the body at point `t`
    each input's buffer at its block, and the output's at the layer normalisation of (residual + accumulator after
    `t`) + bias — which the body stores at the last step of a row tile only, the one the pipeline writes back; the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay3 (iblk4 V c 3 t) (acc4 V c t.val t.isLt) (iblk4 V c 2 t) (iblk4 V c 4 t) (iblk4 V c 5 t)
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = k4_pay3 (iblk4 V c 3 t) (acc4 V c t.val t.isLt) (iblk4 V c 2 t) (iblk4 V c 4 t) (iblk4 V c 5 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the inputs' memrefs hold their blocks; the closed forms say which step of its row tile the
    point is; the invariant hands the body the accumulator at what the point before left (at anything at a tile's
    first step) and takes it back at this point's contents; an output block the step does not store is handed back
    as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_in 0 (by decide) t], after4_0]
  rw [show (dat4 V c).leavesExact 1 t = owns (c : Thread nD τ) (st4_1 t) fullShare ((dat4 V c).after 1 t) from by
    unfold Dat.leavesExact; rw [liveAt4_in 1 (by decide) t], after4_1]
  rw [show (dat4 V c).leavesExact 2 t = owns (c : Thread nD τ) (st4_2 t) fullShare ((dat4 V c).after 2 t) from by
    unfold Dat.leavesExact; rw [liveAt4_in 2 (by decide) t], after4_2]
  rw [show (dat4 V c).leavesExact 3 t = owns (c : Thread nD τ) (st4_3 t) fullShare ((dat4 V c).after 3 t) from by
    unfold Dat.leavesExact; rw [liveAt4_in 3 (by decide) t], after4_3]
  rw [show (dat4 V c).leavesExact 4 t = owns (c : Thread nD τ) (st4_4 t) fullShare ((dat4 V c).after 4 t) from by
    unfold Dat.leavesExact; rw [liveAt4_in 4 (by decide) t], after4_4]
  rw [show (dat4 V c).leavesExact 5 t = owns (c : Thread nD τ) (st4_5 t) fullShare ((dat4 V c).after 5 t) from by
    unfold Dat.leavesExact; rw [liveAt4_in 5 (by decide) t], after4_5]
  have hN : t.val < 64 := lt_of_lt_of_eq t.isLt (show cfg4.N = 64 from N_4)
  by_cases h0 : t.val % 4 = 0
  · have h1 : ¬t.val % 4 = 3 := by omega
    rw [Dat.leavesExact_idle (dat4 V c) 6 t (idleAt4_6 t h1) (noFlush4_6 t h1)]
    rw [acc4_first V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    rw [acc4_next V c t h0]
    rw [PhiS4_castSucc V c t, PhiS4_pos V c _ _ hz]
    by_cases h1 : t.val % 4 = 3
    · rw [show (dat4 V c).leavesExact 6 t = owns (c : Thread nD τ) (st4_6 t) fullShare ((dat4 V c).after 6 t) from by
        unfold Dat.leavesExact; rw [liveAt4_6 t h1], after4_6, acc4_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_C c Set.univ (grid4.coords t) (fun h => h0 ((hcond4_0 t).mp h)) ((hcond4_1 t).mpr h1) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 6 t (idleAt4_6 t h1) (noFlush4_6 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_B c Set.univ (grid4.coords t) (fun h => h0 ((hcond4_0 t).mp h)) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : iprop((∃ r, prngReg c r) ∗ Pipeline.scopedRest (Ix := Unit) (Name := ℕ) (U := UR sig nD τ) (Lvl := ℕ) spec4 c) ⊢ ((dat4 V c).Φ 0 : sProp 𝕄) := by
  rw [show (dat4 V c).Φ 0 = PhiS4 V c 0 (Nat.zero_le _) from rfl, PhiS4_zero V c 0 _ rfl]
  unfold Pipeline.ΦA
  iintro ⟨Hg, Hs⟩
  isplitl [Hs]; · iexact Hs
  iexact Hg

/-- And the invariant after the last point gives it back: the accumulator's named contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), scopedRest4_eq]
  iintro ⟨⟨HS, HR⟩, Hg⟩
  isplitl [Hg]; · iexact Hg
  isplitl [HS]; · iexists _; iexact HS
  iexact HR

end Region4

end Cert.Kernel.Gen

end
-- ==== Proof.K.Fold.lean ====
/-
  The buffer contents at every boundary of the kernel program's @main, as a fold from the launch memory: a host stretch takes the
  contents through its operations; a kernel region replaces its output window's array by what its write-backs leave and keeps
  every other buffer. Region 1 reads ONE array through three windows, so its exit contents are an update at its output alone.
-/
import proofs.«105537_j20366734917908_2_alg».proof.Proof.K.Region0
import proofs.«105537_j20366734917908_2_alg».proof.Proof.K.Region1
import proofs.«105537_j20366734917908_2_alg».proof.Proof.K.Region2
import proofs.«105537_j20366734917908_2_alg».proof.Proof.K.Region3
import proofs.«105537_j20366734917908_2_alg».proof.Proof.K.Region4
import proofs.«105537_j20366734917908_2_alg».proof.Proof.Gen.Kernel.Launch
import proofs.«105537_j20366734917908_2_alg».proof.Proof.Gen.Kernel.Skeleton
import proofs.«105537_j20366734917908_2_alg».proof.Proof.Gen.Kernel.Points
import proofs.«105537_j20366734917908_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev X0 : Dev nD → Valuation τ sig (Elt F) := fun c b => m (c, b)
/-- After the host stretch before region 0 (the region's entry contents). -/
abbrev X1 : Dev nD → Valuation τ sig (Elt F) := fun c => StableHlo.after hostOps0 (X0 m c)
/-- The same read at the TensorCore's references. -/
abbrev Xv1 : (c : Dev nD) → (b : Ref sig .tc) → Buf (Elt F) ((c : Thread nD τ).loc b) := fun c b => X1 m c b
/-- At region 0's exit: its arrays at what its write-backs leave, every other buffer as entered. -/
def X2 (c : Dev nD) : Valuation τ sig (Elt F) :=
  Pipeline.withArrays spec0 c (X1 m c) fun w => (dat0 (Xv1 m) c).arrAt w cfg0.N
theorem X2_arr (c : Dev nD) (w : Fin cfg0.W) :
    X2 m c (Proc.devRef .tc (Pipeline.arrRef spec0 w)) = (dat0 (Xv1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Xv2 : (c : Dev nD) → (b : Ref sig .tc) → Buf (Elt F) ((c : Thread nD τ).loc b) := fun c b => X2 m c b
theorem hF0 (c : Dev nD) (w : Fin cfg0.W) : (dat0 (Xv1 m) c).arrAt w cfg0.N = Xv2 m c (Pipeline.arrRef spec0 w) :=
  (X2_arr m c w).symm
theorem hrest0 (c : Dev nD) : ∀ b, b ∉ Finset.univ.image (Pipeline.arrRef spec0) → Xv2 m c b = Xv1 m c b :=
  fun b hb => X2_of_ne m c b fun w e => hb (Finset.mem_image.mpr ⟨w, Finset.mem_univ _, e⟩)

/-- After the host stretch before region 1 (the region's entry contents). -/
abbrev X3 : Dev nD → Valuation τ sig (Elt F) := fun c => StableHlo.after hostOps1 (X2 m c)
abbrev Xv3 : (c : Dev nD) → (b : Ref sig .tc) → Buf (Elt F) ((c : Thread nD τ).loc b) := fun c b => X3 m c b
/-- At region 1's exit: the one output array at what its write-backs leave; the shared input array and every other buffer
    as entered (three windows read one array, so the exit contents are written as an update at the output alone). -/
def X4 (c : Dev nD) : Valuation τ sig (Elt F) :=
  Function.update (X3 m c) (Proc.devRef .tc main_v10) ((dat1 (Xv3 m) c).arrAt 3 cfg1.N)
abbrev Xv4 : (c : Dev nD) → (b : Ref sig .tc) → Buf (Elt F) ((c : Thread nD τ).loc b) := fun c b => X4 m c b
theorem X4_of_ne (c : Dev nD) (b : Ref sig .tc) (hb : b ≠ main_v10) :
    X4 m c (Proc.devRef .tc b) = X3 m c (Proc.devRef .tc b) := by
  unfold X4; exact Function.update_of_ne (StableHlo.devRef_ne_of_ne hb) _ _
theorem X4_out (c : Dev nD) : X4 m c (Proc.devRef .tc main_v10) = (dat1 (Xv3 m) c).arrAt 3 cfg1.N := by
  unfold X4; exact Function.update_self _ _ _
theorem hF1 (c : Dev nD) (w : Fin cfg1.W) : (dat1 (Xv3 m) c).arrAt w cfg1.N = Xv4 m c (Pipeline.arrRef spec1 w) := by
  match w with
  | ⟨0, _⟩ => exact (((dat1 (Xv3 m) c).arrAt_in 0 rfl _).trans (A_eq1 (Xv3 m) c 0)).trans (X4_of_ne m c _ (by decide)).symm
  | ⟨1, _⟩ => exact (((dat1 (Xv3 m) c).arrAt_in 1 rfl _).trans (A_eq1 (Xv3 m) c 1)).trans (X4_of_ne m c _ (by decide)).symm
  | ⟨2, _⟩ => exact (((dat1 (Xv3 m) c).arrAt_in 2 rfl _).trans (A_eq1 (Xv3 m) c 2)).trans (X4_of_ne m c _ (by decide)).symm
  | ⟨3, _⟩ => exact (X4_out m c).symm
theorem hrest1 (c : Dev nD) : ∀ b, b ∉ Finset.univ.image (Pipeline.arrRef spec1) → Xv4 m c b = Xv3 m c b :=
  fun b hb => X4_of_ne m c b fun e => hb (Finset.mem_image.mpr ⟨3, Finset.mem_univ _, e.symm⟩)

/-- After the host stretch before region 2 (the region's entry contents). -/
abbrev X5 : Dev nD → Valuation τ sig (Elt F) := fun c => StableHlo.after hostOps2 (X4 m c)
/-- The same read at the TensorCore's references. -/
abbrev Xv5 : (c : Dev nD) → (b : Ref sig .tc) → Buf (Elt F) ((c : Thread nD τ).loc b) := fun c b => X5 m c b
/-- At region 2's exit: its arrays at what its write-backs leave, every other buffer as entered. -/
def X6 (c : Dev nD) : Valuation τ sig (Elt F) :=
  Pipeline.withArrays spec2 c (X5 m c) fun w => (dat2 (Xv5 m) c).arrAt w cfg2.N
theorem X6_arr (c : Dev nD) (w : Fin cfg2.W) :
    X6 m c (Proc.devRef .tc (Pipeline.arrRef spec2 w)) = (dat2 (Xv5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Xv6 : (c : Dev nD) → (b : Ref sig .tc) → Buf (Elt F) ((c : Thread nD τ).loc b) := fun c b => X6 m c b
theorem hF2 (c : Dev nD) (w : Fin cfg2.W) : (dat2 (Xv5 m) c).arrAt w cfg2.N = Xv6 m c (Pipeline.arrRef spec2 w) :=
  (X6_arr m c w).symm
theorem hrest2 (c : Dev nD) : ∀ b, b ∉ Finset.univ.image (Pipeline.arrRef spec2) → Xv6 m c b = Xv5 m c b :=
  fun b hb => X6_of_ne m c b fun w e => hb (Finset.mem_image.mpr ⟨w, Finset.mem_univ _, e⟩)

/-- After the host stretch before region 3 (the region's entry contents). -/
abbrev X7 : Dev nD → Valuation τ sig (Elt F) := fun c => StableHlo.after hostOps3 (X6 m c)
/-- The same read at the TensorCore's references. -/
abbrev Xv7 : (c : Dev nD) → (b : Ref sig .tc) → Buf (Elt F) ((c : Thread nD τ).loc b) := fun c b => X7 m c b
/-- At region 3's exit: its arrays at what its write-backs leave, every other buffer as entered. -/
def X8 (c : Dev nD) : Valuation τ sig (Elt F) :=
  Pipeline.withArrays spec3 c (X7 m c) fun w => (dat3 (Xv7 m) c).arrAt w cfg3.N
theorem X8_arr (c : Dev nD) (w : Fin cfg3.W) :
    X8 m c (Proc.devRef .tc (Pipeline.arrRef spec3 w)) = (dat3 (Xv7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Xv8 : (c : Dev nD) → (b : Ref sig .tc) → Buf (Elt F) ((c : Thread nD τ).loc b) := fun c b => X8 m c b
theorem hF3 (c : Dev nD) (w : Fin cfg3.W) : (dat3 (Xv7 m) c).arrAt w cfg3.N = Xv8 m c (Pipeline.arrRef spec3 w) :=
  (X8_arr m c w).symm
theorem hrest3 (c : Dev nD) : ∀ b, b ∉ Finset.univ.image (Pipeline.arrRef spec3) → Xv8 m c b = Xv7 m c b :=
  fun b hb => X8_of_ne m c b fun w e => hb (Finset.mem_image.mpr ⟨w, Finset.mem_univ _, e⟩)

/-- After the host stretch before region 4 (the region's entry contents). -/
abbrev X9 : Dev nD → Valuation τ sig (Elt F) := fun c => StableHlo.after hostOps4 (X8 m c)
/-- The same read at the TensorCore's references. -/
abbrev Xv9 : (c : Dev nD) → (b : Ref sig .tc) → Buf (Elt F) ((c : Thread nD τ).loc b) := fun c b => X9 m c b
/-- At region 4's exit: its arrays at what its write-backs leave, every other buffer as entered. -/
def X10 (c : Dev nD) : Valuation τ sig (Elt F) :=
  Pipeline.withArrays spec4 c (X9 m c) fun w => (dat4 (Xv9 m) c).arrAt w cfg4.N
theorem X10_arr (c : Dev nD) (w : Fin cfg4.W) :
    X10 m c (Proc.devRef .tc (Pipeline.arrRef spec4 w)) = (dat4 (Xv9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev Xv10 : (c : Dev nD) → (b : Ref sig .tc) → Buf (Elt F) ((c : Thread nD τ).loc b) := fun c b => X10 m c b
theorem hF4 (c : Dev nD) (w : Fin cfg4.W) : (dat4 (Xv9 m) c).arrAt w cfg4.N = Xv10 m c (Pipeline.arrRef spec4 w) :=
  (X10_arr m c w).symm
theorem hrest4 (c : Dev nD) : ∀ b, b ∉ Finset.univ.image (Pipeline.arrRef spec4) → Xv10 m c b = Xv9 m c b :=
  fun b hb => X10_of_ne m c b fun w e => hb (Finset.mem_image.mpr ⟨w, Finset.mem_univ _, e⟩)

/-- After the last host stretch: the contents @main returns with. -/
abbrev X11 : Dev nD → Valuation τ sig (Elt F) := fun c => StableHlo.after hostOps5 (X10 m c)

end Cert.Kernel.Gen

end
-- ==== Proof.K.Run.lean ====
/-
  The kernel program's run: @main as eleven segments (six host stretches, five kernel regions), each region entered from every
  unscoped buffer at the boundary's contents with the generator register and an empty debt riding along; its arrays are split out
  of the unscoped buffers on entry and put back at their final contents on exit. The launch theorem then gives: every weakly fair
  execution terminates, nothing faults, and each unscoped buffer ends at the last boundary's contents — from which the frame (every
  argument as launched: no stretch writes one, no region holds one) and the result buffer's contents are read.
-/
import proofs.«105537_j20366734917908_2_alg».proof.Proof.K.Fold
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents: a literal match on the pipeline. -/
def pdats : (p : Fin 5) → (c : Dev nD) → Dat τ (Elt F) Unit ℕ (UR sig nD τ) ℕ (Pipeline.pin (pcfgs (F := F)) adm p) c
  | ⟨0, _⟩ => fun c => dat0 (Xv1 m) c
  | ⟨1, _⟩ => fun c => dat1 (Xv3 m) c
  | ⟨2, _⟩ => fun c => dat2 (Xv5 m) c
  | ⟨3, _⟩ => fun c => dat3 (Xv7 m) c
  | ⟨4, _⟩ => fun c => dat4 (Xv9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `X1`, left at `X2`. Its arrays are split out of the
    unscoped buffers and put back at the exit contents; the generator register and the scoped rest go into the region's invariant and
    come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Xv1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Xv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Xv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (Xv1 m) c).Φ 0
    iintro ⟨Hp, -, Hr⟩
    iapply (hin0 (Xv1 m) c)
    isplitl [Hp]; · iexact Hp
    iexact Hr
  hout c := by
    rw [Pipeline.ownSems0_none]
    show (dat0 (Xv1 m) c).Φ (Fin.last cfg0.N) ⊢ _
    iintro H
    ihave H' := (hout0 (Xv1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Xv1 m c) (Xv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `X3`, left at `X4`. Its arrays are split out of the
    unscoped buffers and put back at the exit contents; the generator register and the scoped rest go into the region's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Xv3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Xv3 m c)
  hentry c := by
    rw [Pipeline.ownSems0_none]
    have hsplit : (unscopedBufs c (Xv3 m c) : sProp 𝕄) ⊢ iprop((pdats m 1 c).arrays (pdats m 1 c).A ∗ Pipeline.unscopedRest spec1 c (Xv3 m c)) := entry1 (Xv3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (Xv3 m) c).Φ 0
    iintro ⟨Hp, -, Hr⟩
    iapply (hin1 (Xv3 m) c)
    isplitl [Hp]; · iexact Hp
    iexact Hr
  hout c := by
    rw [Pipeline.ownSems0_none]
    show (dat1 (Xv3 m) c).Φ (Fin.last cfg1.N) ⊢ _
    iintro H
    ihave H' := (hout1 (Xv3 m) c) $$ H
    icases H' with ⟨Hp, Hr⟩
    isplitl [Hp]; · iexact Hp
    isplitr; · iempintro
    iexact Hr
  hexit c := by
    have hjoin : (iprop((pdats m 1 c).arrays ((pdats m 1 c).arrAt · cfg1.N) ∗ Pipeline.unscopedRest spec1 c (Xv3 m c)) : sProp 𝕄) ⊢ unscopedBufs c (Xv4 m c) :=
      exit1 (Xv3 m) c (Xv4 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `X5`, left at `X6`. Its arrays are split out of the
    unscoped buffers and put back at the exit contents; the generator register and the scoped rest go into the region's invariant and
    come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Xv5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Xv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Xv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (Xv5 m) c).Φ 0
    iintro ⟨Hp, -, Hr⟩
    iapply (hin2 (Xv5 m) c)
    isplitl [Hp]; · iexact Hp
    iexact Hr
  hout c := by
    rw [Pipeline.ownSems0_none]
    show (dat2 (Xv5 m) c).Φ (Fin.last cfg2.N) ⊢ _
    iintro H
    ihave H' := (hout2 (Xv5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Xv5 m c) (Xv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `X7`, left at `X8`. Its arrays are split out of the
    unscoped buffers and put back at the exit contents; the generator register and the scoped rest go into the region's invariant and
    come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Xv7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (Xv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Xv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat3 (Xv7 m) c).Φ 0
    iintro ⟨Hp, -, Hr⟩
    iapply (hin3 (Xv7 m) c)
    isplitl [Hp]; · iexact Hp
    iexact Hr
  hout c := by
    rw [Pipeline.ownSems0_none]
    show (dat3 (Xv7 m) c).Φ (Fin.last cfg3.N) ⊢ _
    iintro H
    ihave H' := (hout3 (Xv7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Xv7 m c) (Xv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `X9`, left at `X10`. Its arrays are split out of the
    unscoped buffers and put back at the exit contents; the generator register and the scoped rest go into the region's invariant and
    come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Xv9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (Xv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Xv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat4 (Xv9 m) c).Φ 0
    iintro ⟨Hp, -, Hr⟩
    iapply (hin4 (Xv9 m) c)
    isplitl [Hp]; · iexact Hp
    iexact Hr
  hout c := by
    rw [Pipeline.ownSems0_none]
    show (dat4 (Xv9 m) c).Φ (Fin.last cfg4.N) ⊢ _
    iintro H
    ihave H' := (hout4 (Xv9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Xv9 m c) (Xv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order. -/
abbrev hsegs : List (Pipeline.Seg (pcfgs (F := F)) adm (pdats m) () defs₀ 𝒱₀ L lv) :=
  [ .host (hostSeg hostOps0 hostOps0_sub hostOps0_fresh (X0 m)),
    .region (reg0 m),
    .host (hostSeg hostOps1 hostOps1_sub hostOps1_fresh (X2 m)),
    .region (reg1 m),
    .host (hostSeg hostOps2 hostOps2_sub hostOps2_fresh (X4 m)),
    .region (reg2 m),
    .host (hostSeg hostOps3 hostOps3_sub hostOps3_fresh (X6 m)),
    .region (reg3 m),
    .host (hostSeg hostOps4 hostOps4_sub hostOps4_fresh (X8 m)),
    .region (reg4 m),
    .host (hostSeg hostOps5 hostOps5_sub hostOps5_fresh (X10 m)) ]
/-- @main IS the run of the segments. -/
theorem hmain_run (c : Dev nD) : main (F := F) c = Pipeline.Seg.run (hsegs m) := (main_chain c).trans (by chain_rfl)

set_option backward.isDefEq.respectTransparency.types false in
/-- THE RUN: from any memory with zero counters every weakly fair execution of @main terminates, nothing faulting, and every
    final state holds each unscoped buffer of each core at the last boundary's contents `X11`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = X11 m c b) :=
  Pipeline.θ_run_regions_kit (pcfgs (F := F)) adm (pdats m) () cellOf_inj emb₁ defs₀ 𝒱₀ L lv m ρ main (hsegs m)
    (fun c Q => by rw [hmain_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => iprop(StableHlo.held (c : Thread nD τ) (Pipeline.ucRefs τ sig) (X11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (X11 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X11 m c b)
    (hfin := fun c s' => by
      iintro ⟨⟨Hh, -⟩, HSI⟩
      unfold StableHlo.held
      imodintro
      iapply (pointsTo_read_all (Pipeline.ucRefs τ sig) (fun b => (((c : Thread nD τ)).1, b)) (X11 m c) s')
      isplitl [Hh] <;> iassumption)
    (hQ := fun s h c => h c)

/-! ## Reading the last contents -/

/-- A buffer that no host stretch writes and that is no window's array of any region (for region 1: not its output) ends holding
    its launch contents: walk the fold back boundary by boundary. -/
theorem X11_keep (c : Dev nD) (r : Ref sig .tc) (h0 : r ∉ hostOps0_W) (h1 : r ∉ hostOps1_W) (h2 : r ∉ hostOps2_W) (h3 : r ∉ hostOps3_W)
    (h4 : r ∉ hostOps4_W) (h5 : r ∉ hostOps5_W) (a0 : ∀ w, Pipeline.arrRef spec0 w ≠ r) (a1 : r ≠ main_v10) (a2 : ∀ w, Pipeline.arrRef spec2 w ≠ r)
    (a3 : ∀ w, Pipeline.arrRef spec3 w ≠ r) (a4 : ∀ w, Pipeline.arrRef spec4 w ≠ r) :
    X11 m c (Proc.devRef .tc r) = m ((c : Thread nD τ).loc r) :=
  calc X11 m c (Proc.devRef .tc r)
    _ = X10 m c (Proc.devRef .tc r) := StableHlo.after_of_writes_sub hostOps5 _ hostOps5_writes h5
    _ = X9 m c (Proc.devRef .tc r) := X10_of_ne m c r a4
    _ = X8 m c (Proc.devRef .tc r) := StableHlo.after_of_writes_sub hostOps4 _ hostOps4_writes h4
    _ = X7 m c (Proc.devRef .tc r) := X8_of_ne m c r a3
    _ = X6 m c (Proc.devRef .tc r) := StableHlo.after_of_writes_sub hostOps3 _ hostOps3_writes h3
    _ = X5 m c (Proc.devRef .tc r) := X6_of_ne m c r a2
    _ = X4 m c (Proc.devRef .tc r) := StableHlo.after_of_writes_sub hostOps2 _ hostOps2_writes h2
    _ = X3 m c (Proc.devRef .tc r) := X4_of_ne m c r a1
    _ = X2 m c (Proc.devRef .tc r) := StableHlo.after_of_writes_sub hostOps1 _ hostOps1_writes h1
    _ = X1 m c (Proc.devRef .tc r) := X2_of_ne m c r a0
    _ = X0 m c (Proc.devRef .tc r) := StableHlo.after_of_writes_sub hostOps0 _ hostOps0_writes h0
    _ = m ((c : Thread nD τ).loc r) := rfl

/-- THE RUN WITH ITS RESULT NAMED: every weakly fair execution of @main terminates, nothing faulting; the result buffer ends at the
    last boundary's contents and every argument array as launched. -/
theorem run_named : θ_run defs (onTc (τ := τ) (main (F := F))) ⟨m, fun _ => 0, ρ⟩ (fun r => ∀ c : Dev nD,
      r.2.mem ((c.tc : Thread nD τ).loc main_v22) = X11 m c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v22 (by decide)),
      (h c _ (mem_uc main_arg0 (by decide))).trans (X11_keep m c main_arg0 (by decide) (by decide) (by decide) (by decide) (by decide) (by decide) (by decide) (by decide) (by decide) (by decide) (by decide)),
      (h c _ (mem_uc main_arg1 (by decide))).trans (X11_keep m c main_arg1 (by decide) (by decide) (by decide) (by decide) (by decide) (by decide) (by decide) (by decide) (by decide) (by decide) (by decide)),
      (h c _ (mem_uc main_arg2 (by decide))).trans (X11_keep m c main_arg2 (by decide) (by decide) (by decide) (by decide) (by decide) (by decide) (by decide) (by decide) (by decide) (by decide) (by decide)),
      (h c _ (mem_uc main_arg3 (by decide))).trans (X11_keep m c main_arg3 (by decide) (by decide) (by decide) (by decide) (by decide) (by decide) (by decide) (by decide) (by decide) (by decide) (by decide)),
      (h c _ (mem_uc main_arg4 (by decide))).trans (X11_keep m c main_arg4 (by decide) (by decide) (by decide) (by decide) (by decide) (by decide) (by decide) (by decide) (by decide) (by decide) (by decide)),
      (h c _ (mem_uc main_arg5 (by decide))).trans (X11_keep m c main_arg5 (by decide) (by decide) (by decide) (by decide) (by decide) (by decide) (by decide) (by decide) (by decide) (by decide) (by decide)),
      (h c _ (mem_uc main_arg6 (by decide))).trans (X11_keep m c main_arg6 (by decide) (by decide) (by decide) (by decide) (by decide) (by decide) (by decide) (by decide) (by decide) (by decide) (by decide)),
      (h c _ (mem_uc main_arg7 (by decide))).trans (X11_keep m c main_arg7 (by decide) (by decide) (by decide) (by decide) (by decide) (by decide) (by decide) (by decide) (by decide) (by decide) (by decide)),
      (h c _ (mem_uc main_arg8 (by decide))).trans (X11_keep m c main_arg8 (by decide) (by decide) (by decide) (by decide) (by decide) (by decide) (by decide) (by decide) (by decide) (by decide) (by decide)),
      (h c _ (mem_uc main_arg9 (by decide))).trans (X11_keep m c main_arg9 (by decide) (by decide) (by decide) (by decide) (by decide) (by decide) (by decide) (by decide) (by decide) (by decide) (by decide)),
      (h c _ (mem_uc main_arg10 (by decide))).trans (X11_keep m c main_arg10 (by decide) (by decide) (by decide) (by decide) (by decide) (by decide) (by decide) (by decide) (by decide) (by decide) (by decide)),
      (h c _ (mem_uc main_arg11 (by decide))).trans (X11_keep m c main_arg11 (by decide) (by decide) (by decide) (by decide) (by decide) (by decide) (by decide) (by decide) (by decide) (by decide) (by decide)),
      (h c _ (mem_uc main_arg12 (by decide))).trans (X11_keep m c main_arg12 (by decide) (by decide) (by decide) (by decide) (by decide) (by decide) (by decide) (by decide) (by decide) (by decide) (by decide)),
      (h c _ (mem_uc main_arg13 (by decide))).trans (X11_keep m c main_arg13 (by decide) (by decide) (by decide) (by decide) (by decide) (by decide) (by decide) (by decide) (by decide) (by decide) (by decide)),
      (h c _ (mem_uc main_arg14 (by decide))).trans (X11_keep m c main_arg14 (by decide) (by decide) (by decide) (by decide) (by decide) (by decide) (by decide) (by decide) (by decide) (by decide) (by decide)),
      (h c _ (mem_uc main_arg15 (by decide))).trans (X11_keep m c main_arg15 (by decide) (by decide) (by decide) (by decide) (by decide) (by decide) (by decide) (by decide) (by decide) (by decide) (by decide)),
      (h c _ (mem_uc main_arg16 (by decide))).trans (X11_keep m c main_arg16 (by decide) (by decide) (by decide) (by decide) (by decide) (by decide) (by decide) (by decide) (by decide) (by decide) (by decide))⟩) (run_all m ρ)

/-- THE FRAME: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_named m ρ)

end Cert.Kernel.Gen

end
-- ==== Proof.KI.Region0.lean ====
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import Idealize.ShloMosaic.Lib.Pipeline.FrameBody
import Idealize.ShloMosaic.Lib.Pipeline.Value
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The linear layer's launch (pipeline 0) at the entry contents `V`

The grid is (rows, columns, k) with ONE k-step, so at every point both guarded parts of the body run: the accumulator is
cleared, the product of the row block with the column block is added to it, and the accumulator plus the bias row is stored
as the output block. Nothing is carried from one point to the next: the accumulator is cleared before it is read. -/

/-! ## The two conditions, over the grid -/

/-- "this is the first k-step", as the body computes it from the point's coordinates. -/
abbrev cond0_1 (i : grid0.Coords) : Prop := (Scalar.cmpi .ne (Scalar.extui (Scalar.cmpi .eq (BitVec.ofNat 32 (i 2).val) 0#32)) 0#32) = 1#1
/-- "this is the last k-step". -/
abbrev cond0_2 (i : grid0.Coords) : Prop := k0_cond2 i = 1#1

/-- The k-axis has one step: every point is a first k-step, -/
theorem hcond0_1 : ∀ t : Fin cfg0.N, cond0_1 (grid0.coords t) :=
  (by decide +kernel : ∀ t : Fin grid0.N, cond0_1 (grid0.coords t))
/-- and a last one. -/
theorem hcond0_2 : ∀ t : Fin cfg0.N, cond0_2 (grid0.coords t) :=
  (by decide +kernel : ∀ t : Fin grid0.N, cond0_2 (grid0.coords t))
/-- So the output window is stored at every point. -/
theorem liveAt0_3 : ∀ t : Fin cfg0.N, cfg0.idle 3 (grid0.coords t) = false := by decide +kernel

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Every load and store of the body is through the whole buffer: offsets zero on both axes. -/
theorem hz0 : (![0, 0] : Fin 2 → Nat) = fun _ => 0 := funext fun a => by fin_cases a <;> rfl

/-- The output block after the body, from the three input blocks: the accumulator cleared, the product added, then the
    bias row added and rounded to the output's format. -/
def out0_3 (x0 : Vec F S512x1024 .f32) (x1 : Vec F S1024x1024 .bf16) (x2 : Vec F S1x1024 .f32) : Vec F S512x1024 .bf16 :=
  k0_pay3 (k0_pay2 x0 x1 (k0_pay1 (F := F))) x2

/-- A store through the whole accumulator or output block, first in a list of stores, covers the block. -/
theorem cover_unit0 (e : EltTy) (w : S512x1024.Idx → Elt F e) (L : List (View.Piece (Elt F) S512x1024 e)) (y : S512x1024.Idx) :
    ∃ p ∈ ((⟨Rect.unit ![0, 0] S512x1024.size inb_S512x1024_S512x1024_0_0, w⟩ : View.Piece (Elt F) S512x1024 e) :: L), y ∈ p.1.set :=
  ⟨_, List.mem_cons_self, View.mem_set_unit_zero hz0 inb_S512x1024_S512x1024_0_0 y⟩

/-- The output buffer read back after the body's stores: the accumulator's two stores and the loads between them are
    through the whole buffer, so each load reads the payload stored just before it. -/
theorem read_out0 (a3 : View sig .tc .vmem S512x1024 .f32) (a4 : View sig .tc .vmem S1024x1024 .bf16) (a5 : View sig .tc .vmem S1x1024 .f32)
    (a6 : View sig .tc .vmem S512x1024 .bf16) (a7 : View sig .tc .vmem S512x1024 .f32)
    (f0 : a3.ty.Contents (Elt F)) (f1 : a4.ty.Contents (Elt F)) (f2 : a5.ty.Contents (Elt F)) (f6 : a6.ty.Contents (Elt F)) :
    View.read (Elt F) a6
      (a6.writes (Elt F) f6
        [⟨Rect.unit ![0, 0] S512x1024.size inb_S512x1024_S512x1024_0_0,
            k0_pay3
              (a7.readCov
                [⟨Rect.unit ![0, 0] S512x1024.size inb_S512x1024_S512x1024_0_0,
                    k0_pay2
                      (View.readAt (Elt F) a3 (Rect.unit ![0, 0] S512x1024.size inb_S512x1024_S512x1024_0_0).toLoadRect f0)
                      (View.readAt (Elt F) a4 (Rect.unit ![0, 0] S1024x1024.size inb_S1024x1024_S1024x1024_0_0).toLoadRect f1)
                      (a7.readCov [⟨Rect.unit ![0, 0] S512x1024.size inb_S512x1024_S512x1024_0_0, k0_pay1⟩]
                        (Rect.unit ![0, 0] S512x1024.size inb_S512x1024_S512x1024_0_0).toLoadRect)⟩,
                  ⟨Rect.unit ![0, 0] S512x1024.size inb_S512x1024_S512x1024_0_0, k0_pay1⟩]
                (Rect.unit ![0, 0] S512x1024.size inb_S512x1024_S512x1024_0_0).toLoadRect)
              (View.readAt (Elt F) a5 (Rect.unit ![0, 0] S1x1024.size inb_S1x1024_S1x1024_0_0).toLoadRect f2)⟩])
      = out0_3 (View.read (Elt F) a3 f0) (View.read (Elt F) a4 f1) (View.read (Elt F) a5 f2) := by
  rw [View.read_writes_eq_canon _ _ _ (cover_unit0 .bf16 _ []),
    View.canon_unit_zero hz0, View.readCov_unit_zero _ hz0,
    View.readCov_eq_canon_ld _ _ _ (cover_unit0 .f32 _ _),
    View.canon_cons_unit_zero hz0]
  simp only [View.readAt_eq_ld, View.ld_unit_zero (S := S512x1024) hz0, View.ld_unit_zero (S := S1024x1024) hz0, View.ld_unit_zero (S := S1x1024) hz0]
  rfl

/-! ## The body's triple -/

set_option maxHeartbeats 1000000 in
/-- The body on whole memrefs at a point where both conditions hold — the inputs' at read contents `xW`, the output's and the
    accumulator's at anything — runs to the continuation holding the inputs' as they were, the output's at `out0_3` of the
    inputs' and the accumulator's at some contents. -/
theorem sound_kernel0 (c : Dev nD) (E : Set ℕ) (i : grid0.Coords)
    (arg3 : Memref sig .tc .vmem S512x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole) (hc1 : cond0_1 i) (hc2 : cond0_2 i)
    (x0 : Vec F S512x1024 .f32) (x1 : Vec F S1024x1024 .bf16) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2) ∗ (∃ d, owns (c : Thread nD τ) arg7 fullShare d)) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    exact read_out0 _ _ _ _ _ _ _ _ _
  iexists _; iexists _; isplitr
  swap; · iexact H7
  ipureintro; rfl

/-! ## The pipeline's proof data -/

/-- The proof data of pipeline 0 on core `c`: the arrays as the region finds them (`V`); after the body at point `t` each
    input's buffer at its block and the output's at `out0_3` of the input blocks; the invariant: every scoped buffer that is no
    staging buffer (the accumulator among them) at some contents, and the generator register at some state; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- The invariant with the accumulator split out of the scoped rest, as a whole memref at some contents. -/
theorem PhiA0_eq (c : Dev nD) :
    (Pipeline.ΦA spec0 c : sProp 𝕄)
      = iprop(iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [owns_whole]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1000000 in
/-- The body at any point: the inputs' memrefs hold their blocks, both conditions hold, so the triple applies; the invariant
    lends the accumulator and takes it back; the rest of the scoped buffers, the generator register and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    show (dat0 V c).Φ t.castSucc = Pipeline.ΦA spec0 c from rfl, PhiA0_eq]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from by
      unfold Dat.leavesExact; rw [liveAt0_3 t], after0_3]
  iintro ⟨⟨⟨HS, Hrest⟩, Hg⟩, Ho, ⟨%d0, H0⟩, ⟨%d1, H1⟩, ⟨%d2, H2⟩, ⟨%d3, H3⟩⟩
  iapply (sound_kernel0 c Set.univ (grid0.coords t) _ _ _ _ _ _ _ _ _ _ (hcond0_1 t) (hcond0_2 t) (iblk0 V c 0 t) (iblk0 V c 1 t) (iblk0 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point, -/
theorem hin0 (c : Dev nD) : iprop((∃ r, prngReg c r) ∗ Pipeline.scopedRest (Ix := Unit) (Name := ℕ) (U := UR sig nD τ) (Lvl := ℕ) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- and the invariant after the last point gives it back. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.KernelIdeal.Gen

end
-- ==== Proof.KI.Region1Base.lean ====
/- Region 1 (the attention call): what its three case runs and its proof data share — each window's block at a
   point read off the entry contents, the input windows' buffers holding their blocks at every point, the body's
   two branch conditions in closed form over the 8 × 8 grid (first key tile: kv = 0; last key tile: kv = 7), where
   the output window is idle, the staging and scratch memrefs as the pipeline passes them, and the scoped rest
   opened at the three scratch buffers (running maximum, running sum, accumulator). -/
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`): the query tile for window 0,
    the key tile for window 1, the value tile for window 2 (three column blocks of the one packed array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The first conditional of the body (reset of the carried state): the key-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the normalised output is stored): the key-tile coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last key tile the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated (the choice does not matter). -/
abbrev VO1_3 : View sig .tc .vmem S4x256x1024 .bf16 := (Memref.whole cc1_stg3_0 : Memref sig .tc .vmem S4x256x1024 .bf16).view
abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .bf16 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

/-- The scoped buffers no window stages, with the three scratch operands taken out as memrefs owned at some contents. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem scoped1_open (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ (∃ d, owns (c : Thread nD τ) scM1_1 fullShare d)
          ∗ (∃ d, owns (c : Thread nD τ) scM1_2 fullShare d) ∗ restBut1 (F := F) c) := by
  rw [scopedRest1_split]; simp only [scM1_0, scM1_1, scM1_2, owns_whole]
  iintro ⟨⟨H0, H1, H2⟩, Hr⟩
  isplitl [H0]; · iexact H0
  isplitl [H1]; · iexact H1
  isplitl [H2]; · iexact H2
  iexact Hr

theorem scoped1_close (c : Dev nD) :
    iprop((∃ d, owns (c : Thread nD τ) scM1_0 fullShare d) ∗ (∃ d, owns (c : Thread nD τ) scM1_1 fullShare d)
          ∗ (∃ d, owns (c : Thread nD τ) scM1_2 fullShare d) ∗ restBut1 (F := F) c)
      ⊢ (Pipeline.scopedRest (Ix := Unit) (Name := ℕ) (U := UR sig nD τ) (Lvl := ℕ) (Val := Elt F) spec1 c : sProp 𝕄) := by
  rw [scopedRest1_split]; simp only [scM1_0, scM1_1, scM1_2, owns_whole]
  iintro ⟨H0, H1, H2, Hr⟩
  isplitr [Hr]
  · isplitl [H0]; · iexact H0
    isplitl [H1]; · iexact H1
    iexact H2
  iexact Hr

end Cert.KernelIdeal.Gen

end
-- ==== Proof.KI.Region1RunA.lean ====
/- Region 1, the body's whole run in case A of its two conditionals — the first key tile of a query tile (kv = 0): the carried state is reset, then one step of the recurrence. -/
import proofs.«105537_j20366734917908_2_alg».proof.Proof.KI.Region1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer, as pieces (last store first), with the proof that on
    whole memrefs — the three input blocks at their contents, the output's buffer at contents handed back untouched,
    the scratch buffers at anything (the body resets them first) — the body runs to the continuation holding the inputs as
    they were and each stored buffer with its pieces written. The pieces are the witness the run finds. -/
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, fun xi3 E K => ?run⟩
  case run =>
    haveI : Fact (cond1_0 i) := ⟨hc0⟩
    haveI : Fact (¬cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KI.Region1RunB.lean ====
/- Region 1, the body's whole run in case B of its two conditionals — a middle key tile (0 < kv < 7): one step of the recurrence over the carried state. -/
import proofs.«105537_j20366734917908_2_alg».proof.Proof.KI.Region1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer, as pieces (last store first), with the proof that on
    whole memrefs — the three input blocks at their contents, the output's buffer at contents handed back untouched,
    the scratch buffers at the contents the point before left — the body runs to the continuation holding the inputs as
    they were and each stored buffer with its pieces written. The pieces are the witness the run finds. -/
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, fun xi3 E K => ?run⟩
  case run =>
    haveI : Fact (¬cond1_0 i) := ⟨hc0⟩
    haveI : Fact (¬cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KI.Region1RunC.lean ====
/- Region 1, the body's whole run in case C of its two conditionals — the last key tile (kv = 7): one step of the recurrence, then the accumulator divided by the running sum is stored to the output. -/
import proofs.«105537_j20366734917908_2_alg».proof.Proof.KI.Region1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the whole body, both conditionals decided, in one symbolic run
set_option maxHeartbeats 4000000 in
/-- What the body's stores leave in each scratch buffer and in the output's staging buffer, as pieces (last store first), with the proof that on
    whole memrefs — the three input blocks at their contents, the output's buffer at anything,
    the scratch buffers at the contents the point before left — the body runs to the continuation holding the inputs as
    they were and each stored buffer with its pieces written. The pieces are the witness the run finds. -/
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (L3 : List (View.Piece (Elt F) S4x256x1024 .bf16)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8) K } := by
  refine ⟨?_, ?_, ?_, ?_, fun E K => ?run⟩
  case run =>
    haveI : Fact (¬cond1_0 i) := ⟨hc0⟩
    haveI : Fact (cond1_1 i) := ⟨hc1⟩
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.KI.Region1.lean ====
/- Region 1 (the attention call), its proof data and body obligation. The carried state — running maximum, running
   sum, accumulator — after each grid point is defined by recursion on the point: at the first key tile of a query
   tile the body resets it and takes one step of the online-softmax recurrence, at a middle tile one step over what
   the point before left, at the last tile one step and the output block (accumulator / running sum). The region
   invariant holds the three scratch buffers at that state. The three input windows read ONE packed array, so its
   full share is dealt among them (left half, and the two halves of the right half). -/
import proofs.«105537_j20366734917908_2_alg».proof.Proof.KI.Region1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Case A's pieces for the running maximum tile it, so they cover it. -/
theorem scover1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S4x256x1.size (by sl_kernel_rfl) y

/-- What case A leaves there: its pieces read back over junk. -/
def sout1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- Case A's pieces for the running sum tile it, so they cover it. -/
theorem scover1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4x256x1.size (by sl_kernel_rfl) y

/-- What case A leaves there: its pieces read back over junk. -/
def sout1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- Case A's pieces for the accumulator tile it, so they cover it. -/
theorem scover1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) (y : S4x256x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4x256x1024.size (by sl_kernel_rfl) y

/-- What case A leaves there: its pieces read back over junk. -/
def sout1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- Case B's pieces for the running maximum tile it, so they cover it. -/
theorem scover1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S4x256x1.size (by sl_kernel_rfl) y

/-- What case B leaves there: its pieces read back over junk. -/
def sout1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- Case B's pieces for the running sum tile it, so they cover it. -/
theorem scover1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S4x256x1.size (by sl_kernel_rfl) y

/-- What case B leaves there: its pieces read back over junk. -/
def sout1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- Case B's pieces for the accumulator tile it, so they cover it. -/
theorem scover1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S4x256x1024.size (by sl_kernel_rfl) y

/-- What case B leaves there: its pieces read back over junk. -/
def sout1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- Case C's pieces for the output's staging buffer tile it, so they cover it. -/
theorem cover1_C_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S4x256x1024.size (by sl_kernel_rfl) y

/-- What case C leaves there: its pieces read back over junk. -/
def out1_C_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .bf16 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for the running maximum tile it, so they cover it. -/
theorem scover1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S4x256x1.size (by sl_kernel_rfl) y

/-- What case C leaves there: its pieces read back over junk. -/
def sout1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for the running sum tile it, so they cover it. -/
theorem scover1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S4x256x1.size (by sl_kernel_rfl) y

/-- What case C leaves there: its pieces read back over junk. -/
def sout1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for the accumulator tile it, so they cover it. -/
theorem scover1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S4x256x1024.size (by sl_kernel_rfl) y

/-- What case C leaves there: its pieces read back over junk. -/
def sout1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- (output buffer, running maximum, running sum, accumulator) -/
abbrev St1 : Type := Vec F S4x256x1024 .bf16 × Vec F S4x256x1 .f32 × Vec F S4x256x1 .f32 × Vec F S4x256x1024 .f32

/-- What the point `t` of case A leaves: (output buffer — untouched, a placeholder nothing reads, running maximum, running sum, accumulator). -/
def caseA1 (c : Dev nD) (t : Fin cfg1.N) (hc0 : cond1_0 (grid1.coords t)) (hc1 : ¬cond1_1 (grid1.coords t)) : St1 (F := F) :=
  (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t))

/-- What the point `t` of case B leaves: (output buffer — untouched, a placeholder nothing reads, running maximum, running sum, accumulator), over what the point before left (`p`). -/
def caseB1 (c : Dev nD) (t : Fin cfg1.N) (hc0 : ¬cond1_0 (grid1.coords t)) (hc1 : ¬cond1_1 (grid1.coords t)) (p : St1 (F := F)) : St1 (F := F) :=
  (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2)

/-- What the point `t` of case C leaves: (output buffer, running maximum, running sum, accumulator), over what the point before left (`p`). -/
def caseC1 (c : Dev nD) (t : Fin cfg1.N) (hc0 : ¬cond1_0 (grid1.coords t)) (hc1 : cond1_1 (grid1.coords t)) (p : St1 (F := F)) : St1 (F := F) :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.2.1 p.2.2.1 p.2.2.2)

/-! ## The carried state, point by point -/

/-- What the output's staging buffer and the three scratch buffers hold after the body at position `n`: the case the
    closed forms select (n ≡ 0 mod 8: reset and step; n ≡ 7: step and output; else: step), a later case over what
    position `n - 1` left. -/
def outsAt1 (c : Dev nD) : (n : ℕ) → n < cfg1.N → St1 (F := F)
  | 0, hn => caseA1 V c ⟨0, hn⟩ ((hcond1_0 ⟨0, hn⟩).mpr (Nat.zero_mod _)) (fun h => (fun h' : 0 % 8 = 7 => by omega) ((hcond1_1 ⟨0, hn⟩).mp h))
  | n + 1, hn =>
    if h0 : (n + 1) % 8 = 0 then
      caseA1 V c ⟨n + 1, hn⟩ ((hcond1_0 ⟨n + 1, hn⟩).mpr h0) (fun h => (fun h' : (n + 1) % 8 = 7 => by omega) ((hcond1_1 ⟨n + 1, hn⟩).mp h))
    else if h1 : (n + 1) % 8 = 7 then
      caseC1 V c ⟨n + 1, hn⟩ (fun h => h0 ((hcond1_0 ⟨n + 1, hn⟩).mp h)) ((hcond1_1 ⟨n + 1, hn⟩).mpr h1) (outsAt1 c n (Nat.lt_of_succ_lt hn))
    else
      caseB1 V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) (h1 : ¬t.val % 8 = 7) :
    outsAt1 V c t.val t.isLt = caseA1 V c t ((hcond1_0 t).mpr h0) (fun h => h1 ((hcond1_1 t).mp h)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = caseB1 V c t (fun h => h0 ((hcond1_0 t).mp h)) (fun h => h1 ((hcond1_1 t).mp h))
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t (fun h => h0 ((hcond1_0 t).mp h)) ((hcond1_1 t).mpr h1)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the generator register and every scoped buffer no window stages, at
    anything; afterwards the three scratch buffers at what the point before left, the other scoped buffers at anything,
    the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ restBut1 (F := F) c ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ restBut1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ restBut1 (F := F) c ∗ (∃ r, prngReg c r)) := by
  cases n with
  | zero => exact absurd rfl hz
  | succ n => rfl

/-! ## The proof data -/

/-- The proof data of the attention call on core `c`: the arrays as the region finds them; after the body each input's
    buffer at its block, the output's at `outsAt1`'s first component; the invariant `PhiS1`; nothing owed; the packed
    array's full share dealt among its three input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; the
    invariant hands the body the scratch buffers at what the point before left (at anything before the first point) and
    takes them back at this point's contents; the output's buffer is handed back untouched off the last key tile and
    holds the normalised block at it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold caseA1 sout1_A_0 sout1_A_1 sout1_A_2; (try dsimp only)
    by_cases hz : t.val = 0
    · rw [PhiS1_castSucc V c t, PhiS1_zero V c _ _ hz]
      iintro ⟨⟨Hg, Hsc⟩, Ho, ⟨%d0, H0⟩, ⟨%d1, H1⟩, ⟨%d2, H2⟩, ⟨%d3, H3⟩⟩
      ihave Hsc' := (scoped1_open (F := F) c) $$ Hsc
      icases Hsc' with ⟨HS0, HS1, HS2, Hrest⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC1 out1_C_3 sout1_C_0 sout1_C_1 sout1_C_2; (try dsimp only)
      have hz : t.val ≠ 0 := by omega
      rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB1 sout1_B_0 sout1_B_1 sout1_B_2; (try dsimp only)
      have hz : t.val ≠ 0 := by omega
      rw [PhiS1_castSucc V c t, PhiS1_pos V c _ _ hz]
      iintro ⟨⟨HS0, HS1, HS2, Hrest, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      iexists _; iexact H3

/-- The body's triple at every point, the windows' buffers conjoined one by one. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) :
    iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = PhiS1 V c 0 (Nat.zero_le _) from rfl, PhiS1_zero V c 0 _ rfl]
  try exact Idealize.SL.BI.Entails.refl _

/-- After the last point the invariant gives the scoped buffers and the register back: the scratch buffers' named
    contents are forgotten. -/
theorem hout1 (c : Dev nD) :
    ((dat1 V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  iintro ⟨HS0, HS1, HS2, Hrest, Hg⟩
  isplitl [Hg]; · iexact Hg
  iapply (scoped1_close (F := F) c)
  isplitl [HS0]; · iexists _; iexact HS0
  isplitl [HS1]; · iexists _; iexact HS1
  isplitl [HS2]; · iexists _; iexact HS2
  iexact Hrest

/-! ## Entry and exit: the packed array's full share dealt among its three input windows and joined again -/

/-- The four windows sit on two buffers. -/
theorem arrImage1 : Finset.univ.image (Pipeline.arrRef spec1) = ([main_v9, main_v10] : List (Ref sig .tc)).toFinset := by decide

theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v9) ↦{fullShare} X main_v9) ∗ (((c : Thread nD τ).loc main_v10) ↦{fullShare} X main_v10)) := by
  unfold Pipeline.arrBufs
  rw [bigSep_eq_bigSepL_of_eq [main_v9, main_v10] arrImage1 (by decide)]
  rfl

/-- The proof data's arrays, window by window: the packed array at the left half, at the left and at the right half of
    the right half; the output array at the full share. -/
theorem arrays1_split (c : Dev nD) (Fn : (w : Fin cfg1.W) → Buf (Elt F) ((cfg1.win w).arr.view.loc (c : Thread nD τ))) :
    ((dat1 V c).arrays Fn : sProp 𝕄)
      = iprop((((c : Thread nD τ).loc main_v9) ↦{fullShare.left} Fn 0) ∗ (((c : Thread nD τ).loc main_v9) ↦{fullShare.right.left} Fn 1)
          ∗ (((c : Thread nD τ).loc main_v9) ↦{fullShare.right.right} Fn 2) ∗ (((c : Thread nD τ).loc main_v10) ↦{fullShare} Fn 3)) := by
  have h : ((dat1 V c).arrays Fn : sProp 𝕄)
      = bigSep Finset.univ fun w => ((((c : Thread nD τ).loc (Pipeline.arrRef spec1 w)) ↦{(dat1 V c).share w} Fn w : sProp 𝕄)) := by
    unfold Dat.arrays
    exact bigSep_congr fun w _ => by rw [(arr_whole1 w).set_eq_univ]
  rw [h, bigSep_W1]; rfl

/-- ENTRY, the arrays' part: a core's unscoped buffers at the entry contents are the proof data's arrays — the packed
    array's full share split in three — and the unscoped rest. -/
theorem entry1 (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  have hs : (unscopedBufs (Ix := Unit) (Name := ℕ) (U := UR sig nD τ) (Lvl := ℕ) c (V c) : sProp 𝕄)
      = iprop(Pipeline.arrBufs (Ix := Unit) (Name := ℕ) (U := UR sig nD τ) (Lvl := ℕ) spec1 c (V c)
          ∗ Pipeline.unscopedRest (Ix := Unit) (Name := ℕ) (U := UR sig nD τ) (Lvl := ℕ) spec1 c (V c)) :=
    Pipeline.unscopedBufs_split₀ cfgs (1 : Fin 5) winFacts₀1.arr_unscoped c (V c)
  rw [hs, arrBufs1_eq, arrays1_split]
  simp only [A_eq1]
  iintro ⟨⟨H9, H10⟩, Hrest⟩
  ihave H9' := (pointsTo_share (PosShare.mem_left_op_right fullShare)).1 $$ H9
  icases H9' with ⟨Hl, Hr⟩
  ihave Hr' := (pointsTo_share (PosShare.mem_left_op_right fullShare.right)).1 $$ Hr
  icases Hr' with ⟨Hrl, Hrr⟩
  isplitr [Hrest]
  · isplitl [Hl]; · iexact Hl
    isplitl [Hrl]; · iexact Hrl
    isplitl [Hrr]; · iexact Hrr
    iexact H10
  iexact Hrest

/-- EXIT, the arrays' part: the proof data's arrays at their final contents — the three shares of the packed array
    joined — and the unscoped rest are the core's unscoped buffers at any valuation that has the arrays at those
    contents and agrees with the entry contents off them. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  have hs : (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
    Pipeline.unscopedBufs_split₀ cfgs (1 : Fin 5) winFacts₀1.arr_unscoped c V'
  rw [hs, arrBufs1_eq, arrays1_split, hr]
  simp only [hF]
  iintro ⟨⟨Hl, Hrl, Hrr, H10⟩, Hrest⟩
  isplitr [Hrest]
  · isplitl [Hl Hrl Hrr]
    · iapply (pointsTo_share (PosShare.mem_left_op_right fullShare)).2
      isplitl [Hl]; · iexact Hl
      iapply (pointsTo_share (PosShare.mem_left_op_right fullShare.right)).2
      isplitl [Hrl]; · iexact Hrl
      iexact Hrr
    iexact H10
  iexact Hrest

end Regions

end Cert.KernelIdeal.Gen

end
-- ==== Proof.KI.Region2.lean ====
/-
  Region 2: the attention output projection, the residual and the layer normalisation, one row tile of 512 rows
  per grid point. Every point runs the whole body: the accumulator is zeroed, the tile's product is added to it,
  and the epilogue (residual + accumulator + bias, mean, two-pass variance, inverse square root, gain, offset)
  stores the output block. What the body leaves in the output block and in the accumulator is a closed function
  of the six input blocks at the point; the accumulator is rewritten at every point, so the region's invariant
  need not say what it holds.
-/
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point has the block index of the point before it, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    point has the block index of the point before it, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    point has the block index of the point before it, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    point has the block index of the point before it, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    point has the block index of the point before it, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched
    point has the block index of the point before it, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- "This is the first step along the contraction axis", as the body computes it from the grid coordinates. -/
abbrev cond2_0 (i : grid2.Coords) : Prop := (Scalar.cmpi .ne (Scalar.extui (Scalar.cmpi .eq (BitVec.ofNat 32 (i 2).val) 0#32)) 0#32) = 1#1
/-- The contraction axis has one step: it is the first at every point. -/
theorem hcond2_0 : ∀ t : Fin cfg2.N, cond2_0 (grid2.coords t) :=
  (by decide +kernel : ∀ t : Fin grid2.N, cond2_0 (grid2.coords t))
/-- "This is the last step along the contraction axis". -/
abbrev cond2_1 (i : grid2.Coords) : Prop := k2_cond2 i = 1#1
/-- And the last at every point. -/
theorem hcond2_1 : ∀ t : Fin cfg2.N, cond2_1 (grid2.coords t) :=
  (by decide +kernel : ∀ t : Fin grid2.N, cond2_1 (grid2.coords t))

/-- No window is idle at any point: the inputs never are, and the output block is stored at every point. -/
theorem liveAt2 : ∀ (w : Fin cfg2.W) (t : Fin cfg2.N), cfg2.idle w (grid2.coords t) = false := by decide +kernel

/-! ## What the body leaves -/

theorem hz2 : (![0, 0] : Fin 2 → Nat) = fun _ => 0 := funext fun a => by fin_cases a <;> rfl

/-- A load of the whole buffer after a store of the whole buffer reads that store's payload, whatever was stored before. -/
theorem readCov_cons_unit_zero2 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

/-- The accumulator after the body: the zero block plus the product of the two bf16 blocks. -/
def acc2 (x0 : Vec F S512x1024 .bf16) (x1 : Vec F S1024x1024 .bf16) : Vec F S512x1024 .f32 :=
  k2_pay2 x0 x1 (k2_pay1 (F := F))

/-- The output block after the body: the layer normalisation of (residual + accumulator) + bias, row by row. -/
def out2_6 (x0 : Vec F S512x1024 .bf16) (x1 : Vec F S1024x1024 .bf16) (x2 : Vec F S1x1024 .f32) (x3 : Vec F S512x1024 .f32)
    (x4 : Vec F S1x1024 .f32) (x5 : Vec F S1x1024 .f32) : Vec F S512x1024 .f32 :=
  k2_pay3 x3 (acc2 x0 x1) x2 x4 x5

/-! ## The body's triple -/

set_option maxHeartbeats 4000000 in
/-- The body on whole memrefs, at a point where both conditions hold: the six inputs at their read contents, the
    output block and the accumulator at anything, run to the continuation with the inputs as they were, the output
    block at `out2_6` and the accumulator at `acc2` of the inputs. -/
theorem sound_kernel2 (c : Dev nD) (E : Set ℕ) (i : grid2.Coords) (hc0 : cond2_0 i) (hc1 : cond2_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare (out2_6 x0 x1 x2 x3 x4 x5) ∗ owns (c : Thread nD τ) arg10 fullShare (acc2 x0 x1)) -∗ K ⟨⟩))
      ⊢ wp frame (wpE (defs₀ (F := F)) Variants.none c none) E (cc2__linear_addln_kernel i arg3 harg3 arg4 harg4 arg5 harg5 arg6 harg6 arg7 harg7 arg8 harg8 arg9 harg9 arg10 harg10) K := by
  simp only [cc2__linear_addln_kernel_eq_skeleton]; unfold cc2__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero hz2 inb_S512x1024_S512x1024_0_0 y⟩), View.canon_unit_zero hz2]
    sl_unfold_words
    unfold out2_6 acc2
    rw [readCov_cons_unit_zero2 _ hz2, View.readCov_unit_zero (S := S512x1024) _ hz2]
    simp only [View.readAt_eq_ld, View.ld_unit_zero (S := S512x1024) hz2, View.ld_unit_zero (S := S1024x1024) hz2, View.ld_unit_zero (S := S1x1024) hz2]
  iexists _; isplitr
  swap; · iexact H7
  ipureintro
  sl_unfold_words
  rw [View.read_writes_eq_canon _ _ _ (fun y => ⟨_, List.Mem.head _, View.mem_set_unit_zero hz2 inb_S512x1024_S512x1024_0_0 y⟩), View.canon_cons_unit_zero hz2,
    View.readCov_unit_zero (S := S512x1024) _ hz2]
  unfold acc2
  simp only [View.readAt_eq_ld, View.ld_unit_zero (S := S512x1024) hz2, View.ld_unit_zero (S := S1024x1024) hz2]

/-! ## The region's proof data -/

/-- The proof data of region 2 on core `c`: the arrays as the region finds them (`V`); after the body at point `t`
    each input's buffer at its block and the output's at `out2_6` of the six input blocks; the invariant: the scoped
    buffers that are no staging buffer (the accumulator among them) at anything and the generator register at some
    state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- The accumulator operand: a whole scoped buffer of the call's own. -/
abbrev scM2 : Memref sig .tc .vmem S512x1024 .f32 := Memref.whole cc2_scratch0

/-- The invariant with the accumulator split off as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point: the inputs' memrefs hold their blocks, both conditions hold, so the triple applies; the
    invariant lends the accumulator at whatever it holds and takes it back at whatever the body left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2 0 t], after2_0]
  rw [show (dat2 V c).leavesExact 1 t = owns (c : Thread nD τ) (st2_1 t) fullShare ((dat2 V c).after 1 t) from by
    unfold Dat.leavesExact; rw [liveAt2 1 t], after2_1]
  rw [show (dat2 V c).leavesExact 2 t = owns (c : Thread nD τ) (st2_2 t) fullShare ((dat2 V c).after 2 t) from by
    unfold Dat.leavesExact; rw [liveAt2 2 t], after2_2]
  rw [show (dat2 V c).leavesExact 3 t = owns (c : Thread nD τ) (st2_3 t) fullShare ((dat2 V c).after 3 t) from by
    unfold Dat.leavesExact; rw [liveAt2 3 t], after2_3]
  rw [show (dat2 V c).leavesExact 4 t = owns (c : Thread nD τ) (st2_4 t) fullShare ((dat2 V c).after 4 t) from by
    unfold Dat.leavesExact; rw [liveAt2 4 t], after2_4]
  rw [show (dat2 V c).leavesExact 5 t = owns (c : Thread nD τ) (st2_5 t) fullShare ((dat2 V c).after 5 t) from by
    unfold Dat.leavesExact; rw [liveAt2 5 t], after2_5]
  rw [show (dat2 V c).leavesExact 6 t = owns (c : Thread nD τ) (st2_6 t) fullShare ((dat2 V c).after 6 t) from by
    unfold Dat.leavesExact; rw [liveAt2 6 t], after2_6]
  rw [show (dat2 V c).Φ t.castSucc = Pipeline.ΦA spec2 c from rfl, PhiA2_eq]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) (hcond2_0 t) (hcond2_1 t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS HR Hg]
  · isplitl [HS HR]
    · isplitl [HS]; · iexists _; iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : iprop((∃ r, prngReg c r) ∗ Pipeline.scopedRest (Ix := Unit) (Name := ℕ) (U := UR sig nD τ) (Lvl := ℕ) spec2 c) ⊢ ((dat2 V c).Φ 0 : sProp 𝕄) := by
  show _ ⊢ Pipeline.ΦA spec2 c
  unfold Pipeline.ΦA
  iintro ⟨Hg, Hs⟩
  isplitl [Hs]; · iexact Hs
  iexact Hg

/-- And the invariant after the last point gives it back. -/
theorem hout2 (c : Dev nD) : ((dat2 V c).Φ (Fin.last cfg2.N) : sProp 𝕄) ⊢ iprop((∃ r, prngReg c r) ∗ Pipeline.scopedRest (Ix := Unit) (Name := ℕ) (U := UR sig nD τ) (Lvl := ℕ) spec2 c) := by
  show Pipeline.ΦA spec2 c ⊢ _
  unfold Pipeline.ΦA
  iintro ⟨Hs, Hg⟩
  isplitl [Hg]; · iexact Hg
  iexact Hs

end Region2

end Cert.KernelIdeal.Gen

end
-- ==== Proof.KI.Region3.lean ====
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import Idealize.ShloMosaic.Lib.Pipeline.FrameBody
import Idealize.ShloMosaic.Lib.Pipeline.Value
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The linear layer's launch (pipeline 3) at the entry contents `V`

The grid is (rows, columns, k) with ONE k-step, so at every point both guarded parts of the body run: the accumulator is
cleared, the product of the row block with the column block is added to it, and the accumulator plus the bias row, clamped below at zero, is stored
as the output block. Nothing is carried from one point to the next: the accumulator is cleared before it is read. -/

/-! ## The two conditions, over the grid -/

/-- "this is the first k-step", as the body computes it from the point's coordinates. -/
abbrev cond3_1 (i : grid3.Coords) : Prop := (Scalar.cmpi .ne (Scalar.extui (Scalar.cmpi .eq (BitVec.ofNat 32 (i 2).val) 0#32)) 0#32) = 1#1
/-- "this is the last k-step". -/
abbrev cond3_2 (i : grid3.Coords) : Prop := k3_cond2 i = 1#1

/-- The k-axis has one step: every point is a first k-step, -/
theorem hcond3_1 : ∀ t : Fin cfg3.N, cond3_1 (grid3.coords t) :=
  (by decide +kernel : ∀ t : Fin grid3.N, cond3_1 (grid3.coords t))
/-- and a last one. -/
theorem hcond3_2 : ∀ t : Fin cfg3.N, cond3_2 (grid3.coords t) :=
  (by decide +kernel : ∀ t : Fin grid3.N, cond3_2 (grid3.coords t))
/-- So the output window is stored at every point. -/
theorem liveAt3_3 : ∀ t : Fin cfg3.N, cfg3.idle 3 (grid3.coords t) = false := by decide +kernel

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- Every load and store of the body is through the whole buffer: offsets zero on both axes. -/
theorem hz3 : (![0, 0] : Fin 2 → Nat) = fun _ => 0 := funext fun a => by fin_cases a <;> rfl

/-- The output block after the body, from the three input blocks: the accumulator cleared, the product added, then the
    bias row added and the result clamped below at zero and rounded to the output's format. -/
def out3_3 (x0 : Vec F S512x1024 .f32) (x1 : Vec F S1024x1024 .bf16) (x2 : Vec F S1x1024 .f32) : Vec F S512x1024 .bf16 :=
  k3_pay3 (k3_pay2 x0 x1 (k3_pay1 (F := F))) x2

/-- A store through the whole accumulator or output block, first in a list of stores, covers the block. -/
theorem cover_unit3 (e : EltTy) (w : S512x1024.Idx → Elt F e) (L : List (View.Piece (Elt F) S512x1024 e)) (y : S512x1024.Idx) :
    ∃ p ∈ ((⟨Rect.unit ![0, 0] S512x1024.size inb_S512x1024_S512x1024_0_0, w⟩ : View.Piece (Elt F) S512x1024 e) :: L), y ∈ p.1.set :=
  ⟨_, List.mem_cons_self, View.mem_set_unit_zero hz3 inb_S512x1024_S512x1024_0_0 y⟩

/-- The output buffer read back after the body's stores: the accumulator's two stores and the loads between them are
    through the whole buffer, so each load reads the payload stored just before it. -/
theorem read_out3 (a3 : View sig .tc .vmem S512x1024 .f32) (a4 : View sig .tc .vmem S1024x1024 .bf16) (a5 : View sig .tc .vmem S1x1024 .f32)
    (a6 : View sig .tc .vmem S512x1024 .bf16) (a7 : View sig .tc .vmem S512x1024 .f32)
    (f0 : a3.ty.Contents (Elt F)) (f1 : a4.ty.Contents (Elt F)) (f2 : a5.ty.Contents (Elt F)) (f6 : a6.ty.Contents (Elt F)) :
    View.read (Elt F) a6
      (a6.writes (Elt F) f6
        [⟨Rect.unit ![0, 0] S512x1024.size inb_S512x1024_S512x1024_0_0,
            k3_pay3
              (a7.readCov
                [⟨Rect.unit ![0, 0] S512x1024.size inb_S512x1024_S512x1024_0_0,
                    k3_pay2
                      (View.readAt (Elt F) a3 (Rect.unit ![0, 0] S512x1024.size inb_S512x1024_S512x1024_0_0).toLoadRect f0)
                      (View.readAt (Elt F) a4 (Rect.unit ![0, 0] S1024x1024.size inb_S1024x1024_S1024x1024_0_0).toLoadRect f1)
                      (a7.readCov [⟨Rect.unit ![0, 0] S512x1024.size inb_S512x1024_S512x1024_0_0, k3_pay1⟩]
                        (Rect.unit ![0, 0] S512x1024.size inb_S512x1024_S512x1024_0_0).toLoadRect)⟩,
                  ⟨Rect.unit ![0, 0] S512x1024.size inb_S512x1024_S512x1024_0_0, k3_pay1⟩]
                (Rect.unit ![0, 0] S512x1024.size inb_S512x1024_S512x1024_0_0).toLoadRect)
              (View.readAt (Elt F) a5 (Rect.unit ![0, 0] S1x1024.size inb_S1x1024_S1x1024_0_0).toLoadRect f2)⟩])
      = out3_3 (View.read (Elt F) a3 f0) (View.read (Elt F) a4 f1) (View.read (Elt F) a5 f2) := by
  rw [View.read_writes_eq_canon _ _ _ (cover_unit3 .bf16 _ []),
    View.canon_unit_zero hz3, View.readCov_unit_zero _ hz3,
    View.readCov_eq_canon_ld _ _ _ (cover_unit3 .f32 _ _),
    View.canon_cons_unit_zero hz3]
  simp only [View.readAt_eq_ld, View.ld_unit_zero (S := S512x1024) hz3, View.ld_unit_zero (S := S1024x1024) hz3, View.ld_unit_zero (S := S1x1024) hz3]
  rfl

/-! ## The body's triple -/

set_option maxHeartbeats 1000000 in
/-- The body on whole memrefs at a point where both conditions hold — the inputs' at read contents `xW`, the output's and the
    accumulator's at anything — runs to the continuation holding the inputs' as they were, the output's at `out3_3` of the
    inputs' and the accumulator's at some contents. -/
theorem sound_kernel3 (c : Dev nD) (E : Set ℕ) (i : grid3.Coords)
    (arg3 : Memref sig .tc .vmem S512x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole) (hc1 : cond3_1 i) (hc2 : cond3_2 i)
    (x0 : Vec F S512x1024 .f32) (x1 : Vec F S1024x1024 .bf16) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2) ∗ (∃ d, owns (c : Thread nD τ) arg7 fullShare d)) -∗ K ⟨⟩))
      ⊢ wp frame (wpE (defs₀ (F := F)) Variants.none c none) E (cc3__linear_kernel i arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    exact read_out3 _ _ _ _ _ _ _ _ _
  iexists _; iexists _; isplitr
  swap; · iexact H7
  ipureintro; rfl

/-! ## The pipeline's proof data -/

/-- The proof data of pipeline 3 on core `c`: the arrays as the region finds them (`V`); after the body at point `t` each
    input's buffer at its block and the output's at `out3_3` of the input blocks; the invariant: every scoped buffer that is no
    staging buffer (the accumulator among them) at some contents, and the generator register at some state; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- The invariant with the accumulator split out of the scoped rest, as a whole memref at some contents. -/
theorem PhiA3_eq (c : Dev nD) :
    (Pipeline.ΦA spec3 c : sProp 𝕄)
      = iprop(iprop((∃ d, owns (c : Thread nD τ) (Memref.whole cc3_scratch0) fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [owns_whole]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
/-- The body at any point: the inputs' memrefs hold their blocks, both conditions hold, so the triple applies; the invariant
    lends the accumulator and takes it back; the rest of the scoped buffers, the generator register and what the core owes
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    show (dat3 V c).Φ t.castSucc = Pipeline.ΦA spec3 c from rfl, PhiA3_eq]
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1,
    show (dat3 V c).leavesExact 2 t = owns (c : Thread nD τ) (st3_2 t) fullShare ((dat3 V c).after 2 t) from rfl, after3_2,
    show (dat3 V c).leavesExact 3 t = owns (c : Thread nD τ) (st3_3 t) fullShare ((dat3 V c).after 3 t) from by
      unfold Dat.leavesExact; rw [liveAt3_3 t], after3_3]
  iintro ⟨⟨⟨HS, Hrest⟩, Hg⟩, Ho, ⟨%d0, H0⟩, ⟨%d1, H1⟩, ⟨%d2, H2⟩, ⟨%d3, H3⟩⟩
  iapply (sound_kernel3 c Set.univ (grid3.coords t) _ _ _ _ _ _ _ _ _ _ (hcond3_1 t) (hcond3_2 t) (iblk3 V c 0 t) (iblk3 V c 1 t) (iblk3 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the launch hands the region is the invariant before the first point, -/
theorem hin3 (c : Dev nD) : iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp

/-- and the invariant after the last point gives it back. -/
theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.KernelIdeal.Gen

end
-- ==== Proof.KI.Region4.lean ====
/-
  Region 4: the second feed-forward product, the residual and the layer normalisation. A row tile of 512 rows takes
  FOUR grid points, one per block of 1024 along the contraction axis: the first zeroes the accumulator, every one adds
  its block's product to it, and the last runs the epilogue (residual + accumulator + bias, mean, two-pass variance,
  inverse square root, gain, offset) and stores the output block, which is written back once per row tile. Between the
  points of a tile the accumulator carries the partial sum: the region's invariant names it, point by point.
-/
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    point has the block index of the point before it, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    point has the block index of the point before it, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    point has the block index of the point before it, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched
    point has the block index of the point before it, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched
    point has the block index of the point before it, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: an unfetched
    point has the block index of the point before it, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions over the grid -/

/-- "This is the first step along the contraction axis", as the body computes it from the grid coordinates. -/
abbrev cond4_0 (i : grid4.Coords) : Prop := (Scalar.cmpi .ne (Scalar.extui (Scalar.cmpi .eq (BitVec.ofNat 32 (i 2).val) 0#32)) 0#32) = 1#1
/-- The contraction axis is the fastest of the grid and has four steps: the first is at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)
/-- "This is the last step along the contraction axis". -/
abbrev cond4_1 (i : grid4.Coords) : Prop := k4_cond2 i = 1#1
/-- The last is at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-- The inputs are never idle. -/
theorem liveAt4_in : ∀ (w : Fin cfg4.W), w ≠ 6 → ∀ t : Fin cfg4.N, cfg4.idle w (grid4.coords t) = false := by decide +kernel
/-- The output block is stored at the last step of a row tile only: elsewhere its window is idle, -/
theorem idleAt4_6 : ∀ t : Fin cfg4.N, ¬t.val % 4 = 3 → cfg4.idle 6 (grid4.coords t) = true := by decide +kernel
/-- and not written back; -/
theorem noFlush4_6 : ∀ t : Fin cfg4.N, ¬t.val % 4 = 3 → (cfg4.win 6).flush t = false := by decide +kernel
/-- at the last step it is live. -/
theorem liveAt4_6 : ∀ t : Fin cfg4.N, t.val % 4 = 3 → cfg4.idle 6 (grid4.coords t) = false := by decide +kernel

/-! ## What the body leaves, case by case -/

theorem hz4 : (![0, 0] : Fin 2 → Nat) = fun _ => 0 := funext fun a => by fin_cases a <;> rfl

/-- A load of the whole buffer after a store of the whole buffer reads that store's payload, whatever was stored before. -/
theorem readCov_cons_unit_zero4 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

set_option maxHeartbeats 4000000 in
/-- FIRST STEP of a row tile (the first condition holds, the last does not): the accumulator, at anything, is zeroed and ends at the zero block plus the product of the two bf16 blocks; the output block is handed back as found. -/
theorem sound_kernel4_A (c : Dev nD) (E : Set ℕ) (i : grid4.Coords) (hc0 : cond4_0 i) (hc1 : ¬cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xi : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare (k4_pay2 x0 x1 (k4_pay1 (F := F)))) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

set_option maxHeartbeats 4000000 in
/-- MIDDLE STEP (neither condition holds): the accumulator, at the partial sum `xs`, ends at `xs` plus the product of the two bf16 blocks; the output block is handed back as found. -/
theorem sound_kernel4_B (c : Dev nD) (E : Set ℕ) (i : grid4.Coords) (hc0 : ¬cond4_0 i) (hc1 : ¬cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xi xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xi ∗ owns (c : Thread nD τ) arg10 fullShare (k4_pay2 x0 x1 xs)) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

set_option maxHeartbeats 4000000 in
/-- LAST STEP (the last condition holds, the first does not): the accumulator ends at `xs` plus the product, and the output block, at anything, at the layer normalisation of (residual + that sum) + bias. -/
theorem sound_kernel4_C (c : Dev nD) (E : Set ℕ) (i : grid4.Coords) (hc0 : ¬cond4_0 i) (hc1 : cond4_1 i)
    (arg3 : Memref sig .tc .vmem S512x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S512x1024 .f32) (harg9 : arg9.IsWhole) (arg10 : Memref sig .tc .vmem S512x1024 .f32) (harg10 : arg10.IsWhole)
    (x0 : Vec F S512x1024 .bf16) (x1 : Vec F S1024x1024 .bf16) (x2 : Vec F S1x1024 .f32) (x3 : Vec F S512x1024 .f32)
    (x4 : Vec F S1x1024 .f32) (x5 : Vec F S1x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare (k4_pay3 x3 (k4_pay2 x0 x1 xs) x2 x4 x5) ∗ owns (c : Thread nD τ) arg10 fullShare (k4_pay2 x0 x1 xs)) -∗ K ⟨⟩))
      ⊢ wp frame (wpE (defs₀ (F := F)) Variants.none c none) E (cc4__linear_addln_kernel i arg3 harg3 arg4 harg4 arg5 harg5 arg6 harg6 arg7 harg7 arg8 harg8 arg9 harg9 arg10 harg10) K := by
  simp only [cc4__linear_addln_kernel_eq_skeleton]; unfold cc4__linear_addln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.Mem.head _, View.mem_set_unit_zero hz4 inb_S512x1024_S512x1024_0_0 y⟩), View.canon_cons_unit_zero hz4]
    simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]
  iexists _; isplitr
  swap; · iexact H7
  ipureintro
  try sl_unfold_words
  rw [View.read_writes_eq_canon _ _ _ (fun y => ⟨_, List.Mem.head _, View.mem_set_unit_zero hz4 inb_S512x1024_S512x1024_0_0 y⟩), View.canon_cons_unit_zero hz4]
  simp only [readCov_cons_unit_zero4 (S := S512x1024) _ hz4, View.readCov_unit_zero (S := S512x1024) _ hz4, View.readAt_eq_ld, View.ld_unit_zero (S := S512x1024) hz4, View.ld_unit_zero (S := S1024x1024) hz4, View.ld_unit_zero (S := S1x1024) hz4]

/-! ## The accumulator, point by point -/

/-- What the accumulator holds after the body at point `n`: at the first step of a row tile the zero block plus that
    step's product; at a later step what the point before left plus that step's product. -/
def acc4 (c : Dev nD) : (n : ℕ) → n < cfg4.N → Vec F S512x1024 .f32
  | 0, hn => k4_pay2 (iblk4 V c 0 ⟨0, hn⟩) (iblk4 V c 1 ⟨0, hn⟩) (k4_pay1 (F := F))
  | n + 1, hn =>
    if (n + 1) % 4 = 0 then k4_pay2 (iblk4 V c 0 ⟨n + 1, hn⟩) (iblk4 V c 1 ⟨n + 1, hn⟩) (k4_pay1 (F := F))
    else k4_pay2 (iblk4 V c 0 ⟨n + 1, hn⟩) (iblk4 V c 1 ⟨n + 1, hn⟩) (acc4 c n (Nat.lt_of_succ_lt hn))

/-- At the first step of a row tile. -/
theorem acc4_first (c : Dev nD) (t : Fin cfg4.N) (h0 : t.val % 4 = 0) :
    acc4 V c t.val t.isLt = k4_pay2 (iblk4 V c 0 t) (iblk4 V c 1 t) (k4_pay1 (F := F)) := by
  obtain ⟨n, hn⟩ := t
  cases n with
  | zero => exact rfl
  | succ n => exact (if_pos h0).trans rfl

/-- At a later step. -/
theorem acc4_next (c : Dev nD) (t : Fin cfg4.N) (h0 : ¬t.val % 4 = 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The accumulator operand: a whole scoped buffer of the call's own. -/
abbrev scM4 : Memref sig .tc .vmem S512x1024 .f32 := Memref.whole cc4_scratch0

/-- The scoped buffers that are no staging buffer, with the accumulator split off as a memref owned at some contents. -/
theorem scopedRest4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4 fullShare d))
          ∗ Pipeline.scopedRestBut (Ix := Unit) (Name := ℕ) (U := UR sig nD τ) (Lvl := ℕ) (Val := Elt F) spec4 c [cc4_scratch0]) := by
  rw [scopedRest4_split]; simp only [scM4, owns_whole]; try rfl

/-- The region invariant before position `n`: before the first point every scoped buffer that is no staging buffer at
    anything; afterwards the accumulator at what the point before left in it, the others at anything; and the generator
    register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The invariant before the first point, opened. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_eq]

/-! ## The region's proof data -/

/-- The proof data of region 4 on core `c`: the arrays as the region finds them (`V`); after the body at point `t`
    each input's buffer at its block, and the output's at the layer normalisation of (residual + accumulator after
    `t`) + bias — which the body stores at the last step of a row tile only, the one the pipeline writes back; the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay3 (iblk4 V c 3 t) (acc4 V c t.val t.isLt) (iblk4 V c 2 t) (iblk4 V c 4 t) (iblk4 V c 5 t)
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = k4_pay3 (iblk4 V c 3 t) (acc4 V c t.val t.isLt) (iblk4 V c 2 t) (iblk4 V c 4 t) (iblk4 V c 5 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 8000000 in
/-- The body at any point: the inputs' memrefs hold their blocks; the closed forms say which step of its row tile the
    point is; the invariant hands the body the accumulator at what the point before left (at anything at a tile's
    first step) and takes it back at this point's contents; an output block the step does not store is handed back
    as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_in 0 (by decide) t], after4_0]
  rw [show (dat4 V c).leavesExact 1 t = owns (c : Thread nD τ) (st4_1 t) fullShare ((dat4 V c).after 1 t) from by
    unfold Dat.leavesExact; rw [liveAt4_in 1 (by decide) t], after4_1]
  rw [show (dat4 V c).leavesExact 2 t = owns (c : Thread nD τ) (st4_2 t) fullShare ((dat4 V c).after 2 t) from by
    unfold Dat.leavesExact; rw [liveAt4_in 2 (by decide) t], after4_2]
  rw [show (dat4 V c).leavesExact 3 t = owns (c : Thread nD τ) (st4_3 t) fullShare ((dat4 V c).after 3 t) from by
    unfold Dat.leavesExact; rw [liveAt4_in 3 (by decide) t], after4_3]
  rw [show (dat4 V c).leavesExact 4 t = owns (c : Thread nD τ) (st4_4 t) fullShare ((dat4 V c).after 4 t) from by
    unfold Dat.leavesExact; rw [liveAt4_in 4 (by decide) t], after4_4]
  rw [show (dat4 V c).leavesExact 5 t = owns (c : Thread nD τ) (st4_5 t) fullShare ((dat4 V c).after 5 t) from by
    unfold Dat.leavesExact; rw [liveAt4_in 5 (by decide) t], after4_5]
  have hN : t.val < 64 := lt_of_lt_of_eq t.isLt (show cfg4.N = 64 from N_4)
  by_cases h0 : t.val % 4 = 0
  · have h1 : ¬t.val % 4 = 3 := by omega
    rw [Dat.leavesExact_idle (dat4 V c) 6 t (idleAt4_6 t h1) (noFlush4_6 t h1)]
    rw [acc4_first V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    rw [acc4_next V c t h0]
    rw [PhiS4_castSucc V c t, PhiS4_pos V c _ _ hz]
    by_cases h1 : t.val % 4 = 3
    · rw [show (dat4 V c).leavesExact 6 t = owns (c : Thread nD τ) (st4_6 t) fullShare ((dat4 V c).after 6 t) from by
        unfold Dat.leavesExact; rw [liveAt4_6 t h1], after4_6, acc4_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_C c Set.univ (grid4.coords t) (fun h => h0 ((hcond4_0 t).mp h)) ((hcond4_1 t).mpr h1) _ _ _ _ _ _ _ _ _ _ _ _ _ _ _ _
        (iblk4 V c 0 t) (iblk4 V c 1 t) (iblk4 V c 2 t) (iblk4 V c 3 t) (iblk4 V c 4 t) (iblk4 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 6 t (idleAt4_6 t h1) (noFlush4_6 t h1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_B c Set.univ (grid4.coords t) (fun h => h0 ((hcond4_0 t).mp h)) (fun h => h1 ((hcond4_1 t).mp h)) _ _ _ _ _ _ _ _ _ _ _ _ _ _ _ _
        (iblk4 V c 0 t) (iblk4 V c 1 t) (iblk4 V c 2 t) (iblk4 V c 3 t) (iblk4 V c 4 t) (iblk4 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : iprop((∃ r, prngReg c r) ∗ Pipeline.scopedRest (Ix := Unit) (Name := ℕ) (U := UR sig nD τ) (Lvl := ℕ) spec4 c) ⊢ ((dat4 V c).Φ 0 : sProp 𝕄) := by
  rw [show (dat4 V c).Φ 0 = PhiS4 V c 0 (Nat.zero_le _) from rfl, PhiS4_zero V c 0 _ rfl]
  unfold Pipeline.ΦA
  iintro ⟨Hg, Hs⟩
  isplitl [Hs]; · iexact Hs
  iexact Hg

/-- And the invariant after the last point gives it back: the accumulator's named contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), scopedRest4_eq]
  iintro ⟨⟨HS, HR⟩, Hg⟩
  isplitl [Hg]; · iexact Hg
  isplitl [HS]; · iexists _; iexact HS
  iexact HR

end Region4

end Cert.KernelIdeal.Gen

end
-- ==== Proof.KI.Fold.lean ====
/-
  The buffer contents at every boundary of the kernel program's @main, as a fold from the launch memory: a host stretch takes the
  contents through its operations; a kernel region replaces its output window's array by what its write-backs leave and keeps
  every other buffer. Region 1 reads ONE array through three windows, so its exit contents are an update at its output alone.
-/
import proofs.«105537_j20366734917908_2_alg».proof.Proof.KI.Region0
import proofs.«105537_j20366734917908_2_alg».proof.Proof.KI.Region1
import proofs.«105537_j20366734917908_2_alg».proof.Proof.KI.Region2
import proofs.«105537_j20366734917908_2_alg».proof.Proof.KI.Region3
import proofs.«105537_j20366734917908_2_alg».proof.Proof.KI.Region4
import proofs.«105537_j20366734917908_2_alg».proof.Proof.Gen.KernelIdeal.Launch
import proofs.«105537_j20366734917908_2_alg».proof.Proof.Gen.KernelIdeal.Skeleton
import proofs.«105537_j20366734917908_2_alg».proof.Proof.Gen.KernelIdeal.Points
import proofs.«105537_j20366734917908_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: a fold from the launch memory -/

/-- Core `c`'s buffers at launch. -/
abbrev X0 : Dev nD → Valuation τ sig (Elt F) := fun c b => m (c, b)
/-- After the host stretch before region 0 (the region's entry contents). -/
abbrev X1 : Dev nD → Valuation τ sig (Elt F) := fun c => StableHlo.after hostOps0 (X0 m c)
/-- The same read at the TensorCore's references. -/
abbrev Xv1 : (c : Dev nD) → (b : Ref sig .tc) → Buf (Elt F) ((c : Thread nD τ).loc b) := fun c b => X1 m c b
/-- At region 0's exit: its arrays at what its write-backs leave, every other buffer as entered. -/
def X2 (c : Dev nD) : Valuation τ sig (Elt F) :=
  Pipeline.withArrays spec0 c (X1 m c) fun w => (dat0 (Xv1 m) c).arrAt w cfg0.N
theorem X2_arr (c : Dev nD) (w : Fin cfg0.W) :
    X2 m c (Proc.devRef .tc (Pipeline.arrRef spec0 w)) = (dat0 (Xv1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Xv2 : (c : Dev nD) → (b : Ref sig .tc) → Buf (Elt F) ((c : Thread nD τ).loc b) := fun c b => X2 m c b
theorem hF0 (c : Dev nD) (w : Fin cfg0.W) : (dat0 (Xv1 m) c).arrAt w cfg0.N = Xv2 m c (Pipeline.arrRef spec0 w) :=
  (X2_arr m c w).symm
theorem hrest0 (c : Dev nD) : ∀ b, b ∉ Finset.univ.image (Pipeline.arrRef spec0) → Xv2 m c b = Xv1 m c b :=
  fun b hb => X2_of_ne m c b fun w e => hb (Finset.mem_image.mpr ⟨w, Finset.mem_univ _, e⟩)

/-- After the host stretch before region 1 (the region's entry contents). -/
abbrev X3 : Dev nD → Valuation τ sig (Elt F) := fun c => StableHlo.after hostOps1 (X2 m c)
abbrev Xv3 : (c : Dev nD) → (b : Ref sig .tc) → Buf (Elt F) ((c : Thread nD τ).loc b) := fun c b => X3 m c b
/-- At region 1's exit: the one output array at what its write-backs leave; the shared input array and every other buffer
    as entered (three windows read one array, so the exit contents are written as an update at the output alone). -/
def X4 (c : Dev nD) : Valuation τ sig (Elt F) :=
  Function.update (X3 m c) (Proc.devRef .tc main_v10) ((dat1 (Xv3 m) c).arrAt 3 cfg1.N)
abbrev Xv4 : (c : Dev nD) → (b : Ref sig .tc) → Buf (Elt F) ((c : Thread nD τ).loc b) := fun c b => X4 m c b
theorem X4_of_ne (c : Dev nD) (b : Ref sig .tc) (hb : b ≠ main_v10) :
    X4 m c (Proc.devRef .tc b) = X3 m c (Proc.devRef .tc b) := by
  unfold X4; exact Function.update_of_ne (StableHlo.devRef_ne_of_ne hb) _ _
theorem X4_out (c : Dev nD) : X4 m c (Proc.devRef .tc main_v10) = (dat1 (Xv3 m) c).arrAt 3 cfg1.N := by
  unfold X4; exact Function.update_self _ _ _
theorem hF1 (c : Dev nD) (w : Fin cfg1.W) : (dat1 (Xv3 m) c).arrAt w cfg1.N = Xv4 m c (Pipeline.arrRef spec1 w) := by
  match w with
  | ⟨0, _⟩ => exact (((dat1 (Xv3 m) c).arrAt_in 0 rfl _).trans (A_eq1 (Xv3 m) c 0)).trans (X4_of_ne m c _ (by decide)).symm
  | ⟨1, _⟩ => exact (((dat1 (Xv3 m) c).arrAt_in 1 rfl _).trans (A_eq1 (Xv3 m) c 1)).trans (X4_of_ne m c _ (by decide)).symm
  | ⟨2, _⟩ => exact (((dat1 (Xv3 m) c).arrAt_in 2 rfl _).trans (A_eq1 (Xv3 m) c 2)).trans (X4_of_ne m c _ (by decide)).symm
  | ⟨3, _⟩ => exact (X4_out m c).symm
theorem hrest1 (c : Dev nD) : ∀ b, b ∉ Finset.univ.image (Pipeline.arrRef spec1) → Xv4 m c b = Xv3 m c b :=
  fun b hb => X4_of_ne m c b fun e => hb (Finset.mem_image.mpr ⟨3, Finset.mem_univ _, e.symm⟩)

/-- After the host stretch before region 2 (the region's entry contents). -/
abbrev X5 : Dev nD → Valuation τ sig (Elt F) := fun c => StableHlo.after hostOps2 (X4 m c)
/-- The same read at the TensorCore's references. -/
abbrev Xv5 : (c : Dev nD) → (b : Ref sig .tc) → Buf (Elt F) ((c : Thread nD τ).loc b) := fun c b => X5 m c b
/-- At region 2's exit: its arrays at what its write-backs leave, every other buffer as entered. -/
def X6 (c : Dev nD) : Valuation τ sig (Elt F) :=
  Pipeline.withArrays spec2 c (X5 m c) fun w => (dat2 (Xv5 m) c).arrAt w cfg2.N
theorem X6_arr (c : Dev nD) (w : Fin cfg2.W) :
    X6 m c (Proc.devRef .tc (Pipeline.arrRef spec2 w)) = (dat2 (Xv5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Xv6 : (c : Dev nD) → (b : Ref sig .tc) → Buf (Elt F) ((c : Thread nD τ).loc b) := fun c b => X6 m c b
theorem hF2 (c : Dev nD) (w : Fin cfg2.W) : (dat2 (Xv5 m) c).arrAt w cfg2.N = Xv6 m c (Pipeline.arrRef spec2 w) :=
  (X6_arr m c w).symm
theorem hrest2 (c : Dev nD) : ∀ b, b ∉ Finset.univ.image (Pipeline.arrRef spec2) → Xv6 m c b = Xv5 m c b :=
  fun b hb => X6_of_ne m c b fun w e => hb (Finset.mem_image.mpr ⟨w, Finset.mem_univ _, e⟩)

/-- After the host stretch before region 3 (the region's entry contents). -/
abbrev X7 : Dev nD → Valuation τ sig (Elt F) := fun c => StableHlo.after hostOps3 (X6 m c)
/-- The same read at the TensorCore's references. -/
abbrev Xv7 : (c : Dev nD) → (b : Ref sig .tc) → Buf (Elt F) ((c : Thread nD τ).loc b) := fun c b => X7 m c b
/-- At region 3's exit: its arrays at what its write-backs leave, every other buffer as entered. -/
def X8 (c : Dev nD) : Valuation τ sig (Elt F) :=
  Pipeline.withArrays spec3 c (X7 m c) fun w => (dat3 (Xv7 m) c).arrAt w cfg3.N
theorem X8_arr (c : Dev nD) (w : Fin cfg3.W) :
    X8 m c (Proc.devRef .tc (Pipeline.arrRef spec3 w)) = (dat3 (Xv7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Xv8 : (c : Dev nD) → (b : Ref sig .tc) → Buf (Elt F) ((c : Thread nD τ).loc b) := fun c b => X8 m c b
theorem hF3 (c : Dev nD) (w : Fin cfg3.W) : (dat3 (Xv7 m) c).arrAt w cfg3.N = Xv8 m c (Pipeline.arrRef spec3 w) :=
  (X8_arr m c w).symm
theorem hrest3 (c : Dev nD) : ∀ b, b ∉ Finset.univ.image (Pipeline.arrRef spec3) → Xv8 m c b = Xv7 m c b :=
  fun b hb => X8_of_ne m c b fun w e => hb (Finset.mem_image.mpr ⟨w, Finset.mem_univ _, e⟩)

/-- After the host stretch before region 4 (the region's entry contents). -/
abbrev X9 : Dev nD → Valuation τ sig (Elt F) := fun c => StableHlo.after hostOps4 (X8 m c)
/-- The same read at the TensorCore's references. -/
abbrev Xv9 : (c : Dev nD) → (b : Ref sig .tc) → Buf (Elt F) ((c : Thread nD τ).loc b) := fun c b => X9 m c b
/-- At region 4's exit: its arrays at what its write-backs leave, every other buffer as entered. -/
def X10 (c : Dev nD) : Valuation τ sig (Elt F) :=
  Pipeline.withArrays spec4 c (X9 m c) fun w => (dat4 (Xv9 m) c).arrAt w cfg4.N
theorem X10_arr (c : Dev nD) (w : Fin cfg4.W) :
    X10 m c (Proc.devRef .tc (Pipeline.arrRef spec4 w)) = (dat4 (Xv9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev Xv10 : (c : Dev nD) → (b : Ref sig .tc) → Buf (Elt F) ((c : Thread nD τ).loc b) := fun c b => X10 m c b
theorem hF4 (c : Dev nD) (w : Fin cfg4.W) : (dat4 (Xv9 m) c).arrAt w cfg4.N = Xv10 m c (Pipeline.arrRef spec4 w) :=
  (X10_arr m c w).symm
theorem hrest4 (c : Dev nD) : ∀ b, b ∉ Finset.univ.image (Pipeline.arrRef spec4) → Xv10 m c b = Xv9 m c b :=
  fun b hb => X10_of_ne m c b fun w e => hb (Finset.mem_image.mpr ⟨w, Finset.mem_univ _, e⟩)

/-- After the last host stretch: the contents @main returns with. -/
abbrev X11 : Dev nD → Valuation τ sig (Elt F) := fun c => StableHlo.after hostOps5 (X10 m c)

end Cert.KernelIdeal.Gen

end
-- ==== Proof.KI.Run.lean ====
/-
  The kernel program's run: @main as eleven segments (six host stretches, five kernel regions), each region entered from every
  unscoped buffer at the boundary's contents with the generator register and an empty debt riding along; its arrays are split out
  of the unscoped buffers on entry and put back at their final contents on exit. The launch theorem then gives: every weakly fair
  execution terminates, nothing faults, and each unscoped buffer ends at the last boundary's contents — from which the frame (every
  argument as launched: no stretch writes one, no region holds one) and the result buffer's contents are read.
-/
import proofs.«105537_j20366734917908_2_alg».proof.Proof.KI.Fold
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents: a literal match on the pipeline. -/
def pdats : (p : Fin 5) → (c : Dev nD) → Dat τ (Elt F) Unit ℕ (UR sig nD τ) ℕ (Pipeline.pin (pcfgs (F := F)) adm p) c
  | ⟨0, _⟩ => fun c => dat0 (Xv1 m) c
  | ⟨1, _⟩ => fun c => dat1 (Xv3 m) c
  | ⟨2, _⟩ => fun c => dat2 (Xv5 m) c
  | ⟨3, _⟩ => fun c => dat3 (Xv7 m) c
  | ⟨4, _⟩ => fun c => dat4 (Xv9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `X1`, left at `X2`. Its arrays are split out of the
    unscoped buffers and put back at the exit contents; the generator register and the scoped rest go into the region's invariant and
    come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Xv1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Xv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Xv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat0 (Xv1 m) c).Φ 0
    iintro ⟨Hp, -, Hr⟩
    iapply (hin0 (Xv1 m) c)
    isplitl [Hp]; · iexact Hp
    iexact Hr
  hout c := by
    rw [Pipeline.ownSems0_none]
    show (dat0 (Xv1 m) c).Φ (Fin.last cfg0.N) ⊢ _
    iintro H
    ihave H' := (hout0 (Xv1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Xv1 m c) (Xv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `X3`, left at `X4`. Its arrays are split out of the
    unscoped buffers and put back at the exit contents; the generator register and the scoped rest go into the region's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Xv3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Xv3 m c)
  hentry c := by
    rw [Pipeline.ownSems0_none]
    have hsplit : (unscopedBufs c (Xv3 m c) : sProp 𝕄) ⊢ iprop((pdats m 1 c).arrays (pdats m 1 c).A ∗ Pipeline.unscopedRest spec1 c (Xv3 m c)) := entry1 (Xv3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (Xv3 m) c).Φ 0
    iintro ⟨Hp, -, Hr⟩
    iapply (hin1 (Xv3 m) c)
    isplitl [Hp]; · iexact Hp
    iexact Hr
  hout c := by
    rw [Pipeline.ownSems0_none]
    show (dat1 (Xv3 m) c).Φ (Fin.last cfg1.N) ⊢ _
    iintro H
    ihave H' := (hout1 (Xv3 m) c) $$ H
    icases H' with ⟨Hp, Hr⟩
    isplitl [Hp]; · iexact Hp
    isplitr; · iempintro
    iexact Hr
  hexit c := by
    have hjoin : (iprop((pdats m 1 c).arrays ((pdats m 1 c).arrAt · cfg1.N) ∗ Pipeline.unscopedRest spec1 c (Xv3 m c)) : sProp 𝕄) ⊢ unscopedBufs c (Xv4 m c) :=
      exit1 (Xv3 m) c (Xv4 m c) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `X5`, left at `X6`. Its arrays are split out of the
    unscoped buffers and put back at the exit contents; the generator register and the scoped rest go into the region's invariant and
    come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Xv5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Xv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Xv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat2 (Xv5 m) c).Φ 0
    iintro ⟨Hp, -, Hr⟩
    iapply (hin2 (Xv5 m) c)
    isplitl [Hp]; · iexact Hp
    iexact Hr
  hout c := by
    rw [Pipeline.ownSems0_none]
    show (dat2 (Xv5 m) c).Φ (Fin.last cfg2.N) ⊢ _
    iintro H
    ihave H' := (hout2 (Xv5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Xv5 m c) (Xv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `X7`, left at `X8`. Its arrays are split out of the
    unscoped buffers and put back at the exit contents; the generator register and the scoped rest go into the region's invariant and
    come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Xv7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (Xv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Xv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat3 (Xv7 m) c).Φ 0
    iintro ⟨Hp, -, Hr⟩
    iapply (hin3 (Xv7 m) c)
    isplitl [Hp]; · iexact Hp
    iexact Hr
  hout c := by
    rw [Pipeline.ownSems0_none]
    show (dat3 (Xv7 m) c).Φ (Fin.last cfg3.N) ⊢ _
    iintro H
    ihave H' := (hout3 (Xv7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Xv7 m c) (Xv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `X9`, left at `X10`. Its arrays are split out of the
    unscoped buffers and put back at the exit contents; the generator register and the scoped rest go into the region's invariant and
    come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Xv9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (Xv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Xv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat4 (Xv9 m) c).Φ 0
    iintro ⟨Hp, -, Hr⟩
    iapply (hin4 (Xv9 m) c)
    isplitl [Hp]; · iexact Hp
    iexact Hr
  hout c := by
    rw [Pipeline.ownSems0_none]
    show (dat4 (Xv9 m) c).Φ (Fin.last cfg4.N) ⊢ _
    iintro H
    ihave H' := (hout4 (Xv9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Xv9 m c) (Xv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order. -/
abbrev hsegs : List (Pipeline.Seg (pcfgs (F := F)) adm (pdats m) () defs₀ 𝒱₀ L lv) :=
  [ .host (hostSeg hostOps0 hostOps0_sub hostOps0_fresh (X0 m)),
    .region (reg0 m),
    .host (hostSeg hostOps1 hostOps1_sub hostOps1_fresh (X2 m)),
    .region (reg1 m),
    .host (hostSeg hostOps2 hostOps2_sub hostOps2_fresh (X4 m)),
    .region (reg2 m),
    .host (hostSeg hostOps3 hostOps3_sub hostOps3_fresh (X6 m)),
    .region (reg3 m),
    .host (hostSeg hostOps4 hostOps4_sub hostOps4_fresh (X8 m)),
    .region (reg4 m),
    .host (hostSeg hostOps5 hostOps5_sub hostOps5_fresh (X10 m)) ]
/-- @main IS the run of the segments. -/
theorem hmain_run (c : Dev nD) : main (F := F) c = Pipeline.Seg.run (hsegs m) := (main_chain c).trans (by chain_rfl)

set_option backward.isDefEq.respectTransparency.types false in
/-- THE RUN: from any memory with zero counters every weakly fair execution of @main terminates, nothing faulting, and every
    final state holds each unscoped buffer of each core at the last boundary's contents `X11`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = X11 m c b) :=
  Pipeline.θ_run_regions_kit (pcfgs (F := F)) adm (pdats m) () cellOf_inj emb₁ defs₀ 𝒱₀ L lv m ρ main (hsegs m)
    (fun c Q => by rw [hmain_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => iprop(StableHlo.held (c : Thread nD τ) (Pipeline.ucRefs τ sig) (X11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (X11 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X11 m c b)
    (hfin := fun c s' => by
      iintro ⟨⟨Hh, -⟩, HSI⟩
      unfold StableHlo.held
      imodintro
      iapply (pointsTo_read_all (Pipeline.ucRefs τ sig) (fun b => (((c : Thread nD τ)).1, b)) (X11 m c) s')
      isplitl [Hh] <;> iassumption)
    (hQ := fun s h c => h c)

/-! ## Reading the last contents -/

/-- A buffer that no host stretch writes and that is no window's array of any region (for region 1: not its output) ends holding
    its launch contents: walk the fold back boundary by boundary. -/
theorem X11_keep (c : Dev nD) (r : Ref sig .tc) (h0 : r ∉ hostOps0_W) (h1 : r ∉ hostOps1_W) (h2 : r ∉ hostOps2_W) (h3 : r ∉ hostOps3_W)
    (h4 : r ∉ hostOps4_W) (h5 : r ∉ hostOps5_W) (a0 : ∀ w, Pipeline.arrRef spec0 w ≠ r) (a1 : r ≠ main_v10) (a2 : ∀ w, Pipeline.arrRef spec2 w ≠ r)
    (a3 : ∀ w, Pipeline.arrRef spec3 w ≠ r) (a4 : ∀ w, Pipeline.arrRef spec4 w ≠ r) :
    X11 m c (Proc.devRef .tc r) = m ((c : Thread nD τ).loc r) :=
  calc X11 m c (Proc.devRef .tc r)
    _ = X10 m c (Proc.devRef .tc r) := StableHlo.after_of_writes_sub hostOps5 _ hostOps5_writes h5
    _ = X9 m c (Proc.devRef .tc r) := X10_of_ne m c r a4
    _ = X8 m c (Proc.devRef .tc r) := StableHlo.after_of_writes_sub hostOps4 _ hostOps4_writes h4
    _ = X7 m c (Proc.devRef .tc r) := X8_of_ne m c r a3
    _ = X6 m c (Proc.devRef .tc r) := StableHlo.after_of_writes_sub hostOps3 _ hostOps3_writes h3
    _ = X5 m c (Proc.devRef .tc r) := X6_of_ne m c r a2
    _ = X4 m c (Proc.devRef .tc r) := StableHlo.after_of_writes_sub hostOps2 _ hostOps2_writes h2
    _ = X3 m c (Proc.devRef .tc r) := X4_of_ne m c r a1
    _ = X2 m c (Proc.devRef .tc r) := StableHlo.after_of_writes_sub hostOps1 _ hostOps1_writes h1
    _ = X1 m c (Proc.devRef .tc r) := X2_of_ne m c r a0
    _ = X0 m c (Proc.devRef .tc r) := StableHlo.after_of_writes_sub hostOps0 _ hostOps0_writes h0
    _ = m ((c : Thread nD τ).loc r) := rfl

/-- THE RUN WITH ITS RESULT NAMED: every weakly fair execution of @main terminates, nothing faulting; the result buffer ends at the
    last boundary's contents and every argument array as launched. -/
theorem run_named : θ_run defs (onTc (τ := τ) (main (F := F))) ⟨m, fun _ => 0, ρ⟩ (fun r => ∀ c : Dev nD,
      r.2.mem ((c.tc : Thread nD τ).loc main_v22) = X11 m c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v22 (by decide)),
      (h c _ (mem_uc main_arg0 (by decide))).trans (X11_keep m c main_arg0 (by decide) (by decide) (by decide) (by decide) (by decide) (by decide) (by decide) (by decide) (by decide) (by decide) (by decide)),
      (h c _ (mem_uc main_arg1 (by decide))).trans (X11_keep m c main_arg1 (by decide) (by decide) (by decide) (by decide) (by decide) (by decide) (by decide) (by decide) (by decide) (by decide) (by decide)),
      (h c _ (mem_uc main_arg2 (by decide))).trans (X11_keep m c main_arg2 (by decide) (by decide) (by decide) (by decide) (by decide) (by decide) (by decide) (by decide) (by decide) (by decide) (by decide)),
      (h c _ (mem_uc main_arg3 (by decide))).trans (X11_keep m c main_arg3 (by decide) (by decide) (by decide) (by decide) (by decide) (by decide) (by decide) (by decide) (by decide) (by decide) (by decide)),
      (h c _ (mem_uc main_arg4 (by decide))).trans (X11_keep m c main_arg4 (by decide) (by decide) (by decide) (by decide) (by decide) (by decide) (by decide) (by decide) (by decide) (by decide) (by decide)),
      (h c _ (mem_uc main_arg5 (by decide))).trans (X11_keep m c main_arg5 (by decide) (by decide) (by decide) (by decide) (by decide) (by decide) (by decide) (by decide) (by decide) (by decide) (by decide)),
      (h c _ (mem_uc main_arg6 (by decide))).trans (X11_keep m c main_arg6 (by decide) (by decide) (by decide) (by decide) (by decide) (by decide) (by decide) (by decide) (by decide) (by decide) (by decide)),
      (h c _ (mem_uc main_arg7 (by decide))).trans (X11_keep m c main_arg7 (by decide) (by decide) (by decide) (by decide) (by decide) (by decide) (by decide) (by decide) (by decide) (by decide) (by decide)),
      (h c _ (mem_uc main_arg8 (by decide))).trans (X11_keep m c main_arg8 (by decide) (by decide) (by decide) (by decide) (by decide) (by decide) (by decide) (by decide) (by decide) (by decide) (by decide)),
      (h c _ (mem_uc main_arg9 (by decide))).trans (X11_keep m c main_arg9 (by decide) (by decide) (by decide) (by decide) (by decide) (by decide) (by decide) (by decide) (by decide) (by decide) (by decide)),
      (h c _ (mem_uc main_arg10 (by decide))).trans (X11_keep m c main_arg10 (by decide) (by decide) (by decide) (by decide) (by decide) (by decide) (by decide) (by decide) (by decide) (by decide) (by decide)),
      (h c _ (mem_uc main_arg11 (by decide))).trans (X11_keep m c main_arg11 (by decide) (by decide) (by decide) (by decide) (by decide) (by decide) (by decide) (by decide) (by decide) (by decide) (by decide)),
      (h c _ (mem_uc main_arg12 (by decide))).trans (X11_keep m c main_arg12 (by decide) (by decide) (by decide) (by decide) (by decide) (by decide) (by decide) (by decide) (by decide) (by decide) (by decide)),
      (h c _ (mem_uc main_arg13 (by decide))).trans (X11_keep m c main_arg13 (by decide) (by decide) (by decide) (by decide) (by decide) (by decide) (by decide) (by decide) (by decide) (by decide) (by decide)),
      (h c _ (mem_uc main_arg14 (by decide))).trans (X11_keep m c main_arg14 (by decide) (by decide) (by decide) (by decide) (by decide) (by decide) (by decide) (by decide) (by decide) (by decide) (by decide)),
      (h c _ (mem_uc main_arg15 (by decide))).trans (X11_keep m c main_arg15 (by decide) (by decide) (by decide) (by decide) (by decide) (by decide) (by decide) (by decide) (by decide) (by decide) (by decide)),
      (h c _ (mem_uc main_arg16 (by decide))).trans (X11_keep m c main_arg16 (by decide) (by decide) (by decide) (by decide) (by decide) (by decide) (by decide) (by decide) (by decide) (by decide) (by decide))⟩) (run_all m ρ)

/-- THE FRAME: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_named m ρ)

end Cert.KernelIdeal.Gen

end
-- ==== Proof.KI.Keep.lean ====
/-
  Which buffers keep their contents across which boundaries of the kernel program's fold: an argument is written by no host
  stretch and held by no region, so it reads as launched at every boundary; an intermediate buffer written once (the reshaped
  input, the cast weights, a region's output) keeps that value until a later region reads it, because the stretches and regions
  in between write other buffers (an input window's array is given back as it was found).
-/
import proofs.«105537_j20366734917908_2_alg».proof.Proof.KI.Fold
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## A reference nothing writes, boundary by boundary -/

theorem X1_arg (c : Dev nD) (r : Ref sig .tc) (h0 : r ∉ hostOps0_W) : X1 m c (Proc.devRef .tc r) = m ((c : Thread nD τ).loc r) :=
  StableHlo.after_of_writes_sub hostOps0 _ hostOps0_writes h0
theorem X2_arg (c : Dev nD) (r : Ref sig .tc) (h0 : r ∉ hostOps0_W) (a0 : ∀ w, Pipeline.arrRef spec0 w ≠ r) :
    X2 m c (Proc.devRef .tc r) = m ((c : Thread nD τ).loc r) := (X2_of_ne m c r a0).trans (X1_arg m c r h0)
theorem X3_arg (c : Dev nD) (r : Ref sig .tc) (h0 : r ∉ hostOps0_W) (a0 : ∀ w, Pipeline.arrRef spec0 w ≠ r) (h1 : r ∉ hostOps1_W) :
    X3 m c (Proc.devRef .tc r) = m ((c : Thread nD τ).loc r) :=
  (StableHlo.after_of_writes_sub hostOps1 _ hostOps1_writes h1).trans (X2_arg m c r h0 a0)
theorem X4_arg (c : Dev nD) (r : Ref sig .tc) (h0 : r ∉ hostOps0_W) (a0 : ∀ w, Pipeline.arrRef spec0 w ≠ r) (h1 : r ∉ hostOps1_W)
    (a1 : r ≠ main_v10) : X4 m c (Proc.devRef .tc r) = m ((c : Thread nD τ).loc r) :=
  (X4_of_ne m c r a1).trans (X3_arg m c r h0 a0 h1)
theorem X5_arg (c : Dev nD) (r : Ref sig .tc) (h0 : r ∉ hostOps0_W) (a0 : ∀ w, Pipeline.arrRef spec0 w ≠ r) (h1 : r ∉ hostOps1_W)
    (a1 : r ≠ main_v10) (h2 : r ∉ hostOps2_W) : X5 m c (Proc.devRef .tc r) = m ((c : Thread nD τ).loc r) :=
  (StableHlo.after_of_writes_sub hostOps2 _ hostOps2_writes h2).trans (X4_arg m c r h0 a0 h1 a1)
theorem X6_arg (c : Dev nD) (r : Ref sig .tc) (h0 : r ∉ hostOps0_W) (a0 : ∀ w, Pipeline.arrRef spec0 w ≠ r) (h1 : r ∉ hostOps1_W)
    (a1 : r ≠ main_v10) (h2 : r ∉ hostOps2_W) (a2 : ∀ w, Pipeline.arrRef spec2 w ≠ r) :
    X6 m c (Proc.devRef .tc r) = m ((c : Thread nD τ).loc r) := (X6_of_ne m c r a2).trans (X5_arg m c r h0 a0 h1 a1 h2)
theorem X7_arg (c : Dev nD) (r : Ref sig .tc) (h0 : r ∉ hostOps0_W) (a0 : ∀ w, Pipeline.arrRef spec0 w ≠ r) (h1 : r ∉ hostOps1_W)
    (a1 : r ≠ main_v10) (h2 : r ∉ hostOps2_W) (a2 : ∀ w, Pipeline.arrRef spec2 w ≠ r) (h3 : r ∉ hostOps3_W) :
    X7 m c (Proc.devRef .tc r) = m ((c : Thread nD τ).loc r) :=
  (StableHlo.after_of_writes_sub hostOps3 _ hostOps3_writes h3).trans (X6_arg m c r h0 a0 h1 a1 h2 a2)
theorem X8_arg (c : Dev nD) (r : Ref sig .tc) (h0 : r ∉ hostOps0_W) (a0 : ∀ w, Pipeline.arrRef spec0 w ≠ r) (h1 : r ∉ hostOps1_W)
    (a1 : r ≠ main_v10) (h2 : r ∉ hostOps2_W) (a2 : ∀ w, Pipeline.arrRef spec2 w ≠ r) (h3 : r ∉ hostOps3_W)
    (a3 : ∀ w, Pipeline.arrRef spec3 w ≠ r) : X8 m c (Proc.devRef .tc r) = m ((c : Thread nD τ).loc r) :=
  (X8_of_ne m c r a3).trans (X7_arg m c r h0 a0 h1 a1 h2 a2 h3)
theorem X9_arg (c : Dev nD) (r : Ref sig .tc) (h0 : r ∉ hostOps0_W) (a0 : ∀ w, Pipeline.arrRef spec0 w ≠ r) (h1 : r ∉ hostOps1_W)
    (a1 : r ≠ main_v10) (h2 : r ∉ hostOps2_W) (a2 : ∀ w, Pipeline.arrRef spec2 w ≠ r) (h3 : r ∉ hostOps3_W)
    (a3 : ∀ w, Pipeline.arrRef spec3 w ≠ r) (h4 : r ∉ hostOps4_W) : X9 m c (Proc.devRef .tc r) = m ((c : Thread nD τ).loc r) :=
  (StableHlo.after_of_writes_sub hostOps4 _ hostOps4_writes h4).trans (X8_arg m c r h0 a0 h1 a1 h2 a2 h3 a3)

/-! ## Intermediate buffers that a later region reads as an earlier step left them -/

/-- The reshaped input: region 0 reads it through a window and gives it back; nothing else writes it before region 2. -/
theorem X2_v0 (c : Dev nD) : X2 m c (Proc.devRef .tc main_v0) = X1 m c (Proc.devRef .tc main_v0) :=
  (X2_arr m c 0).trans (((dat0 (Xv1 m) c).arrAt_in 0 rfl _).trans (A_eq0 (Xv1 m) c 0))
theorem X5_v0 (c : Dev nD) : X5 m c (Proc.devRef .tc main_v0) = X1 m c (Proc.devRef .tc main_v0) :=
  (StableHlo.after_of_writes_sub hostOps2 _ hostOps2_writes (by decide : main_v0 ∉ hostOps2_W)).trans <|
    (X4_of_ne m c main_v0 (by decide)).trans <|
    (StableHlo.after_of_writes_sub hostOps1 _ hostOps1_writes (by decide : main_v0 ∉ hostOps1_W)).trans (X2_v0 m c)
/-- The cast output-projection weights, written by the first stretch, read by region 2. -/
theorem X5_v4 (c : Dev nD) : X5 m c (Proc.devRef .tc main_v4) = X1 m c (Proc.devRef .tc main_v4) :=
  (StableHlo.after_of_writes_sub hostOps2 _ hostOps2_writes (by decide : main_v4 ∉ hostOps2_W)).trans <|
    (X4_of_ne m c main_v4 (by decide)).trans <|
    (StableHlo.after_of_writes_sub hostOps1 _ hostOps1_writes (by decide : main_v4 ∉ hostOps1_W)).trans (X2_of_ne m c main_v4 (by decide))
/-- The cast first feed-forward weights, read by region 3. -/
theorem X7_v5 (c : Dev nD) : X7 m c (Proc.devRef .tc main_v5) = X1 m c (Proc.devRef .tc main_v5) :=
  (StableHlo.after_of_writes_sub hostOps3 _ hostOps3_writes (by decide : main_v5 ∉ hostOps3_W)).trans <|
    (X6_of_ne m c main_v5 (by decide)).trans <|
    (StableHlo.after_of_writes_sub hostOps2 _ hostOps2_writes (by decide : main_v5 ∉ hostOps2_W)).trans <|
    (X4_of_ne m c main_v5 (by decide)).trans <|
    (StableHlo.after_of_writes_sub hostOps1 _ hostOps1_writes (by decide : main_v5 ∉ hostOps1_W)).trans (X2_of_ne m c main_v5 (by decide))
/-- The cast second feed-forward weights, read by region 4. -/
theorem X9_v6 (c : Dev nD) : X9 m c (Proc.devRef .tc main_v6) = X1 m c (Proc.devRef .tc main_v6) :=
  (StableHlo.after_of_writes_sub hostOps4 _ hostOps4_writes (by decide : main_v6 ∉ hostOps4_W)).trans <|
    (X8_of_ne m c main_v6 (by decide)).trans <|
    (StableHlo.after_of_writes_sub hostOps3 _ hostOps3_writes (by decide : main_v6 ∉ hostOps3_W)).trans <|
    (X6_of_ne m c main_v6 (by decide)).trans <|
    (StableHlo.after_of_writes_sub hostOps2 _ hostOps2_writes (by decide : main_v6 ∉ hostOps2_W)).trans <|
    (X4_of_ne m c main_v6 (by decide)).trans <|
    (StableHlo.after_of_writes_sub hostOps1 _ hostOps1_writes (by decide : main_v6 ∉ hostOps1_W)).trans (X2_of_ne m c main_v6 (by decide))
/-- The first normalised output: region 3 reads it through a window and gives it back; region 4 reads it as its residual. -/
theorem X7_v15 (c : Dev nD) : X7 m c (Proc.devRef .tc main_v15) = X6 m c (Proc.devRef .tc main_v15) :=
  StableHlo.after_of_writes_sub hostOps3 _ hostOps3_writes (by decide : main_v15 ∉ hostOps3_W)
theorem X8_v15 (c : Dev nD) : X8 m c (Proc.devRef .tc main_v15) = X6 m c (Proc.devRef .tc main_v15) :=
  (X8_arr m c 0).trans <| (((dat3 (Xv7 m) c).arrAt_in 0 rfl _).trans (A_eq3 (Xv7 m) c 0)).trans (X7_v15 m c)
theorem X9_v15 (c : Dev nD) : X9 m c (Proc.devRef .tc main_v15) = X6 m c (Proc.devRef .tc main_v15) :=
  (StableHlo.after_of_writes_sub hostOps4 _ hostOps4_writes (by decide : main_v15 ∉ hostOps4_W)).trans (X8_v15 m c)
/-- The hidden layer, read by region 4. -/
theorem X9_v17 (c : Dev nD) : X9 m c (Proc.devRef .tc main_v17) = X8 m c (Proc.devRef .tc main_v17) :=
  StableHlo.after_of_writes_sub hostOps4 _ hostOps4_writes (by decide : main_v17 ∉ hostOps4_W)

end Cert.KernelIdeal.Gen

end
-- ==== Proof.KI.Region0Value.lean ====
import proofs.«105537_j20366734917908_2_alg».proof.Proof.KI.Region0
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)
open scoped BigOperators

/-! # What the linear layer's launch (pipeline 0) leaves in its output array, on the extended reals

Every output block is the block of ONE function of the three input arrays: entry (r, c) is row r of the activations
against column c of the weights, plus the bias at c. The accumulator starts at zero, a change of float format
is the identity, and the row block, the column block and the bias block at a point are the arrays read through the
output block's row and column ranges. -/

variable (V : (c : Dev nD) → (b : Ref sig .tc) → Buf (Elt Idealize.ShloMosaic.Ideal) ((c : Thread nD τ).loc b))

/-- The three input arrays as the region finds them, read as functions to the extended reals: the activations, -/
abbrev inX0 (c : Dev nD) : S8192x1024.Idx → EReal := V c main_v0
/-- the weights, -/
abbrev inW0 (c : Dev nD) : S1024x3072.Idx → EReal := V c main_v2
/-- and the bias row. -/
abbrev inB0 (c : Dev nD) : S1x3072.Idx → EReal := V c main_v7

/-- The array the launch leaves: entry `i` from row `i 0` of the activations, column `i 1` of the weights and the bias at `i 1`. -/
abbrev G0 (c : Dev nD) : S8192x3072.Idx → EReal :=
  fun i => (∑ k : Fin 1024, inX0 V c (ix2 (i 0) k) * inW0 V c (ix2 k (i 1))) + inB0 V c (ix2 (0 : Fin 1) (i 1))

/-! ## The payload at an index -/

/-- The block product's dimension numbers are the plain matrix product's. -/
theorem dot_eq_plain0 : dot_S512x1024_S1024x1024_S512x1024_1_0_0_1_n_n = DotDims.plain 512 1024 1024 := rfl

/-- The block product into the zero accumulator, at an index: the sum over the contracted coordinate. -/
theorem mm_apply0 (A : FVec Idealize.ShloMosaic.Ideal S512x1024 .bf16) (B : FVec Idealize.ShloMosaic.Ideal S1024x1024 .bf16) (p : Fin 512) (q : Fin 1024) :
    matmul dot_S512x1024_S1024x1024_S512x1024_1_0_0_1_n_n none A B (constant S512x1024 .f32 0x00000000#32) (ix2 p q)
      = ∑ k : Fin 1024, A (ix2 p k) * B (ix2 k q) := by
  rw [matmul_zero_eq_dotGeneral, dot_eq_plain0]
  exact StackMember.dotGeneral_plain_apply none A B p q

/-- The output block at (p, q): row p of the row block against column q of the column block, plus the bias row at q. -/
theorem out0_3_apply (x0 : FVec Idealize.ShloMosaic.Ideal S512x1024 .f32) (x1 : FVec Idealize.ShloMosaic.Ideal S1024x1024 .bf16) (x2 : FVec Idealize.ShloMosaic.Ideal S1x1024 .f32) (p : Fin 512) (q : Fin 1024) :
    out0_3 (F := Idealize.ShloMosaic.Ideal) x0 x1 x2 (ix2 p q) = (∑ k : Fin 1024, x0 (ix2 p k) * x1 (ix2 k q)) + x2 (ix2 (0 : Fin 1) q) := by
  unfold out0_3 k0_pay3 k0_pay2 k0_pay1
  simp only [shapeCast_self]
  show (Ideal.ofBits .f32 0x00000000#32 + matmul dot_S512x1024_S1024x1024_S512x1024_1_0_0_1_n_n none (truncf .bf16 x0 bitsLt_bf16_f32) x1 (constant S512x1024 .f32 0x00000000#32) (ix2 p q))
      + broadcastTo S512x1024 x2 broadcasts_S1x1024_S512x1024 (ix2 p q) = _
  rw [Ideal.ofBits_zero_f32, zero_add, mm_apply0, broadcastTo_1b_ab_apply]
  rfl

/-! ## The input blocks as ranges of their arrays -/

/-- The row block at point `t`: rows `512·(its block row) …` of the activations, all 1024 columns. -/
theorem iblk0_0_apply (c : Dev nD) (t : Fin cfg0.N) (x : S512x1024.Idx) (k : S8192x1024.Idx)
    (hk0 : (k 0).val = win0_0.index t 0 * 512 + (x 0).val) (hk1 : (k 1).val = win0_0.index t 1 * 1024 + (x 1).val) :
    (iblk0 V c 0 t : Vec Idealize.ShloMosaic.Ideal S512x1024 .f32) x = (V c main_v0 : S8192x1024.Idx → EReal) k := by
  unfold iblk0
  rw [View.read_apply]
  show V c main_v0 _ = V c main_v0 _
  congr 1
  funext a
  apply Fin.ext
  match a with
  | ⟨0, _⟩ => show win0_0.index t 0 * 512 + 1 * (x 0).val = (k 0).val; rw [hk0]; omega
  | ⟨1, _⟩ => show win0_0.index t 1 * 1024 + 1 * (x 1).val = (k 1).val; rw [hk1]; omega

/-- The column block at point `t`: all 1024 rows of the weights, columns `1024·(its block column) …`. -/
theorem iblk0_1_apply (c : Dev nD) (t : Fin cfg0.N) (x : S1024x1024.Idx) (k : S1024x3072.Idx)
    (hk0 : (k 0).val = win0_1.index t 0 * 1024 + (x 0).val) (hk1 : (k 1).val = win0_1.index t 1 * 1024 + (x 1).val) :
    (iblk0 V c 1 t : Vec Idealize.ShloMosaic.Ideal S1024x1024 .bf16) x = (V c main_v2 : S1024x3072.Idx → EReal) k := by
  unfold iblk0
  rw [View.read_apply]
  show V c main_v2 _ = V c main_v2 _
  congr 1
  funext a
  apply Fin.ext
  match a with
  | ⟨0, _⟩ => show win0_1.index t 0 * 1024 + 1 * (x 0).val = (k 0).val; rw [hk0]; omega
  | ⟨1, _⟩ => show win0_1.index t 1 * 1024 + 1 * (x 1).val = (k 1).val; rw [hk1]; omega

/-- The bias block at point `t`: the one row of the bias, columns `1024·(its block column) …`. -/
theorem iblk0_2_apply (c : Dev nD) (t : Fin cfg0.N) (x : S1x1024.Idx) (k : S1x3072.Idx)
    (hk0 : (k 0).val = win0_2.index t 0 * 1 + (x 0).val) (hk1 : (k 1).val = win0_2.index t 1 * 1024 + (x 1).val) :
    (iblk0 V c 2 t : Vec Idealize.ShloMosaic.Ideal S1x1024 .f32) x = (V c main_v7 : S1x3072.Idx → EReal) k := by
  unfold iblk0
  rw [View.read_apply]
  show V c main_v7 _ = V c main_v7 _
  congr 1
  funext a
  apply Fin.ext
  match a with
  | ⟨0, _⟩ => show win0_2.index t 0 * 1 + 1 * (x 0).val = (k 0).val; rw [hk0]; omega
  | ⟨1, _⟩ => show win0_2.index t 1 * 1024 + 1 * (x 1).val = (k 1).val; rw [hk1]; omega

/-! ## From blocks to the array -/

/-- The index maps over the grid: the row block moves with the output's block row, the column block and the bias block with
    its block column; the contracted axis has one block; the output's block indices stay in range. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 15 ∧ win0_3.index t (1 : Fin 2) ≤ 2 :=
  (by decide +kernel : ∀ t : Fin grid0.N, _)

/-- Every block of the output array is some point's. -/
theorem idx_onto0 : ∀ (q0 : Fin 16) (q1 : Fin 3), ∃ t : Fin cfg0.N, win0_3.index t = ![q0.val, q1.val] :=
  (by decide +kernel : ∀ (q0 : Fin 16) (q1 : Fin 3), ∃ t : Fin grid0.N, win0_3.index t = ![q0.val, q1.val])

/-- The output block at point `t`, at the block index `j`, is `G0` at the array index `i` under it. -/
theorem out0_at (c : Dev nD) (t : Fin cfg0.N) (j : S512x1024.Idx) (i : S8192x3072.Idx)
    (hi0 : (i 0).val = win0_3.index t 0 * 512 + (j 0).val) (hi1 : (i 1).val = win0_3.index t 1 * 1024 + (j 1).val) :
    out0_3 (F := Idealize.ShloMosaic.Ideal) (iblk0 V c 0 t) (iblk0 V c 1 t) (iblk0 V c 2 t) j = G0 V c i := by
  obtain ⟨e0, e1, e2, e3, e4, e5, -, -⟩ := idx_facts0 t
  obtain ⟨p, q, rfl⟩ : ∃ (p : Fin 512) (q : Fin 1024), j = ix2 p q := ⟨j 0, j 1, eq_ix2 j⟩
  refine (out0_3_apply (iblk0 V c 0 t) (iblk0 V c 1 t) (iblk0 V c 2 t) p q).trans ?_
  have hp : (i 0).val = win0_3.index t 0 * 512 + p.val := hi0
  have hq : (i 1).val = win0_3.index t 1 * 1024 + q.val := hi1
  refine congrArg₂ (· + ·) (Finset.sum_congr rfl fun k _ => congrArg₂ (· * ·) ?_ ?_) ?_
  · exact iblk0_0_apply V c t (ix2 p k) (ix2 (i 0) k)
      (by show (i 0).val = win0_0.index t 0 * 512 + p.val; rw [e0, hp])
      (by show k.val = win0_0.index t 1 * 1024 + k.val; rw [e1]; omega)
  · exact iblk0_1_apply V c t (ix2 k q) (ix2 k (i 1))
      (by show k.val = win0_1.index t 0 * 1024 + k.val; rw [e2]; omega)
      (by show (i 1).val = win0_1.index t 1 * 1024 + q.val; rw [e3, hq])
  · exact iblk0_2_apply V c t (ix2 (0 : Fin 1) q) (ix2 (0 : Fin 1) (i 1))
      (by show (0 : ℕ) = win0_2.index t 0 * 1 + 0; rw [e4])
      (by show (i 1).val = win0_2.index t 1 * 1024 + q.val; rw [e5, hq])

/-- What point `t` writes back is block `t` of `G0`. -/
theorem flushed0_eq (c : Dev nD) (t : Fin cfg0.N) :
    (dat0 (F := Idealize.ShloMosaic.Ideal) V c).flushed 3 t = ((cfg0.win 3).blk t).view.read (Elt Idealize.ShloMosaic.Ideal) (G0 V c) := by
  show (cfg0.win 3).cut (grid0.coords t) ((dat0 V c).after 3 t) = _
  rw [after0_3]
  funext j
  refine out0_at V c t j _ ?_ ?_
  · show win0_3.index t 0 * 512 + 1 * (j 0).val = win0_3.index t 0 * 512 + (j 0).val; omega
  · show win0_3.index t 1 * 1024 + 1 * (j 1).val = win0_3.index t 1 * 1024 + (j 1).val; omega

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8).slice (win0_3.rect t)).set ↔ _
  rw [View.set_slice_whole, Rect.mem_set_unit]
  exact Iff.rfl

/-- The output's blocks cover its array: the point whose block holds entry (r, c) is the one with block row r / 512 and block
    column c / 1024. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the launch: `G0` of the arrays as the region finds them. -/
theorem final0 (c : Dev nD) : (dat0 (F := Idealize.ShloMosaic.Ideal) V c).arrAt 3 cfg0.N
    = fun i => (∑ k : Fin 1024, inX0 V c (ix2 (i 0) k) * inW0 V c (ix2 k (i 1))) + inB0 V c (ix2 (0 : Fin 1) (i 1)) :=
  (dat0 (F := Idealize.ShloMosaic.Ideal) V c).arrAt_eq_of_cover 3 (G0 V c) (fun t _ => flushed0_eq V c t) (cover0)

end Cert.KernelIdeal.Gen

end
-- ==== Proof.Spec.lean ====
/-
  The mathematics both programs compute, stage by stage, on the extended reals: an affine layer, a rectifier,
  a row-wise layer normalisation and full (non-causal) softmax attention with the scale 1/32. Arrays are
  functions of literal `Fin` coordinates. The normalisation divides by the float 1024 and adds the float
  9.99999974e-6 exactly as both programs print them (the words are kept, never evaluated).
-/
import Idealize.ShloMosaic.PureOps.Ideal
import Mathlib.Algebra.BigOperators.Group.Finset.Basic

noncomputable section

namespace Cert.Spec

open Idealize.ShloMosaic

/-- The float 1024, the row length both normalisations divide by. -/
def n1024 : EReal := Ideal.ofBits .f32 0x44800000#32
/-- The float the variance is offset by before the inverse square root. -/
def eps : EReal := Ideal.ofBits .f32 0x3727C5AC#32
/-- The attention scale 2⁻⁵ as the kernel's word. -/
def scaleW : EReal := Ideal.ofBits .f32 0x3D000000#32

/-- An affine layer: row `i` of `x` against column `j` of `w`, plus the bias at `j`. -/
def lin {M K N : ℕ} (x : Fin M → Fin K → EReal) (w : Fin K → Fin N → EReal) (b : Fin N → EReal) :
    Fin M → Fin N → EReal :=
  fun i j => (∑ k : Fin K, x i k * w k j) + b j

/-- The rectifier. -/
def relu {M N : ℕ} (y : Fin M → Fin N → EReal) : Fin M → Fin N → EReal := fun i j => max (y i j) 0

/-- The mean of a row (its sum over the float 1024). -/
def rowMean {N : ℕ} (y : Fin N → EReal) : EReal := Ideal.div (∑ j : Fin N, y j) n1024

/-- The two-pass variance of a row. -/
def rowVar {N : ℕ} (y : Fin N → EReal) : EReal :=
  Ideal.div (∑ j : Fin N, (y j - rowMean y) * (y j - rowMean y)) n1024

/-- Layer normalisation of each row of `y`, with gain `g` and offset `be`. -/
def layerNorm {M N : ℕ} (y : Fin M → Fin N → EReal) (g be : Fin N → EReal) : Fin M → Fin N → EReal :=
  fun i j => (y i j - rowMean (y i)) * Ideal.rsqrt (rowVar (y i) + eps) * g j + be j

/-- One query row's attention scores against every key row: the dot product times `c`. -/
def scores {S D : ℕ} (c : EReal) (q : Fin D → EReal) (k : Fin S → Fin D → EReal) : Fin S → EReal :=
  fun j => (∑ e : Fin D, q e * k j e) * c

/-- Softmax attention of one query row: with `m` the largest score, the weights `exp (s j - m)` normalised by
    their sum, against the value rows. -/
def attnRow {S D : ℕ} (s : Fin S → EReal) (v : Fin S → Fin D → EReal) : Fin D → EReal :=
  fun d =>
    ∑ j : Fin S, Ideal.div (Ideal.exp (s j - Finset.univ.sup s))
      (∑ j' : Fin S, Ideal.exp (s j' - Finset.univ.sup s)) * v j d

end Cert.Spec

end
-- ==== Proof.KI.Region2Value.lean ====
/-
  Region 2, the value: at the ideal values the output array after the region is, row by row, the layer normalisation of
  (residual + attention output · projection weights) + bias. The body's payloads are read at an index — the product of
  the two bf16 blocks as a sum over the contraction axis, the lane sums as sums over a row, the column casts and
  broadcasts of the row statistics entry by entry —, a row of a block is a row of the arrays at the block's offset, and
  the sixteen row tiles cover the output array.
-/
import proofs.«105537_j20366734917908_2_alg».proof.Proof.KI.Region2
import proofs.«105537_j20366734917908_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

/-- A two-axis array read at a row and a column. -/
abbrev arr2d (a b : ℕ) (X : (⟨2, ![a, b]⟩ : Shape).Idx → EReal) : Fin a → Fin b → EReal := fun r j => X (ix2 r j)

/-! What follows reads the body's payloads and the windows' blocks at an index, and then the output array. -/
namespace R24

/-! ## Layout operations of a row-wise reduction kept as a column, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array over row `p` of its sum along axis 1, at coordinate `k` of that axis, is `(p, k)`. -/
theorem lift_row {a b : ℕ} (h : (⟨2, ![a, b]⟩ : Shape).Reduces [1] ⟨1, ![a]⟩) (p : Fin a)
    (k : Fin ((⟨2, ![a, b]⟩ : Shape).size (1 : Fin 2))) :
    h.lift (ix1 p) k = ix2 p k := by
  funext c; apply Fin.ext
  show h.liftVal (ix1 p) k.val c = (ix2 p k c).val
  unfold Shape.Reduces.liftVal
  match c with
  | ⟨0, _⟩ => rfl
  | ⟨1, _⟩ => rfl

end Layout

/-- A sum along axis 1 of a `[512, 1024]` block, at row `p`: the sum of that row. -/
theorem rowSum_apply (src : FVec Ideal S512x1024 .f32) (h : S512x1024.Reduces [1] S512)
    (hφ : FTy.f32 = FTy.f32 ∨ FTy.f32 = FTy.bf16) (hacc : (0x00000000#32 : BitVec FTy.f32.bits) = 0x00000000#32) (p : Fin 512) :
    multiReduction (s := S512x1024) .add (@List.cons (Fin 2) (1 : Fin S512x1024.rank) (@List.nil (Fin 2))) S512 src 0x00000000#32 h hφ hacc (ix1 p)
      = ∑ k : Fin 1024, src (ix2 p k) :=
  (Ideal.multiReduction_add_single src 0x00000000#32 h hφ hacc (ix1 p)).trans
    (Finset.sum_congr rfl fun k _ => congrArg src (lift_row h p k))

theorem rsqrt_apply' {s : Shape} {φ : FTy} (a : FVec Ideal s φ) (i : s.Idx) : rsqrt a i = Ideal.rsqrt (a i) := rfl

/-! ## The product of the two bf16 blocks at an index -/

abbrev D512 : DotDims S512x1024 S1024x1024 S512x1024 := dot_S512x1024_S1024x1024_S512x1024_1_0_0_1_n_n

theorem lhs_0 (i : S512x1024.Idx) (q : D512.contr.Idx) : (D512.lhsIdx i q 0).val = (i 0).val := by
  unfold DotDims.lhsIdx
  rw [dif_neg (show ¬(0 : Fin S512x1024.rank) ∈ D512.lhsBatch by decide), dif_pos (show (0 : Fin S512x1024.rank) ∈ D512.lhsNonContracting by decide)]
  rfl
theorem lhs_1 (i : S512x1024.Idx) (q : D512.contr.Idx) : (D512.lhsIdx i q 1).val = (q ⟨0, by decide⟩).val :=
  D512.lhsIdx_val_of_single rfl i q
theorem rhs_0 (i : S512x1024.Idx) (q : D512.contr.Idx) : (D512.rhsIdx i q 0).val = (q ⟨0, by decide⟩).val :=
  D512.rhsIdx_val_of_single rfl i q
theorem rhs_1 (i : S512x1024.Idx) (q : D512.contr.Idx) : (D512.rhsIdx i q 1).val = (i 1).val := by
  unfold DotDims.rhsIdx
  rw [dif_neg (show ¬(1 : Fin S1024x1024.rank) ∈ D512.rhsBatch by decide), dif_pos (show (1 : Fin S1024x1024.rank) ∈ D512.rhsNonContracting by decide)]
  rfl

/-- The matrix product into the zero accumulator, at `(p, q)`: row `p` of the left block against column `q` of the right. -/
theorem matmul_apply2 (l : FVec Ideal S512x1024 .bf16) (r : FVec Ideal S1024x1024 .bf16) (p : Fin 512) (q : Fin 1024) :
    matmul D512 none l r (constant S512x1024 .f32 0x00000000#32) (ix2 p q) = ∑ k : Fin 1024, l (ix2 p k) * r (ix2 k q) := by
  refine (Ideal.matmul_constant_zero_apply D512 none l r (ix2 p q)).trans ?_
  rw [← Equiv.sum_comp (ValueIdx.contrEquiv1 D512 1024 rfl rfl).symm]
  refine Finset.sum_congr rfl fun k _ => ?_
  have hk := ValueIdx.contrEquiv1_symm_val D512 1024 rfl rfl k
  have el : D512.lhsIdx (ix2 p q) ((ValueIdx.contrEquiv1 D512 1024 rfl rfl).symm k) = ix2 p k := funext fun a => Fin.ext (by
    match a with
    | ⟨0, _⟩ => exact lhs_0 _ _
    | ⟨1, _⟩ => exact (lhs_1 _ _).trans hk)
  have er : D512.rhsIdx (ix2 p q) ((ValueIdx.contrEquiv1 D512 1024 rfl rfl).symm k) = ix2 k q := funext fun a => Fin.ext (by
    match a with
    | ⟨0, _⟩ => exact (rhs_0 _ _).trans hk
    | ⟨1, _⟩ => exact rhs_1 _ _)
  rw [el, er]

/-- One step of the accumulation at an index: what the accumulator held plus the blocks' product. -/
theorem pay2_apply (x0 : FVec Ideal S512x1024 .bf16) (x1 : FVec Ideal S1024x1024 .bf16) (s : FVec Ideal S512x1024 .f32)
    (p : Fin 512) (q : Fin 1024) :
    k2_pay2 (F := Ideal) x0 x1 s (ix2 p q) = s (ix2 p q) + ∑ k : Fin 1024, x0 (ix2 p k) * x1 (ix2 k q) := by
  unfold k2_pay2
  simp only [shapeCast_self]
  rw [addf_apply]
  exact congrArg (s (ix2 p q) + ·) (matmul_apply2 x0 x1 p q)

/-- The zero block at an index. -/
theorem pay1_apply (j : S512x1024.Idx) : k2_pay1 (F := Ideal) j = 0 := by
  unfold k2_pay1
  simp only [shapeCast_self]
  exact Ideal.ofBits_zero_f32

/-! ## The epilogue at an index: the layer normalisation of a row -/

/-- Residual + accumulator + bias, the rows the normalisation is taken over. -/
def preLN (x3 s : FVec Ideal S512x1024 .f32) (x2 : FVec Ideal S1x1024 .f32) : Fin 512 → Fin 1024 → EReal :=
  fun r j => (x3 (ix2 r j) + s (ix2 r j)) + x2 (ix2 0 j)

theorem pay3_apply (x3 s : FVec Ideal S512x1024 .f32) (x2 x4 x5 : FVec Ideal S1x1024 .f32) (p : Fin 512) (q : Fin 1024) :
    k2_pay3 (F := Ideal) x3 s x2 x4 x5 (ix2 p q)
      = Cert.Spec.layerNorm (preLN x3 s x2) (fun j => x4 (ix2 0 j)) (fun j => x5 (ix2 0 j)) p q := by
  unfold k2_pay3
  simp only [shapeCast_self]
  simp only [addf_apply, mulf_apply, subf_apply, divf_apply, rsqrt_apply', broadcast_apply, broadcastTo_1b_ab_apply, broadcastTo_a1_ab_apply,
    shapeCast_a_a1_apply, rowSum_apply]
  rfl

/-- The normalisation of a row reads that row only: two arrays that agree on a row (and gains and offsets that agree at a
    column) have the same normalised entry there. -/
theorem layerNorm_row {M M' N : ℕ} (y : Fin M → Fin N → EReal) (y' : Fin M' → Fin N → EReal) (g g' be be' : Fin N → EReal)
    (i : Fin M) (i' : Fin M') (j : Fin N) (hy : y i = y' i') (hg : g j = g' j) (hb : be j = be' j) :
    Cert.Spec.layerNorm y g be i j = Cert.Spec.layerNorm y' g' be' i' j := by
  unfold Cert.Spec.layerNorm
  rw [hy, hg, hb]

/-! ## The blocks of the arrays -/

section Blocks
variable (V : (c : Dev nD) → (b : Ref sig .tc) → Buf (Elt Ideal) ((c : Thread nD τ).loc b))

/-- The block indices over the grid: point `t` is row tile `t` of the activations, the residual and the output; the
    weights, the bias, the gain and the offset have one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t`, entry by entry, is the array `main_v11` at the block's offset. -/
theorem iblk2_0_apply (c : Dev nD) (t : Fin cfg2.N) (r : Fin 512) (j : Fin 1024) (hr : t.val * 512 + r.val < 8192) :
    iblk2 V c 0 t (ix2 r j) = arr2d 8192 1024 (V c main_v11) ⟨t.val * 512 + r.val, hr⟩ j := by
  obtain ⟨e0, e1, e2, e3, e4, e5, e6, e7, e8, e9, e10, e11, e12, e13⟩ := idx_facts2 t
  show (@id (S8192x1024.Idx → EReal) (V c main_v11)) (((cfg2.win 0).blk t).view.emb (ix2 r j)) = (@id (S8192x1024.Idx → EReal) (V c main_v11)) (ix2 ⟨t.val * 512 + r.val, hr⟩ j)
  refine congrArg (@id (S8192x1024.Idx → EReal) (V c main_v11)) (funext fun a => Fin.ext ?_)
  match a with
  | ⟨0, _⟩ => show win2_0.index t (0 : Fin 2) * 512 + 1 * r.val = t.val * 512 + r.val; rw [e0]; omega
  | ⟨1, _⟩ => show win2_0.index t (1 : Fin 2) * 1024 + 1 * j.val = j.val; rw [e1]; omega

/-- Window 1's block at point `t`, entry by entry, is the array `main_v4` at the block's offset. -/
theorem iblk2_1_apply (c : Dev nD) (t : Fin cfg2.N) (r : Fin 1024) (j : Fin 1024) :
    iblk2 V c 1 t (ix2 r j) = arr2d 1024 1024 (V c main_v4) r j := by
  obtain ⟨e0, e1, e2, e3, e4, e5, e6, e7, e8, e9, e10, e11, e12, e13⟩ := idx_facts2 t
  show (@id (S1024x1024.Idx → EReal) (V c main_v4)) (((cfg2.win 1).blk t).view.emb (ix2 r j)) = (@id (S1024x1024.Idx → EReal) (V c main_v4)) (ix2 r j)
  refine congrArg (@id (S1024x1024.Idx → EReal) (V c main_v4)) (funext fun a => Fin.ext ?_)
  match a with
  | ⟨0, _⟩ => show win2_1.index t (0 : Fin 2) * 1024 + 1 * r.val = r.val; rw [e2]; omega
  | ⟨1, _⟩ => show win2_1.index t (1 : Fin 2) * 1024 + 1 * j.val = j.val; rw [e3]; omega

/-- Window 2's block at point `t`, entry by entry, is the array `main_v12` at the block's offset. -/
theorem iblk2_2_apply (c : Dev nD) (t : Fin cfg2.N) (r : Fin 1) (j : Fin 1024) :
    iblk2 V c 2 t (ix2 r j) = arr2d 1 1024 (V c main_v12) r j := by
  obtain ⟨e0, e1, e2, e3, e4, e5, e6, e7, e8, e9, e10, e11, e12, e13⟩ := idx_facts2 t
  show (@id (S1x1024.Idx → EReal) (V c main_v12)) (((cfg2.win 2).blk t).view.emb (ix2 r j)) = (@id (S1x1024.Idx → EReal) (V c main_v12)) (ix2 r j)
  refine congrArg (@id (S1x1024.Idx → EReal) (V c main_v12)) (funext fun a => Fin.ext ?_)
  match a with
  | ⟨0, _⟩ => show win2_2.index t (0 : Fin 2) * 1 + 1 * r.val = r.val; rw [e4]; omega
  | ⟨1, _⟩ => show win2_2.index t (1 : Fin 2) * 1024 + 1 * j.val = j.val; rw [e5]; omega

/-- Window 3's block at point `t`, entry by entry, is the array `main_v0` at the block's offset. -/
theorem iblk2_3_apply (c : Dev nD) (t : Fin cfg2.N) (r : Fin 512) (j : Fin 1024) (hr : t.val * 512 + r.val < 8192) :
    iblk2 V c 3 t (ix2 r j) = arr2d 8192 1024 (V c main_v0) ⟨t.val * 512 + r.val, hr⟩ j := by
  obtain ⟨e0, e1, e2, e3, e4, e5, e6, e7, e8, e9, e10, e11, e12, e13⟩ := idx_facts2 t
  show (@id (S8192x1024.Idx → EReal) (V c main_v0)) (((cfg2.win 3).blk t).view.emb (ix2 r j)) = (@id (S8192x1024.Idx → EReal) (V c main_v0)) (ix2 ⟨t.val * 512 + r.val, hr⟩ j)
  refine congrArg (@id (S8192x1024.Idx → EReal) (V c main_v0)) (funext fun a => Fin.ext ?_)
  match a with
  | ⟨0, _⟩ => show win2_3.index t (0 : Fin 2) * 512 + 1 * r.val = t.val * 512 + r.val; rw [e6]; omega
  | ⟨1, _⟩ => show win2_3.index t (1 : Fin 2) * 1024 + 1 * j.val = j.val; rw [e7]; omega

/-- Window 4's block at point `t`, entry by entry, is the array `main_v13` at the block's offset. -/
theorem iblk2_4_apply (c : Dev nD) (t : Fin cfg2.N) (r : Fin 1) (j : Fin 1024) :
    iblk2 V c 4 t (ix2 r j) = arr2d 1 1024 (V c main_v13) r j := by
  obtain ⟨e0, e1, e2, e3, e4, e5, e6, e7, e8, e9, e10, e11, e12, e13⟩ := idx_facts2 t
  show (@id (S1x1024.Idx → EReal) (V c main_v13)) (((cfg2.win 4).blk t).view.emb (ix2 r j)) = (@id (S1x1024.Idx → EReal) (V c main_v13)) (ix2 r j)
  refine congrArg (@id (S1x1024.Idx → EReal) (V c main_v13)) (funext fun a => Fin.ext ?_)
  match a with
  | ⟨0, _⟩ => show win2_4.index t (0 : Fin 2) * 1 + 1 * r.val = r.val; rw [e8]; omega
  | ⟨1, _⟩ => show win2_4.index t (1 : Fin 2) * 1024 + 1 * j.val = j.val; rw [e9]; omega

/-- Window 5's block at point `t`, entry by entry, is the array `main_v14` at the block's offset. -/
theorem iblk2_5_apply (c : Dev nD) (t : Fin cfg2.N) (r : Fin 1) (j : Fin 1024) :
    iblk2 V c 5 t (ix2 r j) = arr2d 1 1024 (V c main_v14) r j := by
  obtain ⟨e0, e1, e2, e3, e4, e5, e6, e7, e8, e9, e10, e11, e12, e13⟩ := idx_facts2 t
  show (@id (S1x1024.Idx → EReal) (V c main_v14)) (((cfg2.win 5).blk t).view.emb (ix2 r j)) = (@id (S1x1024.Idx → EReal) (V c main_v14)) (ix2 r j)
  refine congrArg (@id (S1x1024.Idx → EReal) (V c main_v14)) (funext fun a => Fin.ext ?_)
  match a with
  | ⟨0, _⟩ => show win2_5.index t (0 : Fin 2) * 1 + 1 * r.val = r.val; rw [e10]; omega
  | ⟨1, _⟩ => show win2_5.index t (1 : Fin 2) * 1024 + 1 * j.val = j.val; rw [e11]; omega

/-- An entry of the output block at point `t` sits in the output array at the block's offset. -/
theorem emb2_6 (t : Fin cfg2.N) (r : Fin 512) (j : Fin 1024) (hr : t.val * 512 + r.val < 8192) :
    (((cfg2.win 6).blk t).view.emb (ix2 r j) : S8192x1024.Idx) = ix2 ⟨t.val * 512 + r.val, hr⟩ j := by
  obtain ⟨e0, e1, e2, e3, e4, e5, e6, e7, e8, e9, e10, e11, e12, e13⟩ := idx_facts2 t
  refine funext fun a => Fin.ext ?_
  match a with
  | ⟨0, _⟩ => show win2_6.index t (0 : Fin 2) * 512 + 1 * r.val = t.val * 512 + r.val; rw [e12]; omega
  | ⟨1, _⟩ => show win2_6.index t (1 : Fin 2) * 1024 + 1 * j.val = j.val; rw [e13]; omega

/-! ## The output array after the region -/

/-- Row `r` of what the normalisation is taken over: the residual plus the projected attention output plus the bias. -/
def pre2 (c : Dev nD) : Fin 8192 → Fin 1024 → EReal := fun r j =>
  (arr2d 8192 1024 (V c main_v0) r j + ∑ k : Fin 1024, arr2d 8192 1024 (V c main_v11) r k * arr2d 1024 1024 (V c main_v4) k j)
    + arr2d 1 1024 (V c main_v12) 0 j

/-- The output array after the region, index by index. -/
def G2 (c : Dev nD) : S8192x1024.Idx → EReal := fun i =>
  Cert.Spec.layerNorm (pre2 V c) (arr2d 1 1024 (V c main_v13) 0) (arr2d 1 1024 (V c main_v14) 0) (i 0) (i 1)

/-- WHAT POINT `t` WRITES BACK is block `t` of `G2`: the normalisation of a row reads that row only, and row `r` of
    the block is row `512 t + r` of the arrays. -/
theorem flushed2_eq (c : Dev nD) (t : Fin cfg2.N) :
    (dat2 (F := Ideal) V c).flushed 6 t = ((cfg2.win 6).blk t).view.read (Elt Ideal) (G2 V c) := by
  have hN : t.val < 16 := lt_of_lt_of_eq t.isLt (show cfg2.N = 16 from N_2)
  show (cfg2.win 6).cut (grid2.coords t) ((dat2 V c).after 6 t) = _
  rw [after2_6]
  funext y
  obtain ⟨p, q, rfl⟩ : ∃ (p : Fin 512) (q : Fin 1024), y = ix2 p q := ⟨y 0, y 1, eq_ix2 y⟩
  have hp : t.val * 512 + p.val < 8192 := by have := p.isLt; omega
  show out2_6 (iblk2 V c 0 t) (iblk2 V c 1 t) (iblk2 V c 2 t) (iblk2 V c 3 t) (iblk2 V c 4 t) (iblk2 V c 5 t) (ix2 p q)
    = G2 V c (((cfg2.win 6).blk t).view.emb (ix2 p q))
  rw [emb2_6 t p q hp]
  unfold out2_6
  refine (pay3_apply (iblk2 V c 3 t) (acc2 (iblk2 V c 0 t) (iblk2 V c 1 t)) (iblk2 V c 2 t) (iblk2 V c 4 t) (iblk2 V c 5 t) p q).trans ?_
  show _ = Cert.Spec.layerNorm (pre2 V c) _ _ (⟨t.val * 512 + p.val, hp⟩ : Fin 8192) q
  refine layerNorm_row (preLN (iblk2 V c 3 t) (acc2 (iblk2 V c 0 t) (iblk2 V c 1 t)) (iblk2 V c 2 t)) (pre2 V c) _ _ _ _
    p ⟨t.val * 512 + p.val, hp⟩ q ?_ (iblk2_4_apply V c t 0 q) (iblk2_5_apply V c t 0 q)
  funext j
  unfold preLN pre2 acc2
  rw [pay2_apply (iblk2 V c 0 t) (iblk2 V c 1 t) _ p j, pay1_apply, zero_add, iblk2_3_apply V c t p j hp, iblk2_2_apply V c t 0 j]
  refine congrArg (fun z => (arr2d 8192 1024 (V c main_v0) ⟨t.val * 512 + p.val, hp⟩ j + z) + arr2d 1 1024 (V c main_v12) 0 j) ?_
  exact Finset.sum_congr rfl fun k _ => by rw [iblk2_0_apply V c t p k hp, iblk2_1_apply V c t k j]

/-- An index of the output array is in point `t`'s block iff each coordinate is in the block's range on its axis. -/
theorem mem_blk2_6 (t : Fin cfg2.N) (i : S8192x1024.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v15).slice (win2_6.rect t)).set ↔ _
  rw [View.set_slice_whole, Rect.mem_set_unit]
  exact Iff.rfl

/-- Every index of the output array is in the block of the point of its row tile, which is written back. -/
theorem cover2_6 (i : S8192x1024.Idx) : ∃ t : Fin cfg2.N, (cfg2.win 6).flush t = true ∧ i ∈ ((cfg2.win 6).blk t).view.set := by
  have h0 : (i 0).val < 8192 := (i 0).isLt
  have h1 : (i 1).val < 1024 := (i 1).isLt
  have hN : cfg2.N = 16 := N_2
  have ht : (i 0).val / 512 < cfg2.N := by rw [hN]; omega
  refine ⟨⟨(i 0).val / 512, ht⟩, flush2_6 _, ?_⟩
  rw [mem_blk2_6]
  obtain ⟨-, -, -, -, -, -, -, -, -, -, -, -, e12, e13⟩ := idx_facts2 ⟨(i 0).val / 512, ht⟩
  have e12' : win2_6.index ⟨(i 0).val / 512, ht⟩ (0 : Fin 2) = (i 0).val / 512 := e12
  intro a
  match a with
  | ⟨0, _⟩ =>
    show win2_6.index ⟨(i 0).val / 512, ht⟩ (0 : Fin 2) * 512 ≤ (i 0).val ∧ (i 0).val < win2_6.index ⟨(i 0).val / 512, ht⟩ (0 : Fin 2) * 512 + 512
    rw [e12']; omega
  | ⟨1, _⟩ =>
    show win2_6.index ⟨(i 0).val / 512, ht⟩ (1 : Fin 2) * 1024 ≤ (i 1).val ∧ (i 1).val < win2_6.index ⟨(i 0).val / 512, ht⟩ (1 : Fin 2) * 1024 + 1024
    rw [e13]; omega

end Blocks

end R24

open R24 in
/-- THE OUTPUT ARRAY after the region: the layer normalisation, row by row, of the residual plus the projected attention
    output plus the bias — `(res + Σ) + bias` as the body associates it, the zero the accumulator starts from removed
    (`0 + Σ = Σ`). -/
theorem final2 (V : (c : Dev nD) → (b : Ref sig .tc) → Buf (Elt Ideal) ((c : Thread nD τ).loc b)) (c : Dev nD) : (dat2 (F := Ideal) V c).arrAt 6 cfg2.N = fun i =>
    Cert.Spec.layerNorm (fun r j => (arr2d 8192 1024 (V c main_v0) r j
        + ∑ k : Fin 1024, arr2d 8192 1024 (V c main_v11) r k * arr2d 1024 1024 (V c main_v4) k j)
        + arr2d 1 1024 (V c main_v12) 0 j)
      (arr2d 1 1024 (V c main_v13) 0) (arr2d 1 1024 (V c main_v14) 0) (i 0) (i 1) :=
  (dat2 (F := Ideal) V c).arrAt_eq_of_cover 6 (G2 V c) (fun t _ => flushed2_eq V c t) (fun i => cover2_6 i)

end Cert.KernelIdeal.Gen

end
-- ==== Proof.KI.Region3Value.lean ====
import proofs.«105537_j20366734917908_2_alg».proof.Proof.KI.Region3
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)
open scoped BigOperators

/-! # What the linear layer's launch (pipeline 3) leaves in its output array, on the extended reals

Every output block is the block of ONE function of the three input arrays: entry (r, c) is row r of the activations
against column c of the weights, plus the bias at c, clamped below at zero. The accumulator starts at zero, a change of float format
is the identity, and the row block, the column block and the bias block at a point are the arrays read through the
output block's row and column ranges. -/

variable (V : (c : Dev nD) → (b : Ref sig .tc) → Buf (Elt Idealize.ShloMosaic.Ideal) ((c : Thread nD τ).loc b))

/-- The three input arrays as the region finds them, read as functions to the extended reals: the activations, -/
abbrev inX3 (c : Dev nD) : S8192x1024.Idx → EReal := V c main_v15
/-- the weights, -/
abbrev inW3 (c : Dev nD) : S1024x4096.Idx → EReal := V c main_v5
/-- and the bias row. -/
abbrev inB3 (c : Dev nD) : S1x4096.Idx → EReal := V c main_v16

/-- The array the launch leaves: entry `i` from row `i 0` of the activations, column `i 1` of the weights and the bias at `i 1`. -/
abbrev G3 (c : Dev nD) : S8192x4096.Idx → EReal :=
  fun i => max ((∑ k : Fin 1024, inX3 V c (ix2 (i 0) k) * inW3 V c (ix2 k (i 1))) + inB3 V c (ix2 (0 : Fin 1) (i 1))) 0

/-! ## The payload at an index -/

/-- The block product's dimension numbers are the plain matrix product's. -/
theorem dot_eq_plain3 : dot_S512x1024_S1024x1024_S512x1024_1_0_0_1_n_n = DotDims.plain 512 1024 1024 := rfl

/-- The block product into the zero accumulator, at an index: the sum over the contracted coordinate. -/
theorem mm_apply3 (A : FVec Idealize.ShloMosaic.Ideal S512x1024 .bf16) (B : FVec Idealize.ShloMosaic.Ideal S1024x1024 .bf16) (p : Fin 512) (q : Fin 1024) :
    matmul dot_S512x1024_S1024x1024_S512x1024_1_0_0_1_n_n none A B (constant S512x1024 .f32 0x00000000#32) (ix2 p q)
      = ∑ k : Fin 1024, A (ix2 p k) * B (ix2 k q) := by
  rw [matmul_zero_eq_dotGeneral, dot_eq_plain3]
  exact StackMember.dotGeneral_plain_apply none A B p q

/-- The output block at (p, q): row p of the row block against column q of the column block, plus the bias row at q, clamped below at zero. -/
theorem out3_3_apply (x0 : FVec Idealize.ShloMosaic.Ideal S512x1024 .f32) (x1 : FVec Idealize.ShloMosaic.Ideal S1024x1024 .bf16) (x2 : FVec Idealize.ShloMosaic.Ideal S1x1024 .f32) (p : Fin 512) (q : Fin 1024) :
    out3_3 (F := Idealize.ShloMosaic.Ideal) x0 x1 x2 (ix2 p q) = max ((∑ k : Fin 1024, x0 (ix2 p k) * x1 (ix2 k q)) + x2 (ix2 (0 : Fin 1) q)) 0 := by
  unfold out3_3 k3_pay3 k3_pay2 k3_pay1
  simp only [shapeCast_self]
  show max ((Ideal.ofBits .f32 0x00000000#32 + matmul dot_S512x1024_S1024x1024_S512x1024_1_0_0_1_n_n none (truncf .bf16 x0 bitsLt_bf16_f32) x1 (constant S512x1024 .f32 0x00000000#32) (ix2 p q))
      + broadcastTo S512x1024 x2 broadcasts_S1x1024_S512x1024 (ix2 p q)) (Ideal.ofBits .f32 0x00000000#32) = _
  rw [Ideal.ofBits_zero_f32, zero_add, mm_apply3, broadcastTo_1b_ab_apply]
  rfl

/-! ## The input blocks as ranges of their arrays -/

/-- The row block at point `t`: rows `512·(its block row) …` of the activations, all 1024 columns. -/
theorem iblk3_0_apply (c : Dev nD) (t : Fin cfg3.N) (x : S512x1024.Idx) (k : S8192x1024.Idx)
    (hk0 : (k 0).val = win3_0.index t 0 * 512 + (x 0).val) (hk1 : (k 1).val = win3_0.index t 1 * 1024 + (x 1).val) :
    (iblk3 V c 0 t : Vec Idealize.ShloMosaic.Ideal S512x1024 .f32) x = (V c main_v15 : S8192x1024.Idx → EReal) k := by
  unfold iblk3
  rw [View.read_apply]
  show V c main_v15 _ = V c main_v15 _
  congr 1
  funext a
  apply Fin.ext
  match a with
  | ⟨0, _⟩ => show win3_0.index t 0 * 512 + 1 * (x 0).val = (k 0).val; rw [hk0]; omega
  | ⟨1, _⟩ => show win3_0.index t 1 * 1024 + 1 * (x 1).val = (k 1).val; rw [hk1]; omega

/-- The column block at point `t`: all 1024 rows of the weights, columns `1024·(its block column) …`. -/
theorem iblk3_1_apply (c : Dev nD) (t : Fin cfg3.N) (x : S1024x1024.Idx) (k : S1024x4096.Idx)
    (hk0 : (k 0).val = win3_1.index t 0 * 1024 + (x 0).val) (hk1 : (k 1).val = win3_1.index t 1 * 1024 + (x 1).val) :
    (iblk3 V c 1 t : Vec Idealize.ShloMosaic.Ideal S1024x1024 .bf16) x = (V c main_v5 : S1024x4096.Idx → EReal) k := by
  unfold iblk3
  rw [View.read_apply]
  show V c main_v5 _ = V c main_v5 _
  congr 1
  funext a
  apply Fin.ext
  match a with
  | ⟨0, _⟩ => show win3_1.index t 0 * 1024 + 1 * (x 0).val = (k 0).val; rw [hk0]; omega
  | ⟨1, _⟩ => show win3_1.index t 1 * 1024 + 1 * (x 1).val = (k 1).val; rw [hk1]; omega

/-- The bias block at point `t`: the one row of the bias, columns `1024·(its block column) …`. -/
theorem iblk3_2_apply (c : Dev nD) (t : Fin cfg3.N) (x : S1x1024.Idx) (k : S1x4096.Idx)
    (hk0 : (k 0).val = win3_2.index t 0 * 1 + (x 0).val) (hk1 : (k 1).val = win3_2.index t 1 * 1024 + (x 1).val) :
    (iblk3 V c 2 t : Vec Idealize.ShloMosaic.Ideal S1x1024 .f32) x = (V c main_v16 : S1x4096.Idx → EReal) k := by
  unfold iblk3
  rw [View.read_apply]
  show V c main_v16 _ = V c main_v16 _
  congr 1
  funext a
  apply Fin.ext
  match a with
  | ⟨0, _⟩ => show win3_2.index t 0 * 1 + 1 * (x 0).val = (k 0).val; rw [hk0]; omega
  | ⟨1, _⟩ => show win3_2.index t 1 * 1024 + 1 * (x 1).val = (k 1).val; rw [hk1]; omega

/-! ## From blocks to the array -/

/-- The index maps over the grid: the row block moves with the output's block row, the column block and the bias block with
    its block column; the contracted axis has one block; the output's block indices stay in range. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = win3_3.index t (1 : Fin 2)
    ∧ win3_2.index t (0 : Fin 2) = 0
    ∧ win3_2.index t (1 : Fin 2) = win3_3.index t (1 : Fin 2)
    ∧ win3_3.index t (0 : Fin 2) ≤ 15 ∧ win3_3.index t (1 : Fin 2) ≤ 3 :=
  (by decide +kernel : ∀ t : Fin grid3.N, _)

/-- Every block of the output array is some point's. -/
theorem idx_onto3 : ∀ (q0 : Fin 16) (q1 : Fin 4), ∃ t : Fin cfg3.N, win3_3.index t = ![q0.val, q1.val] :=
  (by decide +kernel : ∀ (q0 : Fin 16) (q1 : Fin 4), ∃ t : Fin grid3.N, win3_3.index t = ![q0.val, q1.val])

/-- The output block at point `t`, at the block index `j`, is `G3` at the array index `i` under it. -/
theorem out3_at (c : Dev nD) (t : Fin cfg3.N) (j : S512x1024.Idx) (i : S8192x4096.Idx)
    (hi0 : (i 0).val = win3_3.index t 0 * 512 + (j 0).val) (hi1 : (i 1).val = win3_3.index t 1 * 1024 + (j 1).val) :
    out3_3 (F := Idealize.ShloMosaic.Ideal) (iblk3 V c 0 t) (iblk3 V c 1 t) (iblk3 V c 2 t) j = G3 V c i := by
  obtain ⟨e0, e1, e2, e3, e4, e5, -, -⟩ := idx_facts3 t
  obtain ⟨p, q, rfl⟩ : ∃ (p : Fin 512) (q : Fin 1024), j = ix2 p q := ⟨j 0, j 1, eq_ix2 j⟩
  refine (out3_3_apply (iblk3 V c 0 t) (iblk3 V c 1 t) (iblk3 V c 2 t) p q).trans ?_
  have hp : (i 0).val = win3_3.index t 0 * 512 + p.val := hi0
  have hq : (i 1).val = win3_3.index t 1 * 1024 + q.val := hi1
  refine congrArg (max · (0 : EReal)) ?_
  refine congrArg₂ (· + ·) (Finset.sum_congr rfl fun k _ => congrArg₂ (· * ·) ?_ ?_) ?_
  · exact iblk3_0_apply V c t (ix2 p k) (ix2 (i 0) k)
      (by show (i 0).val = win3_0.index t 0 * 512 + p.val; rw [e0, hp])
      (by show k.val = win3_0.index t 1 * 1024 + k.val; rw [e1]; omega)
  · exact iblk3_1_apply V c t (ix2 k q) (ix2 k (i 1))
      (by show k.val = win3_1.index t 0 * 1024 + k.val; rw [e2]; omega)
      (by show (i 1).val = win3_1.index t 1 * 1024 + q.val; rw [e3, hq])
  · exact iblk3_2_apply V c t (ix2 (0 : Fin 1) q) (ix2 (0 : Fin 1) (i 1))
      (by show (0 : ℕ) = win3_2.index t 0 * 1 + 0; rw [e4])
      (by show (i 1).val = win3_2.index t 1 * 1024 + q.val; rw [e5, hq])

/-- What point `t` writes back is block `t` of `G3`. -/
theorem flushed3_eq (c : Dev nD) (t : Fin cfg3.N) :
    (dat3 (F := Idealize.ShloMosaic.Ideal) V c).flushed 3 t = ((cfg3.win 3).blk t).view.read (Elt Idealize.ShloMosaic.Ideal) (G3 V c) := by
  show (cfg3.win 3).cut (grid3.coords t) ((dat3 V c).after 3 t) = _
  rw [after3_3]
  funext j
  refine out3_at V c t j _ ?_ ?_
  · show win3_3.index t 0 * 512 + 1 * (j 0).val = win3_3.index t 0 * 512 + (j 0).val; omega
  · show win3_3.index t 1 * 1024 + 1 * (j 1).val = win3_3.index t 1 * 1024 + (j 1).val; omega

/-- An index of the array is in point `t`'s block iff each coordinate is in the block's range on its axis. -/
theorem mem_blk3 (t : Fin cfg3.N) (i : S8192x4096.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v17).slice (win3_3.rect t)).set ↔ _
  rw [View.set_slice_whole, Rect.mem_set_unit]
  exact Iff.rfl

/-- The output's blocks cover its array: the point whose block holds entry (r, c) is the one with block row r / 512 and block
    column c / 1024. -/
theorem cover3 (i : S8192x4096.Idx) : ∃ t : Fin cfg3.N, (cfg3.win 3).flush t = true ∧ i ∈ ((cfg3.win 3).blk t).view.set := by
  have hi0 : (i 0).val < 8192 := (i 0).isLt
  have hi1 : (i 1).val < 4096 := (i 1).isLt
  obtain ⟨t, ht⟩ := idx_onto3 ⟨(i 0).val / 512, by omega⟩ ⟨(i 1).val / 1024, by omega⟩
  have q0 : win3_3.index t (0 : Fin 2) = (i 0).val / 512 := congrFun ht 0
  have q1 : win3_3.index t (1 : Fin 2) = (i 1).val / 1024 := congrFun ht 1
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- THE ARRAY after the launch: `G3` of the arrays as the region finds them. -/
theorem final3 (c : Dev nD) : (dat3 (F := Idealize.ShloMosaic.Ideal) V c).arrAt 3 cfg3.N
    = fun i => max ((∑ k : Fin 1024, inX3 V c (ix2 (i 0) k) * inW3 V c (ix2 k (i 1))) + inB3 V c (ix2 (0 : Fin 1) (i 1))) 0 :=
  (dat3 (F := Idealize.ShloMosaic.Ideal) V c).arrAt_eq_of_cover 3 (G3 V c) (fun t _ => flushed3_eq V c t) (cover3)

end Cert.KernelIdeal.Gen

end
-- ==== Proof.KI.Region1Pieces.lean ====
/- Region 1: what each case's stores leave, as the body's arithmetic (its payloads) of the input blocks and the state
   the point found — the covering stores' contents read back, a load after a store of the same buffer reading that
   store's payload. One step of the recurrence: the new maximum `mNew`, the new sum `lNew`, the new accumulator
   `accNew`; the first key tile starts from the reset values, the last also leaves `accNew / lNew` in the output. -/
import proofs.«105537_j20366734917908_2_alg».proof.Proof.KI.Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzero3 : (![0, 0, 0] : Fin 3 → Nat) = fun _ => 0 := funext fun a => by fin_cases a <;> rfl

/-- The running maximum after a step: the larger of the old one and the tile's row maxima. -/
def mNew (q k : Vec F S4x256x1024 .bf16) (m : Vec F S4x256x1 .f32) : Vec F S4x256x1 .f32 := k1_pay2 (k1_pay8 q k m)
/-- The running sum after a step: the old one rescaled plus the tile's row sums of exponentials. -/
def lNew (q k : Vec F S4x256x1024 .bf16) (m l : Vec F S4x256x1 .f32) : Vec F S4x256x1 .f32 := k1_pay11 q k m m l
/-- The accumulator after a step: the old one rescaled plus the tile's exponentials against the value tile. -/
def accNew (q k v : Vec F S4x256x1024 .bf16) (m : Vec F S4x256x1 .f32) (acc : Vec F S4x256x1024 .f32) : Vec F S4x256x1024 .f32 :=
  k1_pay1 (k1_pay9 q k m m) (k1_pay10 q k m) v acc

theorem sout1_A_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    sout1_A_0 c i arg2 harg2 arg3 harg3 arg4 harg4 arg5 harg5 arg6 harg6 arg7 harg7 arg8 harg8 hc0 hc1 x0 x1 x2 = mNew x0 x1 (k1_pay4 (F := F)) := by
  unfold sout1_A_0
  rw [View.read_writes_junk_eq_canon]
  unfold kernelRun1_A
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_A_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    sout1_A_1 c i arg2 harg2 arg3 harg3 arg4 harg4 arg5 harg5 arg6 harg6 arg7 harg7 arg8 harg8 hc0 hc1 x0 x1 x2 = lNew x0 x1 (k1_pay4 (F := F)) (k1_pay5 (F := F)) := by
  unfold sout1_A_1
  rw [View.read_writes_junk_eq_canon]
  unfold kernelRun1_A
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_A_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    sout1_A_2 c i arg2 harg2 arg3 harg3 arg4 harg4 arg5 harg5 arg6 harg6 arg7 harg7 arg8 harg8 hc0 hc1 x0 x1 x2 = accNew x0 x1 x2 (k1_pay4 (F := F)) (k1_pay6 (F := F)) := by
  unfold sout1_A_2
  rw [View.read_writes_junk_eq_canon]
  unfold kernelRun1_A
  dsimp only
  sl_unfold_words
  rw [View.canon_cons_unit_zero (S := S4x256x1024) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_B_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_B_0 c i arg2 harg2 arg3 harg3 arg4 harg4 arg5 harg5 arg6 harg6 arg7 harg7 arg8 harg8 hc0 hc1 x0 x1 x2 xs0 xs1 xs2 = mNew x0 x1 xs0 := by
  unfold sout1_B_0
  rw [View.read_writes_junk_eq_canon]
  unfold kernelRun1_B
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_B_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_B_1 c i arg2 harg2 arg3 harg3 arg4 harg4 arg5 harg5 arg6 harg6 arg7 harg7 arg8 harg8 hc0 hc1 x0 x1 x2 xs0 xs1 xs2 = lNew x0 x1 xs0 xs1 := by
  unfold sout1_B_1
  rw [View.read_writes_junk_eq_canon]
  unfold kernelRun1_B
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_B_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_B_2 c i arg2 harg2 arg3 harg3 arg4 harg4 arg5 harg5 arg6 harg6 arg7 harg7 arg8 harg8 hc0 hc1 x0 x1 x2 xs0 xs1 xs2 = accNew x0 x1 x2 xs0 xs2 := by
  unfold sout1_B_2
  rw [View.read_writes_junk_eq_canon]
  unfold kernelRun1_B
  dsimp only
  sl_unfold_words
  rw [View.canon_cons_unit_zero (S := S4x256x1024) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_C_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_C_0 c i arg2 harg2 arg3 harg3 arg4 harg4 arg5 harg5 arg6 harg6 arg7 harg7 arg8 harg8 hc0 hc1 x0 x1 x2 xs0 xs1 xs2 = mNew x0 x1 xs0 := by
  unfold sout1_C_0
  rw [View.read_writes_junk_eq_canon]
  unfold kernelRun1_C
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_C_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_C_1 c i arg2 harg2 arg3 harg3 arg4 harg4 arg5 harg5 arg6 harg6 arg7 harg7 arg8 harg8 hc0 hc1 x0 x1 x2 xs0 xs1 xs2 = lNew x0 x1 xs0 xs1 := by
  unfold sout1_C_1
  rw [View.read_writes_junk_eq_canon]
  unfold kernelRun1_C
  dsimp only
  sl_unfold_words
  rw [View.canon_cons_unit_zero (S := S4x256x1) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem sout1_C_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    sout1_C_2 c i arg2 harg2 arg3 harg3 arg4 harg4 arg5 harg5 arg6 harg6 arg7 harg7 arg8 harg8 hc0 hc1 x0 x1 x2 xs0 xs1 xs2 = accNew x0 x1 x2 xs0 xs2 := by
  unfold sout1_C_2
  rw [View.read_writes_junk_eq_canon]
  unfold kernelRun1_C
  dsimp only
  sl_unfold_words
  rw [View.canon_cons_unit_zero (S := S4x256x1024) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

theorem out1_C_3_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    out1_C_3 c i arg2 harg2 arg3 harg3 arg4 harg4 arg5 harg5 arg6 harg6 arg7 harg7 arg8 harg8 hc0 hc1 x0 x1 x2 xs0 xs1 xs2 = k1_pay3 (accNew x0 x1 x2 xs0 xs2) (lNew x0 x1 xs0 xs1) := by
  unfold out1_C_3
  rw [View.read_writes_junk_eq_canon]
  unfold kernelRun1_C
  dsimp only
  sl_unfold_words
  rw [View.canon_cons_unit_zero (S := S4x256x1024) hzero3]
  simp only [mNew, lNew, accNew, View.readAt_eq_ld, harg2.read_unread, harg3.read_unread, harg4.read_unread, harg6.read_unread, harg7.read_unread, harg8.read_unread,
    View.ld_unit_zero (S := S4x256x1024) hzero3, View.ld_unit_zero (S := S4x256x1) hzero3,
    View.readCov_unit_zero (S := S4x256x1) _ hzero3, View.readCov_unit_zero (S := S4x256x1024) _ hzero3]

end Cert.KernelIdeal.Gen

end
-- ==== Proof.LibOnlineSoftmax.lean ====
/-
  Online softmax, block by block, equals softmax.

  Keys come in blocks `t = 0, 1, …` of a finite nonempty index type `κ`. A running state `(m, l, a)` starts at
  `(⊥, 0, 0)` and a block with scores `s` and values `v` updates it to
      m' = max m (sup s),   l' = exp (m - m') * l + ∑ j, exp (s j - m'),   a' = exp (m - m') * a + ∑ j, exp (s j - m') * v j
  on the extended reals (`exp ⊥ = 0`). For REAL scores and values, after `n + 1` blocks the state is the real triple
  (largest score seen, the sum of `exp (score - that)`, the same sum weighted by the values): the factor
  `exp (m - m')` rescales the old sums because `exp (m - m') * exp (x - m) = exp (x - m')`. Dividing the weighted sum by
  the plain one gives the softmax-weighted sum of the values, each weight `exp (s - M) / ∑ exp (s - M)`.
-/
import Idealize.ShloMosaic.PureOps.Ideal
import Mathlib.Analysis.SpecialFunctions.Exp
import Mathlib.Algebra.BigOperators.Field

noncomputable section

namespace Cert.LibOnlineSoftmax

open Idealize.ShloMosaic

variable {κ : Type} [Fintype κ] [Nonempty κ]

/-- One block's update of the running state `(m, l, a)`. -/
def stepE (st : EReal × EReal × EReal) (s v : κ → EReal) : EReal × EReal × EReal :=
  (max st.1 (Finset.univ.sup s),
   Ideal.exp (st.1 - max st.1 (Finset.univ.sup s)) * st.2.1 + ∑ j : κ, Ideal.exp (s j - max st.1 (Finset.univ.sup s)),
   Ideal.exp (st.1 - max st.1 (Finset.univ.sup s)) * st.2.2 + ∑ j : κ, Ideal.exp (s j - max st.1 (Finset.univ.sup s)) * v j)

/-- The state after the first `n` blocks. -/
def stateE (s v : ℕ → κ → EReal) : ℕ → EReal × EReal × EReal
  | 0 => (⊥, 0, 0)
  | n + 1 => stepE (stateE s v n) (s n) (v n)

/-- The coercion of a finite real sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The supremum of finitely many reals, taken in the extended reals, is their real maximum. -/
theorem sup_coe {ι : Type} (S : Finset ι) (hS : S.Nonempty) (f : ι → ℝ) :
    S.sup (fun j => (f j : EReal)) = ((S.sup' hS f : ℝ) : EReal) := by
  classical
  induction hS using Finset.Nonempty.cons_induction with
  | singleton a => simp
  | cons a s ha hs ih =>
    rw [Finset.sup_cons, Finset.sup'_cons hs, ih]
    exact (EReal.coe_strictMono.monotone.map_max).symm

/-- The largest score of block `t`. -/
def bmax (sr : ℕ → κ → ℝ) (t : ℕ) : ℝ := Finset.univ.sup' Finset.univ_nonempty (sr t)

/-- The largest score among blocks `0 … n`. -/
def Mr (sr : ℕ → κ → ℝ) : ℕ → ℝ
  | 0 => bmax sr 0
  | n + 1 => max (Mr sr n) (bmax sr (n + 1))

/-- The sum of `exp (score - M)` over blocks `0 … n`. -/
def Lr (sr : ℕ → κ → ℝ) (M : ℝ) (n : ℕ) : ℝ := ∑ t ∈ Finset.range (n + 1), ∑ j : κ, Real.exp (sr t j - M)

/-- The same sum weighted by the values. -/
def Ar (sr vr : ℕ → κ → ℝ) (M : ℝ) (n : ℕ) : ℝ := ∑ t ∈ Finset.range (n + 1), ∑ j : κ, Real.exp (sr t j - M) * vr t j

theorem rescale_L (sr : ℕ → κ → ℝ) (M M' : ℝ) (n : ℕ) : Real.exp (M - M') * Lr sr M n = Lr sr M' n := by
  unfold Lr
  rw [Finset.mul_sum]
  refine Finset.sum_congr rfl fun t _ => ?_
  rw [Finset.mul_sum]
  refine Finset.sum_congr rfl fun j _ => ?_
  rw [← Real.exp_add]; congr 1; ring

theorem rescale_A (sr vr : ℕ → κ → ℝ) (M M' : ℝ) (n : ℕ) : Real.exp (M - M') * Ar sr vr M n = Ar sr vr M' n := by
  unfold Ar
  rw [Finset.mul_sum]
  refine Finset.sum_congr rfl fun t _ => ?_
  rw [Finset.mul_sum]
  refine Finset.sum_congr rfl fun j _ => ?_
  rw [← mul_assoc, ← Real.exp_add]; congr 2; ring

/-- For real scores and values, the state after `n + 1` blocks is the real triple. -/
theorem stateE_real (sr vr : ℕ → κ → ℝ) (n : ℕ) :
    stateE (fun t j => (sr t j : EReal)) (fun t j => (vr t j : EReal)) (n + 1)
      = (((Mr sr n : ℝ) : EReal), ((Lr sr (Mr sr n) n : ℝ) : EReal), ((Ar sr vr (Mr sr n) n : ℝ) : EReal)) := by
  induction n with
  | zero =>
    show stepE (⊥, 0, 0) _ _ = _
    unfold stepE
    simp only [sup_coe Finset.univ Finset.univ_nonempty, bot_le, max_eq_right, EReal.bot_sub, Ideal.exp_bot, zero_mul, zero_add]
    refine Prod.ext rfl (Prod.ext ?_ ?_)
    · show (∑ j : κ, Ideal.exp ((sr 0 j : EReal) - ((bmax sr 0 : ℝ) : EReal))) = _
      unfold Lr Mr
      rw [Finset.sum_range_one, coe_sum]
      refine Finset.sum_congr rfl fun j _ => ?_
      rw [← EReal.coe_sub, Ideal.exp_coe]
    · show (∑ j : κ, Ideal.exp ((sr 0 j : EReal) - ((bmax sr 0 : ℝ) : EReal)) * (vr 0 j : EReal)) = _
      unfold Ar Mr
      rw [Finset.sum_range_one, coe_sum]
      refine Finset.sum_congr rfl fun j _ => ?_
      rw [← EReal.coe_sub, Ideal.exp_coe, EReal.coe_mul]
  | succ n ih =>
    show stepE (stateE _ _ (n + 1)) _ _ = _
    rw [ih]
    unfold stepE
    simp only [sup_coe Finset.univ Finset.univ_nonempty]
    have hm : max ((Mr sr n : ℝ) : EReal) ((Finset.univ.sup' Finset.univ_nonempty (sr (n + 1)) : ℝ) : EReal)
        = ((Mr sr (n + 1) : ℝ) : EReal) := (EReal.coe_strictMono.monotone.map_max).symm
    rw [hm]
    refine Prod.ext rfl (Prod.ext ?_ ?_)
    · show Ideal.exp (((Mr sr n : ℝ) : EReal) - ((Mr sr (n + 1) : ℝ) : EReal)) * ((Lr sr (Mr sr n) n : ℝ) : EReal)
          + ∑ j : κ, Ideal.exp ((sr (n + 1) j : EReal) - ((Mr sr (n + 1) : ℝ) : EReal)) = _
      rw [← EReal.coe_sub, Ideal.exp_coe, ← EReal.coe_mul, rescale_L]
      have : (∑ j : κ, Ideal.exp ((sr (n + 1) j : EReal) - ((Mr sr (n + 1) : ℝ) : EReal)))
          = ((∑ j : κ, Real.exp (sr (n + 1) j - Mr sr (n + 1)) : ℝ) : EReal) := by
        rw [coe_sum]; refine Finset.sum_congr rfl fun j _ => ?_
        rw [← EReal.coe_sub, Ideal.exp_coe]
      rw [this, ← EReal.coe_add]
      congr 1
      unfold Lr
      rw [Finset.sum_range_succ _ (n + 1)]
    · show Ideal.exp (((Mr sr n : ℝ) : EReal) - ((Mr sr (n + 1) : ℝ) : EReal)) * ((Ar sr vr (Mr sr n) n : ℝ) : EReal)
          + ∑ j : κ, Ideal.exp ((sr (n + 1) j : EReal) - ((Mr sr (n + 1) : ℝ) : EReal)) * (vr (n + 1) j : EReal) = _
      rw [← EReal.coe_sub, Ideal.exp_coe, ← EReal.coe_mul, rescale_A]
      have : (∑ j : κ, Ideal.exp ((sr (n + 1) j : EReal) - ((Mr sr (n + 1) : ℝ) : EReal)) * (vr (n + 1) j : EReal))
          = ((∑ j : κ, Real.exp (sr (n + 1) j - Mr sr (n + 1)) * vr (n + 1) j : ℝ) : EReal) := by
        rw [coe_sum]; refine Finset.sum_congr rfl fun j _ => ?_
        rw [← EReal.coe_sub, Ideal.exp_coe, EReal.coe_mul]
      rw [this, ← EReal.coe_add]
      congr 1
      unfold Ar
      rw [Finset.sum_range_succ _ (n + 1)]

/-! ## The quotient: the weighted sum over the plain sum is the softmax-weighted sum -/

theorem Lr_pos (sr : ℕ → κ → ℝ) (M : ℝ) (n : ℕ) : 0 < Lr sr M n :=
  Finset.sum_pos (fun t _ => Finset.sum_pos (fun j _ => Real.exp_pos _) Finset.univ_nonempty) Finset.nonempty_range_add_one

/-- Dividing the weighted sum by the plain sum distributes over the terms: the sums are real and the divisor positive. -/
theorem div_state (sr vr : ℕ → κ → ℝ) (M : ℝ) (n : ℕ) :
    Ideal.div ((Ar sr vr M n : ℝ) : EReal) ((Lr sr M n : ℝ) : EReal)
      = ∑ t ∈ Finset.range (n + 1), ∑ j : κ,
          Ideal.div (Ideal.exp ((sr t j : EReal) - (M : EReal))) ((Lr sr M n : ℝ) : EReal) * (vr t j : EReal) := by
  have hL : Lr sr M n ≠ 0 := (Lr_pos sr M n).ne'
  have hterm : ∀ t j, Ideal.div (Ideal.exp ((sr t j : EReal) - (M : EReal))) ((Lr sr M n : ℝ) : EReal) * (vr t j : EReal)
      = ((Real.exp (sr t j - M) * (1 / Lr sr M n) * vr t j : ℝ) : EReal) := fun t j => by
    rw [Ideal.div_coe hL, ← EReal.coe_sub, Ideal.exp_coe, ← EReal.coe_mul, ← EReal.coe_mul]
  calc Ideal.div ((Ar sr vr M n : ℝ) : EReal) ((Lr sr M n : ℝ) : EReal)
      = ((Ar sr vr M n * (1 / Lr sr M n) : ℝ) : EReal) := by rw [Ideal.div_coe hL, ← EReal.coe_mul]
    _ = ((∑ t ∈ Finset.range (n + 1), ∑ j : κ, Real.exp (sr t j - M) * (1 / Lr sr M n) * vr t j : ℝ) : EReal) := by
        congr 1
        unfold Ar
        rw [Finset.sum_mul]
        refine Finset.sum_congr rfl fun t _ => ?_
        rw [Finset.sum_mul]
        refine Finset.sum_congr rfl fun j _ => ?_
        ring
    _ = ∑ t ∈ Finset.range (n + 1), ((∑ j : κ, Real.exp (sr t j - M) * (1 / Lr sr M n) * vr t j : ℝ) : EReal) := coe_sum _ _
    _ = ∑ t ∈ Finset.range (n + 1), ∑ j : κ, ((Real.exp (sr t j - M) * (1 / Lr sr M n) * vr t j : ℝ) : EReal) :=
        Finset.sum_congr rfl fun t _ => coe_sum _ _
    _ = _ := Finset.sum_congr rfl fun t _ => Finset.sum_congr rfl fun j _ => (hterm t j).symm

/-! ## A flat key index cut into blocks -/

theorem le_bmax (sr : ℕ → κ → ℝ) (t : ℕ) (j : κ) : sr t j ≤ bmax sr t := Finset.le_sup' (sr t) (Finset.mem_univ j)

theorem bmax_le_Mr (sr : ℕ → κ → ℝ) {t n : ℕ} (h : t ≤ n) : bmax sr t ≤ Mr sr n := by
  induction n with
  | zero => have ht : t = 0 := Nat.le_zero.mp h; subst ht; exact le_rfl
  | succ n ih =>
    rcases Nat.lt_or_ge t (n + 1) with h' | h'
    · exact (ih (Nat.lt_succ_iff.mp h')).trans (le_max_left _ _)
    · have ht : t = n + 1 := le_antisymm h h'
      subst ht; exact le_max_right _ _

theorem Mr_le (sr : ℕ → κ → ℝ) (n : ℕ) (B : ℝ) (h : ∀ t, t ≤ n → ∀ j, sr t j ≤ B) : Mr sr n ≤ B := by
  induction n with
  | zero => exact Finset.sup'_le Finset.univ_nonempty _ fun j _ => h 0 le_rfl j
  | succ n ih =>
    exact max_le (ih fun t ht j => h t (Nat.le_succ_of_le ht) j) (Finset.sup'_le Finset.univ_nonempty _ fun j _ => h (n + 1) le_rfl j)

variable {ι : Type} [Fintype ι]

/-- Block `t` of a function of the flat index, through the bijection `e` (zero past the last block). -/
def blockOf {n : ℕ} (e : Fin (n + 1) × κ ≃ ι) (f : ι → ℝ) : ℕ → κ → ℝ :=
  fun t j => if h : t < n + 1 then f (e (⟨t, h⟩, j)) else 0

theorem blockOf_apply {n : ℕ} (e : Fin (n + 1) × κ ≃ ι) (f : ι → ℝ) (t : Fin (n + 1)) (j : κ) :
    blockOf e f t.val j = f (e (t, j)) := by
  unfold blockOf; rw [dif_pos t.isLt]

/-- A sum over the flat index taken block by block. -/
theorem sum_flat {n : ℕ} (e : Fin (n + 1) × κ ≃ ι) (g : ι → EReal) (g' : ℕ → κ → EReal)
    (h : ∀ (t : Fin (n + 1)) (j : κ), g (e (t, j)) = g' t.val j) :
    ∑ i : ι, g i = ∑ t ∈ Finset.range (n + 1), ∑ j : κ, g' t j := by
  rw [← Equiv.sum_comp e g, Fintype.sum_prod_type, Finset.sum_range fun t => ∑ j : κ, g' t j]
  exact Finset.sum_congr rfl fun t _ => Finset.sum_congr rfl fun j _ => h t j

/-- For a flat key index cut into `n + 1` blocks by `e`, real scores `s` and values `v`: the online state's quotient after
    the last block is the softmax-weighted sum of the values, the weights `exp (s i - sup s) / ∑ exp (s i' - sup s)`. -/
theorem attn_flat {n : ℕ} (e : Fin (n + 1) × κ ≃ ι) (s v : ι → ℝ) :
    Ideal.div (stateE (fun t j => (blockOf e s t j : EReal)) (fun t j => (blockOf e v t j : EReal)) (n + 1)).2.2
        (stateE (fun t j => (blockOf e s t j : EReal)) (fun t j => (blockOf e v t j : EReal)) (n + 1)).2.1
      = ∑ i : ι, Ideal.div (Ideal.exp ((s i : EReal) - Finset.univ.sup fun i' => (s i' : EReal)))
          (∑ i' : ι, Ideal.exp ((s i' : EReal) - Finset.univ.sup fun i'' => (s i'' : EReal))) * (v i : EReal) := by
  haveI : Nonempty ι := ⟨e (0, Classical.arbitrary κ)⟩
  rw [stateE_real]
  show Ideal.div ((Ar (blockOf e s) (blockOf e v) (Mr (blockOf e s) n) n : ℝ) : EReal)
      ((Lr (blockOf e s) (Mr (blockOf e s) n) n : ℝ) : EReal) = _
  have hM : (Finset.univ.sup fun i' => (s i' : EReal)) = ((Mr (blockOf e s) n : ℝ) : EReal) := by
    rw [sup_coe Finset.univ Finset.univ_nonempty s, EReal.coe_eq_coe_iff]
    apply le_antisymm
    · refine Finset.sup'_le Finset.univ_nonempty _ fun i _ => ?_
      obtain ⟨⟨t, j⟩, rfl⟩ := e.surjective i
      rw [← blockOf_apply e s t j]
      exact (le_bmax _ t.val j).trans (bmax_le_Mr _ (Nat.lt_succ_iff.mp t.isLt))
    · refine Mr_le _ n _ fun t ht j => ?_
      have := blockOf_apply e s ⟨t, Nat.lt_succ_iff.mpr ht⟩ j
      rw [show ((⟨t, Nat.lt_succ_iff.mpr ht⟩ : Fin (n + 1)).val) = t from rfl] at this
      rw [this]
      exact Finset.le_sup' s (Finset.mem_univ _)
  have hL : (∑ i' : ι, Ideal.exp ((s i' : EReal) - ((Mr (blockOf e s) n : ℝ) : EReal)))
      = ((Lr (blockOf e s) (Mr (blockOf e s) n) n : ℝ) : EReal) := by
    rw [sum_flat e _ (fun t j => Ideal.exp ((blockOf e s t j : EReal) - ((Mr (blockOf e s) n : ℝ) : EReal)))
      (fun t j => by rw [blockOf_apply])]
    unfold Lr
    rw [coe_sum]
    refine Finset.sum_congr rfl fun t _ => ?_
    rw [coe_sum]
    refine Finset.sum_congr rfl fun j _ => ?_
    rw [← EReal.coe_sub, Ideal.exp_coe]
  rw [div_state, hM, hL]
  exact (sum_flat e _ (fun t j => Ideal.div (Ideal.exp ((blockOf e s t j : EReal) - ((Mr (blockOf e s) n : ℝ) : EReal)))
      ((Lr (blockOf e s) (Mr (blockOf e s) n) n : ℝ) : EReal) * (blockOf e v t j : EReal))
    (fun t j => by rw [blockOf_apply, blockOf_apply])).symm

end Cert.LibOnlineSoftmax

end
-- ==== Proof.KI.Region1Step.lean ====
/- Region 1 at the ideal values, one grid point: the body's arithmetic read at an element. For a query row (b, r) of
   the query tile and a column d, one step of the recurrence on the triple (running maximum at (b, r), running sum
   at (b, r), accumulator at (b, r, d)) is the scalar online-softmax step over the key tile's 256 scores
   s j = (∑ e, q (b, r, e) · k (b, j, e)) · 2⁻⁵ and values v (b, j, d). -/
import proofs.«105537_j20366734917908_2_alg».proof.Proof.Gen.KernelIdeal.Skeleton
import proofs.«105537_j20366734917908_2_alg».proof.Proof.LibOnlineSoftmax
import proofs.«105537_j20366734917908_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.ValueIdx
open Cert.LibOnlineSoftmax

abbrev dotQK := dot_S4x256x1024_S4x256x1024_S4x256x256_2_2_1_1_0_0
abbrev dotPV := dot_S4x256x256_S4x256x1024_S4x256x1024_2_1_1_2_0_0

/-- The scaled score of query row (b, r) against key row (b, j) of the tiles. -/
def sc (q k : Vec Ideal S4x256x1024 .bf16) (b : Fin 4) (r : Fin 256) (j : Fin 256) : EReal :=
  (∑ e : Fin 1024, q (ix3 b r e) * k (ix3 b j e)) * Cert.Spec.scaleW

theorem qk_apply (q k : FVec Ideal S4x256x1024 .bf16) (b : Fin 4) (r : Fin 256) (j : Fin 256) :
    FloatOps.matmul dotQK none q k (constant S4x256x256 .f32 0x00000000#32) (ix3 b r j)
      = ∑ e : Fin 1024, q (ix3 b r e) * k (ix3 b j e) := by
  rw [Ideal.matmul_constant_zero_apply, ← Equiv.sum_comp (contrEquiv1 dotQK 1024 rfl rfl).symm]
  refine Finset.sum_congr rfl fun e _ => ?_
  have hl : dotQK.lhsIdx (ix3 b r j) ((contrEquiv1 dotQK 1024 rfl rfl).symm e) = ix3 b r e := by
    funext a; apply Fin.ext
    match a with
    | ⟨0, _⟩ => rfl
    | ⟨1, _⟩ => rfl
    | ⟨2, _⟩ => exact (DotDims.lhsIdx_val_of_single dotQK (cl := 2) rfl _ _).trans (contrEquiv1_symm_val dotQK 1024 rfl rfl e)
  have hr : dotQK.rhsIdx (ix3 b r j) ((contrEquiv1 dotQK 1024 rfl rfl).symm e) = ix3 b j e := by
    funext a; apply Fin.ext
    match a with
    | ⟨0, _⟩ => rfl
    | ⟨1, _⟩ => rfl
    | ⟨2, _⟩ => exact (DotDims.rhsIdx_val_of_single dotQK (cr := 2) rfl _ _).trans (contrEquiv1_symm_val dotQK 1024 rfl rfl e)
  rw [hl, hr]

theorem pv_apply (p : FVec Ideal S4x256x256 .bf16) (v : FVec Ideal S4x256x1024 .bf16) (b : Fin 4) (r : Fin 256) (d : Fin 1024) :
    FloatOps.matmul dotPV none p v (constant S4x256x1024 .f32 0x00000000#32) (ix3 b r d)
      = ∑ j : Fin 256, p (ix3 b r j) * v (ix3 b j d) := by
  rw [Ideal.matmul_constant_zero_apply, ← Equiv.sum_comp (contrEquiv1 dotPV 256 rfl rfl).symm]
  refine Finset.sum_congr rfl fun e _ => ?_
  have hl : dotPV.lhsIdx (ix3 b r d) ((contrEquiv1 dotPV 256 rfl rfl).symm e) = ix3 b r e := by
    funext a; apply Fin.ext
    match a with
    | ⟨0, _⟩ => rfl
    | ⟨1, _⟩ => rfl
    | ⟨2, _⟩ => exact (DotDims.lhsIdx_val_of_single dotPV (cl := 2) rfl _ _).trans (contrEquiv1_symm_val dotPV 256 rfl rfl e)
  have hr : dotPV.rhsIdx (ix3 b r d) ((contrEquiv1 dotPV 256 rfl rfl).symm e) = ix3 b e d := by
    funext a; apply Fin.ext
    match a with
    | ⟨0, _⟩ => rfl
    | ⟨1, _⟩ => exact (DotDims.rhsIdx_val_of_single dotPV (cr := 1) rfl _ _).trans (contrEquiv1_symm_val dotPV 256 rfl rfl e)
    | ⟨2, _⟩ => rfl
  rw [hl, hr]

theorem negInf_f32 : Ideal.ofBits .f32 0xFF800000#32 = (⊥ : EReal) := by simp [Ideal.ofBits, Ideal.ieee]

theorem pay7_apply (q k : Vec Ideal S4x256x1024 .bf16) (b : Fin 4) (r : Fin 256) (j : Fin 256) :
    k1_pay7 (F := Ideal) q k (ix3 b r j) = sc q k b r j := by
  unfold k1_pay7 sc
  simp only [shapeCast_self]
  show FloatOps.matmul dotQK none q k (constant S4x256x256 .f32 0x00000000#32) (ix3 b r j) * Ideal.ofBits .f32 0x3D000000#32 = _
  rw [qk_apply]; rfl

/-- A [4,256] vector viewed [4,256,1] reads (b, r) at (b, r, 0). -/
theorem cast_col (x : S4x256.Idx → EReal) (b : Fin 4) (r : Fin 256) (u : Fin 1) :
    shapeCast S4x256x1 x shapeCasts_S4x256_S4x256x1 (ix3 b r u) = x (ix2 b r) :=
  shapeCast_apply x shapeCasts_S4x256_S4x256x1 (ix3 b r u) (ix2 b r) (by
    rw [Shape.rowMajor_val_two, Shape.rowMajor_val_three]
    show b.val * 256 + r.val = (b.val * 256 + r.val) * 1 + u.val
    have := u.isLt; omega)

/-- A [4,256,1] column laid along 256 lanes reads (b, r, 0) at (b, r, j); -/
theorem bcast256 (x : S4x256x1.Idx → EReal) (b : Fin 4) (r : Fin 256) (j : Fin 256) :
    broadcastTo S4x256x256 x broadcasts_S4x256x1_S4x256x256 (ix3 b r j) = x (ix3 b r 0) :=
  broadcastTo_apply x broadcasts_S4x256x1_S4x256x256 (ix3 b r j) (ix3 b r 0) (fun a => by
    match a with
    | ⟨0, _⟩ => rfl
    | ⟨1, _⟩ => rfl
    | ⟨2, _⟩ => rfl)

/-- along 1024 lanes likewise. -/
theorem bcast1024 (x : S4x256x1.Idx → EReal) (b : Fin 4) (r : Fin 256) (d : Fin 1024) :
    broadcastTo S4x256x1024 x broadcasts_S4x256x1_S4x256x1024 (ix3 b r d) = x (ix3 b r 0) :=
  broadcastTo_apply x broadcasts_S4x256x1_S4x256x1024 (ix3 b r d) (ix3 b r 0) (fun a => by
    match a with
    | ⟨0, _⟩ => rfl
    | ⟨1, _⟩ => rfl
    | ⟨2, _⟩ => rfl)

/-- The row maximum over the tile's 256 keys, from −∞. -/
theorem rowmax_apply (x : FVec Ideal S4x256x256 .f32) (b : Fin 4) (r : Fin 256) :
    multiReduction .maximumf [2] S4x256 x 0xFF800000#32 reduces_S4x256x256_S4x256 (.inl rfl) rfl (ix2 b r)
      = Finset.univ.sup fun j : Fin 256 => x (ix3 b r j) := by
  refine (Ideal.multiReduction_maximumf_single x 0xFF800000#32 reduces_S4x256x256_S4x256 (.inl rfl) rfl (ix2 b r)).trans ?_
  show Finset.univ.fold max (Ideal.ofBits .f32 0xFF800000#32) (fun j : Fin 256 => x (reduces_S4x256x256_S4x256.lift (ix2 b r) j)) = _
  rw [negInf_f32]
  have hl : ∀ j : Fin 256, reduces_S4x256x256_S4x256.lift (ix2 b r) j = ix3 b r j := fun j => by
    funext a; apply Fin.ext
    match a with
    | ⟨0, _⟩ => rfl
    | ⟨1, _⟩ => rfl
    | ⟨2, _⟩ => rfl
  simp only [hl]
  rfl

/-- The row sum over the tile's 256 keys. -/
theorem rowsum_apply (x : FVec Ideal S4x256x256 .f32) (b : Fin 4) (r : Fin 256) :
    multiReduction .add [2] S4x256 x 0x00000000#32 reduces_S4x256x256_S4x256 (.inl rfl) rfl (ix2 b r)
      = ∑ j : Fin 256, x (ix3 b r j) := by
  refine (Ideal.multiReduction_add_single x 0x00000000#32 reduces_S4x256x256_S4x256 (.inl rfl) rfl (ix2 b r)).trans ?_
  have hl : ∀ j : Fin 256, reduces_S4x256x256_S4x256.lift (ix2 b r) j = ix3 b r j := fun j => by
    funext a; apply Fin.ext
    match a with
    | ⟨0, _⟩ => rfl
    | ⟨1, _⟩ => rfl
    | ⟨2, _⟩ => rfl
  exact Finset.sum_congr rfl fun j _ => congrArg x (hl j)

theorem pay8_apply (q k : Vec Ideal S4x256x1024 .bf16) (m : Vec Ideal S4x256x1 .f32) (b : Fin 4) (r : Fin 256) :
    k1_pay8 (F := Ideal) q k m (ix3 b r 0) = max (m (ix3 b r 0)) (Finset.univ.sup fun j : Fin 256 => sc q k b r j) := by
  unfold k1_pay8
  show max (m (ix3 b r 0)) (shapeCast S4x256x1 (multiReduction .maximumf [2] S4x256 (k1_pay7 (F := Ideal) q k) 0xFF800000#32 reduces_S4x256x256_S4x256 (.inl rfl) rfl) shapeCasts_S4x256_S4x256x1 (ix3 b r 0)) = _
  rw [cast_col, rowmax_apply]
  simp only [pay7_apply]

theorem pay9_apply (q k : Vec Ideal S4x256x1024 .bf16) (m m' : Vec Ideal S4x256x1 .f32) (b : Fin 4) (r : Fin 256) :
    k1_pay9 (F := Ideal) q k m m' (ix3 b r 0) = Ideal.exp (m' (ix3 b r 0) - k1_pay8 (F := Ideal) q k m (ix3 b r 0)) := rfl

theorem pay10_apply (q k : Vec Ideal S4x256x1024 .bf16) (m : Vec Ideal S4x256x1 .f32) (b : Fin 4) (r : Fin 256) (j : Fin 256) :
    k1_pay10 (F := Ideal) q k m (ix3 b r j) = Ideal.exp (sc q k b r j - k1_pay8 (F := Ideal) q k m (ix3 b r 0)) := by
  unfold k1_pay10
  show Ideal.exp (k1_pay7 (F := Ideal) q k (ix3 b r j) - broadcastTo S4x256x256 (k1_pay8 (F := Ideal) q k m) broadcasts_S4x256x1_S4x256x256 (ix3 b r j)) = _
  rw [bcast256, pay7_apply]

theorem pay11_apply (q k : Vec Ideal S4x256x1024 .bf16) (m m' l : Vec Ideal S4x256x1 .f32) (b : Fin 4) (r : Fin 256) :
    k1_pay11 (F := Ideal) q k m m' l (ix3 b r 0)
      = k1_pay9 (F := Ideal) q k m m' (ix3 b r 0) * l (ix3 b r 0) + ∑ j : Fin 256, k1_pay10 (F := Ideal) q k m (ix3 b r j) := by
  unfold k1_pay11
  simp only [shapeCast_self]
  show k1_pay9 (F := Ideal) q k m m' (ix3 b r 0) * l (ix3 b r 0)
      + shapeCast S4x256x1 (multiReduction .add [2] S4x256 (k1_pay10 (F := Ideal) q k m) 0x00000000#32 reduces_S4x256x256_S4x256 (.inl rfl) rfl) shapeCasts_S4x256_S4x256x1 (ix3 b r 0) = _
  rw [cast_col, rowsum_apply]

theorem pay1_apply (a : FVec Ideal S4x256x1 .f32) (p : FVec Ideal S4x256x256 .f32) (v : Vec Ideal S4x256x1024 .bf16) (acc : Vec Ideal S4x256x1024 .f32)
    (b : Fin 4) (r : Fin 256) (d : Fin 1024) :
    k1_pay1 (F := Ideal) a p v acc (ix3 b r d) = a (ix3 b r 0) * acc (ix3 b r d) + ∑ j : Fin 256, p (ix3 b r j) * v (ix3 b j d) := by
  unfold k1_pay1
  simp only [shapeCast_self]
  show broadcastTo S4x256x1024 a broadcasts_S4x256x1_S4x256x1024 (ix3 b r d) * acc (ix3 b r d)
      + FloatOps.matmul dotPV none (truncf .bf16 p bitsLt_bf16_f32) v (constant S4x256x1024 .f32 0x00000000#32) (ix3 b r d) = _
  rw [bcast1024, pv_apply]
  rfl

theorem pay3_apply (acc : Vec Ideal S4x256x1024 .f32) (l : Vec Ideal S4x256x1 .f32) (b : Fin 4) (r : Fin 256) (d : Fin 1024) :
    k1_pay3 (F := Ideal) acc l (ix3 b r d) = Ideal.div (acc (ix3 b r d)) (l (ix3 b r 0)) := by
  unfold k1_pay3
  show Ideal.div (acc (ix3 b r d)) (broadcastTo S4x256x1024 l broadcasts_S4x256x1_S4x256x1024 (ix3 b r d)) = _
  rw [bcast1024]

theorem pay2_eq (x : FVec Ideal S4x256x1 .f32) : k1_pay2 (F := Ideal) x = x := by
  unfold k1_pay2; exact shapeCast_self _ _

theorem pay4_apply (i : S4x256x1.Idx) : k1_pay4 (F := Ideal) i = (⊥ : EReal) := by
  unfold k1_pay4; simp only [shapeCast_self]
  show Ideal.ofBits .f32 0xFF800000#32 = ⊥
  exact negInf_f32

theorem pay5_apply (i : S4x256x1.Idx) : k1_pay5 (F := Ideal) i = (0 : EReal) := by
  unfold k1_pay5; simp only [shapeCast_self]
  show Ideal.ofBits .f32 0x00000000#32 = 0
  exact Ideal.ofBits_zero_f32

theorem pay6_apply (i : S4x256x1024.Idx) : k1_pay6 (F := Ideal) i = (0 : EReal) := by
  unfold k1_pay6; simp only [shapeCast_self]
  show Ideal.ofBits .f32 0x00000000#32 = 0
  exact Ideal.ofBits_zero_f32

/-- ONE STEP at an element: the body's new (maximum, sum, accumulator) at (b, r, d) is the scalar online-softmax step
    over the tile's scores of row (b, r) and its values at column d. -/
theorem step_apply (q k v : Vec Ideal S4x256x1024 .bf16) (m l : Vec Ideal S4x256x1 .f32) (acc : Vec Ideal S4x256x1024 .f32)
    (b : Fin 4) (r : Fin 256) (d : Fin 1024) :
    (k1_pay2 (F := Ideal) (k1_pay8 (F := Ideal) q k m) (ix3 b r 0), k1_pay11 (F := Ideal) q k m m l (ix3 b r 0),
        k1_pay1 (F := Ideal) (k1_pay9 (F := Ideal) q k m m) (k1_pay10 (F := Ideal) q k m) v acc (ix3 b r d))
      = stepE (m (ix3 b r 0), l (ix3 b r 0), acc (ix3 b r d)) (fun j : Fin 256 => sc q k b r j) (fun j : Fin 256 => v (ix3 b j d)) := by
  unfold stepE
  dsimp only
  refine Prod.ext ?_ (Prod.ext ?_ ?_)
  · show k1_pay2 (F := Ideal) (k1_pay8 (F := Ideal) q k m) (ix3 b r 0) = _
    rw [pay2_eq, pay8_apply]
  · show k1_pay11 (F := Ideal) q k m m l (ix3 b r 0) = _
    rw [pay11_apply, pay9_apply, pay8_apply]
    simp only [pay10_apply, pay8_apply]
  · show k1_pay1 (F := Ideal) (k1_pay9 (F := Ideal) q k m m) (k1_pay10 (F := Ideal) q k m) v acc (ix3 b r d) = _
    rw [pay1_apply, pay9_apply, pay8_apply]
    simp only [pay10_apply, pay8_apply]

end Cert.KernelIdeal.Gen

end
-- ==== Proof.KI.Region1Value.lean ====
/- Region 1 at the ideal values: the output array after the region. Within a query tile the scratch state after key
   tile kv, read at a query row and a column, is the scalar online-softmax state after kv + 1 blocks of that row's
   scores and that column's values; at the last key tile the body stores accumulator / running sum, which for real
   inputs is the softmax-weighted sum of the value rows over all 2048 keys; the eight query tiles' blocks cover the
   output array. -/
import proofs.«105537_j20366734917908_2_alg».proof.Proof.KI.Region1Pieces
import proofs.«105537_j20366734917908_2_alg».proof.Proof.KI.Region1Step

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.LibOnlineSoftmax

/-- A row of the [4, 2048, ·] arrays from a number, reduced mod 2048. -/
def fR (x : ℕ) : Fin 2048 := ⟨x % 2048, Nat.mod_lt _ (by decide)⟩
/-- A column of the packed [·, ·, 3072] array from a number. -/
def fC (x : ℕ) : Fin 3072 := ⟨x % 3072, Nat.mod_lt _ (by decide)⟩

/-- The 2048 keys as 8 tiles of 256. -/
def tileEquiv : Fin (7 + 1) × Fin 256 ≃ Fin 2048 where
  toFun p := ⟨p.1.val * 256 + p.2.val, by have := p.1.isLt; have := p.2.isLt; omega⟩
  invFun J := (⟨J.val / 256, by have := J.isLt; omega⟩, ⟨J.val % 256, Nat.mod_lt _ (by decide)⟩)
  left_inv p := by
    obtain ⟨⟨a, ha⟩, ⟨b, hb⟩⟩ := p
    refine Prod.ext (Fin.ext ?_) (Fin.ext ?_)
    · show (a * 256 + b) / 256 = a; omega
    · show (a * 256 + b) % 256 = b; omega
  right_inv J := by
    apply Fin.ext
    show J.val / 256 * 256 + J.val % 256 = J.val; omega

theorem scaleW_real : ∃ cS : ℝ, Cert.Spec.scaleW = (cS : EReal) := by
  unfold Cert.Spec.scaleW Ideal.ofBits Ideal.ieee
  dsimp only
  rw [if_neg (by decide)]
  split_ifs <;> exact ⟨_, rfl⟩

section
variable (V : (c : Dev nD) → (b : Ref sig .tc) → Buf (Elt Ideal) ((c : Thread nD τ).loc b)) (c : Dev nD)

/-- The windows' index maps over the grid: the query tile and the output block follow the first grid coordinate, the
    key and value tiles the second; the last-axis block picks q, k or v out of the packed array. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 1
    ∧ win1_2.index t (0 : Fin 3) = 0 ∧ win1_2.index t (1 : Fin 3) = t.val % 8 ∧ win1_2.index t (2 : Fin 3) = 2
    ∧ win1_3.index t (0 : Fin 3) = 0 ∧ win1_3.index t (1 : Fin 3) = t.val / 8 ∧ win1_3.index t (2 : Fin 3) = 0 :=
  (by decide +kernel : ∀ t : Fin grid1.N, _)

theorem qblk_apply (t : Fin cfg1.N) (b : Fin 4) (r : Fin 256) (e : Fin 1024) :
    (iblk1 V c 0 t : Vec Ideal S4x256x1024 .bf16) (ix3 b r e) = V c main_v9 (ix3 b (fR (t.val / 8 * 256 + r.val)) (fC e.val)) := by
  have hN : t.val < 64 := lt_of_lt_of_eq t.isLt (show cfg1.N = 64 from N_1)
  obtain ⟨e0, e1, e2, -⟩ := idx_facts1 t
  unfold iblk1
  rw [View.read_apply]
  show V c main_v9 _ = V c main_v9 _
  congr 1
  funext a; apply Fin.ext
  match a with
  | ⟨0, _⟩ => show win1_0.index t (0 : Fin 3) * 4 + 1 * b.val = b.val; rw [e0]; omega
  | ⟨1, _⟩ => show win1_0.index t (1 : Fin 3) * 256 + 1 * r.val = (t.val / 8 * 256 + r.val) % 2048; rw [e1]; have := r.isLt; omega
  | ⟨2, _⟩ => show win1_0.index t (2 : Fin 3) * 1024 + 1 * e.val = e.val % 3072; rw [e2]; have := e.isLt; omega

theorem kblk_apply (t : Fin cfg1.N) (b : Fin 4) (j : Fin 256) (e : Fin 1024) :
    (iblk1 V c 1 t : Vec Ideal S4x256x1024 .bf16) (ix3 b j e) = V c main_v9 (ix3 b (fR (t.val % 8 * 256 + j.val)) (fC (1024 + e.val))) := by
  obtain ⟨-, -, -, e0, e1, e2, -⟩ := idx_facts1 t
  unfold iblk1
  rw [View.read_apply]
  show V c main_v9 _ = V c main_v9 _
  congr 1
  funext a; apply Fin.ext
  match a with
  | ⟨0, _⟩ => show win1_1.index t (0 : Fin 3) * 4 + 1 * b.val = b.val; rw [e0]; omega
  | ⟨1, _⟩ => show win1_1.index t (1 : Fin 3) * 256 + 1 * j.val = (t.val % 8 * 256 + j.val) % 2048; rw [e1]; have := j.isLt; omega
  | ⟨2, _⟩ => show win1_1.index t (2 : Fin 3) * 1024 + 1 * e.val = (1024 + e.val) % 3072; rw [e2]; have := e.isLt; omega

theorem vblk_apply (t : Fin cfg1.N) (b : Fin 4) (j : Fin 256) (d : Fin 1024) :
    (iblk1 V c 2 t : Vec Ideal S4x256x1024 .bf16) (ix3 b j d) = V c main_v9 (ix3 b (fR (t.val % 8 * 256 + j.val)) (fC (2048 + d.val))) := by
  obtain ⟨-, -, -, -, -, -, e0, e1, e2, -⟩ := idx_facts1 t
  unfold iblk1
  rw [View.read_apply]
  show V c main_v9 _ = V c main_v9 _
  congr 1
  funext a; apply Fin.ext
  match a with
  | ⟨0, _⟩ => show win1_2.index t (0 : Fin 3) * 4 + 1 * b.val = b.val; rw [e0]; omega
  | ⟨1, _⟩ => show win1_2.index t (1 : Fin 3) * 256 + 1 * j.val = (t.val % 8 * 256 + j.val) % 2048; rw [e1]; have := j.isLt; omega
  | ⟨2, _⟩ => show win1_2.index t (2 : Fin 3) * 1024 + 1 * d.val = (2048 + d.val) % 3072; rw [e2]; have := d.isLt; omega

/-! ## The carried state as the body's arithmetic -/

theorem caseA1_snd (t : Fin cfg1.N) (hc0 : cond1_0 (grid1.coords t)) (hc1 : ¬cond1_1 (grid1.coords t)) :
    (caseA1 V c t hc0 hc1).2
      = (mNew (iblk1 V c 0 t) (iblk1 V c 1 t) (k1_pay4 (F := Ideal)),
         lNew (iblk1 V c 0 t) (iblk1 V c 1 t) (k1_pay4 (F := Ideal)) (k1_pay5 (F := Ideal)),
         accNew (iblk1 V c 0 t) (iblk1 V c 1 t) (iblk1 V c 2 t) (k1_pay4 (F := Ideal)) (k1_pay6 (F := Ideal))) := by
  unfold caseA1
  dsimp only
  rw [sout1_A_0_eq, sout1_A_1_eq, sout1_A_2_eq]

theorem caseB1_snd (t : Fin cfg1.N) (hc0 : ¬cond1_0 (grid1.coords t)) (hc1 : ¬cond1_1 (grid1.coords t)) (p : St1 (F := Ideal)) :
    (caseB1 V c t hc0 hc1 p).2
      = (mNew (iblk1 V c 0 t) (iblk1 V c 1 t) p.2.1, lNew (iblk1 V c 0 t) (iblk1 V c 1 t) p.2.1 p.2.2.1,
         accNew (iblk1 V c 0 t) (iblk1 V c 1 t) (iblk1 V c 2 t) p.2.1 p.2.2.2) := by
  unfold caseB1
  dsimp only
  rw [sout1_B_0_eq, sout1_B_1_eq, sout1_B_2_eq]

theorem caseC1_snd (t : Fin cfg1.N) (hc0 : ¬cond1_0 (grid1.coords t)) (hc1 : cond1_1 (grid1.coords t)) (p : St1 (F := Ideal)) :
    (caseC1 V c t hc0 hc1 p).2
      = (mNew (iblk1 V c 0 t) (iblk1 V c 1 t) p.2.1, lNew (iblk1 V c 0 t) (iblk1 V c 1 t) p.2.1 p.2.2.1,
         accNew (iblk1 V c 0 t) (iblk1 V c 1 t) (iblk1 V c 2 t) p.2.1 p.2.2.2) := by
  unfold caseC1
  dsimp only
  rw [sout1_C_0_eq, sout1_C_1_eq, sout1_C_2_eq]

theorem caseC1_fst (t : Fin cfg1.N) (hc0 : ¬cond1_0 (grid1.coords t)) (hc1 : cond1_1 (grid1.coords t)) (p : St1 (F := Ideal)) :
    (caseC1 V c t hc0 hc1 p).1
      = k1_pay3 (F := Ideal) (accNew (iblk1 V c 0 t) (iblk1 V c 1 t) (iblk1 V c 2 t) p.2.1 p.2.2.2) (lNew (iblk1 V c 0 t) (iblk1 V c 1 t) p.2.1 p.2.2.1) := by
  unfold caseC1
  dsimp only
  rw [out1_C_3_eq]

/-- At the first key tile of a query tile: one step from the reset values. -/
theorem st_A (t : Fin cfg1.N) (h0 : t.val % 8 = 0) (h1 : ¬t.val % 8 = 7) :
    (outsAt1 V c t.val t.isLt).2
      = (mNew (iblk1 V c 0 t) (iblk1 V c 1 t) (k1_pay4 (F := Ideal)),
         lNew (iblk1 V c 0 t) (iblk1 V c 1 t) (k1_pay4 (F := Ideal)) (k1_pay5 (F := Ideal)),
         accNew (iblk1 V c 0 t) (iblk1 V c 1 t) (iblk1 V c 2 t) (k1_pay4 (F := Ideal)) (k1_pay6 (F := Ideal))) :=
  (congrArg Prod.snd (outsAt1_A V c t h0 h1)).trans (caseA1_snd V c t _ _)

/-- At a later key tile: one step from what the point before left. -/
theorem st_BC (t : Fin cfg1.N) (h0 : ¬t.val % 8 = 0) :
    (outsAt1 V c t.val t.isLt).2
      = (mNew (iblk1 V c 0 t) (iblk1 V c 1 t) (outsAt1 V c (t.val - 1) (Nat.lt_of_le_of_lt (Nat.sub_le _ _) t.isLt)).2.1,
         lNew (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1,
         accNew (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2) := by
  by_cases h1 : t.val % 8 = 7
  · exact (congrArg Prod.snd (outsAt1_C V c t h0 h1)).trans (caseC1_snd V c t _ _ _)
  · exact (congrArg Prod.snd (outsAt1_B V c t h0 h1)).trans (caseB1_snd V c t _ _ _)

/-- At the last key tile the output's buffer holds the new accumulator over the new running sum. -/
theorem out_C (t : Fin cfg1.N) (h0 : ¬t.val % 8 = 0) (h1 : t.val % 8 = 7) :
    (outsAt1 V c t.val t.isLt).1 = k1_pay3 (F := Ideal) (outsAt1 V c t.val t.isLt).2.2.2 (outsAt1 V c t.val t.isLt).2.2.1 := by
  have e2 := congrArg Prod.snd (outsAt1_C V c t h0 h1)
  have e3 := caseC1_snd V c t (fun h => h0 ((hcond1_0 t).mp h)) ((hcond1_1 t).mpr h1) (outsAt1 V c (t.val - 1) (Nat.lt_of_le_of_lt (Nat.sub_le _ _) t.isLt))
  have ea : (outsAt1 V c t.val t.isLt).2.2.2 = _ := congrArg (fun p => p.2.2) (e2.trans e3)
  have el : (outsAt1 V c t.val t.isLt).2.2.1 = _ := congrArg (fun p => p.2.1) (e2.trans e3)
  rw [ea, el]
  exact (congrArg Prod.fst (outsAt1_C V c t h0 h1)).trans (caseC1_fst V c t _ _ _)

/-! ## Real scores and values, tile by tile -/

/-- The real score of query row (b, row) against key row J, from real entries `Vr` and the real scale `cS`. -/
def sR (Vr : S4x2048x3072.Idx → ℝ) (cS : ℝ) (b : Fin 4) (row J : Fin 2048) : ℝ :=
  (∑ e : Fin 1024, Vr (ix3 b row (fC e.val)) * Vr (ix3 b J (fC (1024 + e.val)))) * cS
/-- The real value of key row J at column d. -/
def vR (Vr : S4x2048x3072.Idx → ℝ) (b : Fin 4) (d : Fin 1024) (J : Fin 2048) : ℝ := Vr (ix3 b J (fC (2048 + d.val)))

/-- Tile `kv` of a function of the flat key index. -/
theorem blk_eq (f : Fin 2048 → ℝ) (kv : ℕ) (hkv : kv < 8) (j : Fin 256) :
    blockOf tileEquiv f kv j = f (fR (kv * 256 + j.val)) :=
  (blockOf_apply tileEquiv f ⟨kv, by omega⟩ j).trans (congrArg f (Fin.ext (by
    show kv * 256 + j.val = (kv * 256 + j.val) % 2048
    have := j.isLt; omega)))

/-! ## The output block at the last key tile, and the array -/

/-- The closed form of the output array: row (b, row) attends over all 2048 key rows of batch b. -/
def G1 (i : S4x2048x1024.Idx) : EReal :=
  Cert.Spec.attnRow
    (Cert.Spec.scores Cert.Spec.scaleW (fun e : Fin 1024 => (V c main_v9 : S4x2048x3072.Idx → EReal) (ix3 (i 0 : Fin 4) (i 1 : Fin 2048) (fC e.val)))
      (fun (J : Fin 2048) (e : Fin 1024) => (V c main_v9 : S4x2048x3072.Idx → EReal) (ix3 (i 0 : Fin 4) J (fC (1024 + e.val)))))
    (fun (J : Fin 2048) (d : Fin 1024) => (V c main_v9 : S4x2048x3072.Idx → EReal) (ix3 (i 0 : Fin 4) J (fC (2048 + d.val)))) (i 2 : Fin 1024)

/-- The softmax-weighted sum over real scores and values is the same sum over their extended-real spellings. -/
theorem attn_congr (s v : Fin 2048 → ℝ) (S W : Fin 2048 → EReal) (hs : ∀ J, (s J : EReal) = S J) (hv : ∀ J, (v J : EReal) = W J) :
    (∑ i : Fin 2048, Ideal.div (Ideal.exp ((s i : EReal) - Finset.univ.sup fun i' => (s i' : EReal)))
        (∑ i' : Fin 2048, Ideal.exp ((s i' : EReal) - Finset.univ.sup fun i'' => (s i'' : EReal))) * (v i : EReal))
      = ∑ j : Fin 2048, Ideal.div (Ideal.exp (S j - Finset.univ.sup S)) (∑ j' : Fin 2048, Ideal.exp (S j' - Finset.univ.sup S)) * W j := by
  have e : (fun i' => (s i' : EReal)) = S := funext hs
  rw [e]
  refine Finset.sum_congr rfl fun j _ => ?_
  rw [hs j, hv j]
  have e2 : (fun i' : Fin 2048 => Ideal.exp ((s i' : EReal) - Finset.univ.sup S)) = fun i' => Ideal.exp (S i' - Finset.univ.sup S) :=
    funext fun i' => by rw [hs i']
  exact congrArg (fun f => Ideal.div (Ideal.exp (S j - Finset.univ.sup S)) (∑ j' : Fin 2048, f j') * W j) e2
section Real
variable (Vr : S4x2048x3072.Idx → ℝ) (hVr : ∀ i : S4x2048x3072.Idx, (V c main_v9 : S4x2048x3072.Idx → EReal) i = (Vr i : EReal))
  (cS : ℝ) (hcS : Cert.Spec.scaleW = (cS : EReal))

include hVr hcS in
theorem sc_eq (t : Fin cfg1.N) (b : Fin 4) (r j : Fin 256) :
    sc (iblk1 V c 0 t) (iblk1 V c 1 t) b r j
      = ((sR Vr cS b (fR (t.val / 8 * 256 + r.val)) (fR (t.val % 8 * 256 + j.val)) : ℝ) : EReal) := by
  unfold sc sR
  rw [EReal.coe_mul, coe_sum, ← hcS]
  congr 1
  refine Finset.sum_congr rfl fun e _ => ?_
  rw [qblk_apply, kblk_apply, EReal.coe_mul]
  exact congrArg₂ (· * ·) (hVr _) (hVr _)

include hVr hcS in
/-- One point's step at an element, over the tiles of the flat real scores and values. -/
theorem step_state (t : Fin cfg1.N) (m l : Vec Ideal S4x256x1 .f32) (acc : Vec Ideal S4x256x1024 .f32)
    (b : Fin 4) (r : Fin 256) (d : Fin 1024) (qi kv : ℕ) (hq : t.val / 8 = qi) (hk : t.val % 8 = kv) :
    (mNew (iblk1 V c 0 t) (iblk1 V c 1 t) m (ix3 b r 0), lNew (iblk1 V c 0 t) (iblk1 V c 1 t) m l (ix3 b r 0),
        accNew (iblk1 V c 0 t) (iblk1 V c 1 t) (iblk1 V c 2 t) m acc (ix3 b r d))
      = stepE (m (ix3 b r 0), l (ix3 b r 0), acc (ix3 b r d))
          (fun j : Fin 256 => ((blockOf tileEquiv (sR Vr cS b (fR (qi * 256 + r.val))) kv j : ℝ) : EReal))
          (fun j : Fin 256 => ((blockOf tileEquiv (vR Vr b d) kv j : ℝ) : EReal)) := by
  have hkv : kv < 8 := by omega
  unfold mNew lNew accNew
  rw [step_apply]
  refine congrArg₂ (stepE _) (funext fun j => ?_) (funext fun j => ?_)
  · rw [sc_eq V c Vr hVr cS hcS, blk_eq _ kv hkv, hq, hk]
  · rw [vblk_apply, blk_eq _ kv hkv, hk]; exact hVr _

theorem outsAt1_congr (n n' : ℕ) (h : n < cfg1.N) (h' : n' < cfg1.N) (e : n = n') : outsAt1 V c n h = outsAt1 V c n' h' := by
  subst e; rfl

include hVr hcS in
/-- THE INVARIANT: within query tile `qi`, after key tile `kv` the scratch state read at row (b, r) and column d is the
    scalar online-softmax state after `kv + 1` tiles of that row's scores and that column's values. -/
theorem inv (qi : ℕ) (hqi : qi < 8) (b : Fin 4) (r : Fin 256) (d : Fin 1024) :
    ∀ (kv : ℕ) (hkv : kv < 8) (h : 8 * qi + kv < cfg1.N),
      ((outsAt1 V c (8 * qi + kv) h).2.1 (ix3 b r 0), (outsAt1 V c (8 * qi + kv) h).2.2.1 (ix3 b r 0),
          (outsAt1 V c (8 * qi + kv) h).2.2.2 (ix3 b r d))
        = stateE (fun t (j : Fin 256) => ((blockOf tileEquiv (sR Vr cS b (fR (qi * 256 + r.val))) t j : ℝ) : EReal))
            (fun t (j : Fin 256) => ((blockOf tileEquiv (vR Vr b d) t j : ℝ) : EReal)) (kv + 1)
  | 0, hkv, h => by
    have hA := st_A V c ⟨8 * qi + 0, h⟩ (show (8 * qi + 0) % 8 = 0 by omega) (show ¬(8 * qi + 0) % 8 = 7 by omega)
    have e1 : (outsAt1 V c (8 * qi + 0) h).2.1 = _ := congrArg Prod.fst hA
    have e2 : (outsAt1 V c (8 * qi + 0) h).2.2.1 = _ := congrArg (fun p => p.2.1) hA
    have e3 : (outsAt1 V c (8 * qi + 0) h).2.2.2 = _ := congrArg (fun p => p.2.2) hA
    rw [e1, e2, e3]
    dsimp only
    rw [step_state V c Vr hVr cS hcS ⟨8 * qi + 0, h⟩ _ _ _ b r d qi 0 (show (8 * qi + 0) / 8 = qi by omega) (show (8 * qi + 0) % 8 = 0 by omega),
      pay4_apply, pay5_apply, pay6_apply]
    rfl
  | kv + 1, hkv, h => by
    have ih := inv qi hqi b r d kv (by omega) (by omega)
    have hBC := st_BC V c ⟨8 * qi + (kv + 1), h⟩ (show ¬(8 * qi + (kv + 1)) % 8 = 0 by omega)
    rw [outsAt1_congr V c (8 * qi + (kv + 1) - 1) (8 * qi + kv) _ (by omega) (by omega)] at hBC
    have e1 : (outsAt1 V c (8 * qi + (kv + 1)) h).2.1 = _ := congrArg Prod.fst hBC
    have e2 : (outsAt1 V c (8 * qi + (kv + 1)) h).2.2.1 = _ := congrArg (fun p => p.2.1) hBC
    have e3 : (outsAt1 V c (8 * qi + (kv + 1)) h).2.2.2 = _ := congrArg (fun p => p.2.2) hBC
    rw [e1, e2, e3]
    dsimp only
    rw [step_state V c Vr hVr cS hcS ⟨8 * qi + (kv + 1), h⟩ _ _ _ b r d qi (kv + 1)
      (show (8 * qi + (kv + 1)) / 8 = qi by omega) (show (8 * qi + (kv + 1)) % 8 = kv + 1 by omega), ih]
    rfl

include hVr hcS in
theorem sR_coe (b : Fin 4) (row J : Fin 2048) :
    ((sR Vr cS b row J : ℝ) : EReal)
      = Cert.Spec.scores Cert.Spec.scaleW (fun e : Fin 1024 => (V c main_v9 : S4x2048x3072.Idx → EReal) (ix3 b row (fC e.val)))
          (fun (J : Fin 2048) (e : Fin 1024) => (V c main_v9 : S4x2048x3072.Idx → EReal) (ix3 b J (fC (1024 + e.val)))) J := by
  unfold sR Cert.Spec.scores
  rw [EReal.coe_mul, coe_sum, ← hcS]
  congr 1
  refine Finset.sum_congr rfl fun e _ => ?_
  rw [EReal.coe_mul]
  exact (congrArg₂ (fun x y : EReal => x * y) (hVr _) (hVr _)).symm

include hVr hcS in
/-- What the last key tile of a query tile leaves in the output's buffer, at an element: the closed form at the row
    the block sits at. -/
theorem out_apply (t : Fin cfg1.N) (h7 : t.val % 8 = 7) (y : S4x256x1024.Idx) :
    (outsAt1 V c t.val t.isLt).1 y = G1 V c (ix3 (y 0 : Fin 4) (fR (t.val / 8 * 256 + (y 1 : Fin 256).val)) (y 2 : Fin 1024)) := by
  obtain ⟨b, r, d, rfl⟩ : ∃ (b : Fin 4) (r : Fin 256) (d : Fin 1024), y = ix3 b r d := ⟨y 0, y 1, y 2, eq_ix3 y⟩
  have hN : t.val < 64 := lt_of_lt_of_eq t.isLt (show cfg1.N = 64 from N_1)
  have h0 : ¬t.val % 8 = 0 := by omega
  rw [out_C V c t h0 h7, pay3_apply]
  have hI := inv V c Vr hVr cS hcS (t.val / 8) (by omega) b r d 7 (by omega)
    (lt_of_lt_of_eq (show 8 * (t.val / 8) + 7 < 64 by omega) (show 64 = cfg1.N from N_1.symm))
  rw [outsAt1_congr V c (8 * (t.val / 8) + 7) t.val _ t.isLt (by omega)] at hI
  have ea : (outsAt1 V c t.val t.isLt).2.2.2 (ix3 b r d) = _ := congrArg (fun p => p.2.2) hI
  have el : (outsAt1 V c t.val t.isLt).2.2.1 (ix3 b r 0) = _ := congrArg (fun p => p.2.1) hI
  rw [ea, el]
  dsimp only
  rw [attn_flat tileEquiv (sR Vr cS b (fR (t.val / 8 * 256 + r.val))) (vR Vr b d)]
  exact attn_congr _ _ _ (fun J => (V c main_v9 : S4x2048x3072.Idx → EReal) (ix3 b J (fC (2048 + d.val))))
    (fun J => sR_coe V c Vr hVr cS hcS b (fR (t.val / 8 * 256 + r.val)) J) (fun J => (hVr _).symm)

include hVr hcS in
/-- WHAT A FLUSHING POINT WRITES BACK is its block of the closed form. -/
theorem flushed1_eq (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  have hN : t.val < 64 := lt_of_lt_of_eq t.isLt (show cfg1.N = 64 from N_1)
  obtain ⟨-, -, -, -, -, -, -, -, -, e0, e1, e2⟩ := idx_facts1 t
  show (cfg1.win 3).cut (grid1.coords t) ((dat1 (F := Ideal) V c).after 3 t) = _
  rw [after1_3]
  funext y
  show (outsAt1 V c t.val t.isLt).1 y = G1 V c (((cfg1.win 3).blk t).view.emb y)
  have hemb : ((cfg1.win 3).blk t).view.emb y = ix3 (y 0 : Fin 4) (fR (t.val / 8 * 256 + (y 1 : Fin 256).val)) (y 2 : Fin 1024) := by
    funext a; apply Fin.ext
    match a with
    | ⟨0, _⟩ => show win1_3.index t (0 : Fin 3) * 4 + 1 * (y 0).val = (y 0).val; rw [e0]; omega
    | ⟨1, _⟩ => show win1_3.index t (1 : Fin 3) * 256 + 1 * (y 1).val = (t.val / 8 * 256 + (y 1).val) % 2048; rw [e1]; have : (y 1).val < 256 := (y 1).isLt; omega
    | ⟨2, _⟩ => show win1_3.index t (2 : Fin 3) * 1024 + 1 * (y 2).val = (y 2).val; rw [e2]; omega
  rw [hemb]
  exact out_apply V c Vr hVr cS hcS t h7 y

end Real

/-- Every element of the output array is in the block of the last key tile of its query tile. -/
theorem cover1 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 64 := N_1
  obtain ⟨t, ht⟩ : ∃ t : Fin cfg1.N, t.val = (i 1).val / 256 * 8 + 7 := ⟨⟨(i 1).val / 256 * 8 + 7, by omega⟩, rfl⟩
  refine ⟨t, (flush1_3 t).mpr (by omega), ?_⟩
  obtain ⟨-, -, -, -, -, -, -, -, -, e0, e1, e2⟩ := idx_facts1 t
  show i ∈ ((View.whole main_v10).slice (win1_3.rect t)).set
  rw [View.set_slice_whole, Rect.mem_set_unit]
  intro a
  match a with
  | ⟨0, _⟩ => show win1_3.index t (0 : Fin 3) * 4 ≤ (i 0).val ∧ (i 0).val < win1_3.index t (0 : Fin 3) * 4 + 4; rw [e0]; omega
  | ⟨1, _⟩ => show win1_3.index t (1 : Fin 3) * 256 ≤ (i 1).val ∧ (i 1).val < win1_3.index t (1 : Fin 3) * 256 + 256; rw [e1, ht]; omega
  | ⟨2, _⟩ => show win1_3.index t (2 : Fin 3) * 1024 ≤ (i 2).val ∧ (i 2).val < win1_3.index t (2 : Fin 3) * 1024 + 1024; rw [e2]; omega

/-- THE OUTPUT ARRAY after the region, for real inputs: softmax attention of every query row over all key rows. -/
theorem final1_fC (hreal : ∀ i : S4x2048x3072.Idx, ∃ x : ℝ, (V c main_v9 : S4x2048x3072.Idx → EReal) i = (x : EReal)) :
    (dat1 (F := Ideal) V c).arrAt 3 cfg1.N = G1 V c := by
  choose Vr hVr using hreal
  obtain ⟨cS, hcS⟩ := scaleW_real
  exact (dat1 (F := Ideal) V c).arrAt_eq_of_cover 3 (G1 V c) (fun t hf => flushed1_eq V c Vr hVr cS hcS t hf) cover1

theorem fC_lt (x : ℕ) (h : x < 3072) : fC x = ⟨x, h⟩ := Fin.ext (Nat.mod_eq_of_lt h)

/-- The same with the packed array's columns written out: q at columns e, k at 1024 + e, v at 2048 + d. -/
theorem final1 (hreal : ∀ i : S4x2048x3072.Idx, ∃ r : ℝ, (V c main_v9 : S4x2048x3072.Idx → EReal) i = (r : EReal)) :
    (dat1 (F := Ideal) V c).arrAt 3 cfg1.N = fun i : S4x2048x1024.Idx =>
      Cert.Spec.attnRow
        (Cert.Spec.scores Cert.Spec.scaleW
          (fun e : Fin 1024 => (V c main_v9 : S4x2048x3072.Idx → EReal) (ix3 (i 0 : Fin 4) (i 1 : Fin 2048) ⟨e.val, Nat.lt_trans e.isLt (by decide)⟩))
          (fun (j : Fin 2048) (e : Fin 1024) => (V c main_v9 : S4x2048x3072.Idx → EReal) (ix3 (i 0 : Fin 4) j ⟨1024 + e.val, by have := e.isLt; omega⟩)))
        (fun (j : Fin 2048) (d : Fin 1024) => (V c main_v9 : S4x2048x3072.Idx → EReal) (ix3 (i 0 : Fin 4) j ⟨2048 + d.val, by have := d.isLt; omega⟩))
        (i 2 : Fin 1024) := by
  rw [final1_fC V c hreal]
  funext i
  unfold G1
  have h1 : ∀ e : Fin 1024, fC e.val = ⟨e.val, Nat.lt_trans e.isLt (by decide)⟩ := fun e => fC_lt _ _
  have h2 : ∀ e : Fin 1024, fC (1024 + e.val) = ⟨1024 + e.val, by have := e.isLt; omega⟩ := fun e => fC_lt _ _
  have h3 : ∀ d : Fin 1024, fC (2048 + d.val) = ⟨2048 + d.val, by have := d.isLt; omega⟩ := fun d => fC_lt _ _
  simp only [h1, h2, h3]

end

end Cert.KernelIdeal.Gen

end
-- ==== Proof.KI.Region4Value.lean ====
/-
  Region 4, the value: at the ideal values the output array after the region is, row by row, the layer normalisation of
  (residual + hidden activations · second feed-forward weights) + bias. The accumulator after a point of a row tile
  holds the sum over the tile's steps so far of the products of the corresponding blocks of 1024 of the contraction
  axis (by induction over the points); at the tile's last step that is the sum over the whole axis of 4096, and the
  epilogue there stores the normalised block, the only one written back.
-/
import proofs.«105537_j20366734917908_2_alg».proof.Proof.KI.Region4
import proofs.«105537_j20366734917908_2_alg».proof.Proof.KI.Region2Value
import proofs.«105537_j20366734917908_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

namespace R24

/-! ## The payloads of this launch are those of the one-step launch -/

theorem pay1_apply4 (j : S512x1024.Idx) : k4_pay1 (F := Ideal) j = 0 := pay1_apply j

theorem pay2_apply4 (x0 : FVec Ideal S512x1024 .bf16) (x1 : FVec Ideal S1024x1024 .bf16) (s : FVec Ideal S512x1024 .f32)
    (p : Fin 512) (q : Fin 1024) :
    k4_pay2 (F := Ideal) x0 x1 s (ix2 p q) = s (ix2 p q) + ∑ k : Fin 1024, x0 (ix2 p k) * x1 (ix2 k q) :=
  pay2_apply x0 x1 s p q

theorem pay3_apply4 (x3 s : FVec Ideal S512x1024 .f32) (x2 x4 x5 : FVec Ideal S1x1024 .f32) (p : Fin 512) (q : Fin 1024) :
    k4_pay3 (F := Ideal) x3 s x2 x4 x5 (ix2 p q)
      = Cert.Spec.layerNorm (preLN x3 s x2) (fun j => x4 (ix2 0 j)) (fun j => x5 (ix2 0 j)) p q :=
  pay3_apply x3 s x2 x4 x5 p q

/-! ## A sum over 4096 as four blocks of 1024 -/

/-- A sum over `Fin 4096` is the sum over its four consecutive blocks of 1024. -/
theorem sum_blocks (f : ℕ → EReal) :
    ∑ kb ∈ Finset.range 4, ∑ k : Fin 1024, f (kb * 1024 + k.val) = ∑ K : Fin 4096, f K.val := by
  have e := Equiv.sum_comp (finProdFinEquiv (m := 4) (n := 1024)) (fun K : Fin (4 * 1024) => f K.val)
  rw [Finset.sum_range (fun kb => ∑ k : Fin 1024, f (kb * 1024 + k.val))]
  refine Eq.trans ?_ e
  rw [Fintype.sum_prod_type]
  refine Finset.sum_congr rfl fun a _ => Finset.sum_congr rfl fun k _ => ?_
  show f (a.val * 1024 + k.val) = f (k.val + 1024 * a.val)
  congr 1; omega

section Blocks
variable (V : (c : Dev nD) → (b : Ref sig .tc) → Buf (Elt Ideal) ((c : Thread nD τ).loc b))

/-! ## The blocks of the arrays -/

/-- The block indices over the grid: point `t` is step `t mod 4` of row tile `t / 4`. -/
theorem idx_facts4 : ∀ t : Fin cfg4.N,
    win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = 0 ∧ win4_2.index t (1 : Fin 2) = 0
    ∧ win4_3.index t (0 : Fin 2) = t.val / 4 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val / 4 ∧ win4_6.index t (1 : Fin 2) = 0 :=
  (by decide +kernel : ∀ t : Fin grid4.N, _)

/-- The left operand of the product read at natural-number coordinates (zero off the array). -/
def a17 (c : Dev nD) (r k : ℕ) : EReal :=
  if h : r < 8192 ∧ k < 4096 then arr2d 8192 4096 (V c main_v17) ⟨r, h.1⟩ ⟨k, h.2⟩ else 0
/-- The right operand likewise. -/
def a6 (c : Dev nD) (k j : ℕ) : EReal :=
  if h : k < 4096 ∧ j < 1024 then arr2d 4096 1024 (V c main_v6) ⟨k, h.1⟩ ⟨j, h.2⟩ else 0

/-- Window 0's block at point `t`: rows `512 (t / 4) + ·`, columns `1024 (t mod 4) + ·` of the left operand. -/
theorem iblk4_0_apply (c : Dev nD) (t : Fin cfg4.N) (r : Fin 512) (k : Fin 1024) :
    iblk4 V c 0 t (ix2 r k) = a17 V c (t.val / 4 * 512 + r.val) (t.val % 4 * 1024 + k.val) := by
  have hN : t.val < 64 := lt_of_lt_of_eq t.isLt (show cfg4.N = 64 from N_4)
  have hr : t.val / 4 * 512 + r.val < 8192 := by have := r.isLt; omega
  have hk : t.val % 4 * 1024 + k.val < 4096 := by have := k.isLt; omega
  obtain ⟨e0, e1, e2, e3, e4, e5, e6, e7, e8, e9, e10, e11, e12, e13⟩ := idx_facts4 t
  unfold a17
  rw [dif_pos ⟨hr, hk⟩]
  show (@id (S8192x4096.Idx → EReal) (V c main_v17)) (((cfg4.win 0).blk t).view.emb (ix2 r k))
    = (@id (S8192x4096.Idx → EReal) (V c main_v17)) (ix2 ⟨t.val / 4 * 512 + r.val, hr⟩ ⟨t.val % 4 * 1024 + k.val, hk⟩)
  refine congrArg (@id (S8192x4096.Idx → EReal) (V c main_v17)) (funext fun a => Fin.ext ?_)
  match a with
  | ⟨0, _⟩ => show win4_0.index t (0 : Fin 2) * 512 + 1 * r.val = t.val / 4 * 512 + r.val; rw [e0]; omega
  | ⟨1, _⟩ => show win4_0.index t (1 : Fin 2) * 1024 + 1 * k.val = t.val % 4 * 1024 + k.val; rw [e1]; omega

/-- Window 1's block at point `t`: rows `1024 (t mod 4) + ·` of the right operand. -/
theorem iblk4_1_apply (c : Dev nD) (t : Fin cfg4.N) (k : Fin 1024) (j : Fin 1024) :
    iblk4 V c 1 t (ix2 k j) = a6 V c (t.val % 4 * 1024 + k.val) j.val := by
  have hk : t.val % 4 * 1024 + k.val < 4096 := by have := k.isLt; omega
  obtain ⟨e0, e1, e2, e3, e4, e5, e6, e7, e8, e9, e10, e11, e12, e13⟩ := idx_facts4 t
  unfold a6
  rw [dif_pos ⟨hk, j.isLt⟩]
  show (@id (S4096x1024.Idx → EReal) (V c main_v6)) (((cfg4.win 1).blk t).view.emb (ix2 k j))
    = (@id (S4096x1024.Idx → EReal) (V c main_v6)) (ix2 ⟨t.val % 4 * 1024 + k.val, hk⟩ ⟨j.val, j.isLt⟩)
  refine congrArg (@id (S4096x1024.Idx → EReal) (V c main_v6)) (funext fun a => Fin.ext ?_)
  match a with
  | ⟨0, _⟩ => show win4_1.index t (0 : Fin 2) * 1024 + 1 * k.val = t.val % 4 * 1024 + k.val; rw [e2]; omega
  | ⟨1, _⟩ => show win4_1.index t (1 : Fin 2) * 1024 + 1 * j.val = j.val; rw [e3]; omega

/-- Window 2's block at point `t`, entry by entry, is the array `main_v18` at the block's offset. -/
theorem iblk4_2_apply (c : Dev nD) (t : Fin cfg4.N) (r : Fin 1) (j : Fin 1024) :
    iblk4 V c 2 t (ix2 r j) = arr2d 1 1024 (V c main_v18) r j := by
  obtain ⟨e0, e1, e2, e3, e4, e5, e6, e7, e8, e9, e10, e11, e12, e13⟩ := idx_facts4 t
  show (@id (S1x1024.Idx → EReal) (V c main_v18)) (((cfg4.win 2).blk t).view.emb (ix2 r j)) = (@id (S1x1024.Idx → EReal) (V c main_v18)) (ix2 r j)
  refine congrArg (@id (S1x1024.Idx → EReal) (V c main_v18)) (funext fun a => Fin.ext ?_)
  match a with
  | ⟨0, _⟩ => show win4_2.index t (0 : Fin 2) * 1 + 1 * r.val = r.val; rw [e4]; omega
  | ⟨1, _⟩ => show win4_2.index t (1 : Fin 2) * 1024 + 1 * j.val = j.val; rw [e5]; omega

/-- Window 3's block at point `t`, entry by entry, is the array `main_v15` at the block's offset. -/
theorem iblk4_3_apply (c : Dev nD) (t : Fin cfg4.N) (r : Fin 512) (j : Fin 1024) (hr : t.val / 4 * 512 + r.val < 8192) :
    iblk4 V c 3 t (ix2 r j) = arr2d 8192 1024 (V c main_v15) ⟨t.val / 4 * 512 + r.val, hr⟩ j := by
  obtain ⟨e0, e1, e2, e3, e4, e5, e6, e7, e8, e9, e10, e11, e12, e13⟩ := idx_facts4 t
  show (@id (S8192x1024.Idx → EReal) (V c main_v15)) (((cfg4.win 3).blk t).view.emb (ix2 r j)) = (@id (S8192x1024.Idx → EReal) (V c main_v15)) (ix2 ⟨t.val / 4 * 512 + r.val, hr⟩ j)
  refine congrArg (@id (S8192x1024.Idx → EReal) (V c main_v15)) (funext fun a => Fin.ext ?_)
  match a with
  | ⟨0, _⟩ => show win4_3.index t (0 : Fin 2) * 512 + 1 * r.val = t.val / 4 * 512 + r.val; rw [e6]; omega
  | ⟨1, _⟩ => show win4_3.index t (1 : Fin 2) * 1024 + 1 * j.val = j.val; rw [e7]; omega

/-- Window 4's block at point `t`, entry by entry, is the array `main_v19` at the block's offset. -/
theorem iblk4_4_apply (c : Dev nD) (t : Fin cfg4.N) (r : Fin 1) (j : Fin 1024) :
    iblk4 V c 4 t (ix2 r j) = arr2d 1 1024 (V c main_v19) r j := by
  obtain ⟨e0, e1, e2, e3, e4, e5, e6, e7, e8, e9, e10, e11, e12, e13⟩ := idx_facts4 t
  show (@id (S1x1024.Idx → EReal) (V c main_v19)) (((cfg4.win 4).blk t).view.emb (ix2 r j)) = (@id (S1x1024.Idx → EReal) (V c main_v19)) (ix2 r j)
  refine congrArg (@id (S1x1024.Idx → EReal) (V c main_v19)) (funext fun a => Fin.ext ?_)
  match a with
  | ⟨0, _⟩ => show win4_4.index t (0 : Fin 2) * 1 + 1 * r.val = r.val; rw [e8]; omega
  | ⟨1, _⟩ => show win4_4.index t (1 : Fin 2) * 1024 + 1 * j.val = j.val; rw [e9]; omega

/-- Window 5's block at point `t`, entry by entry, is the array `main_v20` at the block's offset. -/
theorem iblk4_5_apply (c : Dev nD) (t : Fin cfg4.N) (r : Fin 1) (j : Fin 1024) :
    iblk4 V c 5 t (ix2 r j) = arr2d 1 1024 (V c main_v20) r j := by
  obtain ⟨e0, e1, e2, e3, e4, e5, e6, e7, e8, e9, e10, e11, e12, e13⟩ := idx_facts4 t
  show (@id (S1x1024.Idx → EReal) (V c main_v20)) (((cfg4.win 5).blk t).view.emb (ix2 r j)) = (@id (S1x1024.Idx → EReal) (V c main_v20)) (ix2 r j)
  refine congrArg (@id (S1x1024.Idx → EReal) (V c main_v20)) (funext fun a => Fin.ext ?_)
  match a with
  | ⟨0, _⟩ => show win4_5.index t (0 : Fin 2) * 1 + 1 * r.val = r.val; rw [e10]; omega
  | ⟨1, _⟩ => show win4_5.index t (1 : Fin 2) * 1024 + 1 * j.val = j.val; rw [e11]; omega

/-- An entry of the output block at point `t` sits in the output array at the row tile's offset. -/
theorem emb4_6 (t : Fin cfg4.N) (r : Fin 512) (j : Fin 1024) (hr : t.val / 4 * 512 + r.val < 8192) :
    (((cfg4.win 6).blk t).view.emb (ix2 r j) : S8192x1024.Idx) = ix2 ⟨t.val / 4 * 512 + r.val, hr⟩ j := by
  obtain ⟨e0, e1, e2, e3, e4, e5, e6, e7, e8, e9, e10, e11, e12, e13⟩ := idx_facts4 t
  refine funext fun a => Fin.ext ?_
  match a with
  | ⟨0, _⟩ => show win4_6.index t (0 : Fin 2) * 512 + 1 * r.val = t.val / 4 * 512 + r.val; rw [e12]; omega
  | ⟨1, _⟩ => show win4_6.index t (1 : Fin 2) * 1024 + 1 * j.val = j.val; rw [e13]; omega

/-! ## The accumulator after each point: the partial sum over the steps so far -/

/-- After point `n` the accumulator holds, at `(p, q)`, the sum over the steps `0 … n mod 4` of its row tile of the
    products of the corresponding blocks of 1024 along the contraction axis. -/
def partialSum (c : Dev nD) (n p q : ℕ) : EReal :=
  ∑ kb ∈ Finset.range (n % 4 + 1), ∑ k : Fin 1024, a17 V c (n / 4 * 512 + p) (kb * 1024 + k.val) * a6 V c (kb * 1024 + k.val) q

/-- By induction over the points: a tile's first step stores `0 +` its product, a later step adds its product to what
    the point before left. -/
theorem acc4_apply (c : Dev nD) : ∀ (n : ℕ) (hn : n < cfg4.N) (p : Fin 512) (q : Fin 1024),
    acc4 (F := Ideal) V c n hn (ix2 p q) = partialSum V c n p.val q.val
  | 0, hn, p, q => by
    rw [acc4_first V c ⟨0, hn⟩ rfl, pay2_apply4 (iblk4 V c 0 ⟨0, hn⟩) (iblk4 V c 1 ⟨0, hn⟩) _ p q, pay1_apply4, zero_add]
    unfold partialSum
    rw [show (0 : ℕ) % 4 + 1 = 1 from rfl, Finset.sum_range_one]
    refine Finset.sum_congr rfl fun k _ => ?_
    rw [iblk4_0_apply V c ⟨0, hn⟩ p k, iblk4_1_apply V c ⟨0, hn⟩ k q]
    rfl
  | n + 1, hn, p, q => by
    by_cases h0 : (n + 1) % 4 = 0
    · rw [acc4_first V c ⟨n + 1, hn⟩ h0, pay2_apply4 (iblk4 V c 0 ⟨n + 1, hn⟩) (iblk4 V c 1 ⟨n + 1, hn⟩) _ p q, pay1_apply4, zero_add]
      unfold partialSum
      rw [h0, Finset.sum_range_one]
      refine Finset.sum_congr rfl fun k _ => ?_
      rw [iblk4_0_apply V c ⟨n + 1, hn⟩ p k, iblk4_1_apply V c ⟨n + 1, hn⟩ k q]
      show a17 V c ((n + 1) / 4 * 512 + p.val) ((n + 1) % 4 * 1024 + k.val) * a6 V c ((n + 1) % 4 * 1024 + k.val) q.val = _
      rw [h0]
    · rw [acc4_next V c ⟨n + 1, hn⟩ h0, pay2_apply4 (iblk4 V c 0 ⟨n + 1, hn⟩) (iblk4 V c 1 ⟨n + 1, hn⟩) _ p q]
      show acc4 V c n (Nat.lt_of_succ_lt hn) (ix2 p q) + _ = _
      rw [acc4_apply c n (Nat.lt_of_succ_lt hn) p q]
      unfold partialSum
      have h1 : (n + 1) % 4 = n % 4 + 1 := by omega
      have h2 : (n + 1) / 4 = n / 4 := by omega
      rw [h1, h2, Finset.sum_range_succ _ (n % 4 + 1)]
      refine congrArg (_ + ·) (Finset.sum_congr rfl fun k _ => ?_)
      rw [iblk4_0_apply V c ⟨n + 1, hn⟩ p k, iblk4_1_apply V c ⟨n + 1, hn⟩ k q]
      show a17 V c ((n + 1) / 4 * 512 + p.val) ((n + 1) % 4 * 1024 + k.val) * a6 V c ((n + 1) % 4 * 1024 + k.val) q.val = _
      rw [h1, h2]

/-! ## The output array after the region -/

/-- Row `r` of what the normalisation is taken over: the residual plus the feed-forward product plus the bias. -/
def pre4 (c : Dev nD) : Fin 8192 → Fin 1024 → EReal := fun r j =>
  (arr2d 8192 1024 (V c main_v15) r j + ∑ k : Fin 4096, arr2d 8192 4096 (V c main_v17) r k * arr2d 4096 1024 (V c main_v6) k j)
    + arr2d 1 1024 (V c main_v18) 0 j

/-- The output array after the region, index by index. -/
def G4 (c : Dev nD) : S8192x1024.Idx → EReal := fun i =>
  Cert.Spec.layerNorm (pre4 V c) (arr2d 1 1024 (V c main_v19) 0) (arr2d 1 1024 (V c main_v20) 0) (i 0) (i 1)

/-- WHAT A WRITING POINT WRITES BACK — the last step `t` of a row tile — is that tile's block of `G4`: the accumulator
    then holds the sum over all four blocks of the contraction axis, which is the sum over the axis. -/
theorem flushed4_eq (c : Dev nD) (t : Fin cfg4.N) (hf : (cfg4.win 6).flush t = true) :
    (dat4 (F := Ideal) V c).flushed 6 t = ((cfg4.win 6).blk t).view.read (Elt Ideal) (G4 V c) := by
  have hN : t.val < 64 := lt_of_lt_of_eq t.isLt (show cfg4.N = 64 from N_4)
  have h3 : t.val % 4 = 3 := (flush4_6 t).mp hf
  show (cfg4.win 6).cut (grid4.coords t) ((dat4 V c).after 6 t) = _
  rw [after4_6]
  funext y
  obtain ⟨p, q, rfl⟩ : ∃ (p : Fin 512) (q : Fin 1024), y = ix2 p q := ⟨y 0, y 1, eq_ix2 y⟩
  have hp : t.val / 4 * 512 + p.val < 8192 := by have := p.isLt; omega
  show k4_pay3 (iblk4 V c 3 t) (acc4 V c t.val t.isLt) (iblk4 V c 2 t) (iblk4 V c 4 t) (iblk4 V c 5 t) (ix2 p q)
    = G4 V c (((cfg4.win 6).blk t).view.emb (ix2 p q))
  rw [emb4_6 t p q hp]
  refine (pay3_apply4 (iblk4 V c 3 t) (acc4 V c t.val t.isLt) (iblk4 V c 2 t) (iblk4 V c 4 t) (iblk4 V c 5 t) p q).trans ?_
  show _ = Cert.Spec.layerNorm (pre4 V c) _ _ (⟨t.val / 4 * 512 + p.val, hp⟩ : Fin 8192) q
  refine layerNorm_row (preLN (iblk4 V c 3 t) (acc4 V c t.val t.isLt) (iblk4 V c 2 t)) (pre4 V c) _ _ _ _
    p ⟨t.val / 4 * 512 + p.val, hp⟩ q ?_ (iblk4_4_apply V c t 0 q) (iblk4_5_apply V c t 0 q)
  funext j
  unfold preLN pre4
  rw [acc4_apply V c t.val t.isLt p j, iblk4_3_apply V c t p j hp, iblk4_2_apply V c t 0 j]
  refine congrArg (fun z => (arr2d 8192 1024 (V c main_v15) ⟨t.val / 4 * 512 + p.val, hp⟩ j + z) + arr2d 1 1024 (V c main_v18) 0 j) ?_
  unfold partialSum
  refine (Eq.trans ?_ (sum_blocks (fun K => a17 V c (t.val / 4 * 512 + p.val) K * a6 V c K j.val))).trans ?_
  · rw [h3]
  · exact Finset.sum_congr rfl fun K _ => by unfold a17 a6; rw [dif_pos ⟨hp, K.isLt⟩, dif_pos ⟨K.isLt, j.isLt⟩]

/-- An index of the output array is in point `t`'s block iff each coordinate is in the block's range on its axis. -/
theorem mem_blk4_6 (t : Fin cfg4.N) (i : S8192x1024.Idx) :
    i ∈ ((cfg4.win 6).blk t).view.set ↔ ∀ a : Fin 2, win4_6.index t a * S512x1024.size a ≤ (i a).val ∧ (i a).val < win4_6.index t a * S512x1024.size a + S512x1024.size a := by
  show i ∈ ((View.whole main_v21).slice (win4_6.rect t)).set ↔ _
  rw [View.set_slice_whole, Rect.mem_set_unit]
  exact Iff.rfl

/-- Every index of the output array is in the block of the last step of its row tile, which is written back. -/
theorem cover4_6 (i : S8192x1024.Idx) : ∃ t : Fin cfg4.N, (cfg4.win 6).flush t = true ∧ i ∈ ((cfg4.win 6).blk t).view.set := by
  have h0 : (i 0).val < 8192 := (i 0).isLt
  have h1 : (i 1).val < 1024 := (i 1).isLt
  have hN : cfg4.N = 64 := N_4
  have ht : (i 0).val / 512 * 4 + 3 < cfg4.N := by rw [hN]; omega
  refine ⟨⟨(i 0).val / 512 * 4 + 3, ht⟩, (flush4_6 _).mpr (by show ((i 0).val / 512 * 4 + 3) % 4 = 3; omega), ?_⟩
  rw [mem_blk4_6]
  obtain ⟨-, -, -, -, -, -, -, -, -, -, -, -, e12, e13⟩ := idx_facts4 ⟨(i 0).val / 512 * 4 + 3, ht⟩
  have e12' : win4_6.index ⟨(i 0).val / 512 * 4 + 3, ht⟩ (0 : Fin 2) = ((i 0).val / 512 * 4 + 3) / 4 := e12
  intro a
  match a with
  | ⟨0, _⟩ =>
    show win4_6.index ⟨(i 0).val / 512 * 4 + 3, ht⟩ (0 : Fin 2) * 512 ≤ (i 0).val ∧ (i 0).val < win4_6.index ⟨(i 0).val / 512 * 4 + 3, ht⟩ (0 : Fin 2) * 512 + 512
    rw [e12']; omega
  | ⟨1, _⟩ =>
    show win4_6.index ⟨(i 0).val / 512 * 4 + 3, ht⟩ (1 : Fin 2) * 1024 ≤ (i 1).val ∧ (i 1).val < win4_6.index ⟨(i 0).val / 512 * 4 + 3, ht⟩ (1 : Fin 2) * 1024 + 1024
    rw [e13]; omega

end Blocks

end R24

open R24 in
/-- THE OUTPUT ARRAY after the region: the layer normalisation, row by row, of the residual plus the feed-forward
    product — the sum over the contraction axis of 4096, accumulated as four blocks of 1024 — plus the bias. -/
theorem final4 (V : (c : Dev nD) → (b : Ref sig .tc) → Buf (Elt Ideal) ((c : Thread nD τ).loc b)) (c : Dev nD) : (dat4 (F := Ideal) V c).arrAt 6 cfg4.N = fun i =>
    Cert.Spec.layerNorm (fun r j => (arr2d 8192 1024 (V c main_v15) r j
        + ∑ k : Fin 4096, arr2d 8192 4096 (V c main_v17) r k * arr2d 4096 1024 (V c main_v6) k j)
        + arr2d 1 1024 (V c main_v18) 0 j)
      (arr2d 1 1024 (V c main_v19) 0) (arr2d 1 1024 (V c main_v20) 0) (i 0) (i 1) :=
  (dat4 (F := Ideal) V c).arrAt_eq_of_cover 6 (G4 V c) (fun t hf => flushed4_eq V c t hf) (fun i => cover4_6 i)

end Cert.KernelIdeal.Gen

end
-- ==== Proof.Ref.RefOps.lean ====
/-
  The reference as a straight line. Its @main is two windows of statements with three calls of outlined
  functions (the variance of a row, twice, each ending in a select; the rectifier, once). A call runs the
  callee's operations on the call's own buffers, so the whole program is one list of 137 array operations,
  cut here into eight stretches along the mathematics: the three projections; the scaled scores and their
  row-wise softmax; the context, the output projection and the first residual; the first mean and variance;
  the first normalisation and the first feed-forward product; its bias, the rectifier, the second product and
  the second residual; the second mean and variance; the second normalisation. Every operation writes one
  buffer and reads buffers written before it, so the run is the fold of the operations' results.
-/
import proofs.«105537_j20366734917908_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The three projections of the input: each a product with a weight matrix plus a bias row broadcast over batch and sequence. -/
abbrev P1 : List (HloOp τ sig (Elt F)) :=
  [ StableHlo.binary main_arg0 main_arg1 main_v0 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    StableHlo.unary main_arg2 main_v1 (broadcastInDim S1x1x1024 ![2] bcast_S1024_S1x1x1024_2 : (⟨S1024, .f32⟩ : BufTy).Contents (Elt F) → (⟨S1x1x1024, .f32⟩ : BufTy).Contents (Elt F)),
    StableHlo.unary main_v1 main_v2 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v0 main_v2 main_v3 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_arg0 main_arg3 main_v4 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    StableHlo.unary main_arg4 main_v5 (broadcastInDim S1x1x1024 ![2] bcast_S1024_S1x1x1024_2 : (⟨S1024, .f32⟩ : BufTy).Contents (Elt F) → (⟨S1x1x1024, .f32⟩ : BufTy).Contents (Elt F)),
    StableHlo.unary main_v5 main_v6 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v4 main_v6 main_v7 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_arg0 main_arg5 main_v8 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    StableHlo.unary main_arg6 main_v9 (broadcastInDim S1x1x1024 ![2] bcast_S1024_S1x1x1024_2 : (⟨S1024, .f32⟩ : BufTy).Contents (Elt F) → (⟨S1x1x1024, .f32⟩ : BufTy).Contents (Elt F)),
    StableHlo.unary main_v9 main_v10 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v8 main_v10 main_v11 (addf : (⟨S4x2048x1024, .f32⟩ : BufTy).Contents (Elt F) → (⟨S4x2048x1024, .f32⟩ : BufTy).Contents (Elt F) → (⟨S4x2048x1024, .f32⟩ : BufTy).Contents (Elt F)) ]

/-- The scores (query rows against key rows of the same batch, divided by the square root of the float 1024) and their softmax along the key axis: the row maximum from minus infinity, the exponentials of the differences, their row sums, the quotients. -/
abbrev P2 : List (HloOp τ sig (Elt F)) :=
  [ StableHlo.binary main_v3 main_v7 main_v12 ((fun l r => Host.dotGeneral dot_S4x2048x1024_S4x2048x1024_S4x2048x2048_2_2_1_1_0_0 none l r) : (⟨S4x2048x1024, .f32⟩ : BufTy).Contents (Elt F) → (⟨S4x2048x1024, .f32⟩ : BufTy).Contents (Elt F) → (⟨S4x2048x2048, .f32⟩ : BufTy).Contents (Elt F)),
    StableHlo.nullary main_cst (constant S_ .f32 0x44800000#32),
    StableHlo.unary main_cst main_v13 (Host.sqrt : (⟨S_, .f32⟩ : BufTy).Contents (Elt F) → (⟨S_, .f32⟩ : BufTy).Contents (Elt F)),
    StableHlo.unary main_v13 main_v14 (broadcastInDim S4x2048x2048 ![] bcast_S_S4x2048x2048 : (⟨S_, .f32⟩ : BufTy).Contents (Elt F) → (⟨S4x2048x2048, .f32⟩ : BufTy).Contents (Elt F)),
    StableHlo.binary main_v12 main_v14 main_v15 (Host.divf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_0 (constant S_ .f32 0xFF800000#32),
    StableHlo.binary main_v15 main_cst_0 main_v16 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.nullary main_cst_1 (constant S_ .f32 0xFF800000#32),
    StableHlo.unary main_cst_1 main_v17 (broadcastInDim S4x2048 ![] bcast_S_S4x2048 : (⟨S_, .f32⟩ : BufTy).Contents (Elt F) → (⟨S4x2048, .f32⟩ : BufTy).Contents (Elt F)),
    StableHlo.binary main_v17 main_v16 main_v18 (maximumf : (⟨S4x2048, .f32⟩ : BufTy).Contents (Elt F) → (⟨S4x2048, .f32⟩ : BufTy).Contents (Elt F) → (⟨S4x2048, .f32⟩ : BufTy).Contents (Elt F)),
    StableHlo.unary main_v18 main_v19 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v19 main_v20 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    StableHlo.binary main_v15 main_v20 main_v21 (subf : (⟨S4x2048x2048, .f32⟩ : BufTy).Contents (Elt F) → (⟨S4x2048x2048, .f32⟩ : BufTy).Contents (Elt F) → (⟨S4x2048x2048, .f32⟩ : BufTy).Contents (Elt F)),
    StableHlo.unary main_v21 main_v22 (Host.exp : (⟨S4x2048x2048, .f32⟩ : BufTy).Contents (Elt F) → (⟨S4x2048x2048, .f32⟩ : BufTy).Contents (Elt F)),
    StableHlo.nullary main_cst_2 (constant S_ .f32 0x00000000#32),
    StableHlo.binary main_v22 main_cst_2 main_v23 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.unary main_v23 main_v24 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v24 main_v25 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    StableHlo.binary main_v22 main_v25 main_v26 (Host.divf : (⟨S4x2048x2048, .f32⟩ : BufTy).Contents (Elt F) → (⟨S4x2048x2048, .f32⟩ : BufTy).Contents (Elt F) → (⟨S4x2048x2048, .f32⟩ : BufTy).Contents (Elt F)) ]

/-- The context (softmax weights against the value rows), the output projection with its bias, and the residual sum with the input. -/
abbrev P3 : List (HloOp τ sig (Elt F)) :=
  [ StableHlo.binary main_v26 main_v11 main_v27 ((fun l r => Host.dotGeneral dot_S4x2048x2048_S4x2048x1024_S4x2048x1024_2_1_1_2_0_0 none l r) : (⟨S4x2048x2048, .f32⟩ : BufTy).Contents (Elt F) → (⟨S4x2048x1024, .f32⟩ : BufTy).Contents (Elt F) → (⟨S4x2048x1024, .f32⟩ : BufTy).Contents (Elt F)),
    StableHlo.binary main_v27 main_arg7 main_v28 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    StableHlo.unary main_arg8 main_v29 (broadcastInDim S1x1x1024 ![2] bcast_S1024_S1x1x1024_2 : (⟨S1024, .f32⟩ : BufTy).Contents (Elt F) → (⟨S1x1x1024, .f32⟩ : BufTy).Contents (Elt F)),
    StableHlo.unary main_v29 main_v30 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v28 main_v30 main_v31 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_arg0 main_v31 main_v32 (addf : (⟨S4x2048x1024, .f32⟩ : BufTy).Contents (Elt F) → (⟨S4x2048x1024, .f32⟩ : BufTy).Contents (Elt F) → (⟨S4x2048x1024, .f32⟩ : BufTy).Contents (Elt F)) ]

/-- The first normalisation's row mean, and the row variance as the called function computes it: the mean again, the squared deviations summed, divided by 1024 minus the integer 0 converted, selected against a not-a-number fill by the sign of that divisor. -/
abbrev P4 : List (HloOp τ sig (Elt F)) :=
  [ StableHlo.nullary main_cst_3 (constant S_ .f32 0x00000000#32),
    StableHlo.binary main_v32 main_cst_3 main_v33 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    StableHlo.unary main_v33 main_v34 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_4 (constant S_ .f32 0x44800000#32),
    StableHlo.unary main_cst_4 main_v35 (broadcastInDim S4x2048x1 ![] bcast_S_S4x2048x1 : (⟨S_, .f32⟩ : BufTy).Contents (Elt F) → (⟨S4x2048x1, .f32⟩ : BufTy).Contents (Elt F)),
    StableHlo.binary main_v34 main_v35 main_v36 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_c (constantI S_ 32 0#32),
    StableHlo.TRef.nullary main_call0.cst (constant S_ .f32 0x00000000#32),
    StableHlo.TRef.binary (StableHlo.TRef.of (T := ⟨S4x2048x1024, .f32⟩) main_v32) main_call0.cst main_call0.v0 (fun x v => Host.reduceAdd x v reducesTo_S4x2048x1024_S4x2048_d2 h_S_),
    StableHlo.TRef.unary main_call0.v0 main_call0.v1 (broadcastInDim S4x2048x1 ![0, 1] bcast_S4x2048_S4x2048x1_0_1),
    StableHlo.TRef.nullary main_call0.cst_0 (constant S_ .f32 0x44800000#32),
    StableHlo.TRef.unary main_call0.cst_0 main_call0.v2 (broadcastInDim S4x2048x1 ![] bcast_S_S4x2048x1),
    StableHlo.TRef.binary main_call0.v1 main_call0.v2 main_call0.v3 Host.divf,
    StableHlo.TRef.unary main_call0.v3 main_call0.v4 (broadcastInDim S4x2048x1024 ![0, 1, 2] bcast_S4x2048x1_S4x2048x1024_0_1_2),
    StableHlo.TRef.binary (StableHlo.TRef.of (T := ⟨S4x2048x1024, .f32⟩) main_v32) main_call0.v4 main_call0.v5 subf,
    StableHlo.TRef.binary main_call0.v5 main_call0.v5 main_call0.v6 mulf,
    StableHlo.TRef.unary (StableHlo.TRef.of (T := ⟨S_, .i32⟩) main_c) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x2048x1024_S4x2048_d2 h_S_),
    StableHlo.TRef.unary main_call0.v9 main_call0.v10 (broadcastInDim S4x2048x1 ![0, 1] bcast_S4x2048_S4x2048x1_0_1),
    StableHlo.TRef.unary main_call0.v8 main_call0.v11 (broadcastInDim S4x2048x1 ![] bcast_S_S4x2048x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x2048x1 ![] bcast_S_S4x2048x1),
    StableHlo.TRef.ternary main_call0.v13 main_call0.v12 main_call0.call0.v1 main_call0.call0.v2 (fun p a b => select (broadcastInDim S4x2048x1 ![] bcast_S_S4x2048x1 p) a b) ]

/-- The first normalisation (deviation times inverse square root of variance plus the offset, times gain, plus offset row) and the product with the first feed-forward matrix. -/
abbrev P5 : List (HloOp τ sig (Elt F)) :=
  [ StableHlo.unary main_v36 main_v38 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_v32 main_v38 main_v39 (subf : (⟨S4x2048x1024, .f32⟩ : BufTy).Contents (Elt F) → (⟨S4x2048x1024, .f32⟩ : BufTy).Contents (Elt F) → (⟨S4x2048x1024, .f32⟩ : BufTy).Contents (Elt F)),
    StableHlo.nullary main_cst_5 (constant S_ .f32 0x3727C5AC#32),
    StableHlo.unary main_cst_5 main_v40 (broadcastInDim S4x2048x1 ![] bcast_S_S4x2048x1 : (⟨S_, .f32⟩ : BufTy).Contents (Elt F) → (⟨S4x2048x1, .f32⟩ : BufTy).Contents (Elt F)),
    StableHlo.binary main_v37 main_v40 main_v41 (addf : (⟨S4x2048x1, .f32⟩ : BufTy).Contents (Elt F) → (⟨S4x2048x1, .f32⟩ : BufTy).Contents (Elt F) → (⟨S4x2048x1, .f32⟩ : BufTy).Contents (Elt F)),
    StableHlo.unary main_v41 main_v42 (Host.rsqrt : (⟨S4x2048x1, .f32⟩ : BufTy).Contents (Elt F) → (⟨S4x2048x1, .f32⟩ : BufTy).Contents (Elt F)),
    StableHlo.unary main_v42 main_v43 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_v39 main_v43 main_v44 (mulf : (⟨S4x2048x1024, .f32⟩ : BufTy).Contents (Elt F) → (⟨S4x2048x1024, .f32⟩ : BufTy).Contents (Elt F) → (⟨S4x2048x1024, .f32⟩ : BufTy).Contents (Elt F)),
    StableHlo.unary main_arg13 main_v45 (broadcastInDim S1x1x1024 ![2] bcast_S1024_S1x1x1024_2 : (⟨S1024, .f32⟩ : BufTy).Contents (Elt F) → (⟨S1x1x1024, .f32⟩ : BufTy).Contents (Elt F)),
    StableHlo.unary main_v45 main_v46 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v44 main_v46 main_v47 (mulf : (⟨S4x2048x1024, .f32⟩ : BufTy).Contents (Elt F) → (⟨S4x2048x1024, .f32⟩ : BufTy).Contents (Elt F) → (⟨S4x2048x1024, .f32⟩ : BufTy).Contents (Elt F)),
    StableHlo.unary main_arg14 main_v48 (broadcastInDim S1x1x1024 ![2] bcast_S1024_S1x1x1024_2 : (⟨S1024, .f32⟩ : BufTy).Contents (Elt F) → (⟨S1x1x1024, .f32⟩ : BufTy).Contents (Elt F)),
    StableHlo.unary main_v48 main_v49 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v47 main_v49 main_v50 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_v50 main_arg9 main_v51 ((fun l r => Host.dotGeneral dot_S4x2048x1024_S1024x4096_S4x2048x4096_2_0_01_1_n_n none l r) : (⟨S4x2048x1024, .f32⟩ : BufTy).Contents (Elt F) → (⟨S1024x4096, .f32⟩ : BufTy).Contents (Elt F) → (⟨S4x2048x4096, .f32⟩ : BufTy).Contents (Elt F)) ]

/-- The first feed-forward bias, the rectifier (maximum with a zero array), the second feed-forward product with its bias, and the residual sum. -/
abbrev P6 : List (HloOp τ sig (Elt F)) :=
  [ StableHlo.unary main_arg10 main_v52 (broadcastInDim S1x1x4096 ![2] bcast_S4096_S1x1x4096_2 : (⟨S4096, .f32⟩ : BufTy).Contents (Elt F) → (⟨S1x1x4096, .f32⟩ : BufTy).Contents (Elt F)),
    StableHlo.unary main_v52 main_v53 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v51 main_v53 main_v54 (addf : (⟨S4x2048x4096, .f32⟩ : BufTy).Contents (Elt F) → (⟨S4x2048x4096, .f32⟩ : BufTy).Contents (Elt F) → (⟨S4x2048x4096, .f32⟩ : BufTy).Contents (Elt F)),
    StableHlo.TRef.nullary main_call1.cst (constant S_ .f32 0x00000000#32),
    StableHlo.TRef.unary main_call1.cst main_call1.v0 (broadcastInDim S4x2048x4096 ![] bcast_S_S4x2048x4096),
    StableHlo.TRef.binary (StableHlo.TRef.of (T := ⟨S4x2048x4096, .f32⟩) main_v54) main_call1.v0 main_call1.v1 maximumf,
    StableHlo.binary main_v55 main_arg11 main_v56 ((fun l r => Host.dotGeneral dot_S4x2048x4096_S4096x1024_S4x2048x1024_2_0_01_1_n_n none l r) : (⟨S4x2048x4096, .f32⟩ : BufTy).Contents (Elt F) → (⟨S4096x1024, .f32⟩ : BufTy).Contents (Elt F) → (⟨S4x2048x1024, .f32⟩ : BufTy).Contents (Elt F)),
    StableHlo.unary main_arg12 main_v57 (broadcastInDim S1x1x1024 ![2] bcast_S1024_S1x1x1024_2 : (⟨S1024, .f32⟩ : BufTy).Contents (Elt F) → (⟨S1x1x1024, .f32⟩ : BufTy).Contents (Elt F)),
    StableHlo.unary main_v57 main_v58 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v56 main_v58 main_v59 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_v50 main_v59 main_v60 (addf : (⟨S4x2048x1024, .f32⟩ : BufTy).Contents (Elt F) → (⟨S4x2048x1024, .f32⟩ : BufTy).Contents (Elt F) → (⟨S4x2048x1024, .f32⟩ : BufTy).Contents (Elt F)) ]

/-- The second normalisation's row mean and row variance, as in the fourth stretch. -/
abbrev P7 : List (HloOp τ sig (Elt F)) :=
  [ StableHlo.nullary main_cst_6 (constant S_ .f32 0x00000000#32),
    StableHlo.binary main_v60 main_cst_6 main_v61 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    StableHlo.unary main_v61 main_v62 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_7 (constant S_ .f32 0x44800000#32),
    StableHlo.unary main_cst_7 main_v63 (broadcastInDim S4x2048x1 ![] bcast_S_S4x2048x1 : (⟨S_, .f32⟩ : BufTy).Contents (Elt F) → (⟨S4x2048x1, .f32⟩ : BufTy).Contents (Elt F)),
    StableHlo.binary main_v62 main_v63 main_v64 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_c_8 (constantI S_ 32 0#32),
    StableHlo.TRef.nullary main_call2.cst (constant S_ .f32 0x00000000#32),
    StableHlo.TRef.binary (StableHlo.TRef.of (T := ⟨S4x2048x1024, .f32⟩) main_v60) main_call2.cst main_call2.v0 (fun x v => Host.reduceAdd x v reducesTo_S4x2048x1024_S4x2048_d2 h_S_),
    StableHlo.TRef.unary main_call2.v0 main_call2.v1 (broadcastInDim S4x2048x1 ![0, 1] bcast_S4x2048_S4x2048x1_0_1),
    StableHlo.TRef.nullary main_call2.cst_0 (constant S_ .f32 0x44800000#32),
    StableHlo.TRef.unary main_call2.cst_0 main_call2.v2 (broadcastInDim S4x2048x1 ![] bcast_S_S4x2048x1),
    StableHlo.TRef.binary main_call2.v1 main_call2.v2 main_call2.v3 Host.divf,
    StableHlo.TRef.unary main_call2.v3 main_call2.v4 (broadcastInDim S4x2048x1024 ![0, 1, 2] bcast_S4x2048x1_S4x2048x1024_0_1_2),
    StableHlo.TRef.binary (StableHlo.TRef.of (T := ⟨S4x2048x1024, .f32⟩) main_v60) main_call2.v4 main_call2.v5 subf,
    StableHlo.TRef.binary main_call2.v5 main_call2.v5 main_call2.v6 mulf,
    StableHlo.TRef.unary (StableHlo.TRef.of (T := ⟨S_, .i32⟩) main_c_8) main_call2.v7 (sitofp .f32),
    StableHlo.TRef.nullary main_call2.cst_1 (constant S_ .f32 0x44800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x2048x1024_S4x2048_d2 h_S_),
    StableHlo.TRef.unary main_call2.v9 main_call2.v10 (broadcastInDim S4x2048x1 ![0, 1] bcast_S4x2048_S4x2048x1_0_1),
    StableHlo.TRef.unary main_call2.v8 main_call2.v11 (broadcastInDim S4x2048x1 ![] bcast_S_S4x2048x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x2048x1 ![] bcast_S_S4x2048x1),
    StableHlo.TRef.ternary main_call2.v13 main_call2.v12 main_call2.call0.v1 main_call2.call0.v2 (fun p a b => select (broadcastInDim S4x2048x1 ![] bcast_S_S4x2048x1 p) a b) ]

/-- The second normalisation: the program's result. -/
abbrev P8 : List (HloOp τ sig (Elt F)) :=
  [ StableHlo.unary main_v64 main_v66 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_v60 main_v66 main_v67 (subf : (⟨S4x2048x1024, .f32⟩ : BufTy).Contents (Elt F) → (⟨S4x2048x1024, .f32⟩ : BufTy).Contents (Elt F) → (⟨S4x2048x1024, .f32⟩ : BufTy).Contents (Elt F)),
    StableHlo.nullary main_cst_9 (constant S_ .f32 0x3727C5AC#32),
    StableHlo.unary main_cst_9 main_v68 (broadcastInDim S4x2048x1 ![] bcast_S_S4x2048x1 : (⟨S_, .f32⟩ : BufTy).Contents (Elt F) → (⟨S4x2048x1, .f32⟩ : BufTy).Contents (Elt F)),
    StableHlo.binary main_v65 main_v68 main_v69 (addf : (⟨S4x2048x1, .f32⟩ : BufTy).Contents (Elt F) → (⟨S4x2048x1, .f32⟩ : BufTy).Contents (Elt F) → (⟨S4x2048x1, .f32⟩ : BufTy).Contents (Elt F)),
    StableHlo.unary main_v69 main_v70 (Host.rsqrt : (⟨S4x2048x1, .f32⟩ : BufTy).Contents (Elt F) → (⟨S4x2048x1, .f32⟩ : BufTy).Contents (Elt F)),
    StableHlo.unary main_v70 main_v71 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_v67 main_v71 main_v72 (mulf : (⟨S4x2048x1024, .f32⟩ : BufTy).Contents (Elt F) → (⟨S4x2048x1024, .f32⟩ : BufTy).Contents (Elt F) → (⟨S4x2048x1024, .f32⟩ : BufTy).Contents (Elt F)),
    StableHlo.unary main_arg15 main_v73 (broadcastInDim S1x1x1024 ![2] bcast_S1024_S1x1x1024_2 : (⟨S1024, .f32⟩ : BufTy).Contents (Elt F) → (⟨S1x1x1024, .f32⟩ : BufTy).Contents (Elt F)),
    StableHlo.unary main_v73 main_v74 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v72 main_v74 main_v75 (mulf : (⟨S4x2048x1024, .f32⟩ : BufTy).Contents (Elt F) → (⟨S4x2048x1024, .f32⟩ : BufTy).Contents (Elt F) → (⟨S4x2048x1024, .f32⟩ : BufTy).Contents (Elt F)),
    StableHlo.unary main_arg16 main_v76 (broadcastInDim S1x1x1024 ![2] bcast_S1024_S1x1x1024_2 : (⟨S1024, .f32⟩ : BufTy).Contents (Elt F) → (⟨S1x1x1024, .f32⟩ : BufTy).Contents (Elt F)),
    StableHlo.unary main_v76 main_v77 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v75 main_v77 main_v78 (addf : (⟨S4x2048x1024, .f32⟩ : BufTy).Contents (Elt F) → (⟨S4x2048x1024, .f32⟩ : BufTy).Contents (Elt F) → (⟨S4x2048x1024, .f32⟩ : BufTy).Contents (Elt F)) ]

/-- The first window's operations. -/
abbrev opsA : List (HloOp τ sig (Elt F)) := P1 ++ (P2 ++ (P3 ++ (P4 ++ P5)))
/-- The second window's operations. -/
abbrev opsB : List (HloOp τ sig (Elt F)) := P6 ++ (P7 ++ P8)
/-- All 137 operations, in order. -/
abbrev ops : List (HloOp τ sig (Elt F)) := opsA ++ opsB

set_option maxRecDepth 16384 in
set_option maxHeartbeats 4000000 in
/-- The first window is its operations in a line: the called function's definition unfolded at the call and the
    sequencing re-associated. -/
theorem main_part0_eq (c : Dev nD) : main_part0 (F := F) c = seq opsA := by
  simp only [main_part0, fn_var.body, fn_where.body, opsA, P1, P2, P3, P4, P5, List.cons_append, List.nil_append, seq, bind_assoc, pure_bind]
  rfl

set_option maxRecDepth 16384 in
set_option maxHeartbeats 4000000 in
/-- The second window likewise. -/
theorem main_part1_eq (c : Dev nD) : main_part1 (F := F) c = seq opsB := by
  simp only [main_part1, fn_var.body, fn_where.body, fn_relu.body, opsB, P6, P7, P8, List.cons_append, List.nil_append, seq, bind_assoc, pure_bind]

/-- @main is the two windows one after the other. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem P1_sub : (P1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem P1_fresh : (P1 : List (HloOp τ sig (Elt F))).Forall fun op => op.fresh = ∅ :=
  ⟨rfl, rfl, rfl, rfl, rfl, rfl, rfl, rfl, rfl, rfl, rfl, rfl⟩
theorem P2_sub : (P2 : List (HloOp τ sig (Elt F))).Forall fun op => op.bufs ⊆ tcRefs τ sig :=
  ⟨binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem P2_fresh : (P2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem P3_sub : (P3 : List (HloOp τ sig (Elt F))).Forall fun op => op.bufs ⊆ tcRefs τ sig :=
  ⟨binary_bufs_sub .., binary_bufs_sub .., unary_bufs_sub .., unary_bufs_sub .., binary_bufs_sub .., binary_bufs_sub ..⟩
theorem P3_fresh : (P3 : List (HloOp τ sig (Elt F))).Forall fun op => op.fresh = ∅ :=
  ⟨rfl, rfl, rfl, rfl, rfl, rfl⟩
theorem P4_sub : (P4 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem P4_fresh : (P4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem P5_sub : (P5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩
theorem P5_fresh : (P5 : List (HloOp τ sig (Elt F))).Forall fun op => op.fresh = ∅ :=
  ⟨rfl, rfl, rfl, rfl, rfl, rfl, rfl, rfl, rfl, rfl, rfl, rfl, rfl, rfl, rfl⟩
theorem P6_sub : (P6 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem P6_fresh : (P6 : List (HloOp τ sig (Elt F))).Forall fun op => op.fresh = ∅ :=
  ⟨rfl, rfl, rfl, rfl, rfl, rfl, rfl, rfl, rfl, rfl, rfl⟩
theorem P7_sub : (P7 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem P7_fresh : (P7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem P8_sub : (P8 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem P8_fresh : (P8 : List (HloOp τ sig (Elt F))).Forall fun op => op.fresh = ∅ :=
  ⟨rfl, rfl, rfl, rfl, rfl, rfl, rfl, rfl, rfl, rfl, rfl, rfl, rfl, rfl⟩

/-- Every operation touches TensorCore buffers only. -/
theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h) | (h | h | h)
    exacts [List.forall_iff_forall_mem.mp P1_sub op h, List.forall_iff_forall_mem.mp P2_sub op h, List.forall_iff_forall_mem.mp P3_sub op h, List.forall_iff_forall_mem.mp P4_sub op h, List.forall_iff_forall_mem.mp P5_sub op h, List.forall_iff_forall_mem.mp P6_sub op h, List.forall_iff_forall_mem.mp P7_sub op h, List.forall_iff_forall_mem.mp P8_sub op h]

/-- Every operation determines its result. -/
theorem ops_fresh : ∀ op ∈ (ops : List (HloOp τ sig (Elt F))), op.fresh = ∅ := fun op h => by
    simp only [ops, opsA, opsB, List.mem_append] at h
    rcases h with (h | h | h | h | h) | (h | h | h)
    exacts [List.forall_iff_forall_mem.mp P1_fresh op h, List.forall_iff_forall_mem.mp P2_fresh op h, List.forall_iff_forall_mem.mp P3_fresh op h, List.forall_iff_forall_mem.mp P4_fresh op h, List.forall_iff_forall_mem.mp P5_fresh op h, List.forall_iff_forall_mem.mp P6_fresh op h, List.forall_iff_forall_mem.mp P7_fresh op h, List.forall_iff_forall_mem.mp P8_fresh op h]

/-- From any memory with zero counters every weakly fair execution of @main terminates, and every buffer ends at the
    fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Ref.RefRun.lean ====
/-
  The reference's run read back. The eight stretches of operations are composed into named stages — an affine
  layer (a contraction of the last axis against a weight matrix, plus a bias row broadcast over batch and
  sequence), the scores and their row-wise softmax, the context, the row mean and row variance, the layer
  normalisation, the rectifier — and the program's result is those stages applied to the seventeen argument
  arrays. Each stretch is read from the contents the stretch before it leaves: a buffer written by an earlier
  stretch and not written again keeps its contents, and the arguments are written by no operation at all.
-/
import proofs.«105537_j20366734917908_2_alg».proof.Proof.Ref.RefOps
import proofs.«105537_j20366734917908_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of arrays -/

/-- A row of 1024 broadcast over batch and sequence. -/
def biasRow (b : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (broadcastInDim S1x1x1024 ![2] bcast_S1024_S1x1x1024_2 b)

/-- The affine layer 1024 → 1024: the last axis contracted against the weight's first, plus the bias row. -/
def linS (x : (⟨S4x2048x1024, .f32⟩ : BufTy).Contents (Elt F)) (w : (⟨S1024x1024, .f32⟩ : BufTy).Contents (Elt F)) (b : (⟨S1024, .f32⟩ : BufTy).Contents (Elt F)) : (⟨S4x2048x1024, .f32⟩ : BufTy).Contents (Elt F) :=
  addf (Host.dotGeneral dot_S4x2048x1024_S1024x1024_S4x2048x1024_2_0_01_1_n_n none x w) (biasRow b)

/-- The scores: per batch, query rows against key rows, divided by the square root of the float 1024. -/
def scoresS (q k : (⟨S4x2048x1024, .f32⟩ : BufTy).Contents (Elt F)) : (⟨S4x2048x2048, .f32⟩ : BufTy).Contents (Elt F) :=
  Host.divf (Host.dotGeneral dot_S4x2048x1024_S4x2048x1024_S4x2048x2048_2_2_1_1_0_0 none q k)
    (broadcastInDim S4x2048x2048 ![] bcast_S_S4x2048x2048 (Host.sqrt (constant S_ .f32 0x44800000#32)))

/-- The largest score of each row: the maximum of minus infinity and the max-reduction from minus infinity. -/
def rowMaxS (s : (⟨S4x2048x2048, .f32⟩ : BufTy).Contents (Elt F)) : (⟨S4x2048, .f32⟩ : BufTy).Contents (Elt F) :=
  maximumf (broadcastInDim S4x2048 ![] bcast_S_S4x2048 (constant S_ .f32 0xFF800000#32))
    (Host.reduce FloatOps.maximumf s (constant S_ .f32 0xFF800000#32) reducesTo_S4x2048x2048_S4x2048_d2 h_S_)

/-- A per-row value broadcast along the key axis. -/
def colS (r : (⟨S4x2048, .f32⟩ : BufTy).Contents (Elt F)) : (⟨S4x2048x2048, .f32⟩ : BufTy).Contents (Elt F) :=
  broadcastInDim S4x2048x2048 ![0, 1, 2] bcast_S4x2048x1_S4x2048x2048_0_1_2 (broadcastInDim S4x2048x1 ![0, 1] bcast_S4x2048_S4x2048x1_0_1 r)

/-- The exponentials of the scores less their row maximum. -/
def expS (s : (⟨S4x2048x2048, .f32⟩ : BufTy).Contents (Elt F)) : (⟨S4x2048x2048, .f32⟩ : BufTy).Contents (Elt F) := Host.exp (subf s (colS (rowMaxS s)))

/-- The softmax along the key axis: the exponentials over their row sums. -/
def softmaxS (s : (⟨S4x2048x2048, .f32⟩ : BufTy).Contents (Elt F)) : (⟨S4x2048x2048, .f32⟩ : BufTy).Contents (Elt F) :=
  Host.divf (expS s) (colS (Host.reduceAdd (expS s) (constant S_ .f32 0x00000000#32) reducesTo_S4x2048x2048_S4x2048_d2 h_S_))

/-- The context: per batch, the weights against the value rows. -/
def ctxS (p : (⟨S4x2048x2048, .f32⟩ : BufTy).Contents (Elt F)) (v : (⟨S4x2048x1024, .f32⟩ : BufTy).Contents (Elt F)) : (⟨S4x2048x1024, .f32⟩ : BufTy).Contents (Elt F) :=
  Host.dotGeneral dot_S4x2048x2048_S4x2048x1024_S4x2048x1024_2_1_1_2_0_0 none p v

/-- The mean of each row: its sum over the float 1024. -/
def meanS (y : (⟨S4x2048x1024, .f32⟩ : BufTy).Contents (Elt F)) : (⟨S4x2048x1, .f32⟩ : BufTy).Contents (Elt F) :=
  Host.divf (broadcastInDim S4x2048x1 ![0, 1] bcast_S4x2048_S4x2048x1_0_1 (Host.reduceAdd y (constant S_ .f32 0x00000000#32) reducesTo_S4x2048x1024_S4x2048_d2 h_S_))
    (broadcastInDim S4x2048x1 ![] bcast_S_S4x2048x1 (constant S_ .f32 0x44800000#32))

/-- A per-row value broadcast along the feature axis. -/
def wideS (r : (⟨S4x2048x1, .f32⟩ : BufTy).Contents (Elt F)) : (⟨S4x2048x1024, .f32⟩ : BufTy).Contents (Elt F) :=
  broadcastInDim S4x2048x1024 ![0, 1, 2] bcast_S4x2048x1_S4x2048x1024_0_1_2 r

/-- The variance's divisor: the float 1024 less the integer 0 converted. -/
def ddofS : (⟨S_, .f32⟩ : BufTy).Contents (Elt F) := subf (constant S_ .f32 0x44800000#32) (sitofp .f32 (constantI S_ 32 0#32))

/-- The deviations of a row from its mean. -/
def devS (y : (⟨S4x2048x1024, .f32⟩ : BufTy).Contents (Elt F)) : (⟨S4x2048x1024, .f32⟩ : BufTy).Contents (Elt F) := subf y (wideS (meanS y))

/-- The variance of each row as the called function computes it: the squared deviations summed over the divisor, selected
    against a not-a-number fill by whether the divisor is positive. -/
def varS (y : (⟨S4x2048x1024, .f32⟩ : BufTy).Contents (Elt F)) : (⟨S4x2048x1, .f32⟩ : BufTy).Contents (Elt F) :=
  select (broadcastInDim S4x2048x1 ![] bcast_S_S4x2048x1 (cmpf .ogt (ddofS (F := F)) (constant S_ .f32 0x00000000#32)))
    (Host.divf (broadcastInDim S4x2048x1 ![0, 1] bcast_S4x2048_S4x2048x1_0_1 (Host.reduceAdd (mulf (devS y) (devS y)) (constant S_ .f32 0x00000000#32) reducesTo_S4x2048x1024_S4x2048_d2 h_S_))
      (broadcastInDim S4x2048x1 ![] bcast_S_S4x2048x1 (ddofS (F := F))))
    (broadcastInDim S4x2048x1 ![] bcast_S_S4x2048x1 (constant S_ .f32 0x7FC00000#32))

/-- Layer normalisation of each row: the deviation times the inverse square root of the variance plus the offset float, times
    the gain row, plus the offset row. -/
def lnS (y : (⟨S4x2048x1024, .f32⟩ : BufTy).Contents (Elt F)) (g be : (⟨S1024, .f32⟩ : BufTy).Contents (Elt F)) : (⟨S4x2048x1024, .f32⟩ : BufTy).Contents (Elt F) :=
  addf (mulf (mulf (subf y (wideS (meanS y)))
      (wideS (Host.rsqrt (addf (varS y) (broadcastInDim S4x2048x1 ![] bcast_S_S4x2048x1 (constant S_ .f32 0x3727C5AC#32))))))
    (biasRow g)) (biasRow be)

/-- The first feed-forward product, 1024 → 4096. -/
def dot14S (x : (⟨S4x2048x1024, .f32⟩ : BufTy).Contents (Elt F)) (w : (⟨S1024x4096, .f32⟩ : BufTy).Contents (Elt F)) : (⟨S4x2048x4096, .f32⟩ : BufTy).Contents (Elt F) :=
  Host.dotGeneral dot_S4x2048x1024_S1024x4096_S4x2048x4096_2_0_01_1_n_n none x w

/-- The rectified first feed-forward layer: the product plus its bias row, against a zero array. -/
def hidS (d : (⟨S4x2048x4096, .f32⟩ : BufTy).Contents (Elt F)) (b : (⟨S4096, .f32⟩ : BufTy).Contents (Elt F)) : (⟨S4x2048x4096, .f32⟩ : BufTy).Contents (Elt F) :=
  maximumf (addf d (broadcastInDim S4x2048x4096 ![0, 1, 2] bcast_S1x1x4096_S4x2048x4096_0_1_2 (broadcastInDim S1x1x4096 ![2] bcast_S4096_S1x1x4096_2 b)))
    (broadcastInDim S4x2048x4096 ![] bcast_S_S4x2048x4096 (constant S_ .f32 0x00000000#32))

/-- The second feed-forward layer, 4096 → 1024. -/
def lin41S (h : (⟨S4x2048x4096, .f32⟩ : BufTy).Contents (Elt F)) (w : (⟨S4096x1024, .f32⟩ : BufTy).Contents (Elt F)) (b : (⟨S1024, .f32⟩ : BufTy).Contents (Elt F)) : (⟨S4x2048x1024, .f32⟩ : BufTy).Contents (Elt F) :=
  addf (Host.dotGeneral dot_S4x2048x4096_S4096x1024_S4x2048x1024_2_0_01_1_n_n none h w) (biasRow b)

/-! ## The stages of this program, over any contents of the buffers -/

def qV (V0 : Valuation τ sig (Elt F)) : (⟨S4x2048x1024, .f32⟩ : BufTy).Contents (Elt F) := linS (V0 (Proc.devRef .tc main_arg0)) (V0 (Proc.devRef .tc main_arg1)) (V0 (Proc.devRef .tc main_arg2))
def kV (V0 : Valuation τ sig (Elt F)) : (⟨S4x2048x1024, .f32⟩ : BufTy).Contents (Elt F) := linS (V0 (Proc.devRef .tc main_arg0)) (V0 (Proc.devRef .tc main_arg3)) (V0 (Proc.devRef .tc main_arg4))
def vV (V0 : Valuation τ sig (Elt F)) : (⟨S4x2048x1024, .f32⟩ : BufTy).Contents (Elt F) := linS (V0 (Proc.devRef .tc main_arg0)) (V0 (Proc.devRef .tc main_arg5)) (V0 (Proc.devRef .tc main_arg6))
def pV (V0 : Valuation τ sig (Elt F)) : (⟨S4x2048x2048, .f32⟩ : BufTy).Contents (Elt F) := softmaxS (scoresS (qV V0) (kV V0))
def y1V (V0 : Valuation τ sig (Elt F)) : (⟨S4x2048x1024, .f32⟩ : BufTy).Contents (Elt F) := addf (V0 (Proc.devRef .tc main_arg0)) (linS (ctxS (pV V0) (vV V0)) (V0 (Proc.devRef .tc main_arg7)) (V0 (Proc.devRef .tc main_arg8)))
def x1V (V0 : Valuation τ sig (Elt F)) : (⟨S4x2048x1024, .f32⟩ : BufTy).Contents (Elt F) := lnS (y1V V0) (V0 (Proc.devRef .tc main_arg13)) (V0 (Proc.devRef .tc main_arg14))
def d1V (V0 : Valuation τ sig (Elt F)) : (⟨S4x2048x4096, .f32⟩ : BufTy).Contents (Elt F) := dot14S (x1V V0) (V0 (Proc.devRef .tc main_arg9))
def y2V (V0 : Valuation τ sig (Elt F)) : (⟨S4x2048x1024, .f32⟩ : BufTy).Contents (Elt F) := addf (x1V V0) (lin41S (hidS (d1V V0) (V0 (Proc.devRef .tc main_arg10))) (V0 (Proc.devRef .tc main_arg11)) (V0 (Proc.devRef .tc main_arg12)))
/-- The program's result over any contents. -/
def resV (V0 : Valuation τ sig (Elt F)) : (⟨S4x2048x1024, .f32⟩ : BufTy).Contents (Elt F) := lnS (y2V V0) (V0 (Proc.devRef .tc main_arg15)) (V0 (Proc.devRef .tc main_arg16))

/-! ## The contents after each stretch -/

def val1 (V0 : Valuation τ sig (Elt F)) : Valuation τ sig (Elt F) := after P1 V0
def val2 (V0 : Valuation τ sig (Elt F)) : Valuation τ sig (Elt F) := after P2 (val1 V0)
def val3 (V0 : Valuation τ sig (Elt F)) : Valuation τ sig (Elt F) := after P3 (val2 V0)
def val4 (V0 : Valuation τ sig (Elt F)) : Valuation τ sig (Elt F) := after P4 (val3 V0)
def val5 (V0 : Valuation τ sig (Elt F)) : Valuation τ sig (Elt F) := after P5 (val4 V0)
def val6 (V0 : Valuation τ sig (Elt F)) : Valuation τ sig (Elt F) := after P6 (val5 V0)
def val7 (V0 : Valuation τ sig (Elt F)) : Valuation τ sig (Elt F) := after P7 (val6 V0)
def val8 (V0 : Valuation τ sig (Elt F)) : Valuation τ sig (Elt F) := after P8 (val7 V0)

theorem after_ops (V0 : Valuation τ sig (Elt F)) : after ops V0 = val8 V0 := by
  simp only [ops, opsA, opsB, after_append]
  rfl

/-- The buffers stretch 1 writes. -/
abbrev P1_W : List (Ref sig .tc) := [main_v0, main_v1, main_v2, main_v3, main_v4, main_v5, main_v6, main_v7, main_v8, main_v9, main_v10, main_v11]
theorem P1_writes : (P1 : List (HloOp τ sig (Elt F))).Forall fun op => op.writes ⊆ (P1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ P1_W) :
    val1 V0 (Proc.devRef .tc r) = V0 (Proc.devRef .tc r) :=
  after_of_writes_sub P1 _ P1_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
theorem val1_main_arg8 (V0 : Valuation τ sig (Elt F)) : val1 V0 (no_index (Proc.devRef .tc main_arg8)) = V0 (Proc.devRef .tc main_arg8) :=
  val1_keep V0 main_arg8 (by decide)
theorem val1_main_arg9 (V0 : Valuation τ sig (Elt F)) : val1 V0 (no_index (Proc.devRef .tc main_arg9)) = V0 (Proc.devRef .tc main_arg9) :=
  val1_keep V0 main_arg9 (by decide)
theorem val1_main_arg10 (V0 : Valuation τ sig (Elt F)) : val1 V0 (no_index (Proc.devRef .tc main_arg10)) = V0 (Proc.devRef .tc main_arg10) :=
  val1_keep V0 main_arg10 (by decide)
theorem val1_main_arg11 (V0 : Valuation τ sig (Elt F)) : val1 V0 (no_index (Proc.devRef .tc main_arg11)) = V0 (Proc.devRef .tc main_arg11) :=
  val1_keep V0 main_arg11 (by decide)
theorem val1_main_arg12 (V0 : Valuation τ sig (Elt F)) : val1 V0 (no_index (Proc.devRef .tc main_arg12)) = V0 (Proc.devRef .tc main_arg12) :=
  val1_keep V0 main_arg12 (by decide)
theorem val1_main_arg13 (V0 : Valuation τ sig (Elt F)) : val1 V0 (no_index (Proc.devRef .tc main_arg13)) = V0 (Proc.devRef .tc main_arg13) :=
  val1_keep V0 main_arg13 (by decide)
theorem val1_main_arg14 (V0 : Valuation τ sig (Elt F)) : val1 V0 (no_index (Proc.devRef .tc main_arg14)) = V0 (Proc.devRef .tc main_arg14) :=
  val1_keep V0 main_arg14 (by decide)
theorem val1_main_arg15 (V0 : Valuation τ sig (Elt F)) : val1 V0 (no_index (Proc.devRef .tc main_arg15)) = V0 (Proc.devRef .tc main_arg15) :=
  val1_keep V0 main_arg15 (by decide)
theorem val1_main_arg16 (V0 : Valuation τ sig (Elt F)) : val1 V0 (no_index (Proc.devRef .tc main_arg16)) = V0 (Proc.devRef .tc main_arg16) :=
  val1_keep V0 main_arg16 (by decide)

/-- The buffers stretch 2 writes. -/
abbrev P2_W : List (Ref sig .tc) := [main_v12, main_cst, main_v13, main_v14, main_v15, main_cst_0, main_v16, main_cst_1, main_v17, main_v18, main_v19, main_v20, main_v21, main_v22, main_cst_2, main_v23, main_v24, main_v25, main_v26]
theorem P2_writes : (P2 : List (HloOp τ sig (Elt F))).Forall fun op => op.writes ⊆ (P2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ P2_W) :
    val2 V0 (Proc.devRef .tc r) = val1 V0 (Proc.devRef .tc r) :=
  after_of_writes_sub P2 _ P2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)

/-- The buffers stretch 3 writes. -/
abbrev P3_W : List (Ref sig .tc) := [main_v27, main_v28, main_v29, main_v30, main_v31, main_v32]
theorem P3_writes : (P3 : List (HloOp τ sig (Elt F))).Forall fun op => op.writes ⊆ (P3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ P3_W) :
    val3 V0 (Proc.devRef .tc r) = val2 V0 (Proc.devRef .tc r) :=
  after_of_writes_sub P3 _ P3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)

/-- The buffers stretch 4 writes. -/
abbrev P4_W : List (Ref sig .tc) := [main_cst_3, main_v33, main_v34, main_cst_4, main_v35, main_v36, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref]
theorem P4_writes : (P4 : List (HloOp τ sig (Elt F))).Forall fun op => op.writes ⊆ (P4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ P4_W) :
    val4 V0 (Proc.devRef .tc r) = val3 V0 (Proc.devRef .tc r) :=
  after_of_writes_sub P4 _ P4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)

/-- The buffers stretch 5 writes. -/
abbrev P5_W : List (Ref sig .tc) := [main_v38, main_v39, main_cst_5, main_v40, main_v41, main_v42, main_v43, main_v44, main_v45, main_v46, main_v47, main_v48, main_v49, main_v50, main_v51]
theorem P5_writes : (P5 : List (HloOp τ sig (Elt F))).Forall fun op => op.writes ⊆ (P5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ P5_W) :
    val5 V0 (Proc.devRef .tc r) = val4 V0 (Proc.devRef .tc r) :=
  after_of_writes_sub P5 _ P5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)

/-- The buffers stretch 6 writes. -/
abbrev P6_W : List (Ref sig .tc) := [main_v52, main_v53, main_v54, main_call1.cst.ref, main_call1.v0.ref, main_call1.v1.ref, main_v56, main_v57, main_v58, main_v59, main_v60]
theorem P6_writes : (P6 : List (HloOp τ sig (Elt F))).Forall fun op => op.writes ⊆ (P6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ P6_W) :
    val6 V0 (Proc.devRef .tc r) = val5 V0 (Proc.devRef .tc r) :=
  after_of_writes_sub P6 _ P6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)

/-- The buffers stretch 7 writes. -/
abbrev P7_W : List (Ref sig .tc) := [main_cst_6, main_v61, main_v62, main_cst_7, main_v63, main_v64, main_c_8, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref]
theorem P7_writes : (P7 : List (HloOp τ sig (Elt F))).Forall fun op => op.writes ⊆ (P7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V0 : Valuation τ sig (Elt F)) (r : Ref sig .tc) (h : r ∉ P7_W) :
    val7 V0 (Proc.devRef .tc r) = val6 V0 (Proc.devRef .tc r) :=
  after_of_writes_sub P7 _ P7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)

/-- The buffers stretch 8 writes. -/
abbrev P8_W : List (Ref sig .tc) := [main_v66, main_v67, main_cst_9, main_v68, main_v69, main_v70, main_v71, main_v72, main_v73, main_v74, main_v75, main_v76, main_v77, main_v78]
theorem P8_writes : (P8 : List (HloOp τ sig (Elt F))).Forall fun op => op.writes ⊆ (P8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ P8_W) :
    val8 V0 (Proc.devRef .tc r) = val7 V0 (Proc.devRef .tc r) :=
  after_of_writes_sub P8 _ P8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)

/-! ## Each stretch read from the one before -/

set_option maxRecDepth 16384 in
set_option maxHeartbeats 4000000 in
theorem val1_main_v3 (V0 : Valuation τ sig (Elt F)) : val1 V0 (no_index (Proc.devRef .tc main_v3)) = qV V0 := by
  unfold val1
  simp only [P1]
  after_results_simp
  rfl
set_option maxRecDepth 16384 in
set_option maxHeartbeats 4000000 in
theorem val1_main_v7 (V0 : Valuation τ sig (Elt F)) : val1 V0 (no_index (Proc.devRef .tc main_v7)) = kV V0 := by
  unfold val1
  simp only [P1]
  after_results_simp
  rfl
set_option maxRecDepth 16384 in
set_option maxHeartbeats 4000000 in
theorem val1_main_v11 (V0 : Valuation τ sig (Elt F)) : val1 V0 (no_index (Proc.devRef .tc main_v11)) = vV V0 := by
  unfold val1
  simp only [P1]
  after_results_simp
  rfl
set_option maxRecDepth 16384 in
set_option maxHeartbeats 4000000 in
theorem val2_main_v26 (V0 : Valuation τ sig (Elt F)) : val2 V0 (no_index (Proc.devRef .tc main_v26)) = pV V0 := by
  unfold val2
  simp only [P2]
  after_results_simp
  (try simp only [val1_main_v3, val1_main_v7]) <;> rfl
theorem val2_main_v11 (V0 : Valuation τ sig (Elt F)) : val2 V0 (no_index (Proc.devRef .tc main_v11)) = vV V0 :=
  (val2_keep V0 main_v11 (by decide)).trans (val1_main_v11 V0)
set_option maxRecDepth 16384 in
set_option maxHeartbeats 4000000 in
theorem val3_main_v32 (V0 : Valuation τ sig (Elt F)) : val3 V0 (no_index (Proc.devRef .tc main_v32)) = y1V V0 := by
  unfold val3
  simp only [P3]
  after_results_simp
  (try simp only [val2_main_v26, val2_main_v11, val2_main_arg0, val2_main_arg7, val2_main_arg8]) <;> rfl
set_option maxRecDepth 16384 in
set_option maxHeartbeats 4000000 in
theorem val4_main_v36 (V0 : Valuation τ sig (Elt F)) : val4 V0 (no_index (Proc.devRef .tc main_v36)) = meanS (y1V V0) := by
  unfold val4
  simp only [P4]
  after_results_simp
  (try simp only [val3_main_v32]) <;> rfl
set_option maxRecDepth 16384 in
set_option maxHeartbeats 4000000 in
theorem val4_main_v37 (V0 : Valuation τ sig (Elt F)) : val4 V0 (no_index (Proc.devRef .tc main_v37)) = varS (y1V V0) := by
  unfold val4
  simp only [P4]
  after_results_simp
  (try simp only [val3_main_v32]) <;> rfl
theorem val4_main_v32 (V0 : Valuation τ sig (Elt F)) : val4 V0 (no_index (Proc.devRef .tc main_v32)) = y1V V0 :=
  (val4_keep V0 main_v32 (by decide)).trans (val3_main_v32 V0)
set_option maxRecDepth 16384 in
set_option maxHeartbeats 4000000 in
theorem val5_main_v50 (V0 : Valuation τ sig (Elt F)) : val5 V0 (no_index (Proc.devRef .tc main_v50)) = x1V V0 := by
  unfold val5
  simp only [P5]
  after_results_simp
  (try simp only [val4_main_v32, val4_main_v36, val4_main_v37, val4_main_arg13, val4_main_arg14, val4_main_arg9]) <;> rfl
set_option maxRecDepth 16384 in
set_option maxHeartbeats 4000000 in
theorem val5_main_v51 (V0 : Valuation τ sig (Elt F)) : val5 V0 (no_index (Proc.devRef .tc main_v51)) = d1V V0 := by
  unfold val5
  simp only [P5]
  after_results_simp
  (try simp only [val4_main_v32, val4_main_v36, val4_main_v37, val4_main_arg13, val4_main_arg14, val4_main_arg9]) <;> rfl
set_option maxRecDepth 16384 in
set_option maxHeartbeats 4000000 in
theorem val6_main_v60 (V0 : Valuation τ sig (Elt F)) : val6 V0 (no_index (Proc.devRef .tc main_v60)) = y2V V0 := by
  unfold val6
  simp only [P6]
  after_results_simp
  (try simp only [val5_main_v50, val5_main_v51, val5_main_arg10, val5_main_arg11, val5_main_arg12]) <;> rfl
set_option maxRecDepth 16384 in
set_option maxHeartbeats 4000000 in
theorem val7_main_v64 (V0 : Valuation τ sig (Elt F)) : val7 V0 (no_index (Proc.devRef .tc main_v64)) = meanS (y2V V0) := by
  unfold val7
  simp only [P7]
  after_results_simp
  (try simp only [val6_main_v60]) <;> rfl
set_option maxRecDepth 16384 in
set_option maxHeartbeats 4000000 in
theorem val7_main_v65 (V0 : Valuation τ sig (Elt F)) : val7 V0 (no_index (Proc.devRef .tc main_v65)) = varS (y2V V0) := by
  unfold val7
  simp only [P7]
  after_results_simp
  (try simp only [val6_main_v60]) <;> rfl
theorem val7_main_v60 (V0 : Valuation τ sig (Elt F)) : val7 V0 (no_index (Proc.devRef .tc main_v60)) = y2V V0 :=
  (val7_keep V0 main_v60 (by decide)).trans (val6_main_v60 V0)
set_option maxRecDepth 16384 in
set_option maxHeartbeats 4000000 in
theorem val8_main_v78 (V0 : Valuation τ sig (Elt F)) : val8 V0 (no_index (Proc.devRef .tc main_v78)) = resV V0 := by
  unfold val8
  simp only [P8]
  after_results_simp
  (try simp only [val7_main_v60, val7_main_v64, val7_main_v65, val7_main_arg15, val7_main_arg16]) <;> rfl

/-! ## The run -/

/-- The program's result on device `c` from the launch memory `m`: the stages applied to the argument arrays. -/
def res (m : (ℓ : Loc nD τ sig) → Buf (Elt F) ℓ) (c : Dev nD) : Buf (Elt F) ((c.tc : Thread nD τ).loc main_v78) :=
  resV (launchContents m c)

/-- On every device, for any float values, from any memory with zero counters: every weakly fair execution of @main
    terminates with the result buffer at the stages' composed term of the argument arrays and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v78).trans (by rw [after_ops]; exact val8_main_v78 (launchContents m c)),
      (h c main_arg0).trans (by rw [after_ops]; exact val8_main_arg0 (launchContents m c)),
      (h c main_arg1).trans (by rw [after_ops]; exact val8_main_arg1 (launchContents m c)),
      (h c main_arg2).trans (by rw [after_ops]; exact val8_main_arg2 (launchContents m c)),
      (h c main_arg3).trans (by rw [after_ops]; exact val8_main_arg3 (launchContents m c)),
      (h c main_arg4).trans (by rw [after_ops]; exact val8_main_arg4 (launchContents m c)),
      (h c main_arg5).trans (by rw [after_ops]; exact val8_main_arg5 (launchContents m c)),
      (h c main_arg6).trans (by rw [after_ops]; exact val8_main_arg6 (launchContents m c)),
      (h c main_arg7).trans (by rw [after_ops]; exact val8_main_arg7 (launchContents m c)),
      (h c main_arg8).trans (by rw [after_ops]; exact val8_main_arg8 (launchContents m c)),
      (h c main_arg9).trans (by rw [after_ops]; exact val8_main_arg9 (launchContents m c)),
      (h c main_arg10).trans (by rw [after_ops]; exact val8_main_arg10 (launchContents m c)),
      (h c main_arg11).trans (by rw [after_ops]; exact val8_main_arg11 (launchContents m c)),
      (h c main_arg12).trans (by rw [after_ops]; exact val8_main_arg12 (launchContents m c)),
      (h c main_arg13).trans (by rw [after_ops]; exact val8_main_arg13 (launchContents m c)),
      (h c main_arg14).trans (by rw [after_ops]; exact val8_main_arg14 (launchContents m c)),
      (h c main_arg15).trans (by rw [after_ops]; exact val8_main_arg15 (launchContents m c)),
      (h c main_arg16).trans (by rw [after_ops]; exact val8_main_arg16 (launchContents m c))⟩)
    (run_after m ρ)

/-- The reference runs to its end, faults nowhere and leaves its arguments unchanged: its run with the result dropped. -/
theorem frame_ref [hPre : Cert.Pre_finite_inputs.Facts] : Cert.frame_ReferenceIdeal (hReferenceIdeal := Cert.ReferenceIdeal.Gen.facts) :=
  fun m ρ _ => (θ_run Cert.ReferenceIdeal.defs _ _).mono (fun _ h c => (h c).2) (run (F := Ideal) m ρ)

end Cert.ReferenceIdeal.RefRun

end
-- ==== Proof.Ref.RefLemmas.lean ====
/-
  Array operations of the host read at an index, on the extended reals: a contraction of one axis as a sum over
  that axis's coordinate, a broadcast as the operand at the matching coordinates, a reduction of the last axis as
  a sum or a supremum over it.
-/
import Idealize.ShloMosaic.Lib.IdealHost
import Idealize.ShloMosaic.Lib.StackMember
import Idealize.ShloMosaic.Lib.Pipeline.Value
import Idealize.ShloMosaic.PureOps.Reduce

noncomputable section

open scoped BigOperators

namespace Cert.RefLemmas

open Idealize.ShloMosaic Idealize.ShloMosaic.ValueIdx

/-! ## Contractions -/

/-- A stack of matrices against one matrix: the last axis of `[G, m, k]` contracted against the first of `[k, n]`. -/
theorem dot_plain3_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- Two stacks, rows against rows: per member, the last axis of `[G, m, k]` against the last of `[G, n, k]`. -/
theorem dot_rows3_apply {G m k n : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## Broadcasts -/

section Bcast
variable {α : Type}

/-- A row of `n` as a `[1, 1, n]` array. -/
theorem bcast_row1_apply {n : Nat} (h : (⟨1, ![n]⟩ : Shape).BroadcastsInDim ⟨3, ![1, 1, n]⟩ ![2])
    (v : (⟨1, ![n]⟩ : Shape).Idx → α) (e : Fin n) :
    broadcastInDim ⟨3, ![1, 1, n]⟩ ![2] h v (ix3 (0 : Fin 1) (0 : Fin 1) e) = v (ix1 e) :=
  broadcastInDim_apply _ h v _ (ix1 e) (fun a => by
    match a with
    | ⟨0, _⟩ =>
      show e.val = if n = 1 then 0 else e.val
      split_ifs with h1
      · have := e.isLt; omega
      · rfl)

/-- A `[1, 1, n]` array over batch and sequence. -/
theorem bcast_row3_apply {G m n : Nat} (h : (⟨3, ![1, 1, n]⟩ : Shape).BroadcastsInDim ⟨3, ![G, m, n]⟩ ![0, 1, 2])
    (v : (⟨3, ![1, 1, n]⟩ : Shape).Idx → α) (g : Fin G) (a : Fin m) (e : Fin n) :
    broadcastInDim ⟨3, ![G, m, n]⟩ ![0, 1, 2] h v (ix3 g a e) = v (ix3 (0 : Fin 1) (0 : Fin 1) e) :=
  broadcastInDim_apply _ h v _ (ix3 (0 : Fin 1) (0 : Fin 1) e) (fun ax => by
    match ax with
    | ⟨0, _⟩ => rfl
    | ⟨1, _⟩ => rfl
    | ⟨2, _⟩ =>
      show e.val = if n = 1 then 0 else e.val
      split_ifs with h1
      · have := e.isLt; omega
      · rfl)

/-- A per-row value `[G, m]` as a column `[G, m, 1]`. -/
theorem bcast_col_apply {G m : Nat} (h : (⟨2, ![G, m]⟩ : Shape).BroadcastsInDim ⟨3, ![G, m, 1]⟩ ![0, 1])
    (r : (⟨2, ![G, m]⟩ : Shape).Idx → α) (g : Fin G) (a : Fin m) :
    broadcastInDim ⟨3, ![G, m, 1]⟩ ![0, 1] h r (ix3 g a (0 : Fin 1)) = r (ix2 g a) :=
  broadcastInDim_apply _ h r _ (ix2 g a) (fun ax => by
    match ax with
    | ⟨0, _⟩ =>
      show g.val = if G = 1 then 0 else g.val
      split_ifs with h1
      · have := g.isLt; omega
      · rfl
    | ⟨1, _⟩ =>
      show a.val = if m = 1 then 0 else a.val
      split_ifs with h1
      · have := a.isLt; omega
      · rfl)

/-- A column `[G, m, 1]` along the last axis. -/
theorem bcast_wide_apply {G m n : Nat} (h : (⟨3, ![G, m, 1]⟩ : Shape).BroadcastsInDim ⟨3, ![G, m, n]⟩ ![0, 1, 2])
    (c : (⟨3, ![G, m, 1]⟩ : Shape).Idx → α) (g : Fin G) (a : Fin m) (e : Fin n) :
    broadcastInDim ⟨3, ![G, m, n]⟩ ![0, 1, 2] h c (ix3 g a e) = c (ix3 g a (0 : Fin 1)) :=
  broadcastInDim_apply _ h c _ (ix3 g a (0 : Fin 1)) (fun ax => by
    match ax with
    | ⟨0, _⟩ =>
      show g.val = if G = 1 then 0 else g.val
      split_ifs with h1
      · have := g.isLt; omega
      · rfl
    | ⟨1, _⟩ =>
      show a.val = if m = 1 then 0 else a.val
      split_ifs with h1
      · have := a.isLt; omega
      · rfl
    | ⟨2, _⟩ => rfl)

end Bcast

/-! ## Reductions of the last axis -/

/-- The reduced index `(g, a)` with coordinate `k` of the last axis put back is `(g, a, k)`. -/
theorem lift_ix3 {G m n : Nat} (h : (⟨3, ![G, m, n]⟩ : Shape).Reduces [2] (⟨2, ![G, m]⟩ : Shape)) (g : Fin G) (a : Fin m)
    (k : Fin ((⟨3, ![G, m, n]⟩ : Shape).size 2)) : h.lift (ix2 g a) k = ix3 g a (⟨k.val, k.isLt⟩ : Fin n) := by
  funext c; apply Fin.ext
  fin_cases c <;> rfl

/-- The host's sum over the last axis: the initial value plus the sum of the row. -/
theorem sum_last_apply {G m n : Nat} (h' : (⟨3, ![G, m, n]⟩ : Shape).ReducesTo [2] (⟨2, ![G, m]⟩ : Shape))
    (h : (⟨3, ![G, m, n]⟩ : Shape).Reduces [2] (⟨2, ![G, m]⟩ : Shape)) (x : FVec Ideal ⟨3, ![G, m, n]⟩ .f32)
    (init : (⟨0, ![]⟩ : Shape).Idx → Ideal .f32) (hu : 0 < (⟨0, ![]⟩ : Shape).numel) (g : Fin G) (a : Fin m) :
    Host.reduceAdd x init h' hu (ix2 g a) = init ix0 + ∑ j : Fin n, x (ix3 g a j) := by
  rw [hostReduceAdd_apply, Ideal.hostReduceAdd_single h' h, eq_ix0 (Shape.Idx.first hu)]
  exact congrArg (init ix0 + ·) (Finset.sum_congr rfl fun k _ => congrArg x (lift_ix3 h g a k))

/-- A fold of `max` from the bottom is the supremum. -/
theorem fold_max_bot {ι : Type} (s : Finset ι) (f : ι → EReal) : s.fold max ⊥ f = s.sup f := by
  classical
  refine Finset.induction_on s (by simp) (fun a s ha ih => ?_)
  rw [Finset.fold_insert ha, Finset.sup_insert, ih]

/-- The word of minus infinity is the bottom. -/
theorem ofBits_neg_inf : Ideal.ofBits .f32 0xFF800000#32 = (⊥ : EReal) := by simp [Ideal.ofBits, Ideal.ieee]

/-- The host's maximum over the last axis from minus infinity: the supremum of the row. -/
theorem max_last_apply {G m n : Nat} (h' : (⟨3, ![G, m, n]⟩ : Shape).ReducesTo [2] (⟨2, ![G, m]⟩ : Shape))
    (h : (⟨3, ![G, m, n]⟩ : Shape).Reduces [2] (⟨2, ![G, m]⟩ : Shape)) (x : FVec Ideal ⟨3, ![G, m, n]⟩ .f32)
    (hu : 0 < (⟨0, ![]⟩ : Shape).numel) (g : Fin G) (a : Fin m) :
    Host.reduce FloatOps.maximumf x (constant (⟨0, ![]⟩ : Shape) .f32 0xFF800000#32) h' hu (ix2 g a)
      = Finset.univ.sup fun j : Fin n => x (ix3 g a j) := by
  rw [Host.reduce_eq_fold_single FloatOps.maximumf x _ h' h hu]
  have hf : (x ∘ h.lift (ix2 g a)) = fun k : Fin n => x (ix3 g a k) := funext fun k => congrArg x (lift_ix3 h g a k)
  refine Eq.trans ?_ (fold_max_bot Finset.univ fun j : Fin n => x (ix3 g a j))
  show Finset.fold max (Ideal.ofBits .f32 0xFF800000#32) (x ∘ h.lift (ix2 g a)) (Finset.univ : Finset (Fin n)) = _
  rw [hf, ofBits_neg_inf]
  rfl

/-! ## Two pointwise host functions -/

theorem hostExp_apply {s : Shape} {φ : FTy} (x : FVec Ideal s φ) (i : s.Idx) : Host.exp x i = Ideal.exp (x i) := rfl
theorem hostRsqrt_apply {s : Shape} {φ : FTy} (x : FVec Ideal s φ) (i : s.Idx) : Host.rsqrt x i = Ideal.rsqrt (x i) := rfl

/-! ## Three float words -/

/-- The word `0x44800000` is the real 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt (Ideal.ofBits .f32 0x44800000#32) = ((32 : ℝ) : EReal) := by
  rw [ofBits_1024]
  show (if (1024 : ℝ) < 0 then (⊥ : EReal) else ((Real.sqrt 1024 : ℝ) : EReal)) = _
  rw [if_neg (by norm_num), show (1024 : ℝ) = 32 ^ 2 by norm_num, Real.sqrt_sq (by norm_num)]

end Cert.RefLemmas

end
-- ==== Proof.Ref.RefValue.lean ====
/-
  The reference's result, element by element, is the transformer block of the specification over rows. Each
  stage of the run is read at coordinates `(b, s, e)`: an affine layer is a row of the input against a column of
  the weight plus the bias; the scores divide by the square root of the float 1024, which is 32, so they multiply
  by 1/32; the row maximum from minus infinity is the supremum of the row; the softmax is the exponential of the
  difference over the row's sum of such; the variance's divisor is 1024 minus the integer 0 converted, which is
  1024 and positive, so the select takes the variance. Batch and sequence are then one row index, row-major, and
  the stages become the specification's functions of matrices.
-/
import proofs.«105537_j20366734917908_2_alg».proof.Proof.Ref.RefRun
import proofs.«105537_j20366734917908_2_alg».proof.Proof.Ref.RefLemmas
import proofs.«105537_j20366734917908_2_alg».proof.Proof.Spec

noncomputable section

open scoped BigOperators

namespace Cert.ReferenceIdeal.RefRun

open Cert.ReferenceIdeal Cert.ReferenceIdeal.Gen Idealize.ShloMosaic Idealize.ShloMosaic.ValueIdx Cert.RefLemmas

/-! ## The stages read at coordinates -/

theorem biasRow_apply (v : FVec Ideal S1024 .f32) (b : Fin 4) (s : Fin 2048) (e : Fin 1024) :
    biasRow (F := Ideal) v (ix3 b s e) = v (ix1 e) :=
  (bcast_row3_apply _ _ b s e).trans (bcast_row1_apply _ _ e)

theorem wideS_apply (c : FVec Ideal S4x2048x1 .f32) (b : Fin 4) (s : Fin 2048) (e : Fin 1024) :
    wideS (F := Ideal) c (ix3 b s e) = c (ix3 b s (0 : Fin 1)) :=
  bcast_wide_apply _ _ b s e

theorem colS_apply (r : FVec Ideal S4x2048 .f32) (b : Fin 4) (s t : Fin 2048) :
    colS (F := Ideal) r (ix3 b s t) = r (ix2 b s) :=
  (bcast_wide_apply _ _ b s t).trans (bcast_col_apply _ _ b s)

/-- The affine layer at `(b, s, e)`: row `(b, s)` against column `e`, plus the bias at `e`. -/
theorem linS_apply (x : FVec Ideal S4x2048x1024 .f32) (w : FVec Ideal S1024x1024 .f32) (bv : FVec Ideal S1024 .f32)
    (b : Fin 4) (s : Fin 2048) (e : Fin 1024) :
    linS (F := Ideal) x w bv (ix3 b s e) = (∑ k : Fin 1024, x (ix3 b s k) * w (ix2 k e)) + bv (ix1 e) := by
  unfold linS
  rw [addf_apply, biasRow_apply]
  exact congrArg (· + bv (ix1 e)) (dot_plain3_apply _ none x w b s e)

theorem lin41S_apply (x : FVec Ideal S4x2048x4096 .f32) (w : FVec Ideal S4096x1024 .f32) (bv : FVec Ideal S1024 .f32)
    (b : Fin 4) (s : Fin 2048) (e : Fin 1024) :
    lin41S (F := Ideal) x w bv (ix3 b s e) = (∑ k : Fin 4096, x (ix3 b s k) * w (ix2 k e)) + bv (ix1 e) := by
  unfold lin41S
  rw [addf_apply, biasRow_apply]
  exact congrArg (· + bv (ix1 e)) (dot_plain3_apply _ none x w b s e)

theorem dot14S_apply (x : FVec Ideal S4x2048x1024 .f32) (w : FVec Ideal S1024x4096 .f32)
    (b : Fin 4) (s : Fin 2048) (f : Fin 4096) :
    dot14S (F := Ideal) x w (ix3 b s f) = ∑ k : Fin 1024, x (ix3 b s k) * w (ix2 k f) :=
  dot_plain3_apply _ none x w b s f

/-- The rectified layer at `(b, s, f)`. -/
theorem hidS_apply (d : FVec Ideal S4x2048x4096 .f32) (bv : FVec Ideal S4096 .f32) (b : Fin 4) (s : Fin 2048) (f : Fin 4096) :
    hidS (F := Ideal) d bv (ix3 b s f) = max (d (ix3 b s f) + bv (ix1 f)) 0 := by
  unfold hidS
  rw [maximumf_apply, addf_apply, bcast_row3_apply, bcast_row1_apply, broadcastInDim_scalar_apply]
  show max _ (Ideal.ofBits .f32 0x00000000#32) = _
  rw [Ideal.ofBits_zero_f32]

/-- The scores at `(b, s, t)`: query row `(b, s)` against key row `(b, t)`, over 32. -/
theorem scoresS_apply (q k : FVec Ideal S4x2048x1024 .f32) (b : Fin 4) (s t : Fin 2048) :
    scoresS (F := Ideal) q k (ix3 b s t) = (∑ e : Fin 1024, q (ix3 b s e) * k (ix3 b t e)) * ((1 / 32 : ℝ) : EReal) := by
  unfold scoresS
  rw [hostDivf_apply, broadcastInDim_scalar_apply]
  have hs : (Host.sqrt (constant (F := Ideal) S_ .f32 0x44800000#32)) ix0 = ((32 : ℝ) : EReal) := sqrt_1024
  rw [hs, Ideal.div_coe (by norm_num : (32 : ℝ) ≠ 0)]
  exact congrArg (· * ((1 / 32 : ℝ) : EReal)) (dot_rows3_apply _ none q k b s t)

/-- The row maximum at `(b, s)`: the supremum of the row. -/
theorem rowMaxS_apply (sc : FVec Ideal S4x2048x2048 .f32) (b : Fin 4) (s : Fin 2048) :
    rowMaxS (F := Ideal) sc (ix2 b s) = Finset.univ.sup fun t : Fin 2048 => sc (ix3 b s t) := by
  unfold rowMaxS
  rw [maximumf_apply, broadcastInDim_scalar_apply, max_last_apply _ (by decide) sc _ b s]
  show max (Ideal.ofBits .f32 0xFF800000#32) _ = _
  rw [ofBits_neg_inf]
  exact max_bot_left _

theorem expS_apply (sc : FVec Ideal S4x2048x2048 .f32) (b : Fin 4) (s t : Fin 2048) :
    expS (F := Ideal) sc (ix3 b s t) = Ideal.exp (sc (ix3 b s t) - Finset.univ.sup fun t' : Fin 2048 => sc (ix3 b s t')) := by
  unfold expS
  rw [hostExp_apply, subf_apply, colS_apply, rowMaxS_apply]

/-- The softmax at `(b, s, t)`. -/
theorem softmaxS_apply (sc : FVec Ideal S4x2048x2048 .f32) (b : Fin 4) (s t : Fin 2048) :
    softmaxS (F := Ideal) sc (ix3 b s t)
      = Ideal.div (Ideal.exp (sc (ix3 b s t) - Finset.univ.sup fun t' : Fin 2048 => sc (ix3 b s t')))
          (∑ u : Fin 2048, Ideal.exp (sc (ix3 b s u) - Finset.univ.sup fun t' : Fin 2048 => sc (ix3 b s t'))) := by
  unfold softmaxS
  rw [hostDivf_apply, colS_apply, sum_last_apply _ (by decide), expS_apply]
  show Ideal.div _ (Ideal.ofBits .f32 0x00000000#32 + _) = _
  rw [Ideal.ofBits_zero_f32, zero_add]
  simp only [expS_apply]

/-- The context at `(b, s, e)`: the weights of row `(b, s)` against the value rows of batch `b`. -/
theorem ctxS_apply (p : FVec Ideal S4x2048x2048 .f32) (v : FVec Ideal S4x2048x1024 .f32) (b : Fin 4) (s : Fin 2048) (e : Fin 1024) :
    ctxS (F := Ideal) p v (ix3 b s e) = ∑ t : Fin 2048, p (ix3 b s t) * v (ix3 b t e) :=
  StackMember.dotGeneral_stack_apply _ none p v b s e

/-- The row mean at `(b, s)`. -/
theorem meanS_apply (y : FVec Ideal S4x2048x1024 .f32) (b : Fin 4) (s : Fin 2048) :
    meanS (F := Ideal) y (ix3 b s (0 : Fin 1)) = Cert.Spec.rowMean fun j : Fin 1024 => y (ix3 b s j) := by
  unfold meanS
  rw [hostDivf_apply, bcast_col_apply, sum_last_apply _ (by decide), broadcastInDim_scalar_apply]
  show Ideal.div (Ideal.ofBits .f32 0x00000000#32 + _) (Ideal.ofBits .f32 0x44800000#32) = _
  rw [Ideal.ofBits_zero_f32, zero_add]
  rfl

/-- The variance's divisor is the float 1024: the integer 0 converted is 0. -/
theorem ddofS_val : ddofS (F := Ideal) ix0 = Cert.Spec.n1024 := by
  show Ideal.ofBits .f32 0x44800000#32 - (((0#32 : BitVec 32).toInt : ℝ) : EReal) = _
  rw [show (0#32 : BitVec 32).toInt = 0 from rfl]
  simp [Cert.Spec.n1024]

/-- The divisor is positive: the select takes the variance. -/
theorem ddofS_pos : cmpf (F := Ideal) .ogt (ddofS (F := Ideal)) (constant S_ .f32 0x00000000#32) ix0 = 1#1 := by
  rw [cmpf_apply, ddofS_val]
  show BitVec.ofBool (decide (Ideal.ofBits .f32 0x00000000#32 < Cert.Spec.n1024)) = 1#1
  rw [Ideal.ofBits_zero_f32, show Cert.Spec.n1024 = ((1024 : ℝ) : EReal) from ofBits_1024,
    decide_eq_true (EReal.coe_pos.mpr (by norm_num))]
  rfl

/-- The row variance at `(b, s)`. -/
theorem varS_apply (y : FVec Ideal S4x2048x1024 .f32) (b : Fin 4) (s : Fin 2048) :
    varS (F := Ideal) y (ix3 b s (0 : Fin 1)) = Cert.Spec.rowVar fun j : Fin 1024 => y (ix3 b s j) := by
  unfold varS
  rw [select_apply, broadcastInDim_scalar_apply, ddofS_pos, select_one, hostDivf_apply, bcast_col_apply,
    sum_last_apply _ (by decide), broadcastInDim_scalar_apply, ddofS_val]
  show Ideal.div (Ideal.ofBits .f32 0x00000000#32 + _) _ = _
  rw [Ideal.ofBits_zero_f32, zero_add]
  unfold Cert.Spec.rowVar
  refine congrArg (fun z => Ideal.div z Cert.Spec.n1024) (Finset.sum_congr rfl fun j _ => ?_)
  rw [mulf_apply]
  unfold devS
  rw [subf_apply, wideS_apply, meanS_apply]

/-- The layer normalisation at `(b, s, e)`. -/
theorem lnS_apply (y : FVec Ideal S4x2048x1024 .f32) (g be : FVec Ideal S1024 .f32) (b : Fin 4) (s : Fin 2048) (e : Fin 1024) :
    lnS (F := Ideal) y g be (ix3 b s e)
      = (y (ix3 b s e) - Cert.Spec.rowMean fun j : Fin 1024 => y (ix3 b s j))
          * Ideal.rsqrt ((Cert.Spec.rowVar fun j : Fin 1024 => y (ix3 b s j)) + Cert.Spec.eps) * g (ix1 e) + be (ix1 e) := by
  unfold lnS
  rw [addf_apply, mulf_apply, mulf_apply, subf_apply, wideS_apply, wideS_apply, biasRow_apply, biasRow_apply, meanS_apply]
  rw [hostRsqrt_apply, addf_apply, varS_apply, broadcastInDim_scalar_apply]
  rfl

end Cert.ReferenceIdeal.RefRun

namespace Cert.ReferenceIdeal.RefRun

open Cert.ReferenceIdeal Cert.ReferenceIdeal.Gen Idealize.ShloMosaic Idealize.ShloMosaic.ValueIdx Cert.RefLemmas Idealize.SL.Sem Idealize.ShloMosaic.StableHlo

/-! ## Rows: batch and sequence as one row index, row-major -/

/-- Row `(b, s)` of a `[4, 2048, ·]` array is row `b · 2048 + s` of the matrix it flattens to. -/
def flat (b : Fin 4) (s : Fin 2048) : Fin 8192 := ⟨b.val * 2048 + s.val, by have := b.isLt; have := s.isLt; omega⟩
/-- The batch of a row. -/
def rb (r : Fin 8192) : Fin 4 := ⟨r.val / 2048, by have := r.isLt; omega⟩
/-- The position of a row in its batch. -/
def rs (r : Fin 8192) : Fin 2048 := ⟨r.val % 2048, Nat.mod_lt _ (by norm_num)⟩

theorem rb_flat (b : Fin 4) (s : Fin 2048) : rb (flat b s) = b :=
  Fin.ext (by show (b.val * 2048 + s.val) / 2048 = b.val; have := s.isLt; omega)
theorem rs_flat (b : Fin 4) (s : Fin 2048) : rs (flat b s) = s :=
  Fin.ext (by show (b.val * 2048 + s.val) % 2048 = s.val; have := s.isLt; omega)

/-- A `[4, 2048, n]` array as a matrix of 8192 rows. -/
def rows {n : Nat} (y : FVec Ideal ⟨3, ![4, 2048, n]⟩ .f32) : Fin 8192 → Fin n → EReal := fun r j => y (ix3 (rb r) (rs r) j)
/-- A rank-2 array as a matrix. -/
def mat {a b : Nat} (w : FVec Ideal ⟨2, ![a, b]⟩ .f32) : Fin a → Fin b → EReal := fun k j => w (ix2 k j)
/-- A rank-1 array as a row. -/
def vec {n : Nat} (v : FVec Ideal ⟨1, ![n]⟩ .f32) : Fin n → EReal := fun j => v (ix1 j)

theorem rows_linS (x : FVec Ideal S4x2048x1024 .f32) (w : FVec Ideal S1024x1024 .f32) (bv : FVec Ideal S1024 .f32) :
    rows (n := 1024) (linS (F := Ideal) x w bv) = Cert.Spec.lin (rows (n := 1024) x) (mat w) (vec bv) := by
  funext r e
  exact linS_apply x w bv (rb r) (rs r) e

theorem rows_lin41S (x : FVec Ideal S4x2048x4096 .f32) (w : FVec Ideal S4096x1024 .f32) (bv : FVec Ideal S1024 .f32) :
    rows (n := 1024) (lin41S (F := Ideal) x w bv) = Cert.Spec.lin (rows (n := 4096) x) (mat w) (vec bv) := by
  funext r e
  exact lin41S_apply x w bv (rb r) (rs r) e

theorem rows_hidS (x : FVec Ideal S4x2048x1024 .f32) (w : FVec Ideal S1024x4096 .f32) (bv : FVec Ideal S4096 .f32) :
    rows (n := 4096) (hidS (F := Ideal) (dot14S (F := Ideal) x w) bv) = Cert.Spec.relu (Cert.Spec.lin (rows (n := 1024) x) (mat w) (vec bv)) := by
  funext r f
  show hidS (F := Ideal) (dot14S (F := Ideal) x w) bv (ix3 (rb r) (rs r) f) = _
  rw [hidS_apply, dot14S_apply]
  rfl

theorem rows_lnS (y : FVec Ideal S4x2048x1024 .f32) (g be : FVec Ideal S1024 .f32) :
    rows (n := 1024) (lnS (F := Ideal) y g be) = Cert.Spec.layerNorm (rows (n := 1024) y) (vec g) (vec be) := by
  funext r e
  exact lnS_apply y g be (rb r) (rs r) e

theorem rows_addf (a b : FVec Ideal S4x2048x1024 .f32) :
    rows (n := 1024) (addf (F := Ideal) a b) = fun r j => rows (n := 1024) a r j + rows (n := 1024) b r j := rfl

/-- The attention of row `r`: its query row against the key rows of its batch, scaled by 1/32, softmaxed, against the value rows
    of its batch. -/
theorem rows_ctxS (q k v : FVec Ideal S4x2048x1024 .f32) :
    rows (n := 1024) (ctxS (F := Ideal) (softmaxS (F := Ideal) (scoresS (F := Ideal) q k)) v)
      = fun r => Cert.Spec.attnRow (Cert.Spec.scores ((1 / 32 : ℝ) : EReal) (rows (n := 1024) q r) (fun t => rows (n := 1024) k (flat (rb r) t)))
          (fun t => rows (n := 1024) v (flat (rb r) t)) := by
  funext r e
  show ctxS (F := Ideal) (softmaxS (F := Ideal) (scoresS (F := Ideal) q k)) v (ix3 (rb r) (rs r) e) = _
  rw [ctxS_apply]
  unfold Cert.Spec.attnRow Cert.Spec.scores rows
  simp only [softmaxS_apply, scoresS_apply, rb_flat, rs_flat]

/-! ## The whole program over rows -/

section Spec
open Cert.Spec

/-- The context rows. -/
def specCtx (X : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal) :
    Fin 8192 → Fin 1024 → EReal :=
  fun r => attnRow (scores ((1 / 32 : ℝ) : EReal) (lin X Wq bq r) (fun t => lin X Wk bk (flat (rb r) t))) (fun t => lin X Wv bv (flat (rb r) t))

/-- The first residual sum. -/
def specY1 (X : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 8192 → Fin 1024 → EReal :=
  fun r j => X r j + lin (specCtx X Wq bq Wk bk Wv bv) Wo bo r j

/-- The second residual sum, over the first normalisation `X1`. -/
def specY2 (X1 : Fin 8192 → Fin 1024 → EReal) (W1 : Fin 1024 → Fin 4096 → EReal) (b1 : Fin 4096 → EReal)
    (W2 : Fin 4096 → Fin 1024 → EReal) (b2 : Fin 1024 → EReal) : Fin 8192 → Fin 1024 → EReal :=
  fun r j => X1 r j + lin (relu (lin X1 W1 b1)) W2 b2 r j

/-- The transformer block over rows, in @main's argument order. -/
def specOut (X : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) (W1 : Fin 1024 → Fin 4096 → EReal) (b1 : Fin 4096 → EReal)
    (W2 : Fin 4096 → Fin 1024 → EReal) (b2 g1 be1 g2 be2 : Fin 1024 → EReal) : Fin 8192 → Fin 1024 → EReal :=
  layerNorm (specY2 (layerNorm (specY1 X Wq bq Wk bk Wv bv Wo bo) g1 be1) W1 b1 W2 b2) g2 be2

end Spec

/-- The composed stages are the block over rows, for any contents of the buffers. -/
theorem rows_resV (V0 : Valuation τ sig (Elt Ideal)) :
    rows (n := 1024) (resV V0) = specOut (rows (n := 1024) (V0 (Proc.devRef .tc main_arg0))) (mat (V0 (Proc.devRef .tc main_arg1))) (vec (V0 (Proc.devRef .tc main_arg2))) (mat (V0 (Proc.devRef .tc main_arg3))) (vec (V0 (Proc.devRef .tc main_arg4)))
      (mat (V0 (Proc.devRef .tc main_arg5))) (vec (V0 (Proc.devRef .tc main_arg6))) (mat (V0 (Proc.devRef .tc main_arg7))) (vec (V0 (Proc.devRef .tc main_arg8))) (mat (V0 (Proc.devRef .tc main_arg9))) (vec (V0 (Proc.devRef .tc main_arg10))) (mat (V0 (Proc.devRef .tc main_arg11))) (vec (V0 (Proc.devRef .tc main_arg12)))
      (vec (V0 (Proc.devRef .tc main_arg13))) (vec (V0 (Proc.devRef .tc main_arg14))) (vec (V0 (Proc.devRef .tc main_arg15))) (vec (V0 (Proc.devRef .tc main_arg16))) := by
  unfold resV y2V d1V x1V y1V pV qV kV vV specOut specY2 specY1 specCtx
  simp only [rows_lnS, rows_addf, rows_lin41S, rows_hidS, rows_linS, rows_ctxS]

/-- The reference's result, element by element: the block over rows at row `(i 0) · 2048 + i 1` and column `i 2`. -/
theorem ref_value (m : (ℓ : Loc nD τ sig) → Buf (Elt Ideal) ℓ) (c : Dev nD) :
    res (F := Ideal) m c = fun i : S4x2048x1024.Idx =>
      specOut (rows (n := 1024) (m ((c.tc : Thread nD τ).loc main_arg0))) (mat (m ((c.tc : Thread nD τ).loc main_arg1))) (vec (m ((c.tc : Thread nD τ).loc main_arg2)))
        (mat (m ((c.tc : Thread nD τ).loc main_arg3))) (vec (m ((c.tc : Thread nD τ).loc main_arg4))) (mat (m ((c.tc : Thread nD τ).loc main_arg5))) (vec (m ((c.tc : Thread nD τ).loc main_arg6)))
        (mat (m ((c.tc : Thread nD τ).loc main_arg7))) (vec (m ((c.tc : Thread nD τ).loc main_arg8))) (mat (m ((c.tc : Thread nD τ).loc main_arg9))) (vec (m ((c.tc : Thread nD τ).loc main_arg10)))
        (mat (m ((c.tc : Thread nD τ).loc main_arg11))) (vec (m ((c.tc : Thread nD τ).loc main_arg12))) (vec (m ((c.tc : Thread nD τ).loc main_arg13))) (vec (m ((c.tc : Thread nD τ).loc main_arg14)))
        (vec (m ((c.tc : Thread nD τ).loc main_arg15))) (vec (m ((c.tc : Thread nD τ).loc main_arg16))) (flat (i 0) (i 1)) (i 2) := by
  funext i
  obtain ⟨b, s, e, rfl⟩ : ∃ (b : Fin 4) (s : Fin 2048) (e : Fin 1024), i = ix3 b s e := ⟨i 0, i 1, i 2, eq_ix3 i⟩
  have key := congrFun (congrFun (rows_resV (launchContents m c)) (flat b s)) e
  have h1 : rows (n := 1024) (resV (launchContents m c)) (flat b s) e = resV (launchContents m c) (ix3 b s e) := by
    show resV (launchContents m c) (ix3 (rb (flat b s)) (rs (flat b s)) e) = _
    rw [rb_flat, rs_flat]
  exact h1.symm.trans key

end Cert.ReferenceIdeal.RefRun

end
-- ==== Proof.Bridge.lean ====
/-
  The kernel's five stages composed are the reference's function. Over plain functions of literal coordinates: the fused
  projection's output holds the three affine layers side by side (columns 0‥1023 the queries, 1024‥2047 the keys, 2048‥3071 the
  values); attention reads them per batch through the row numbering r = b·2048 + s; the two normalised outputs add the residual
  and the bias in the order (residual + product) + bias where the reference writes residual + (product + bias) — the same
  extended real, addition being associative.
-/
import proofs.«105537_j20366734917908_2_alg».proof.Proof.Ref.RefValue

noncomputable section

namespace Cert.Bridge

open Cert.Spec Cert.ReferenceIdeal.RefRun

/-- Column `e` of the queries, keys, values inside the fused projection's 3072 columns. -/
def qi (e : Fin 1024) : Fin 3072 := ⟨e.val, by have := e.isLt; omega⟩
def ki (e : Fin 1024) : Fin 3072 := ⟨1024 + e.val, by have := e.isLt; omega⟩
def vi (e : Fin 1024) : Fin 3072 := ⟨2048 + e.val, by have := e.isLt; omega⟩

theorem flat_rb_rs (r : Fin 8192) : flat (rb r) (rs r) = r :=
  Fin.ext (by show r.val / 2048 * 2048 + r.val % 2048 = r.val; omega)

variable (X : Fin 8192 → Fin 1024 → EReal) (Wq Wk Wv Wo : Fin 1024 → Fin 1024 → EReal) (bq bk bv bo : Fin 1024 → EReal)
  (W1 : Fin 1024 → Fin 4096 → EReal) (b1 : Fin 4096 → EReal) (W2 : Fin 4096 → Fin 1024 → EReal) (b2 g1 be1 g2 be2 : Fin 1024 → EReal)

/-- The five stages in the kernel's arrangement compose to the reference's function. -/
theorem chain (hs : scaleW = ((1 / 32 : ℝ) : EReal))
    (v8 : Fin 8192 → Fin 3072 → EReal)
    (hq : ∀ r e, v8 r (qi e) = lin X Wq bq r e) (hk : ∀ r e, v8 r (ki e) = lin X Wk bk r e) (hv : ∀ r e, v8 r (vi e) = lin X Wv bv r e)
    (v10 : Fin 4 → Fin 2048 → Fin 1024 → EReal)
    (h10 : ∀ b s d, v10 b s d = attnRow (scores scaleW (fun e => v8 (flat b s) (qi e)) (fun t e => v8 (flat b t) (ki e)))
      (fun t e => v8 (flat b t) (vi e)) d)
    (v15 : Fin 8192 → Fin 1024 → EReal)
    (h15 : v15 = layerNorm (fun r j => (X r j + ∑ k : Fin 1024, v10 (rb r) (rs r) k * Wo k j) + bo j) g1 be1)
    (v17 : Fin 8192 → Fin 4096 → EReal)
    (h17 : ∀ r j, v17 r j = max ((∑ k : Fin 1024, v15 r k * W1 k j) + b1 j) 0)
    (v21 : Fin 8192 → Fin 1024 → EReal)
    (h21 : v21 = layerNorm (fun r j => (v15 r j + ∑ k : Fin 4096, v17 r k * W2 k j) + b2 j) g2 be2) :
    v21 = specOut X Wq bq Wk bk Wv bv Wo bo W1 b1 W2 b2 g1 be1 g2 be2 := by
  have hctx : ∀ r k, v10 (rb r) (rs r) k = specCtx X Wq bq Wk bk Wv bv r k := by
    intro r k
    rw [h10, flat_rb_rs, hs]
    simp only [hq, hk, hv]
    rfl
  have h15' : v15 = layerNorm (specY1 X Wq bq Wk bk Wv bv Wo bo) g1 be1 := by
    rw [h15]
    congr 1
    funext r j
    simp only [hctx]
    unfold specY1 lin
    rw [add_assoc]
  have h17' : v17 = relu (lin v15 W1 b1) := by
    funext r j
    rw [h17]; rfl
  rw [h21]
  unfold specOut
  rw [← h15']
  congr 1
  funext r j
  unfold specY2
  rw [← h17']
  unfold lin
  rw [add_assoc]

end Cert.Bridge

end
-- ==== Proof.LibNary3.lean ====
/-
  A host operation with a literal family of THREE operands (a concatenate of three arrays), read after it ran.
  The generic rule leaves operand k's contents at the reference "the k-th entry of the family", under a binder, where it
  is no longer a literal reference and no further result rule can look through it. Here the three contents are placed
  at their own literal references, so that reading a buffer after a line of operations can continue through each
  operand's own history.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- What a three-operand operation leaves in its result buffer: its function of the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for a rewriting pass that must not key on the result reference's projections. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The third entry of a family built by prepending: the second entry of its tail. -/
theorem cons_two {α : Fin 3 → Type} (x : α 0) (p : (i : Fin 2) → α i.succ) :
    (Fin.cons x p : (i : Fin 3) → α i) 2 = p 1 := rfl

end Cert.LibNary3

/-- Reading a buffer after a line of host operations in one rewriting pass, for lines whose many-operand operations all have
    three operands (each read by the rule above, so that the pass continues into the operands' own histories). -/
macro "after_results3" : tactic =>
  `(tactic| (simp (disch := decide) only [Idealize.ShloMosaic.StableHlo.after_cons, Idealize.ShloMosaic.StableHlo.after_nil,
      Cert.LibNary3.nary3_result', Fin.cons_zero, Fin.cons_one, Cert.LibNary3.cons_two,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KI.HostReads.lean ====
import proofs.«105537_j20366734917908_2_alg».proof.Proof.Gen.KernelIdeal.Launch
import proofs.«105537_j20366734917908_2_alg».proof.Proof.Bridge
import proofs.«105537_j20366734917908_2_alg».proof.Proof.LibNary3
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostReads

open Idealize.ShloMosaic Idealize.ShloMosaic.TcCoe Idealize.ShloMosaic.ValueIdx Idealize.ShloMosaic.StableHlo
open Cert.KernelIdeal Cert.KernelIdeal.Gen
open Cert.ReferenceIdeal.RefRun (flat rb rs)
open Cert.Bridge (qi ki vi)

variable (W : Valuation τ sig (Elt Idealize.ShloMosaic.Ideal))

/-! # The buffers the host lines before the first launch write, read at an index

Each of these host lines is a change of arrangement: the activations' batch and position read as one row index (row r = b·2048 + s,
row-major), three weight matrices laid side by side along the columns, three bias vectors laid end to end and then as one row, and a
change of float format, which is the identity on the extended reals. Each buffer such a line writes is read here at an index in
terms of the argument buffers, whatever contents the stretch starts from. -/

/-! ## Re-indexings and layings-out at an index, over abstract arrays -/

/-- [4, 2048, n] read as [8192, n]: row `r` is batch `r / 2048`, position `r % 2048`. -/
theorem h0_rows_of_batches {n : ℕ} (x : (⟨3, ![4, 2048, n]⟩ : Shape).Idx → EReal) (h : (⟨3, ![4, 2048, n]⟩ : Shape).ShapeCasts ⟨2, ![8192, n]⟩)
    (r : Fin 8192) (j : Fin n) : shapeCast ⟨2, ![8192, n]⟩ x h (ix2 r j) = x (ix3 (rb r) (rs r) j) :=
  shapeCast_apply x h _ _ (by
    rw [Shape.rowMajor_val_two, Shape.rowMajor_val_three]
    show (r.val / 2048 * 2048 + r.val % 2048) * n + j.val = r.val * n + j.val
    rw [Nat.div_add_mod' r.val 2048])

/-- Three [1024, 1024] arrays side by side along the columns: columns 0‥1023 the first, 1024‥2047 the second, 2048‥3071 the third. -/
theorem h0_cols3_apply (x₀ x₁ x₂ : S1024x1024.Idx → EReal) (k e : Fin 1024) :
    concatenate S1024x3072 1 [⟨S1024x1024, x₀⟩, ⟨S1024x1024, x₁⟩, ⟨S1024x1024, x₂⟩] concatenates_S1024x1024_S1024x1024_S1024x1024_S1024x3072_d1 (ix2 k (qi e)) = x₀ (ix2 k e)
    ∧ concatenate S1024x3072 1 [⟨S1024x1024, x₀⟩, ⟨S1024x1024, x₁⟩, ⟨S1024x1024, x₂⟩] concatenates_S1024x1024_S1024x1024_S1024x1024_S1024x3072_d1 (ix2 k (ki e)) = x₁ (ix2 k e)
    ∧ concatenate S1024x3072 1 [⟨S1024x1024, x₀⟩, ⟨S1024x1024, x₁⟩, ⟨S1024x1024, x₂⟩] concatenates_S1024x1024_S1024x1024_S1024x1024_S1024x3072_d1 (ix2 k (vi e)) = x₂ (ix2 k e) := by
  refine ⟨?_, ?_, ?_⟩
  · exact concatenate_apply_piece (t := S1024x3072) (1 : Fin 2) [⟨S1024x1024, x₀⟩, ⟨S1024x1024, x₁⟩, ⟨S1024x1024, x₂⟩] concatenates_S1024x1024_S1024x1024_S1024x1024_S1024x3072_d1 (ix2 k (qi e)) 0 (by show 0 < 3; omega) S1024x1024 x₀ rfl rfl 0 rfl (ix2 k e)
      (fun b hb => by match b with | ⟨0, _⟩ => rfl | ⟨1, _⟩ => exact absurd rfl hb) (by show 0 + e.val = e.val; omega)
  · exact concatenate_apply_piece (t := S1024x3072) (1 : Fin 2) [⟨S1024x1024, x₀⟩, ⟨S1024x1024, x₁⟩, ⟨S1024x1024, x₂⟩] concatenates_S1024x1024_S1024x1024_S1024x1024_S1024x3072_d1 (ix2 k (ki e)) 1 (by show 1 < 3; omega) S1024x1024 x₁ rfl rfl 1024 rfl (ix2 k e)
      (fun b hb => by match b with | ⟨0, _⟩ => rfl | ⟨1, _⟩ => exact absurd rfl hb) (by show 1024 + e.val = 1024 + e.val; rfl)
  · exact concatenate_apply_piece (t := S1024x3072) (1 : Fin 2) [⟨S1024x1024, x₀⟩, ⟨S1024x1024, x₁⟩, ⟨S1024x1024, x₂⟩] concatenates_S1024x1024_S1024x1024_S1024x1024_S1024x3072_d1 (ix2 k (vi e)) 2 (by show 2 < 3; omega) S1024x1024 x₂ rfl rfl 2048 rfl (ix2 k e)
      (fun b hb => by match b with | ⟨0, _⟩ => rfl | ⟨1, _⟩ => exact absurd rfl hb) (by show 2048 + e.val = 2048 + e.val; rfl)

/-- Three vectors of 1024 end to end: entries 0‥1023 the first, 1024‥2047 the second, 2048‥3071 the third. -/
theorem h0_ends3_apply (x₀ x₁ x₂ : S1024.Idx → EReal) (e : Fin 1024) :
    concatenate S3072 0 [⟨S1024, x₀⟩, ⟨S1024, x₁⟩, ⟨S1024, x₂⟩] concatenates_S1024_S1024_S1024_S3072_d0 (ix1 (qi e)) = x₀ (ix1 e)
    ∧ concatenate S3072 0 [⟨S1024, x₀⟩, ⟨S1024, x₁⟩, ⟨S1024, x₂⟩] concatenates_S1024_S1024_S1024_S3072_d0 (ix1 (ki e)) = x₁ (ix1 e)
    ∧ concatenate S3072 0 [⟨S1024, x₀⟩, ⟨S1024, x₁⟩, ⟨S1024, x₂⟩] concatenates_S1024_S1024_S1024_S3072_d0 (ix1 (vi e)) = x₂ (ix1 e) := by
  refine ⟨?_, ?_, ?_⟩
  · exact concatenate_apply_piece (t := S3072) (0 : Fin 1) [⟨S1024, x₀⟩, ⟨S1024, x₁⟩, ⟨S1024, x₂⟩] concatenates_S1024_S1024_S1024_S3072_d0 (ix1 (qi e)) 0 (by show 0 < 3; omega) S1024 x₀ rfl rfl 0 rfl (ix1 e)
      (fun b hb => by match b with | ⟨0, _⟩ => exact absurd rfl hb) (by show 0 + e.val = e.val; omega)
  · exact concatenate_apply_piece (t := S3072) (0 : Fin 1) [⟨S1024, x₀⟩, ⟨S1024, x₁⟩, ⟨S1024, x₂⟩] concatenates_S1024_S1024_S1024_S3072_d0 (ix1 (ki e)) 1 (by show 1 < 3; omega) S1024 x₁ rfl rfl 1024 rfl (ix1 e)
      (fun b hb => by match b with | ⟨0, _⟩ => exact absurd rfl hb) (by show 1024 + e.val = 1024 + e.val; rfl)
  · exact concatenate_apply_piece (t := S3072) (0 : Fin 1) [⟨S1024, x₀⟩, ⟨S1024, x₁⟩, ⟨S1024, x₂⟩] concatenates_S1024_S1024_S1024_S3072_d0 (ix1 (vi e)) 2 (by show 2 < 3; omega) S1024 x₂ rfl rfl 2048 rfl (ix1 e)
      (fun b hb => by match b with | ⟨0, _⟩ => exact absurd rfl hb) (by show 2048 + e.val = 2048 + e.val; rfl)

/-! ## The buffers as whole functions of the arguments -/

/-- `main_v0` is the activations with batch and position as one row index. -/
theorem h0_v0_eq : (StableHlo.after (hostOps0 (F := Idealize.ShloMosaic.Ideal)) W (Proc.devRef .tc main_v0) : S8192x1024.Idx → EReal)
    = shapeCast S8192x1024 (W (Proc.devRef .tc main_arg0) : S4x2048x1024.Idx → EReal) shapeCasts_S4x2048x1024_S8192x1024 := by
  dsimp only [hostOps0]
  after_results3
  rfl

/-- `main_v2` is the three projections' weights side by side (a change of format apart). -/
theorem h0_v2_eq : (StableHlo.after (hostOps0 (F := Idealize.ShloMosaic.Ideal)) W (Proc.devRef .tc main_v2) : S1024x3072.Idx → EReal)
    = truncf (F := Idealize.ShloMosaic.Ideal) .bf16 (concatenate S1024x3072 1 [⟨S1024x1024, (W (Proc.devRef .tc main_arg1) : S1024x1024.Idx → EReal)⟩, ⟨S1024x1024, (W (Proc.devRef .tc main_arg3) : S1024x1024.Idx → EReal)⟩, ⟨S1024x1024, (W (Proc.devRef .tc main_arg5) : S1024x1024.Idx → EReal)⟩] concatenates_S1024x1024_S1024x1024_S1024x1024_S1024x3072_d1) bitsLt_bf16_f32 := by
  dsimp only [hostOps0]
  after_results3
  rfl

/-- `main_v7` is the three projections' biases end to end, as one row. -/
theorem h0_v7_eq : (StableHlo.after (hostOps0 (F := Idealize.ShloMosaic.Ideal)) W (Proc.devRef .tc main_v7) : S1x3072.Idx → EReal)
    = shapeCast S1x3072 (concatenate S3072 0 [⟨S1024, (W (Proc.devRef .tc main_arg2) : S1024.Idx → EReal)⟩, ⟨S1024, (W (Proc.devRef .tc main_arg4) : S1024.Idx → EReal)⟩, ⟨S1024, (W (Proc.devRef .tc main_arg6) : S1024.Idx → EReal)⟩] concatenates_S1024_S1024_S1024_S3072_d0) shapeCasts_S3072_S1x3072 := by
  dsimp only [hostOps0]
  after_results3
  rfl

/-! ## At an index -/

/-- Row `r` of `main_v0` is batch `r / 2048`, position `r % 2048` of the activations. -/
theorem h0_v0 (r : Fin 8192) (j : Fin 1024) :
    (StableHlo.after (hostOps0 (F := Idealize.ShloMosaic.Ideal)) W (Proc.devRef .tc main_v0) : S8192x1024.Idx → EReal) (ix2 r j) = (W (Proc.devRef .tc main_arg0) : S4x2048x1024.Idx → EReal) (ix3 (rb r) (rs r) j) := by
  rw [h0_v0_eq]
  exact h0_rows_of_batches _ _ r j

/-- The query, key and value columns of `main_v2` are the three weight matrices. -/
theorem h0_v2_q (k e : Fin 1024) : (StableHlo.after (hostOps0 (F := Idealize.ShloMosaic.Ideal)) W (Proc.devRef .tc main_v2) : S1024x3072.Idx → EReal) (ix2 k (qi e)) = (W (Proc.devRef .tc main_arg1) : S1024x1024.Idx → EReal) (ix2 k e) := by
  rw [h0_v2_eq]; exact (h0_cols3_apply _ _ _ k e).1
theorem h0_v2_k (k e : Fin 1024) : (StableHlo.after (hostOps0 (F := Idealize.ShloMosaic.Ideal)) W (Proc.devRef .tc main_v2) : S1024x3072.Idx → EReal) (ix2 k (ki e)) = (W (Proc.devRef .tc main_arg3) : S1024x1024.Idx → EReal) (ix2 k e) := by
  rw [h0_v2_eq]; exact (h0_cols3_apply _ _ _ k e).2.1
theorem h0_v2_v (k e : Fin 1024) : (StableHlo.after (hostOps0 (F := Idealize.ShloMosaic.Ideal)) W (Proc.devRef .tc main_v2) : S1024x3072.Idx → EReal) (ix2 k (vi e)) = (W (Proc.devRef .tc main_arg5) : S1024x1024.Idx → EReal) (ix2 k e) := by
  rw [h0_v2_eq]; exact (h0_cols3_apply _ _ _ k e).2.2

/-- The query, key and value columns of the bias row `main_v7` are the three bias vectors. -/
theorem h0_v7_q (e : Fin 1024) : (StableHlo.after (hostOps0 (F := Idealize.ShloMosaic.Ideal)) W (Proc.devRef .tc main_v7) : S1x3072.Idx → EReal) (ix2 (0 : Fin 1) (qi e)) = (W (Proc.devRef .tc main_arg2) : S1024.Idx → EReal) (ix1 e) := by
  rw [h0_v7_eq]; exact (shapeCast_a_1a_apply _ _ 0 (qi e)).trans (h0_ends3_apply _ _ _ e).1
theorem h0_v7_k (e : Fin 1024) : (StableHlo.after (hostOps0 (F := Idealize.ShloMosaic.Ideal)) W (Proc.devRef .tc main_v7) : S1x3072.Idx → EReal) (ix2 (0 : Fin 1) (ki e)) = (W (Proc.devRef .tc main_arg4) : S1024.Idx → EReal) (ix1 e) := by
  rw [h0_v7_eq]; exact (shapeCast_a_1a_apply _ _ 0 (ki e)).trans (h0_ends3_apply _ _ _ e).2.1
theorem h0_v7_v (e : Fin 1024) : (StableHlo.after (hostOps0 (F := Idealize.ShloMosaic.Ideal)) W (Proc.devRef .tc main_v7) : S1x3072.Idx → EReal) (ix2 (0 : Fin 1) (vi e)) = (W (Proc.devRef .tc main_arg6) : S1024.Idx → EReal) (ix1 e) := by
  rw [h0_v7_eq]; exact (shapeCast_a_1a_apply _ _ 0 (vi e)).trans (h0_ends3_apply _ _ _ e).2.2

/-- The other three weight matrices change format only. -/
theorem h0_v4 : (StableHlo.after (hostOps0 (F := Idealize.ShloMosaic.Ideal)) W (Proc.devRef .tc main_v4) : S1024x1024.Idx → EReal) = (W (Proc.devRef .tc main_arg7) : S1024x1024.Idx → EReal) := by
  dsimp only [hostOps0]
  after_results3
  rfl
theorem h0_v5 : (StableHlo.after (hostOps0 (F := Idealize.ShloMosaic.Ideal)) W (Proc.devRef .tc main_v5) : S1024x4096.Idx → EReal) = (W (Proc.devRef .tc main_arg9) : S1024x4096.Idx → EReal) := by
  dsimp only [hostOps0]
  after_results3
  rfl
theorem h0_v6 : (StableHlo.after (hostOps0 (F := Idealize.ShloMosaic.Ideal)) W (Proc.devRef .tc main_v6) : S4096x1024.Idx → EReal) = (W (Proc.devRef .tc main_arg11) : S4096x1024.Idx → EReal) := by
  dsimp only [hostOps0]
  after_results3
  rfl

end Cert.KernelIdeal.HostReads

end
-- ==== Proof.KI.HostReads2.lean ====
/-
  The kernel program's host reshapes between its regions, read at an index for any contents of the buffers. A
  reshape keeps the row-major position: an `[8192, n]` array as `[4, 2048, n]` has element `(b, s, j)` at row
  `b · 2048 + s`; the other way, row `r` is `(r / 2048, r mod 2048)`; a row `[n]` as `[1, n]` has its
  entries on row 0.
-/
import proofs.«105537_j20366734917908_2_alg».proof.Proof.Gen.KernelIdeal.Launch
import proofs.«105537_j20366734917908_2_alg».proof.Proof.Ref.RefValue
import Idealize.ShloMosaic.Lib.StableHlo.Run
import Idealize.ShloMosaic.Lib.Pipeline.Value

noncomputable section

namespace Cert.KernelIdeal.HostReads

open Cert.KernelIdeal Cert.KernelIdeal.Gen Idealize.ShloMosaic Idealize.ShloMosaic.TcCoe Idealize.ShloMosaic.ValueIdx
  Idealize.ShloMosaic.StableHlo Idealize.SL.Sem
open Cert.ReferenceIdeal.RefRun (flat rb rs)

/-! ## Three reshapes at an index -/

section Casts
variable {α : Type}

/-- `[8192, n]` as `[4, 2048, n]`: element `(b, s, j)` is row `b · 2048 + s`. -/
theorem unflat_apply {n : Nat} (x : (⟨2, ![8192, n]⟩ : Shape).Idx → α)
    (h : (⟨2, ![8192, n]⟩ : Shape).ShapeCasts ⟨3, ![4, 2048, n]⟩) (b : Fin 4) (s : Fin 2048) (j : Fin n) :
    shapeCast ⟨3, ![4, 2048, n]⟩ x h (ix3 b s j) = x (ix2 (flat b s) j) :=
  shapeCast_apply x h _ _ (by
    rw [Shape.rowMajor_val_two, Shape.rowMajor_val_three]
    rfl)

/-- `[4, 2048, n]` as `[8192, n]`: row `r` is `(r / 2048, r mod 2048)`. -/
theorem flatten_apply {n : Nat} (x : (⟨3, ![4, 2048, n]⟩ : Shape).Idx → α)
    (h : (⟨3, ![4, 2048, n]⟩ : Shape).ShapeCasts ⟨2, ![8192, n]⟩) (r : Fin 8192) (d : Fin n) :
    shapeCast ⟨2, ![8192, n]⟩ x h (ix2 r d) = x (ix3 (rb r) (rs r) d) :=
  shapeCast_apply x h _ _ (by
    rw [Shape.rowMajor_val_three, Shape.rowMajor_val_two]
    show (r.val / 2048 * 2048 + r.val % 2048) * n + d.val = r.val * n + d.val
    rw [Nat.div_add_mod'])

/-- `[n]` as `[1, n]`: the entries on row 0. -/
theorem row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_one, Shape.rowMajor_val_two]
    show j.val = 0 * n + j.val
    rw [Nat.zero_mul, Nat.zero_add])

end Casts

/-! ## The reshapes of the program -/

theorem h1_v9 (W : Valuation τ sig (Elt Ideal)) (b : Fin 4) (s : Fin 2048) (j : Fin 3072) :
    (StableHlo.after (hostOps1 (F := Ideal)) W (Proc.devRef .tc main_v9) : S4x2048x3072.Idx → EReal) (ix3 b s j) = (W (Proc.devRef .tc main_v8) : S8192x3072.Idx → EReal) (ix2 (flat b s) j) := by
  have e : (StableHlo.after (hostOps1 (F := Ideal)) W (Proc.devRef .tc main_v9) : S4x2048x3072.Idx → EReal) = shapeCast S4x2048x3072 (W (Proc.devRef .tc main_v8) : S8192x3072.Idx → EReal) Cert.KernelIdeal.Gen.shapeCasts_S8192x3072_S4x2048x3072 := by
    dsimp only [hostOps1]; after_results; rfl
  exact (congrFun e _).trans (unflat_apply _ _ b s j)

theorem h2_v11 (W : Valuation τ sig (Elt Ideal)) (r : Fin 8192) (d : Fin 1024) :
    (StableHlo.after (hostOps2 (F := Ideal)) W (Proc.devRef .tc main_v11) : S8192x1024.Idx → EReal) (ix2 r d) = (W (Proc.devRef .tc main_v10) : S4x2048x1024.Idx → EReal) (ix3 (rb r) (rs r) d) := by
  have e : (StableHlo.after (hostOps2 (F := Ideal)) W (Proc.devRef .tc main_v11) : S8192x1024.Idx → EReal) = shapeCast S8192x1024 (W (Proc.devRef .tc main_v10) : S4x2048x1024.Idx → EReal) Cert.KernelIdeal.Gen.shapeCasts_S4x2048x1024_S8192x1024 := by
    dsimp only [hostOps2]; after_results; rfl
  exact (congrFun e _).trans (flatten_apply _ _ r d)

theorem h2_v12 (W : Valuation τ sig (Elt Ideal)) (j : Fin 1024) :
    (StableHlo.after (hostOps2 (F := Ideal)) W (Proc.devRef .tc main_v12) : S1x1024.Idx → EReal) (ix2 (0 : Fin 1) j) = (W (Proc.devRef .tc main_arg8) : S1024.Idx → EReal) (ix1 j) := by
  have e : (StableHlo.after (hostOps2 (F := Ideal)) W (Proc.devRef .tc main_v12) : S1x1024.Idx → EReal) = shapeCast S1x1024 (W (Proc.devRef .tc main_arg8) : S1024.Idx → EReal) Cert.KernelIdeal.Gen.shapeCasts_S1024_S1x1024 := by
    dsimp only [hostOps2]; after_results; rfl
  exact (congrFun e _).trans (row_apply _ _ j)

theorem h2_v13 (W : Valuation τ sig (Elt Ideal)) (j : Fin 1024) :
    (StableHlo.after (hostOps2 (F := Ideal)) W (Proc.devRef .tc main_v13) : S1x1024.Idx → EReal) (ix2 (0 : Fin 1) j) = (W (Proc.devRef .tc main_arg13) : S1024.Idx → EReal) (ix1 j) := by
  have e : (StableHlo.after (hostOps2 (F := Ideal)) W (Proc.devRef .tc main_v13) : S1x1024.Idx → EReal) = shapeCast S1x1024 (W (Proc.devRef .tc main_arg13) : S1024.Idx → EReal) Cert.KernelIdeal.Gen.shapeCasts_S1024_S1x1024 := by
    dsimp only [hostOps2]; after_results; rfl
  exact (congrFun e _).trans (row_apply _ _ j)

theorem h2_v14 (W : Valuation τ sig (Elt Ideal)) (j : Fin 1024) :
    (StableHlo.after (hostOps2 (F := Ideal)) W (Proc.devRef .tc main_v14) : S1x1024.Idx → EReal) (ix2 (0 : Fin 1) j) = (W (Proc.devRef .tc main_arg14) : S1024.Idx → EReal) (ix1 j) := by
  have e : (StableHlo.after (hostOps2 (F := Ideal)) W (Proc.devRef .tc main_v14) : S1x1024.Idx → EReal) = shapeCast S1x1024 (W (Proc.devRef .tc main_arg14) : S1024.Idx → EReal) Cert.KernelIdeal.Gen.shapeCasts_S1024_S1x1024 := by
    dsimp only [hostOps2]; after_results; rfl
  exact (congrFun e _).trans (row_apply _ _ j)

theorem h3_v16 (W : Valuation τ sig (Elt Ideal)) (j : Fin 4096) :
    (StableHlo.after (hostOps3 (F := Ideal)) W (Proc.devRef .tc main_v16) : S1x4096.Idx → EReal) (ix2 (0 : Fin 1) j) = (W (Proc.devRef .tc main_arg10) : S4096.Idx → EReal) (ix1 j) := by
  have e : (StableHlo.after (hostOps3 (F := Ideal)) W (Proc.devRef .tc main_v16) : S1x4096.Idx → EReal) = shapeCast S1x4096 (W (Proc.devRef .tc main_arg10) : S4096.Idx → EReal) Cert.KernelIdeal.Gen.shapeCasts_S4096_S1x4096 := by
    dsimp only [hostOps3]; after_results; rfl
  exact (congrFun e _).trans (row_apply _ _ j)

theorem h4_v18 (W : Valuation τ sig (Elt Ideal)) (j : Fin 1024) :
    (StableHlo.after (hostOps4 (F := Ideal)) W (Proc.devRef .tc main_v18) : S1x1024.Idx → EReal) (ix2 (0 : Fin 1) j) = (W (Proc.devRef .tc main_arg12) : S1024.Idx → EReal) (ix1 j) := by
  have e : (StableHlo.after (hostOps4 (F := Ideal)) W (Proc.devRef .tc main_v18) : S1x1024.Idx → EReal) = shapeCast S1x1024 (W (Proc.devRef .tc main_arg12) : S1024.Idx → EReal) Cert.KernelIdeal.Gen.shapeCasts_S1024_S1x1024 := by
    dsimp only [hostOps4]; after_results; rfl
  exact (congrFun e _).trans (row_apply _ _ j)

theorem h4_v19 (W : Valuation τ sig (Elt Ideal)) (j : Fin 1024) :
    (StableHlo.after (hostOps4 (F := Ideal)) W (Proc.devRef .tc main_v19) : S1x1024.Idx → EReal) (ix2 (0 : Fin 1) j) = (W (Proc.devRef .tc main_arg15) : S1024.Idx → EReal) (ix1 j) := by
  have e : (StableHlo.after (hostOps4 (F := Ideal)) W (Proc.devRef .tc main_v19) : S1x1024.Idx → EReal) = shapeCast S1x1024 (W (Proc.devRef .tc main_arg15) : S1024.Idx → EReal) Cert.KernelIdeal.Gen.shapeCasts_S1024_S1x1024 := by
    dsimp only [hostOps4]; after_results; rfl
  exact (congrFun e _).trans (row_apply _ _ j)

theorem h4_v20 (W : Valuation τ sig (Elt Ideal)) (j : Fin 1024) :
    (StableHlo.after (hostOps4 (F := Ideal)) W (Proc.devRef .tc main_v20) : S1x1024.Idx → EReal) (ix2 (0 : Fin 1) j) = (W (Proc.devRef .tc main_arg16) : S1024.Idx → EReal) (ix1 j) := by
  have e : (StableHlo.after (hostOps4 (F := Ideal)) W (Proc.devRef .tc main_v20) : S1x1024.Idx → EReal) = shapeCast S1x1024 (W (Proc.devRef .tc main_arg16) : S1024.Idx → EReal) Cert.KernelIdeal.Gen.shapeCasts_S1024_S1x1024 := by
    dsimp only [hostOps4]; after_results; rfl
  exact (congrFun e _).trans (row_apply _ _ j)

theorem h5_v22 (W : Valuation τ sig (Elt Ideal)) (b : Fin 4) (s : Fin 2048) (j : Fin 1024) :
    (StableHlo.after (hostOps5 (F := Ideal)) W (Proc.devRef .tc main_v22) : S4x2048x1024.Idx → EReal) (ix3 b s j) = (W (Proc.devRef .tc main_v21) : S8192x1024.Idx → EReal) (ix2 (flat b s) j) := by
  have e : (StableHlo.after (hostOps5 (F := Ideal)) W (Proc.devRef .tc main_v22) : S4x2048x1024.Idx → EReal) = shapeCast S4x2048x1024 (W (Proc.devRef .tc main_v21) : S8192x1024.Idx → EReal) Cert.KernelIdeal.Gen.shapeCasts_S8192x1024_S4x2048x1024 := by
    dsimp only [hostOps5]; after_results; rfl
  exact (congrFun e _).trans (unflat_apply _ _ b s j)

end Cert.KernelIdeal.HostReads

end
-- ==== Proof.KI.PreReal.lean ====
/-
  The precondition says every argument array is finite; on the extended reals that makes every entry a real
  number. The printed predicate is a chain of conjunctions, one per argument, of "the absolute value of every
  entry is below plus infinity", each an all-reduction of a comparison. An entry whose absolute value is below
  the top is neither infinity, so it is a real. With real entries an affine layer has real entries, and the
  attention scale's word is the real 1/32.
-/
import proofs.«105537_j20366734917908_2_alg».proof.Defs
import proofs.«105537_j20366734917908_2_alg».proof.Proof.Gen.Pre_finite_inputs
import proofs.«105537_j20366734917908_2_alg».proof.Proof.Spec
import proofs.«105537_j20366734917908_2_alg».proof.Proof.LibOnlineSoftmax
import Idealize.ShloMosaic.Lib.ReduceAll
import Idealize.ShloMosaic.Lib.IdealHost

noncomputable section

open scoped BigOperators

namespace Cert.PreReal

open Idealize.ShloMosaic Idealize.ShloMosaic.ValueIdx Idealize.SL.Sem

instance : Subsingleton (⟨0, ![]⟩ : Shape).Idx := ⟨fun a b => funext fun d => d.elim0⟩

/-- The word of plus infinity is the top. -/
theorem ofBits_inf : Ideal.ofBits .f32 0x7F800000#32 = (⊤ : EReal) := by simp [Ideal.ofBits, Ideal.ieee]

/-- An extended real whose absolute value is below the top is a real. -/
theorem real_of_abs_lt_top (z : EReal) (h : max z (-z) < ⊤) : ∃ r : ℝ, z = (r : EReal) := by
  induction z using EReal.rec with
  | bot => exact absurd h (by simp)
  | coe r => exact ⟨r, rfl⟩
  | top => exact absurd h (by simp)

/-- If "every entry's absolute value is below plus infinity", all-reduced, is true, every entry is a real. -/
theorem all_real {S : Shape} {axes : List (Fin S.rank)} (x : FVec Ideal S .f32)
    (hb : (⟨0, ![]⟩ : Shape).BroadcastsInDim S ![]) (hr : S.ReducesTo axes ⟨0, ![]⟩) (hu : 0 < (⟨0, ![]⟩ : Shape).numel)
    (e : Host.reduce IntOp.andi (cmpf .olt (Host.absf x) (broadcastInDim S ![] hb (constant (F := Ideal) ⟨0, ![]⟩ .f32 0x7F800000#32)))
      (constantI ⟨0, ![]⟩ 1 1#1) hr hu ix0 = 1#1) :
    ∀ i, ∃ r : ℝ, x i = (r : EReal) := by
  intro i
  have hi := Host.reduce_andi_all _ _ hr hu ix0 e i
  rw [cmpf_apply, broadcastInDim_scalar_apply] at hi
  have hw : BitVec.ofBool (decide (max (x i) (-(x i)) < Ideal.ofBits .f32 0x7F800000#32)) = 1#1 := hi
  have h2 : decide (max (x i) (-(x i)) < Ideal.ofBits .f32 0x7F800000#32) = true := by
    by_contra hc
    rw [Bool.not_eq_true] at hc
    rw [hc] at hw
    exact absurd hw (by decide)
  have h3 := of_decide_eq_true h2
  rw [ofBits_inf] at h3
  exact real_of_abs_lt_top _ h3

section Chain
open Cert.Pre_finite_inputs

/-- The printed predicate, all ones, makes every entry of every argument a real. -/
theorem fn_real [hF : Cert.Pre_finite_inputs.Facts]
    (a0 : FVec Ideal S4x2048x1024 .f32)
    (a1 : FVec Ideal S1024x1024 .f32)
    (a2 : FVec Ideal S1024 .f32)
    (a3 : FVec Ideal S1024x1024 .f32)
    (a4 : FVec Ideal S1024 .f32)
    (a5 : FVec Ideal S1024x1024 .f32)
    (a6 : FVec Ideal S1024 .f32)
    (a7 : FVec Ideal S1024x1024 .f32)
    (a8 : FVec Ideal S1024 .f32)
    (a9 : FVec Ideal S1024x4096 .f32)
    (a10 : FVec Ideal S4096 .f32)
    (a11 : FVec Ideal S4096x1024 .f32)
    (a12 : FVec Ideal S1024 .f32)
    (a13 : FVec Ideal S1024 .f32)
    (a14 : FVec Ideal S1024 .f32)
    (a15 : FVec Ideal S1024 .f32)
    (a16 : FVec Ideal S1024 .f32)
    (h : Cert.Pre_finite_inputs.fn (F := Ideal) a0 a1 a2 a3 a4 a5 a6 a7 a8 a9 a10 a11 a12 a13 a14 a15 a16 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) := by
  have h0 := congrFun h ix0
  dsimp only [fn, fn_part1, fn_part2, fn_part3, fn_part4] at h0
  obtain ⟨h0, e16⟩ := IntOp.andi_eq_one.mp h0
  obtain ⟨h0, e15⟩ := IntOp.andi_eq_one.mp h0
  obtain ⟨h0, e14⟩ := IntOp.andi_eq_one.mp h0
  obtain ⟨h0, e13⟩ := IntOp.andi_eq_one.mp h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨all_real _ _ _ _ e0, all_real _ _ _ _ e1, all_real _ _ _ _ e2, all_real _ _ _ _ e3, all_real _ _ _ _ e4, all_real _ _ _ _ e5, all_real _ _ _ _ e6, all_real _ _ _ _ e7, all_real _ _ _ _ e8, all_real _ _ _ _ e9, all_real _ _ _ _ e10, all_real _ _ _ _ e11, all_real _ _ _ _ e12, all_real _ _ _ _ e13, all_real _ _ _ _ e14, all_real _ _ _ _ e15, all_real _ _ _ _ e16⟩

end Chain

/-- Under the precondition every entry of every argument of the idealized kernel is a real, on every device. -/
theorem pre_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, (m ((c.tc : Thread Cert.KernelIdeal.nD Cert.KernelIdeal.τ).loc Cert.KernelIdeal.main_arg0)) i = (r : EReal)) ∧
    (∀ i, ∃ r : ℝ, (m ((c.tc : Thread Cert.KernelIdeal.nD Cert.KernelIdeal.τ).loc Cert.KernelIdeal.main_arg1)) i = (r : EReal)) ∧
    (∀ i, ∃ r : ℝ, (m ((c.tc : Thread Cert.KernelIdeal.nD Cert.KernelIdeal.τ).loc Cert.KernelIdeal.main_arg2)) i = (r : EReal)) ∧
    (∀ i, ∃ r : ℝ, (m ((c.tc : Thread Cert.KernelIdeal.nD Cert.KernelIdeal.τ).loc Cert.KernelIdeal.main_arg3)) i = (r : EReal)) ∧
    (∀ i, ∃ r : ℝ, (m ((c.tc : Thread Cert.KernelIdeal.nD Cert.KernelIdeal.τ).loc Cert.KernelIdeal.main_arg4)) i = (r : EReal)) ∧
    (∀ i, ∃ r : ℝ, (m ((c.tc : Thread Cert.KernelIdeal.nD Cert.KernelIdeal.τ).loc Cert.KernelIdeal.main_arg5)) i = (r : EReal)) ∧
    (∀ i, ∃ r : ℝ, (m ((c.tc : Thread Cert.KernelIdeal.nD Cert.KernelIdeal.τ).loc Cert.KernelIdeal.main_arg6)) i = (r : EReal)) ∧
    (∀ i, ∃ r : ℝ, (m ((c.tc : Thread Cert.KernelIdeal.nD Cert.KernelIdeal.τ).loc Cert.KernelIdeal.main_arg7)) i = (r : EReal)) ∧
    (∀ i, ∃ r : ℝ, (m ((c.tc : Thread Cert.KernelIdeal.nD Cert.KernelIdeal.τ).loc Cert.KernelIdeal.main_arg8)) i = (r : EReal)) ∧
    (∀ i, ∃ r : ℝ, (m ((c.tc : Thread Cert.KernelIdeal.nD Cert.KernelIdeal.τ).loc Cert.KernelIdeal.main_arg9)) i = (r : EReal)) ∧
    (∀ i, ∃ r : ℝ, (m ((c.tc : Thread Cert.KernelIdeal.nD Cert.KernelIdeal.τ).loc Cert.KernelIdeal.main_arg10)) i = (r : EReal)) ∧
    (∀ i, ∃ r : ℝ, (m ((c.tc : Thread Cert.KernelIdeal.nD Cert.KernelIdeal.τ).loc Cert.KernelIdeal.main_arg11)) i = (r : EReal)) ∧
    (∀ i, ∃ r : ℝ, (m ((c.tc : Thread Cert.KernelIdeal.nD Cert.KernelIdeal.τ).loc Cert.KernelIdeal.main_arg12)) i = (r : EReal)) ∧
    (∀ i, ∃ r : ℝ, (m ((c.tc : Thread Cert.KernelIdeal.nD Cert.KernelIdeal.τ).loc Cert.KernelIdeal.main_arg13)) i = (r : EReal)) ∧
    (∀ i, ∃ r : ℝ, (m ((c.tc : Thread Cert.KernelIdeal.nD Cert.KernelIdeal.τ).loc Cert.KernelIdeal.main_arg14)) i = (r : EReal)) ∧
    (∀ i, ∃ r : ℝ, (m ((c.tc : Thread Cert.KernelIdeal.nD Cert.KernelIdeal.τ).loc Cert.KernelIdeal.main_arg15)) i = (r : EReal)) ∧
    (∀ i, ∃ r : ℝ, (m ((c.tc : Thread Cert.KernelIdeal.nD Cert.KernelIdeal.τ).loc Cert.KernelIdeal.main_arg16)) i = (r : EReal)) :=
  fn_real (hF := Cert.Pre_finite_inputs.Gen.facts) _ _ _ _ _ _ _ _ _ _ _ _ _ _ _ _ _ (h c)

/-- An affine layer of real matrices is real. -/
theorem lin_real {M K N : ℕ} (x : Fin M → Fin K → EReal) (w : Fin K → Fin N → EReal) (b : Fin N → EReal)
    (hx : ∀ i k, ∃ r : ℝ, x i k = (r : EReal)) (hw : ∀ k j, ∃ r : ℝ, w k j = (r : EReal)) (hb : ∀ j, ∃ r : ℝ, b j = (r : EReal)) :
    ∀ i j, ∃ r : ℝ, Cert.Spec.lin x w b i j = (r : EReal) := by
  intro i j
  choose xr hxr using hx
  choose wr hwr using hw
  choose br hbr using hb
  refine ⟨(∑ k : Fin K, xr i k * wr k j) + br j, ?_⟩
  unfold Cert.Spec.lin
  rw [EReal.coe_add, Cert.LibOnlineSoftmax.coe_sum, hbr]
  congr 1
  exact Finset.sum_congr rfl fun k _ => by rw [hxr, hwr, EReal.coe_mul]

/-- The attention scale's word is 2⁻⁵. -/
theorem scaleW_eq : Cert.Spec.scaleW = ((1 / 32 : ℝ) : EReal) := by
  unfold Cert.Spec.scaleW
  simp [Ideal.ofBits, Ideal.ieee, -EReal.coe_mul]; norm_num

end Cert.PreReal

end
-- ==== Proof.KI.Value.lean ====
/-
  The kernel program's result as the reference's function of the argument arrays. Boundary by boundary the fold's buffers are
  read: the first stretch lays the input out as 8192 rows and the three projection weights (and biases) side by side; region 0's
  output is the three affine layers; region 1's is softmax attention over them per batch (its inputs are real numbers because the
  arguments are); regions 2 and 4 add residual and bias and normalise; region 3 is the rectified affine layer; the last stretch
  lays the rows out as [4, 2048, 1024] again. The five stages composed are the reference's function (the bridge).
-/
import proofs.«105537_j20366734917908_2_alg».proof.Proof.KI.Keep
import proofs.«105537_j20366734917908_2_alg».proof.Proof.KI.Region0Value
import proofs.«105537_j20366734917908_2_alg».proof.Proof.KI.Region2Value
import proofs.«105537_j20366734917908_2_alg».proof.Proof.KI.Region3Value
import proofs.«105537_j20366734917908_2_alg».proof.Proof.KI.Region1Value
import proofs.«105537_j20366734917908_2_alg».proof.Proof.KI.Region4Value
import proofs.«105537_j20366734917908_2_alg».proof.Proof.KI.HostReads
import proofs.«105537_j20366734917908_2_alg».proof.Proof.KI.HostReads2
import proofs.«105537_j20366734917908_2_alg».proof.Proof.KI.PreReal
import proofs.«105537_j20366734917908_2_alg».proof.Proof.Bridge

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.Spec Cert.Bridge Cert.ReferenceIdeal.RefRun Cert.KernelIdeal.HostReads

variable (m : (ℓ : Loc nD τ sig) → Buf (Elt Ideal) ℓ) (c : Dev nD)

/-! ## The arguments as plain functions -/
/-- Argument 0 as a function of its coordinates. -/
abbrev ax : Fin 8192 → Fin 1024 → EReal :=
  rows (n := 1024) (m ((c.tc : Thread nD τ).loc main_arg0) : S4x2048x1024.Idx → EReal)
/-- Argument 1 as a function of its coordinates. -/
abbrev aWq : Fin 1024 → Fin 1024 → EReal :=
  mat (m ((c.tc : Thread nD τ).loc main_arg1) : S1024x1024.Idx → EReal)
/-- Argument 2 as a function of its coordinates. -/
abbrev abq : Fin 1024 → EReal :=
  vec (m ((c.tc : Thread nD τ).loc main_arg2) : S1024.Idx → EReal)
/-- Argument 3 as a function of its coordinates. -/
abbrev aWk : Fin 1024 → Fin 1024 → EReal :=
  mat (m ((c.tc : Thread nD τ).loc main_arg3) : S1024x1024.Idx → EReal)
/-- Argument 4 as a function of its coordinates. -/
abbrev abk : Fin 1024 → EReal :=
  vec (m ((c.tc : Thread nD τ).loc main_arg4) : S1024.Idx → EReal)
/-- Argument 5 as a function of its coordinates. -/
abbrev aWv : Fin 1024 → Fin 1024 → EReal :=
  mat (m ((c.tc : Thread nD τ).loc main_arg5) : S1024x1024.Idx → EReal)
/-- Argument 6 as a function of its coordinates. -/
abbrev abv : Fin 1024 → EReal :=
  vec (m ((c.tc : Thread nD τ).loc main_arg6) : S1024.Idx → EReal)
/-- Argument 7 as a function of its coordinates. -/
abbrev aWo : Fin 1024 → Fin 1024 → EReal :=
  mat (m ((c.tc : Thread nD τ).loc main_arg7) : S1024x1024.Idx → EReal)
/-- Argument 8 as a function of its coordinates. -/
abbrev abo : Fin 1024 → EReal :=
  vec (m ((c.tc : Thread nD τ).loc main_arg8) : S1024.Idx → EReal)
/-- Argument 9 as a function of its coordinates. -/
abbrev aW1 : Fin 1024 → Fin 4096 → EReal :=
  mat (m ((c.tc : Thread nD τ).loc main_arg9) : S1024x4096.Idx → EReal)
/-- Argument 10 as a function of its coordinates. -/
abbrev ab1 : Fin 4096 → EReal :=
  vec (m ((c.tc : Thread nD τ).loc main_arg10) : S4096.Idx → EReal)
/-- Argument 11 as a function of its coordinates. -/
abbrev aW2 : Fin 4096 → Fin 1024 → EReal :=
  mat (m ((c.tc : Thread nD τ).loc main_arg11) : S4096x1024.Idx → EReal)
/-- Argument 12 as a function of its coordinates. -/
abbrev ab2 : Fin 1024 → EReal :=
  vec (m ((c.tc : Thread nD τ).loc main_arg12) : S1024.Idx → EReal)
/-- Argument 13 as a function of its coordinates. -/
abbrev ag1 : Fin 1024 → EReal :=
  vec (m ((c.tc : Thread nD τ).loc main_arg13) : S1024.Idx → EReal)
/-- Argument 14 as a function of its coordinates. -/
abbrev abe1 : Fin 1024 → EReal :=
  vec (m ((c.tc : Thread nD τ).loc main_arg14) : S1024.Idx → EReal)
/-- Argument 15 as a function of its coordinates. -/
abbrev ag2 : Fin 1024 → EReal :=
  vec (m ((c.tc : Thread nD τ).loc main_arg15) : S1024.Idx → EReal)
/-- Argument 16 as a function of its coordinates. -/
abbrev abe2 : Fin 1024 → EReal :=
  vec (m ((c.tc : Thread nD τ).loc main_arg16) : S1024.Idx → EReal)

/-! ## The five regions' outputs as plain functions -/

abbrev o8 : Fin 8192 → Fin 3072 → EReal := fun r j => (X2 m c (Proc.devRef .tc main_v8) : S8192x3072.Idx → EReal) (ix2 r j)
abbrev o10 : Fin 4 → Fin 2048 → Fin 1024 → EReal := fun b s d => (X4 m c (Proc.devRef .tc main_v10) : S4x2048x1024.Idx → EReal) (ix3 b s d)
abbrev o15 : Fin 8192 → Fin 1024 → EReal := fun r j => (X6 m c (Proc.devRef .tc main_v15) : S8192x1024.Idx → EReal) (ix2 r j)
abbrev o17 : Fin 8192 → Fin 4096 → EReal := fun r j => (X8 m c (Proc.devRef .tc main_v17) : S8192x4096.Idx → EReal) (ix2 r j)
abbrev o21 : Fin 8192 → Fin 1024 → EReal := fun r j => (X10 m c (Proc.devRef .tc main_v21) : S8192x1024.Idx → EReal) (ix2 r j)

/-! ## Region 0: the three affine layers side by side -/

theorem X1_rows (r : Fin 8192) (k : Fin 1024) : arr2d 8192 1024 (X1 m c (Proc.devRef .tc main_v0)) r k = ax m c r k :=
  h0_v0 (X0 m c) r k

theorem o8_eq (r : Fin 8192) (j : Fin 3072) : o8 m c r j
    = (∑ k : Fin 1024, arr2d 8192 1024 (X1 m c (Proc.devRef .tc main_v0)) r k * arr2d 1024 3072 (X1 m c (Proc.devRef .tc main_v2)) k j)
        + arr2d 1 3072 (X1 m c (Proc.devRef .tc main_v7)) 0 j := by
  show (X2 m c (Proc.devRef .tc (Pipeline.arrRef spec0 3)) : S8192x3072.Idx → EReal) (ix2 r j) = _
  rw [X2_arr, final0]
  rfl

theorem o8_q (r : Fin 8192) (e : Fin 1024) : o8 m c r (qi e) = lin (ax m c) (aWq m c) (abq m c) r e := by
  rw [o8_eq]; unfold lin
  congr 1
  · exact Finset.sum_congr rfl fun k _ => by rw [X1_rows]; congr 1; exact h0_v2_q (X0 m c) k e
  · exact h0_v7_q (X0 m c) e
theorem o8_k (r : Fin 8192) (e : Fin 1024) : o8 m c r (ki e) = lin (ax m c) (aWk m c) (abk m c) r e := by
  rw [o8_eq]; unfold lin
  congr 1
  · exact Finset.sum_congr rfl fun k _ => by rw [X1_rows]; congr 1; exact h0_v2_k (X0 m c) k e
  · exact h0_v7_k (X0 m c) e
theorem o8_v (r : Fin 8192) (e : Fin 1024) : o8 m c r (vi e) = lin (ax m c) (aWv m c) (abv m c) r e := by
  rw [o8_eq]; unfold lin
  congr 1
  · exact Finset.sum_congr rfl fun k _ => by rw [X1_rows]; congr 1; exact h0_v2_v (X0 m c) k e
  · exact h0_v7_v (X0 m c) e

/-! ## Region 1: attention over the fused projections -/

theorem X3_v9 (b : Fin 4) (s : Fin 2048) (j : Fin 3072) :
    (X3 m c (Proc.devRef .tc main_v9) : S4x2048x3072.Idx → EReal) (ix3 b s j) = o8 m c (flat b s) j :=
  h1_v9 (X2 m c) b s j

/-- Every entry of the fused projections is a real number when the first seven arguments are. -/
theorem o8_real (hx : ∀ i, ∃ r : ℝ, (m ((c.tc : Thread nD τ).loc main_arg0) : S4x2048x1024.Idx → EReal) i = (r : EReal))
    (hwq : ∀ i, ∃ r : ℝ, (m ((c.tc : Thread nD τ).loc main_arg1) : S1024x1024.Idx → EReal) i = (r : EReal))
    (hbq : ∀ i, ∃ r : ℝ, (m ((c.tc : Thread nD τ).loc main_arg2) : S1024.Idx → EReal) i = (r : EReal))
    (hwk : ∀ i, ∃ r : ℝ, (m ((c.tc : Thread nD τ).loc main_arg3) : S1024x1024.Idx → EReal) i = (r : EReal))
    (hbk : ∀ i, ∃ r : ℝ, (m ((c.tc : Thread nD τ).loc main_arg4) : S1024.Idx → EReal) i = (r : EReal))
    (hwv : ∀ i, ∃ r : ℝ, (m ((c.tc : Thread nD τ).loc main_arg5) : S1024x1024.Idx → EReal) i = (r : EReal))
    (hbv : ∀ i, ∃ r : ℝ, (m ((c.tc : Thread nD τ).loc main_arg6) : S1024.Idx → EReal) i = (r : EReal))
    (r : Fin 8192) (j : Fin 3072) : ∃ x : ℝ, o8 m c r j = (x : EReal) := by
  rcases Nat.lt_or_ge j.val 1024 with h1 | h1
  · have hj : j = qi ⟨j.val, h1⟩ := Fin.ext rfl
    rw [hj, o8_q]
    exact Cert.PreReal.lin_real _ _ _ (fun i k => hx _) (fun k e => hwq _) (fun e => hbq _) r _
  · rcases Nat.lt_or_ge j.val 2048 with h2 | h2
    · have hj : j = ki ⟨j.val - 1024, by omega⟩ := Fin.ext (by show j.val = 1024 + (j.val - 1024); omega)
      rw [hj, o8_k]
      exact Cert.PreReal.lin_real _ _ _ (fun i k => hx _) (fun k e => hwk _) (fun e => hbk _) r _
    · have hj : j = vi ⟨j.val - 2048, by have := j.isLt; omega⟩ := Fin.ext (by show j.val = 2048 + (j.val - 2048); omega)
      rw [hj, o8_v]
      exact Cert.PreReal.lin_real _ _ _ (fun i k => hx _) (fun k e => hwv _) (fun e => hbv _) r _

/-- Region 1's shared input array, entry by entry, is the fused projections' output. -/
theorem v9_o8 (b : Fin 4) (s : Fin 2048) (j : Fin 3072) : (Xv3 m c main_v9 : S4x2048x3072.Idx → EReal) (ix3 b s j) = o8 m c (flat b s) j :=
  X3_v9 m c b s j

theorem v9_real (hreal : ∀ r j, ∃ x : ℝ, o8 m c r j = (x : EReal)) :
    ∀ i : S4x2048x3072.Idx, ∃ r : ℝ, (Xv3 m c main_v9 : S4x2048x3072.Idx → EReal) i = (r : EReal) := fun i => by
  obtain ⟨b', s', j', rfl⟩ : ∃ (b' : Fin 4) (s' : Fin 2048) (j' : Fin 3072), i = ix3 b' s' j' := ⟨i 0, i 1, i 2, eq_ix3 i⟩
  rw [v9_o8]; exact hreal _ _

theorem o10_eq (hreal : ∀ r j, ∃ x : ℝ, o8 m c r j = (x : EReal)) (b : Fin 4) (s : Fin 2048) (d : Fin 1024) :
    o10 m c b s d = attnRow (scores scaleW (fun e => o8 m c (flat b s) (qi e)) (fun t e => o8 m c (flat b t) (ki e)))
      (fun t e => o8 m c (flat b t) (vi e)) d := by
  have h1 := final1 (Xv3 m) c (v9_real m c hreal)
  have h3 : (X4 m c (Proc.devRef .tc main_v10) : S4x2048x1024.Idx → EReal) (ix3 b s d) = _ := congrFun ((X4_out m c).trans h1) (ix3 b s d)
  refine h3.trans ?_
  show attnRow (scores scaleW (fun e : Fin 1024 => (Xv3 m c main_v9 : S4x2048x3072.Idx → EReal) (ix3 b s (qi e)))
      (fun (t : Fin 2048) (e : Fin 1024) => (Xv3 m c main_v9 : S4x2048x3072.Idx → EReal) (ix3 b t (ki e))))
      (fun (t : Fin 2048) (e : Fin 1024) => (Xv3 m c main_v9 : S4x2048x3072.Idx → EReal) (ix3 b t (vi e))) d = _
  have e1 : (fun e : Fin 1024 => (Xv3 m c main_v9 : S4x2048x3072.Idx → EReal) (ix3 b s (qi e))) = fun e => o8 m c (flat b s) (qi e) :=
    funext fun e => v9_o8 m c b s (qi e)
  have e2 : (fun (t : Fin 2048) (e : Fin 1024) => (Xv3 m c main_v9 : S4x2048x3072.Idx → EReal) (ix3 b t (ki e))) = fun t e => o8 m c (flat b t) (ki e) :=
    funext fun t => funext fun e => v9_o8 m c b t (ki e)
  have e3 : (fun (t : Fin 2048) (e : Fin 1024) => (Xv3 m c main_v9 : S4x2048x3072.Idx → EReal) (ix3 b t (vi e))) = fun t e => o8 m c (flat b t) (vi e) :=
    funext fun t => funext fun e => v9_o8 m c b t (vi e)
  exact congrFun (congr (congrArg (fun q => attnRow (scores scaleW q _)) e1 |>.trans (congrArg (fun k => attnRow (scores scaleW _ k)) e2)) e3) d

/-! ## Region 2: output projection, residual and the first normalisation -/

theorem o15_eq : o15 m c = layerNorm (fun r j => (ax m c r j + ∑ k : Fin 1024, o10 m c (rb r) (rs r) k * aWo m c k j) + abo m c j) (ag1 m c) (abe1 m c) := by
  have hf : (fun (r : Fin 8192) (j : Fin 1024) => (arr2d 8192 1024 (Xv5 m c main_v0) r j
        + ∑ k : Fin 1024, arr2d 8192 1024 (Xv5 m c main_v11) r k * arr2d 1024 1024 (Xv5 m c main_v4) k j) + arr2d 1 1024 (Xv5 m c main_v12) 0 j)
      = fun r j => (ax m c r j + ∑ k : Fin 1024, o10 m c (rb r) (rs r) k * aWo m c k j) + abo m c j := by
    funext r' j'
    refine congrArg₂ (· + ·) (congrArg₂ (· + ·) ?_ (Finset.sum_congr rfl fun k _ => congrArg₂ (· * ·) ?_ ?_)) ?_
    · show (X5 m c (Proc.devRef .tc main_v0) : S8192x1024.Idx → EReal) (ix2 r' j') = _
      rw [X5_v0]; exact X1_rows m c r' j'
    · exact h2_v11 (X4 m c) r' k
    · show (X5 m c (Proc.devRef .tc main_v4) : S1024x1024.Idx → EReal) (ix2 k j') = _
      rw [X5_v4, show (X1 m c (Proc.devRef .tc main_v4) : S1024x1024.Idx → EReal) = _ from h0_v4 (X0 m c)]
      rfl
    · refine (h2_v12 (X4 m c) j').trans ?_
      show (X4 m c (Proc.devRef .tc main_arg8) : S1024.Idx → EReal) (ix1 j') = _
      rw [X4_arg m c main_arg8 (by decide) (by decide) (by decide) (by decide)]
      rfl
  have hg : arr2d 1 1024 (Xv5 m c main_v13) 0 = ag1 m c := by
    funext j'
    refine (h2_v13 (X4 m c) j').trans ?_
    show (X4 m c (Proc.devRef .tc main_arg13) : S1024.Idx → EReal) (ix1 j') = _
    rw [X4_arg m c main_arg13 (by decide) (by decide) (by decide) (by decide)]
    rfl
  have hbe : arr2d 1 1024 (Xv5 m c main_v14) 0 = abe1 m c := by
    funext j'
    refine (h2_v14 (X4 m c) j').trans ?_
    show (X4 m c (Proc.devRef .tc main_arg14) : S1024.Idx → EReal) (ix1 j') = _
    rw [X4_arg m c main_arg14 (by decide) (by decide) (by decide) (by decide)]
    rfl
  funext r j
  have h1 : (X6 m c (Proc.devRef .tc (Pipeline.arrRef spec2 6)) : S8192x1024.Idx → EReal) (ix2 r j) = _ :=
    congrFun ((X6_arr m c 6).trans (final2 (Xv5 m) c)) (ix2 r j)
  refine h1.trans ?_
  exact congrFun (congrFun (congr (congr (congrArg (layerNorm (M := 8192) (N := 1024)) hf) hg) hbe) r) j

/-! ## Region 3: the rectified affine layer -/

theorem o17_eq (r : Fin 8192) (j : Fin 4096) : o17 m c r j = max ((∑ k : Fin 1024, o15 m c r k * aW1 m c k j) + ab1 m c j) 0 := by
  have h1 : (X8 m c (Proc.devRef .tc (Pipeline.arrRef spec3 3)) : S8192x4096.Idx → EReal) (ix2 r j) = _ :=
    congrFun ((X8_arr m c 3).trans (final3 (Xv7 m) c)) (ix2 r j)
  refine h1.trans ?_
  show max ((∑ k : Fin 1024, arr2d 8192 1024 (X7 m c (Proc.devRef .tc main_v15)) r k * arr2d 1024 4096 (X7 m c (Proc.devRef .tc main_v5)) k j)
      + arr2d 1 4096 (X7 m c (Proc.devRef .tc main_v16)) 0 j) 0 = _
  refine congrArg₂ max (congrArg₂ (· + ·) (Finset.sum_congr rfl fun k _ => congrArg₂ (· * ·) ?_ ?_) ?_) rfl
  · show (X7 m c (Proc.devRef .tc main_v15) : S8192x1024.Idx → EReal) (ix2 r k) = _
    rw [X7_v15]
  · show (X7 m c (Proc.devRef .tc main_v5) : S1024x4096.Idx → EReal) (ix2 k j) = _
    rw [X7_v5, show (X1 m c (Proc.devRef .tc main_v5) : S1024x4096.Idx → EReal) = _ from h0_v5 (X0 m c)]
    rfl
  · refine (h3_v16 (X6 m c) j).trans ?_
    show (X6 m c (Proc.devRef .tc main_arg10) : S4096.Idx → EReal) (ix1 j) = _
    rw [X6_arg m c main_arg10 (by decide) (by decide) (by decide) (by decide) (by decide) (by decide)]
    rfl

/-! ## Region 4: second feed-forward layer, residual and the second normalisation -/

theorem o21_eq : o21 m c = layerNorm (fun r j => (o15 m c r j + ∑ k : Fin 4096, o17 m c r k * aW2 m c k j) + ab2 m c j) (ag2 m c) (abe2 m c) := by
  have hf : (fun (r : Fin 8192) (j : Fin 1024) => (arr2d 8192 1024 (Xv9 m c main_v15) r j
        + ∑ k : Fin 4096, arr2d 8192 4096 (Xv9 m c main_v17) r k * arr2d 4096 1024 (Xv9 m c main_v6) k j) + arr2d 1 1024 (Xv9 m c main_v18) 0 j)
      = fun r j => (o15 m c r j + ∑ k : Fin 4096, o17 m c r k * aW2 m c k j) + ab2 m c j := by
    funext r' j'
    refine congrArg₂ (· + ·) (congrArg₂ (· + ·) ?_ (Finset.sum_congr rfl fun k _ => congrArg₂ (· * ·) ?_ ?_)) ?_
    · show (X9 m c (Proc.devRef .tc main_v15) : S8192x1024.Idx → EReal) (ix2 r' j') = _
      rw [X9_v15]
    · show (X9 m c (Proc.devRef .tc main_v17) : S8192x4096.Idx → EReal) (ix2 r' k) = _
      rw [X9_v17]
    · show (X9 m c (Proc.devRef .tc main_v6) : S4096x1024.Idx → EReal) (ix2 k j') = _
      rw [X9_v6, show (X1 m c (Proc.devRef .tc main_v6) : S4096x1024.Idx → EReal) = _ from h0_v6 (X0 m c)]
      rfl
    · refine (h4_v18 (X8 m c) j').trans ?_
      show (X8 m c (Proc.devRef .tc main_arg12) : S1024.Idx → EReal) (ix1 j') = _
      rw [X8_arg m c main_arg12 (by decide) (by decide) (by decide) (by decide) (by decide) (by decide) (by decide) (by decide)]
      rfl
  have hg : arr2d 1 1024 (Xv9 m c main_v19) 0 = ag2 m c := by
    funext j'
    refine (h4_v19 (X8 m c) j').trans ?_
    show (X8 m c (Proc.devRef .tc main_arg15) : S1024.Idx → EReal) (ix1 j') = _
    rw [X8_arg m c main_arg15 (by decide) (by decide) (by decide) (by decide) (by decide) (by decide) (by decide) (by decide)]
    rfl
  have hbe : arr2d 1 1024 (Xv9 m c main_v20) 0 = abe2 m c := by
    funext j'
    refine (h4_v20 (X8 m c) j').trans ?_
    show (X8 m c (Proc.devRef .tc main_arg16) : S1024.Idx → EReal) (ix1 j') = _
    rw [X8_arg m c main_arg16 (by decide) (by decide) (by decide) (by decide) (by decide) (by decide) (by decide) (by decide)]
    rfl
  funext r j
  have h1 : (X10 m c (Proc.devRef .tc (Pipeline.arrRef spec4 6)) : S8192x1024.Idx → EReal) (ix2 r j) = _ :=
    congrFun ((X10_arr m c 6).trans (final4 (Xv9 m) c)) (ix2 r j)
  refine h1.trans ?_
  exact congrFun (congrFun (congr (congr (congrArg (layerNorm (M := 8192) (N := 1024)) hf) hg) hbe) r) j

/-! ## The result -/

/-- The result buffer after @main, as the reference's function of the argument arrays (the first seven real). -/
theorem kernel_value
    (hx : ∀ i, ∃ r : ℝ, (m ((c.tc : Thread nD τ).loc main_arg0) : S4x2048x1024.Idx → EReal) i = (r : EReal))
    (hwq : ∀ i, ∃ r : ℝ, (m ((c.tc : Thread nD τ).loc main_arg1) : S1024x1024.Idx → EReal) i = (r : EReal))
    (hbq : ∀ i, ∃ r : ℝ, (m ((c.tc : Thread nD τ).loc main_arg2) : S1024.Idx → EReal) i = (r : EReal))
    (hwk : ∀ i, ∃ r : ℝ, (m ((c.tc : Thread nD τ).loc main_arg3) : S1024x1024.Idx → EReal) i = (r : EReal))
    (hbk : ∀ i, ∃ r : ℝ, (m ((c.tc : Thread nD τ).loc main_arg4) : S1024.Idx → EReal) i = (r : EReal))
    (hwv : ∀ i, ∃ r : ℝ, (m ((c.tc : Thread nD τ).loc main_arg5) : S1024x1024.Idx → EReal) i = (r : EReal))
    (hbv : ∀ i, ∃ r : ℝ, (m ((c.tc : Thread nD τ).loc main_arg6) : S1024.Idx → EReal) i = (r : EReal)) :
    (X11 m c (Proc.devRef .tc main_v22) : S4x2048x1024.Idx → EReal) = fun i =>
      specOut (ax m c) (aWq m c) (abq m c) (aWk m c) (abk m c) (aWv m c) (abv m c) (aWo m c) (abo m c) (aW1 m c) (ab1 m c) (aW2 m c) (ab2 m c)
        (ag1 m c) (abe1 m c) (ag2 m c) (abe2 m c) (flat (i 0) (i 1)) (i 2) := by
  funext i
  obtain ⟨b, s, j, rfl⟩ : ∃ (b : Fin 4) (s : Fin 2048) (j : Fin 1024), i = ix3 b s j := ⟨i 0, i 1, i 2, eq_ix3 i⟩
  rw [show (X11 m c (Proc.devRef .tc main_v22) : S4x2048x1024.Idx → EReal) (ix3 b s j) = _ from h5_v22 (X10 m c) b s j]
  have hreal := o8_real m c hx hwq hbq hwk hbk hwv hbv
  have hch := chain (ax m c) (aWq m c) (aWk m c) (aWv m c) (aWo m c) (abq m c) (abk m c) (abv m c) (abo m c) (aW1 m c) (ab1 m c) (aW2 m c) (ab2 m c)
    (ag1 m c) (abe1 m c) (ag2 m c) (abe2 m c) Cert.PreReal.scaleW_eq (o8 m c) (o8_q m c) (o8_k m c) (o8_v m c) (o10 m c) (o10_eq m c hreal)
    (o15 m c) (o15_eq m c) (o17 m c) (o17_eq m c) (o21 m c) (o21_eq m c)
  exact congrFun (congrFun hch (flat b s)) j

end Cert.KernelIdeal.Gen

end
-- ==== Proof.lean ====
/-
  The certificate's five claims. The kernel is a transformer block as five kernel launches (fused query/key/value projection,
  attention with a running softmax over key tiles, output projection + residual + layer normalisation, rectified feed-forward
  layer, second feed-forward layer accumulated over four steps + residual + layer normalisation); the reference is the same block
  in whole-array operations. On the extended reals, for finite inputs, both compute one function of the arguments: the running
  softmax telescopes to the softmax (a rescaling by exp of the difference of maxima), a quotient distributes over a finite sum of
  reals, sums over tiles are sums over the whole axis, and residual + (product + bias) = (residual + product) + bias.
  The frames are the runs with the result dropped; the kernel's idealisation rewrote nothing.
-/
import proofs.«105537_j20366734917908_2_alg».proof.Defs
import proofs.«105537_j20366734917908_2_alg».proof.Proof.Gen.Kernel
import proofs.«105537_j20366734917908_2_alg».proof.Proof.Gen.KernelIdeal
import proofs.«105537_j20366734917908_2_alg».proof.Proof.Gen.ReferenceIdeal
import proofs.«105537_j20366734917908_2_alg».proof.Proof.Gen.Pre_finite_inputs
import proofs.«105537_j20366734917908_2_alg».proof.Proof.K.Run
import proofs.«105537_j20366734917908_2_alg».proof.Proof.KI.Run
import proofs.«105537_j20366734917908_2_alg».proof.Proof.KI.Value
import proofs.«105537_j20366734917908_2_alg».proof.Proof.Ref.RefValue

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its arguments as launched. -/
theorem frame_k : Cert.frame_Kernel := fun m ρ _ => Cert.Kernel.Gen.frame (F := Bits) m ρ

/-- The idealised kernel runs and leaves its arguments as launched. -/
theorem frame_ki : Cert.frame_KernelIdeal := fun m ρ _ => Cert.KernelIdeal.Gen.frame (F := Ideal) m ρ

/-- The reference runs and leaves its arguments as launched. -/
theorem frame_ri : Cert.frame_ReferenceIdeal := Cert.ReferenceIdeal.RefRun.frame_ref

/-- Both idealised programs, from memories agreeing on the arguments, end with the same result: the reference's function of the
    kernel's argument arrays. -/
theorem algebraic : Cert.algebraic_KernelIdeal_ReferenceIdeal := by
  intro m ρ m' ρ' hpre hagree
  refine ⟨fun c => fun i => Cert.ReferenceIdeal.RefRun.specOut
      (Cert.KernelIdeal.Gen.ax m c) (Cert.KernelIdeal.Gen.aWq m c) (Cert.KernelIdeal.Gen.abq m c) (Cert.KernelIdeal.Gen.aWk m c)
      (Cert.KernelIdeal.Gen.abk m c) (Cert.KernelIdeal.Gen.aWv m c) (Cert.KernelIdeal.Gen.abv m c) (Cert.KernelIdeal.Gen.aWo m c)
      (Cert.KernelIdeal.Gen.abo m c) (Cert.KernelIdeal.Gen.aW1 m c) (Cert.KernelIdeal.Gen.ab1 m c) (Cert.KernelIdeal.Gen.aW2 m c)
      (Cert.KernelIdeal.Gen.ab2 m c) (Cert.KernelIdeal.Gen.ag1 m c) (Cert.KernelIdeal.Gen.abe1 m c) (Cert.KernelIdeal.Gen.ag2 m c)
      (Cert.KernelIdeal.Gen.abe2 m c) (Cert.ReferenceIdeal.RefRun.flat (i 0) (i 1)) (i 2), ?_, ?_⟩
  · refine (θ_run (Cert.KernelIdeal.defs (F := Ideal)) _ _).mono (fun r h c => ⟨(h c).1.trans ?_, (h c).2⟩)
      (Cert.KernelIdeal.Gen.run_named (F := Ideal) m ρ)
    obtain ⟨hx, hwq, hbq, hwk, hbk, hwv, hbv, -⟩ := Cert.PreReal.pre_real m hpre c
    exact Cert.KernelIdeal.Gen.kernel_value m c hx hwq hbq hwk hbk hwv hbv
  · refine (θ_run (Cert.ReferenceIdeal.defs (F := Ideal)) _ _).mono (fun r h c => ⟨(h c).1.trans ?_, (h c).2⟩)
      (Cert.ReferenceIdeal.RefRun.run (F := Ideal) m' ρ')
    rw [Cert.ReferenceIdeal.RefRun.ref_value]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
